-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S64 .f32) (main_arg10 : FVec F S64 .f32) (main_arg11 : FVec F S64 .f32) (main_arg12 : FVec F S64x1 .f32) (main_arg13 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg12
  let main_cst_18 : FVec F S_ .f32 := constant S_ .f32 0x7F800000#32
  let main_v50 : FVec F S64x1 .f32 := broadcastInDim S64x1 ![] bcast_S_S64x1 main_cst_18
  fn_part3 (F := F) main_arg13 main_v48 main_v49 main_v50

def fn_part1 {F : FTy → Type} [FloatOps F] (main_arg6 : FVec F S64x64 .f32) (main_arg7 : FVec F S64 .f32) (main_arg8 : FVec F S64 .f32) (main_arg9 : FVec F S64 .f32) (main_arg10 : FVec F S64 .f32) (main_arg11 : FVec F S64 .f32) (main_arg12 : FVec F S64x1 .f32) (main_arg13 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : IVec S2x3200000 32) (main_arg2 : FVec F S3200000 .f32) (main_arg3 : IVec S100000 32) (main_arg4 : FVec F S128x64 .f32) (main_arg5 : FVec F S64 .f32) (main_arg6 : FVec F S64x64 .f32) (main_arg7 : FVec F S64 .f32) (main_arg8 : FVec F S64 .f32) (main_arg9 : FVec F S64 .f32) (main_arg10 : FVec F S64 .f32) (main_arg11 : FVec F S64 .f32) (main_arg12 : FVec F S64x1 .f32) (main_arg13 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S2000x128 : Shape := ⟨2, ![2000, 128]⟩
abbrev S2000x64 : Shape := ⟨2, ![2000, 64]⟩
abbrev S3300000x64 : Shape := ⟨2, ![3300000, 64]⟩
abbrev S1x64 : Shape := ⟨2, ![1, 64]⟩
abbrev S100000x1 : Shape := ⟨2, ![100000, 1]⟩
abbrev S2000x1 : Shape := ⟨2, ![2000, 1]⟩
abbrev S1x1 : Shape := ⟨2, ![1, 1]⟩

abbrev nBuf : Space → Nat
  | .hbm => 156
  | .vmem => 43
  | .smem => 0
  | _ => 0

abbrev hbmTy0_0 (i : Nat) : BufTy := match i % 128 with
  | 0 => ⟨S100000x128, .f32⟩
  | 1 => ⟨S2x3200000, .i32⟩
  | 2 => ⟨S3200000, .f32⟩
  | 3 => ⟨S100000, .i32⟩
  | 4 => ⟨S128x64, .f32⟩
  | 5 => ⟨S64, .f32⟩
  | 6 => ⟨S64x64, .f32⟩
  | 7 => ⟨S64, .f32⟩
  | 8 => ⟨S64, .f32⟩
  | 9 => ⟨S64, .f32⟩
  | 10 => ⟨S64, .f32⟩
  | 11 => ⟨S64, .f32⟩
  | 12 => ⟨S64x1, .f32⟩
  | 13 => ⟨S1, .f32⟩
  | 14 => ⟨S100000, .i32⟩
  | 15 => ⟨S1x3200000, .i32⟩
  | 16 => ⟨S3200000, .i32⟩
  | 17 => ⟨S3300000, .i32⟩
  | 18 => ⟨S1x3200000, .i32⟩
  | 19 => ⟨S3200000, .i32⟩
  | 20 => ⟨S3300000, .i32⟩
  | 21 => ⟨S_, .f32⟩
  | 22 => ⟨S100000, .f32⟩
  | 23 => ⟨S3300000, .f32⟩
  | 24 => ⟨S_, .f32⟩
  | 25 => ⟨S100000, .f32⟩
  | 26 => ⟨S3300000x1, .i32⟩
  | 27 => ⟨S100000, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .i1⟩
  | 34 => ⟨S_, .f32⟩
  | 35 => ⟨S_, .f32⟩
  | 36 => ⟨S100000, .f32⟩
  | 37 => ⟨S100000, .f32⟩
  | 38 => ⟨S100000, .f32⟩
  | 39 => ⟨S_, .f32⟩
  | 40 => ⟨S_, .f32⟩
  | 41 => ⟨S100000, .f32⟩
  | 42 => ⟨S100000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S_, .i32⟩
  | 54 => ⟨S3300000, .i32⟩
  | 55 => ⟨S3300000, .i1⟩
  | 56 => ⟨S_, .i32⟩
  | 57 => ⟨S3300000, .i32⟩
  | 58 => ⟨S3300000, .i32⟩
  | 59 => ⟨S3300000, .i32⟩
  | 60 => ⟨S3300000x1, .i32⟩
  | 61 => ⟨S3300000, .f32⟩
  | 62 => ⟨S3300000, .f32⟩
  | 63 => ⟨S100000x64, .f32⟩
  | 64 => ⟨S_, .i32⟩
  | 65 => ⟨S3300000, .i32⟩
  | 66 => ⟨S3300000, .i1⟩
  | 67 => ⟨S_, .i32⟩
  | 68 => ⟨S3300000, .i32⟩
  | 69 => ⟨S3300000, .i32⟩
  | 70 => ⟨S3300000, .i32⟩
  | 71 => ⟨S3300000x1, .i32⟩
  | 72 => ⟨S3300000x64, .f32⟩
  | 73 => ⟨S3300000x1, .f32⟩
  | 74 => ⟨S3300000x64, .f32⟩
  | 75 => ⟨S3300000x64, .f32⟩
  | 76 => ⟨S_, .f32⟩
  | 77 => ⟨S100000x64, .f32⟩
  | 78 => ⟨S3300000x1, .i32⟩
  | 79 => ⟨S100000x64, .f32⟩
  | 80 => ⟨S1x64, .f32⟩
  | 81 => ⟨S100000x64, .f32⟩
  | 82 => ⟨S1x64, .f32⟩
  | 83 => ⟨S1x64, .f32⟩
  | 84 => ⟨S_, .f32⟩
  | 85 => ⟨S1x64, .f32⟩
  | 86 => ⟨S1x64, .f32⟩
  | 87 => ⟨S_, .f32⟩
  | 88 => ⟨S1x64, .f32⟩
  | 89 => ⟨S1x64, .f32⟩
  | 90 => ⟨S1x64, .f32⟩
  | 91 => ⟨S1x64, .f32⟩
  | 92 => ⟨S_, .f32⟩
  | 93 => ⟨S1x64, .f32⟩
  | 94 => ⟨S1x64, .f32⟩
  | 95 => ⟨S1x64, .f32⟩
  | 96 => ⟨S1x64, .f32⟩
  | 97 => ⟨S1x64, .f32⟩
  | 98 => ⟨S1x64, .f32⟩
  | 99 => ⟨S1x64, .f32⟩
  | 100 => ⟨S1x64, .f32⟩
  | 101 => ⟨S100000x64, .f32⟩
  | 102 => ⟨S100000x64, .f32⟩
  | 103 => ⟨S_, .i32⟩
  | 104 => ⟨S3300000, .i32⟩
  | 105 => ⟨S3300000, .i1⟩
  | 106 => ⟨S_, .i32⟩
  | 107 => ⟨S3300000, .i32⟩
  | 108 => ⟨S3300000, .i32⟩
  | 109 => ⟨S3300000, .i32⟩
  | 110 => ⟨S3300000x1, .i32⟩
  | 111 => ⟨S3300000x64, .f32⟩
  | 112 => ⟨S3300000x1, .f32⟩
  | 113 => ⟨S3300000x64, .f32⟩
  | 114 => ⟨S3300000x64, .f32⟩
  | 115 => ⟨S_, .f32⟩
  | 116 => ⟨S100000x64, .f32⟩
  | 117 => ⟨S3300000x1, .i32⟩
  | 118 => ⟨S100000x64, .f32⟩
  | 119 => ⟨S1x64, .f32⟩
  | 120 => ⟨S100000x64, .f32⟩
  | 121 => ⟨S1x64, .f32⟩
  | 122 => ⟨S1x64, .f32⟩
  | 123 => ⟨S_, .f32⟩
  | 124 => ⟨S1x64, .f32⟩
  | 125 => ⟨S1x64, .f32⟩
  | 126 => ⟨S_, .f32⟩
  | 127 => ⟨S1x64, .f32⟩
  | _ => ⟨S100000x128, .f32⟩

abbrev hbmTy0_1 (i : Nat) : BufTy := match i % 128 with
  | 0 => ⟨S1x64, .f32⟩
  | 1 => ⟨S1x64, .f32⟩
  | 2 => ⟨S1x64, .f32⟩
  | 3 => ⟨S_, .f32⟩
  | 4 => ⟨S1x64, .f32⟩
  | 5 => ⟨S1x64, .f32⟩
  | 6 => ⟨S1x64, .f32⟩
  | 7 => ⟨S1x64, .f32⟩
  | 8 => ⟨S1x64, .f32⟩
  | 9 => ⟨S1x64, .f32⟩
  | 10 => ⟨S1x64, .f32⟩
  | 11 => ⟨S1x64, .f32⟩
  | 12 => ⟨S100000x64, .f32⟩
  | 13 => ⟨S64, .i32⟩
  | 14 => ⟨S1x64, .i32⟩
  | 15 => ⟨S100000x1, .i32⟩
  | 16 => ⟨S64x64, .f32⟩
  | 17 => ⟨S1x64, .f32⟩
  | 18 => ⟨S64x1, .f32⟩
  | 19 => ⟨S_, .f32⟩
  | 20 => ⟨S64x1, .f32⟩
  | 21 => ⟨S64x1, .f32⟩
  | 22 => ⟨S64x64, .f32⟩
  | 23 => ⟨S64x64, .f32⟩
  | 24 => ⟨S64x1, .f32⟩
  | 25 => ⟨S1x1, .f32⟩
  | 26 => ⟨S64x1, .f32⟩
  | 27 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S1x64, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | .local _ .vmem, ⟨14, _⟩ => ⟨S1x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S64x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | .local _ .vmem, ⟨28, _⟩ => ⟨S1x64, .f32⟩
  | .local _ .vmem, ⟨29, _⟩ => ⟨S1x64, .f32⟩
  | .local _ .vmem, ⟨30, _⟩ => ⟨S2000x64, .f32⟩
  | .local _ .vmem, ⟨31, _⟩ => ⟨S2000x64, .f32⟩
  | .local _ .vmem, ⟨32, _⟩ => ⟨S1x64, .f32⟩
  | .local _ .vmem, ⟨33, _⟩ => ⟨S1x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S2000x1, .i32⟩
  | .local _ .vmem, ⟨39, _⟩ => ⟨S2000x1, .i32⟩
  | .local _ .vmem, ⟨40, _⟩ => ⟨S1x64, .i32⟩
  | .local _ .vmem, ⟨41, _⟩ => ⟨S64x64, .f32⟩
  | .local _ .vmem, ⟨42, _⟩ => ⟨S1x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_v17 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_v18 : Ref sig .tc := ⟨.hbm, 42, rfl⟩
abbrev main_c : Ref sig .tc := ⟨.hbm, 43, rfl⟩
abbrev main_v19 : Ref sig .tc := ⟨.hbm, 44, rfl⟩
abbrev main_v20 : Ref sig .tc := ⟨.hbm, 45, rfl⟩
abbrev main_c_5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_6 : Ref sig .tc := ⟨.hbm, 53, rfl⟩
abbrev main_v27 : Ref sig .tc := ⟨.hbm, 54, rfl⟩
abbrev main_v28 : Ref sig .tc := ⟨.hbm, 55, rfl⟩
abbrev main_c_7 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_8 : Ref sig .tc := ⟨.hbm, 64, rfl⟩
abbrev main_v36 : Ref sig .tc := ⟨.hbm, 65, rfl⟩
abbrev main_v37 : Ref sig .tc := ⟨.hbm, 66, rfl⟩
abbrev main_c_9 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50_0 : Ref sig .tc := ⟨.hbm, 81, rfl⟩
abbrev main_v50_1 : Ref sig .tc := ⟨.hbm, 82, rfl⟩
abbrev main_v50_2 : Ref sig .tc := ⟨.hbm, 83, rfl⟩
abbrev main_cst_11 : Ref sig .tc := ⟨.hbm, 84, rfl⟩
abbrev main_v51 : Ref sig .tc := ⟨.hbm, 85, rfl⟩
abbrev main_v52 : Ref sig .tc := ⟨.hbm, 86, rfl⟩
abbrev main_cst_12 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_13 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_14 : Ref sig .tc := ⟨.hbm, 103, rfl⟩
abbrev main_v67 : Ref sig .tc := ⟨.hbm, 104, rfl⟩
abbrev main_v68 : Ref sig .tc := ⟨.hbm, 105, rfl⟩
abbrev main_c_15 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_16 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81_0 : Ref sig .tc := ⟨.hbm, 120, rfl⟩
abbrev main_v81_1 : Ref sig .tc := ⟨.hbm, 121, rfl⟩
abbrev main_v81_2 : Ref sig .tc := ⟨.hbm, 122, rfl⟩
abbrev main_cst_17 : Ref sig .tc := ⟨.hbm, 123, rfl⟩
abbrev main_v82 : Ref sig .tc := ⟨.hbm, 124, rfl⟩
abbrev main_v83 : Ref sig .tc := ⟨.hbm, 125, rfl⟩
abbrev main_cst_18 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_19 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100_0 : Ref sig .tc := ⟨.hbm, 144, rfl⟩
abbrev main_v100_1 : Ref sig .tc := ⟨.hbm, 145, rfl⟩
abbrev main_v101 : Ref sig .tc := ⟨.hbm, 146, rfl⟩
abbrev main_cst_20 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc4_stg3_0 : Ref sig .tc := ⟨.vmem, 28, rfl⟩
abbrev cc4_stg4_0 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg3_0 : Ref sig .tc := ⟨.vmem, 41, rfl⟩
abbrev cc6_stg4_0 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc4_sem3_0 : DmaSem sig := 28
abbrev cc4_sem4_0 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem3_0 : DmaSem sig := 41
abbrev cc6_sem4_0 : DmaSem sig := 42

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x64 .i32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S2000x128_S2000x128_0_0 : ∀ a, (![0, 0] : Fin 2 → Nat) a + S2000x128.size a ≤ S2000x128.size a
  h_S2000x128 : 0 < S2000x128.numel
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S64 : S2000x64.Reduces [0] S64
  bcast_S_S1x64 : S_.BroadcastsInDim S1x64 (![] : Fin 0 → Fin S1x64.rank)
  inb_S64x64_S64x64_0_0 : ∀ a, (![0, 0] : Fin 2 → Nat) a + S64x64.size a ≤ S64x64.size a
  h_S64x64 : 0 < S64x64.numel
  shapeCasts_S100000_S100000x1 : S100000.ShapeCasts S100000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  natLt_1_32 : 1 < 32
  shapeCasts_S64x64_S64x64 : S64x64.ShapeCasts S64x64
  shapeCasts_S1x64_S64x1 : S1x64.ShapeCasts S64x1
  bcast_S_S64x1 : S_.BroadcastsInDim S64x1 (![] : Fin 0 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x128_S128x64_S2000x64_1_0_0_1_n_n_wf : DotDims.WF S2000x128 S128x64 S2000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S2000x64_S64x64_S2000x64_1_0_0_1_n_n_wf : DotDims.WF S2000x64 S64x64 S2000x64 [1] [0] [0] [1] [] []
  dot_S2000x64_S2000x64_S64x64_0_0_1_1_n_n_wf : DotDims.WF S2000x64 S2000x64 S64x64 [0] [0] [1] [1] [] []
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S100000x64.size a
  hwx4_2 : ∀ i : grid4.Coords, EltTy.bits .f32 = 32 ∨ (Rect.block (s := S100000x64) S2000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S100000x64.size a
  hwx5_3 : ∀ i : grid5.Coords, EltTy.bits .f32 = 32 ∨ (Rect.block (s := S100000x64) S2000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S100000x64.size a
  hwx6_0 : ∀ i : grid6.Coords, EltTy.bits .f32 = 32 ∨ (Rect.block (s := S100000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S100000x1.size a
  hwx6_1 : ∀ i : grid6.Coords, EltTy.bits .i32 = 32 ∨ (Rect.block (s := S100000x1) S2000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .i32 = 32 ∨ (Rect.block (s := S1x64) S1x64.size (cc6_transform_2 i) (hinb6_2 i)).WholeWords (EltTy.packing .i32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S2000x64_S64x64_0_0_1_1_n_n : DotDims S2000x64 S2000x64 S64x64 where
  lhsContracting := [0]
  rhsContracting := [0]
  lhsNonContracting := [1]
  rhsNonContracting := [1]
  lhsBatch := []
  rhsBatch := []
  wf := dot_S2000x64_S2000x64_S64x64_0_0_1_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50_0) S2000x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50_1) S1x64.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50_2) S1x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v50_0) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v65) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v79) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v81_0) S2000x64.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v81_1) S1x64.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v81_2) S1x64.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v81_0) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v92) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v95) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v96) S2000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v96) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v99) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v98) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v100_0) S64x64.size cc6_transform_3 reads6_3 true true 1 stage6_3 sem6_3
    hrank6 hreads6_3 hinb6_3 nbuf6_3 (Memref.isWhole_whole _) hwx6_3 hstage6_3

abbrev win6_4 : Pipeline.Window sig grid6 :=
  Pipeline.Window.ofSpec (Memref.whole main_v100_1) S1x64.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 189
  | .vmem => 0
  | .smem => 0
  | _ => 0

abbrev hbmTy0_0 (i : Nat) : BufTy := match i % 128 with
  | 0 => ⟨S100000x128, .f32⟩
  | 1 => ⟨S2x3200000, .i32⟩
  | 2 => ⟨S3200000, .f32⟩
  | 3 => ⟨S100000, .i32⟩
  | 4 => ⟨S128x64, .f32⟩
  | 5 => ⟨S64, .f32⟩
  | 6 => ⟨S64x64, .f32⟩
  | 7 => ⟨S64, .f32⟩
  | 8 => ⟨S64, .f32⟩
  | 9 => ⟨S64, .f32⟩
  | 10 => ⟨S64, .f32⟩
  | 11 => ⟨S64, .f32⟩
  | 12 => ⟨S64x1, .f32⟩
  | 13 => ⟨S1, .f32⟩
  | 14 => ⟨S100000, .i32⟩
  | 15 => ⟨S1x3200000, .i32⟩
  | 16 => ⟨S3200000, .i32⟩
  | 17 => ⟨S3300000, .i32⟩
  | 18 => ⟨S1x3200000, .i32⟩
  | 19 => ⟨S3200000, .i32⟩
  | 20 => ⟨S3300000, .i32⟩
  | 21 => ⟨S_, .f32⟩
  | 22 => ⟨S100000, .f32⟩
  | 23 => ⟨S3300000, .f32⟩
  | 24 => ⟨S_, .f32⟩
  | 25 => ⟨S100000, .f32⟩
  | 26 => ⟨S3300000x1, .i32⟩
  | 27 => ⟨S100000, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .i1⟩
  | 34 => ⟨S_, .f32⟩
  | 35 => ⟨S_, .f32⟩
  | 36 => ⟨S100000, .f32⟩
  | 37 => ⟨S100000, .f32⟩
  | 38 => ⟨S100000, .f32⟩
  | 39 => ⟨S_, .f32⟩
  | 40 => ⟨S_, .f32⟩
  | 41 => ⟨S100000, .f32⟩
  | 42 => ⟨S100000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S_, .i32⟩
  | 54 => ⟨S3300000, .i32⟩
  | 55 => ⟨S3300000, .i1⟩
  | 56 => ⟨S_, .i32⟩
  | 57 => ⟨S3300000, .i32⟩
  | 58 => ⟨S3300000, .i32⟩
  | 59 => ⟨S3300000, .i32⟩
  | 60 => ⟨S3300000x1, .i32⟩
  | 61 => ⟨S3300000, .f32⟩
  | 62 => ⟨S3300000, .f32⟩
  | 63 => ⟨S100000x64, .f32⟩
  | 64 => ⟨S_, .i32⟩
  | 65 => ⟨S3300000, .i32⟩
  | 66 => ⟨S3300000, .i1⟩
  | 67 => ⟨S_, .i32⟩
  | 68 => ⟨S3300000, .i32⟩
  | 69 => ⟨S3300000, .i32⟩
  | 70 => ⟨S3300000, .i32⟩
  | 71 => ⟨S3300000x1, .i32⟩
  | 72 => ⟨S3300000x64, .f32⟩
  | 73 => ⟨S3300000x1, .f32⟩
  | 74 => ⟨S3300000x64, .f32⟩
  | 75 => ⟨S3300000x64, .f32⟩
  | 76 => ⟨S_, .f32⟩
  | 77 => ⟨S100000x64, .f32⟩
  | 78 => ⟨S3300000x1, .i32⟩
  | 79 => ⟨S100000x64, .f32⟩
  | 80 => ⟨S1x64, .f32⟩
  | 81 => ⟨S100000x64, .f32⟩
  | 82 => ⟨S100000x64, .f32⟩
  | 83 => ⟨S_, .f32⟩
  | 84 => ⟨S64, .f32⟩
  | 85 => ⟨S_, .f32⟩
  | 86 => ⟨S64, .f32⟩
  | 87 => ⟨S64, .f32⟩
  | 88 => ⟨S1x64, .f32⟩
  | 89 => ⟨S100000x64, .f32⟩
  | 90 => ⟨S100000x64, .f32⟩
  | 91 => ⟨S100000x64, .f32⟩
  | 92 => ⟨S_, .f32⟩
  | 93 => ⟨S64, .f32⟩
  | 94 => ⟨S_, .f32⟩
  | 95 => ⟨S64, .f32⟩
  | 96 => ⟨S64, .f32⟩
  | 97 => ⟨S1x64, .f32⟩
  | 98 => ⟨S100000x64, .f32⟩
  | 99 => ⟨S100000x64, .f32⟩
  | 100 => ⟨S1x64, .f32⟩
  | 101 => ⟨S100000x64, .f32⟩
  | 102 => ⟨S100000x64, .f32⟩
  | 103 => ⟨S_, .f32⟩
  | 104 => ⟨S64, .f32⟩
  | 105 => ⟨S64, .f32⟩
  | 106 => ⟨S64, .f32⟩
  | 107 => ⟨S1x64, .f32⟩
  | 108 => ⟨S100000x64, .f32⟩
  | 109 => ⟨S100000x64, .f32⟩
  | 110 => ⟨S1x64, .f32⟩
  | 111 => ⟨S100000x64, .f32⟩
  | 112 => ⟨S100000x64, .f32⟩
  | 113 => ⟨S_, .f32⟩
  | 114 => ⟨S100000x64, .f32⟩
  | 115 => ⟨S100000x64, .f32⟩
  | 116 => ⟨S100000x64, .f32⟩
  | 117 => ⟨S_, .i32⟩
  | 118 => ⟨S3300000, .i32⟩
  | 119 => ⟨S3300000, .i1⟩
  | 120 => ⟨S_, .i32⟩
  | 121 => ⟨S3300000, .i32⟩
  | 122 => ⟨S3300000, .i32⟩
  | 123 => ⟨S3300000, .i32⟩
  | 124 => ⟨S3300000x1, .i32⟩
  | 125 => ⟨S3300000x64, .f32⟩
  | 126 => ⟨S3300000x1, .f32⟩
  | 127 => ⟨S3300000x64, .f32⟩
  | _ => ⟨S100000x128, .f32⟩

abbrev hbmTy0_1 (i : Nat) : BufTy := match i % 128 with
  | 0 => ⟨S3300000x64, .f32⟩
  | 1 => ⟨S_, .f32⟩
  | 2 => ⟨S100000x64, .f32⟩
  | 3 => ⟨S3300000x1, .i32⟩
  | 4 => ⟨S100000x64, .f32⟩
  | 5 => ⟨S1x64, .f32⟩
  | 6 => ⟨S100000x64, .f32⟩
  | 7 => ⟨S100000x64, .f32⟩
  | 8 => ⟨S_, .f32⟩
  | 9 => ⟨S64, .f32⟩
  | 10 => ⟨S_, .f32⟩
  | 11 => ⟨S64, .f32⟩
  | 12 => ⟨S64, .f32⟩
  | 13 => ⟨S1x64, .f32⟩
  | 14 => ⟨S100000x64, .f32⟩
  | 15 => ⟨S100000x64, .f32⟩
  | 16 => ⟨S100000x64, .f32⟩
  | 17 => ⟨S_, .f32⟩
  | 18 => ⟨S64, .f32⟩
  | 19 => ⟨S_, .f32⟩
  | 20 => ⟨S64, .f32⟩
  | 21 => ⟨S64, .f32⟩
  | 22 => ⟨S1x64, .f32⟩
  | 23 => ⟨S100000x64, .f32⟩
  | 24 => ⟨S100000x64, .f32⟩
  | 25 => ⟨S1x64, .f32⟩
  | 26 => ⟨S100000x64, .f32⟩
  | 27 => ⟨S100000x64, .f32⟩
  | 28 => ⟨S_, .f32⟩
  | 29 => ⟨S64, .f32⟩
  | 30 => ⟨S64, .f32⟩
  | 31 => ⟨S64, .f32⟩
  | 32 => ⟨S1x64, .f32⟩
  | 33 => ⟨S100000x64, .f32⟩
  | 34 => ⟨S100000x64, .f32⟩
  | 35 => ⟨S1x64, .f32⟩
  | 36 => ⟨S100000x64, .f32⟩
  | 37 => ⟨S100000x64, .f32⟩
  | 38 => ⟨S_, .f32⟩
  | 39 => ⟨S100000x64, .f32⟩
  | 40 => ⟨S100000x64, .f32⟩
  | 41 => ⟨S_, .f32⟩
  | 42 => ⟨S64x64, .f32⟩
  | 43 => ⟨S100000x1, .i32⟩
  | 44 => ⟨S64x64, .f32⟩
  | 45 => ⟨S_, .f32⟩
  | 46 => ⟨S100000, .f32⟩
  | 47 => ⟨S_, .f32⟩
  | 48 => ⟨S64, .f32⟩
  | 49 => ⟨S100000x1, .i32⟩
  | 50 => ⟨S64, .f32⟩
  | 51 => ⟨S_, .f32⟩
  | 52 => ⟨S64, .f32⟩
  | 53 => ⟨S64, .f32⟩
  | 54 => ⟨S64x1, .f32⟩
  | 55 => ⟨S64x64, .f32⟩
  | 56 => ⟨S64x64, .f32⟩
  | 57 => ⟨S64x1, .f32⟩
  | 58 => ⟨S1x1, .f32⟩
  | 59 => ⟨S64x1, .f32⟩
  | 60 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_v17 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_v18 : Ref sig .tc := ⟨.hbm, 42, rfl⟩
abbrev main_c : Ref sig .tc := ⟨.hbm, 43, rfl⟩
abbrev main_v19 : Ref sig .tc := ⟨.hbm, 44, rfl⟩
abbrev main_v20 : Ref sig .tc := ⟨.hbm, 45, rfl⟩
abbrev main_c_5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_6 : Ref sig .tc := ⟨.hbm, 53, rfl⟩
abbrev main_v27 : Ref sig .tc := ⟨.hbm, 54, rfl⟩
abbrev main_v28 : Ref sig .tc := ⟨.hbm, 55, rfl⟩
abbrev main_c_7 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_8 : Ref sig .tc := ⟨.hbm, 64, rfl⟩
abbrev main_v36 : Ref sig .tc := ⟨.hbm, 65, rfl⟩
abbrev main_v37 : Ref sig .tc := ⟨.hbm, 66, rfl⟩
abbrev main_c_9 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_11 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_13 : Ref sig .tc := ⟨.hbm, 92, rfl⟩
abbrev main_v59 : Ref sig .tc := ⟨.hbm, 93, rfl⟩
abbrev main_cst_14 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_call2_cst : Ref sig .tc := ⟨.hbm, 113, rfl⟩
abbrev main_call2_v0 : Ref sig .tc := ⟨.hbm, 114, rfl⟩
abbrev main_v77 : Ref sig .tc := ⟨.hbm, 115, rfl⟩
abbrev main_v78 : Ref sig .tc := ⟨.hbm, 116, rfl⟩
abbrev main_c_16 : Ref sig .tc := ⟨.hbm, 117, rfl⟩
abbrev main_v79 : Ref sig .tc := ⟨.hbm, 118, rfl⟩
abbrev main_v80 : Ref sig .tc := ⟨.hbm, 119, rfl⟩
abbrev main_c_17 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_18 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_19 : Ref sig .tc := ⟨.hbm, 136, rfl⟩
abbrev main_v95 : Ref sig .tc := ⟨.hbm, 137, rfl⟩
abbrev main_cst_20 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_21 : Ref sig .tc := ⟨.hbm, 145, rfl⟩
abbrev main_v102 : Ref sig .tc := ⟨.hbm, 146, rfl⟩
abbrev main_cst_22 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_23 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_call3_cst : Ref sig .tc := ⟨.hbm, 166, rfl⟩
abbrev main_call3_v0 : Ref sig .tc := ⟨.hbm, 167, rfl⟩
abbrev main_v120 : Ref sig .tc := ⟨.hbm, 168, rfl⟩
abbrev main_cst_24 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_25 : Ref sig .tc := ⟨.hbm, 173, rfl⟩
abbrev main_v124 : Ref sig .tc := ⟨.hbm, 174, rfl⟩
abbrev main_cst_26 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_27 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x1_S64x1_1_0_0_1_n_n_wf : DotDims.WF S64x64 S64x1 S64x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.RunValue.lean ====
/-
  The idealized kernel's run with its RESULT named: from any memory with zero counters every weakly fair execution of
  @main terminates, nothing faulting, with the result array main_v109 at the last boundary's contents — the fold of the
  host stretches and of the seven regions' write-backs from the launch memory — and the argument arrays as launched.
  The run is cut into eighteen segments, each taking the thread state its predecessor leaves; the postcondition reads,
  off the last thread state, the result buffer beside the argument buffers.
-/
import proofs.«113360_j59854664237267_1_alg».proof.Proof.Gen.KernelIdeal.Frame

set_option maxRecDepth 16384

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its eighteen segments, the result buffer read off the last thread state beside the arguments. -/
theorem run_value : θ_run defs (onTc (τ := τ) (main (F := F))) ⟨m, fun _ => 0, ρ⟩ (fun r => ∀ c : Dev nD,
      r.2.mem ((c.tc : Thread nD τ).loc main_v109) = W18 m ρ c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v109 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c)⟩)

end Cert.KernelIdeal.KV

end
-- ==== Proof.PreReal.lean ====
/-
  The precondition read back: the predicate is the conjunction, over the twelve float arguments, of
  "every entry x has |x| < +inf"; when its one word is 1, every entry of every float argument is a real number.
-/
import proofs.«113360_j59854664237267_1_alg».proof.Pre_finite_inputs
import proofs.«113360_j59854664237267_1_alg».proof.Proof.Gen.Pre_finite_inputs
import Idealize.ShloMosaic.PureOps.Ideal
import Idealize.ShloMosaic.Lib.ReduceAll
import Idealize.ShloMosaic.Lib.ValueIdx

noncomputable section

namespace Cert.PreReal

open Cert.Pre_finite_inputs Idealize.ShloMosaic

/-- The rank-0 shape has one index. -/
instance : Subsingleton S_.Idx := ⟨fun a b => funext fun d => d.elim0⟩

/-- The word 0x7F800000 denotes +inf. -/
theorem ofBits_inf : Ideal.ofBits .f32 0x7F800000#32 = (⊤ : EReal) := by
  simp [Ideal.ofBits, Ideal.ieee]

/-- An extended real whose absolute value max(x, -x) is below +inf is a real number. -/
theorem real_of_abs_lt_top (x : EReal) (h : Ideal.cmp .olt (max x (-x)) (⊤ : EReal) = 1#1) : ∃ r : ℝ, x = (r : EReal) := by
  induction x using EReal.rec with
  | bot => exfalso; revert h; simp [Ideal.cmp]
  | coe r => exact ⟨r, rfl⟩
  | top => exfalso; revert h; simp [Ideal.cmp]

/-- The reduction by "and" of the entrywise test |a| < +inf is 1 only if every entry of a is real. -/
theorem real_of_reduce {s : Shape} {axes : List (Fin s.rank)} (a : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf a) (broadcastInDim s ![] hb (constant (F := Ideal) S_ .f32 0x7F800000#32)))
          (constantI S_ 1 1#1) hr hu j = 1#1) :
    ∀ i, ∃ r : ℝ, a i = (r : EReal) := by
  intro i
  have hi := Host.reduce_andi_all _ _ hr hu j e i
  have hi' : Ideal.cmp .olt (max (a i) (-(a i))) (Ideal.ofBits .f32 0x7F800000#32) = 1#1 := hi
  rw [ofBits_inf] at hi'
  exact real_of_abs_lt_top (a i) hi'

/-- The vector "and" of two one-word arrays is 1 at an index exactly when both are. -/
theorem andi_apply_eq_one {s : Shape} (x y : IVec s 1) (j : s.Idx) : andi x y j = 1#1 ↔ x j = 1#1 ∧ y j = 1#1 :=
  IntOp.andi_eq_one

/-- THE PRECONDITION DECODED: the predicate all ones says every entry of every float argument is a real number. -/
theorem real_of_pre [Cert.Pre_finite_inputs.Facts]
    (a0 : FVec Ideal S100000x128 .f32) (a1 : IVec S2x3200000 32) (a2 : FVec Ideal S3200000 .f32) (a3 : IVec S100000 32)
    (a4 : FVec Ideal S128x64 .f32) (a5 : FVec Ideal S64 .f32) (a6 : FVec Ideal S64x64 .f32)
    (a7 a8 a9 a10 a11 : FVec Ideal S64 .f32) (a12 : FVec Ideal S64x1 .f32) (a13 : FVec Ideal S1 .f32)
    (h : fn (F := Ideal) a0 a1 a2 a3 a4 a5 a6 a7 a8 a9 a10 a11 a12 a13 = (fun _ => 1#1)) :
    (∀ i, ∃ r : ℝ, a0 i = (r : EReal)) ∧ (∀ i, ∃ r : ℝ, a2 i = (r : EReal)) ∧ (∀ i, ∃ r : ℝ, a4 i = (r : EReal))
    ∧ (∀ i, ∃ r : ℝ, a5 i = (r : EReal)) ∧ (∀ i, ∃ r : ℝ, a6 i = (r : EReal)) ∧ (∀ i, ∃ r : ℝ, a7 i = (r : EReal))
    ∧ (∀ i, ∃ r : ℝ, a8 i = (r : EReal)) ∧ (∀ i, ∃ r : ℝ, a9 i = (r : EReal)) ∧ (∀ i, ∃ r : ℝ, a10 i = (r : EReal))
    ∧ (∀ i, ∃ r : ℝ, a11 i = (r : EReal)) ∧ (∀ i, ∃ r : ℝ, a12 i = (r : EReal)) ∧ (∀ i, ∃ r : ℝ, a13 i = (r : EReal)) := by
  have h0 := congrFun h ValueIdx.ix0
  dsimp only [fn, fn_part1, fn_part2, fn_part3] at h0
  simp only [andi_apply_eq_one] at h0
  obtain ⟨⟨⟨⟨⟨⟨⟨⟨⟨⟨⟨e0, e2⟩, e4⟩, e5⟩, e6⟩, e7⟩, e8⟩, e9⟩, e10⟩, e11⟩, e12⟩, e13⟩ := h0
  exact ⟨real_of_reduce a0 _ _ _ _ e0, real_of_reduce a2 _ _ _ _ e2, real_of_reduce a4 _ _ _ _ e4,
    real_of_reduce a5 _ _ _ _ e5, real_of_reduce a6 _ _ _ _ e6, real_of_reduce a7 _ _ _ _ e7,
    real_of_reduce a8 _ _ _ _ e8, real_of_reduce a9 _ _ _ _ e9, real_of_reduce a10 _ _ _ _ e10,
    real_of_reduce a11 _ _ _ _ e11, real_of_reduce a12 _ _ _ _ e12, real_of_reduce a13 _ _ _ _ e13⟩

end Cert.PreReal

end
-- ==== Proof.LibFinite.lean ====
import Idealize.ShloMosaic.PureOps.Ideal
import Idealize.ShloMosaic.PureOps.Ideal.Laws
import Idealize.ShloMosaic.Lib.ValueIdx

/-!
  Extended reals that are real numbers, and the operations that keep them so.

  The ideal float values are extended reals. An entry that is the coercion of a real number (neither infinity) stays one
  under sums, products, maxima, finite sums, real powers, gathers, accumulating scatters and selections; and over such
  entries a dot product may be scaled inside the sum.
-/

noncomputable section

namespace Idealize.ShloMosaic.LibFinite

open Idealize.ShloMosaic Idealize.ShloMosaic.ValueIdx
open scoped BigOperators

/-- An extended real that is a real number: the coercion of some `r : ℝ`, so neither infinity. -/
def IsReal (x : EReal) : Prop := ∃ r : ℝ, x = (r : EReal)

/-- Zero is a real number. -/
theorem IsReal.zero : IsReal (0 : EReal) := ⟨0, rfl⟩

/-- The coercion of a real number is one. -/
theorem IsReal.coe (r : ℝ) : IsReal (r : EReal) := ⟨r, rfl⟩

/-- The sum of two real numbers is real. -/
theorem IsReal.add (a b : EReal) : IsReal a → IsReal b → IsReal (a + b) := by
  rintro ⟨x, rfl⟩ ⟨y, rfl⟩; exact ⟨x + y, (EReal.coe_add x y).symm⟩

/-- The product of two real numbers is real. -/
theorem IsReal.mul (a b : EReal) : IsReal a → IsReal b → IsReal (a * b) := by
  rintro ⟨x, rfl⟩ ⟨y, rfl⟩; exact ⟨x * y, (EReal.coe_mul x y).symm⟩

/-- The larger of two real numbers is real. -/
theorem IsReal.max (a b : EReal) : IsReal a → IsReal b → IsReal (Max.max a b) := by
  intro ha hb
  rcases le_total a b with h | h
  · rw [max_eq_right h]; exact hb
  · rw [max_eq_left h]; exact ha

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact IsReal.add _ _ (h a (Finset.mem_insert_self a s)) (ih fun i hi => h i (Finset.mem_insert_of_mem hi))

/-- A binary pattern whose exponent field is not all ones denotes a real number (a zero, a subnormal or a normal). -/
theorem isReal_ieee_of_exponent_ne (e m : ℕ) {w : ℕ} (b : BitVec w) (h : (b.extractLsb' m e).toNat ≠ 2 ^ e - 1) :
    IsReal (Ideal.ieee e m b) := by
  unfold Ideal.ieee
  dsimp only
  rw [if_neg h]
  split <;> exact ⟨_, rfl⟩

/-- The single-precision word of all zero bits denotes a real number (zero). -/
theorem isReal_ofBits_zero : IsReal (Ideal.ofBits .f32 0x00000000#32) := by
  rw [Ideal.ofBits_zero_f32]; exact IsReal.zero

/-- The single-precision word `0x3F800000` (one) denotes a real number. -/
theorem isReal_ofBits_one : IsReal (Ideal.ofBits .f32 0x3F800000#32) := by
  show IsReal (Ideal.ieee 8 23 (0x3F800000#32 : BitVec 32))
  exact isReal_ieee_of_exponent_ne 8 23 (0x3F800000#32 : BitVec 32) (by decide)

/-- The single-precision word `0xBF000000` (minus one half) denotes a real number. -/
theorem isReal_ofBits_neg_half : IsReal (Ideal.ofBits .f32 0xBF000000#32) := by
  show IsReal (Ideal.ieee 8 23 (0xBF000000#32 : BitVec 32))
  exact isReal_ieee_of_exponent_ne 8 23 (0xBF000000#32 : BitVec 32) (by decide)

/-- The power of a real base to a real exponent is real (the real power function). -/
theorem isReal_pow (x y : EReal) : IsReal x → IsReal y → IsReal (Ideal.pow x y) := by
  rintro ⟨a, rfl⟩ ⟨b, rfl⟩; exact ⟨Real.rpow a b, rfl⟩

/-- An accumulating scatter of real updates into a real array is real at every entry: the entry plus a finite sum of
    the updates that land on it. -/
theorem isReal_scatterAdd {s si su : Shape} (d : ScatterDims s si su) {w : Nat} (x : s.Idx → EReal) (idx : IVec si w)
    (u : su.Idx → EReal) (hx : ∀ i, IsReal (x i)) (hu : ∀ j, IsReal (u j)) (i : s.Idx) :
    IsReal (Host.scatterAdd (F := Ideal) (φ := .f32) d x idx u i) := by
  show IsReal (x i + ∑ j ∈ Finset.univ.filter (fun j => d.resultIdx? j idx = some i), u j)
  exact IsReal.add _ _ (hx i) (IsReal.sum _ _ fun j _ => hu j)

/-- A gather of a real array is real at every entry: each entry of the result is an entry of the operand. -/
theorem isReal_gather {s si t : Shape} {w : Nat} (d : GatherDims s si t) (x : s.Idx → EReal) (idx : IVec si w)
    (hx : ∀ i, IsReal (x i)) (j : t.Idx) : IsReal (Host.gather d x idx j) := hx _

/-- A selection between two real entries is real. -/
theorem isReal_select {s : Shape} (c : IVec s 1) (a b : s.Idx → EReal) (i : s.Idx) :
    IsReal (a i) → IsReal (b i) → IsReal (select c a b i) := by
  intro ha hb
  rw [select_apply]
  unfold Scalar.select
  split <;> assumption

/-- Over real entries a dot product scaled by a real number is the dot product of the scaled first factor:
    (∑ₖ aₖ·bₖ)·c = ∑ₖ (aₖ·c)·bₖ. -/
theorem dot_scale {K : ℕ} (a b : Fin K → EReal) (c : EReal) (ha : ∀ k, IsReal (a k)) (hb : ∀ k, IsReal (b k))
    (hc : IsReal c) : (∑ k, a k * b k) * c = ∑ k, (a k * c) * b k := by
  choose a' ha' using ha
  choose b' hb' using hb
  obtain ⟨c', rfl⟩ := hc
  have e1 : ∀ k, a k * b k = ((a' k * b' k : ℝ) : EReal) := fun k => by rw [ha' k, hb' k, EReal.coe_mul]
  have e2 : ∀ k, (a k * (c' : EReal)) * b k = ((a' k * c' * b' k : ℝ) : EReal) := fun k => by
    rw [ha' k, hb' k, EReal.coe_mul, EReal.coe_mul]
  simp only [e1, e2]
  rw [← coe_sum, ← coe_sum, ← EReal.coe_mul, Finset.sum_mul]
  congr 1
  exact Finset.sum_congr rfl fun k _ => by ring

/-- A dot product of real entries is real. -/
theorem isReal_dot {K : ℕ} (a b : Fin K → EReal) : (∀ k, IsReal (a k)) → (∀ k, IsReal (b k)) →
    IsReal (∑ k, a k * b k) :=
  fun ha hb => IsReal.sum _ _ fun k _ => IsReal.mul _ _ (ha k) (hb k)

end Idealize.ShloMosaic.LibFinite

end
-- ==== Proof.RefFinite.lean ====
import proofs.«113360_j59854664237267_1_alg».proof.Proof.Gen.ReferenceIdeal.Read
import proofs.«113360_j59854664237267_1_alg».proof.Proof.LibFinite
import Idealize.ShloMosaic.Lib.ValueIdx

/-!
  Every entry of the reference's arrays before each batch normalisation is a real number when the float inputs are.

  The degree is a finite sum of real edge weights and ones, so it is real. The inverse square root is only kept where
  the degree is positive, where it is the reciprocal of a positive real square root; elsewhere the entry is zero. So the
  edge normalisation (a product of two such entries and an edge weight) is real, and each layer — a dot product, a row
  gather, a scaling by the edge normalisation, an accumulating row scatter into zeros and an added bias — keeps real
  entries real.
-/

noncomputable section

namespace Cert.RefFinite

open Cert.ReferenceIdeal Cert.ReferenceIdeal.Read Cert.ReferenceIdeal.Gen Idealize.ShloMosaic Idealize.ShloMosaic.LibFinite
open scoped BigOperators

/-- Every entry of a concatenation is an entry of one of its pieces: what holds of all entries of all pieces holds of all
    entries of the concatenation. -/
theorem concatenate_all {α : Type} (P : α → Prop) {t : Shape} (a : Fin t.rank) (xs : List ((s : Shape) × (s.Idx → α)))
    (h : Shape.Concatenates (xs.map (·.1)) t a) (hP : ∀ p ∈ xs, ∀ i, P (p.2 i)) (j : t.Idx) :
    P (concatenate t a xs h j) := by
  unfold concatenate
  exact hP _ (List.getElem_mem _) _

/-- Where the degree `d` is positive the kept entry is the reciprocal square root of `d` itself, a real number; elsewhere
    it is the real fill value. The reciprocal square root of the guarded degree is never read where `d` is not positive. -/
theorem isReal_guarded_rsqrt (d z z' one fill : EReal) (hz : z = 0) (hz' : z' = 0) (hd : IsReal d) (hfill : IsReal fill) :
    IsReal (Scalar.select (Ideal.cmp .ogt d z) (Ideal.rsqrt (Scalar.select (Ideal.cmp .ogt d z') d one)) fill) := by
  subst hz hz'
  obtain ⟨r, rfl⟩ := hd
  by_cases h : (0 : EReal) < (r : EReal)
  · have hc : Ideal.cmp .ogt (r : EReal) 0 = 1 := by
      unfold Ideal.cmp
      simp only [h, decide_true]
      rfl
    rw [hc]
    have hr : (0 : ℝ) < r := EReal.coe_pos.1 h
    simp only [Scalar.select, if_true]
    rw [Ideal.rsqrt_coe, if_neg (not_lt.2 hr.le), if_neg hr.ne']
    exact ⟨_, rfl⟩
  · have hc : Ideal.cmp .ogt (r : EReal) 0 = 0 := by
      unfold Ideal.cmp
      simp only [h, decide_false]
      rfl
    rw [hc]
    exact hfill

variable (x0 : (⟨S100000x128, .f32⟩ : BufTy).Contents (Elt Ideal)) (x1 : (⟨S2x3200000, .i32⟩ : BufTy).Contents (Elt Ideal))
  (x2 : (⟨S3200000, .f32⟩ : BufTy).Contents (Elt Ideal)) (x4 : (⟨S128x64, .f32⟩ : BufTy).Contents (Elt Ideal))
  (x5 : (⟨S64, .f32⟩ : BufTy).Contents (Elt Ideal)) (x6 : (⟨S64x64, .f32⟩ : BufTy).Contents (Elt Ideal))
  (x7 x8 x9 : (⟨S64, .f32⟩ : BufTy).Contents (Elt Ideal))

/-- The array of ones is real. -/
theorem v7_real : ∀ i, IsReal (val_main_v7 (F := Ideal) i) := by
  intro i
  rw [val_main_v7_apply, val_main_cst_apply]
  exact isReal_ofBits_one

/-- The edge weights followed by the ones are real. -/
theorem v8_real (hx2 : ∀ i, IsReal (x2 i)) : ∀ i, IsReal (val_main_v8 (F := Ideal) x2 i) := by
  intro i
  unfold val_main_v8
  refine concatenate_all (fun x => IsReal x) _ _ _ ?_ i
  intro p hp
  simp only [List.mem_cons, List.mem_nil_iff, or_false] at hp
  rcases hp with rfl | rfl
  · exact hx2
  · exact v7_real

/-- The array of zeros the degree accumulates into is real. -/
theorem v9_real : ∀ i, IsReal (val_main_v9 (F := Ideal) i) := by
  intro i
  rw [val_main_v9_apply, val_main_cst_0_apply]
  exact isReal_ofBits_zero

/-- The degree is real: zero plus a finite sum of real weights. -/
theorem v11_real (hx2 : ∀ i, IsReal (x2 i)) : ∀ i, IsReal (val_main_v11 (F := Ideal) x1 x2 i) := by
  intro i
  unfold val_main_v11
  exact isReal_scatterAdd _ _ _ _ v9_real (v8_real x2 hx2) i

theorem v12_zero (i : S100000.Idx) : (val_main_v12 (F := Ideal) i : EReal) = 0 := by
  rw [val_main_v12_apply, val_main_cst_1_apply]
  exact Ideal.ofBits_zero_f32

theorem v14_zero (i : S100000.Idx) : (val_main_v14 (F := Ideal) i : EReal) = 0 := by
  rw [val_main_v14_apply, val_main_cst_2_apply]
  exact Ideal.ofBits_zero_f32

/-- The inverse square root of the degree, kept where the degree is positive and zero elsewhere, is real. -/
theorem v18_real (hx2 : ∀ i, IsReal (x2 i)) : ∀ i, IsReal (val_main_v18 (F := Ideal) x1 x2 i) := by
  intro i
  have hd := v11_real x1 x2 hx2 i
  have h12 := v12_zero i
  have h14 := v14_zero i
  have hf : IsReal (val_main_call1_v1 (F := Ideal) i) := by
    rw [val_main_call1_v1_apply, val_main_call1_v0_apply, val_main_cst_4_apply]
    exact isReal_ofBits_zero
  rw [val_main_v18_apply, val_main_v17_apply, val_main_v16_apply, val_main_v13_apply, val_main_v15_apply]
  generalize val_main_v11 (F := Ideal) x1 x2 i = d at hd ⊢
  generalize val_main_v12 (F := Ideal) i = z at h12 ⊢
  generalize val_main_v14 (F := Ideal) i = z' at h14 ⊢
  generalize val_main_call0_v1 (F := Ideal) i = one
  generalize val_main_call1_v1 (F := Ideal) i = fill at hf ⊢
  exact isReal_guarded_rsqrt d z z' one fill h12 h14 hd hf

theorem v25_real (hx2 : ∀ i, IsReal (x2 i)) : ∀ i, IsReal (val_main_v25 (F := Ideal) x1 x2 i) := by
  intro i
  unfold val_main_v25
  exact isReal_gather _ _ _ (v18_real x1 x2 hx2) i

theorem v33_real (hx2 : ∀ i, IsReal (x2 i)) : ∀ i, IsReal (val_main_v33 (F := Ideal) x1 x2 i) := by
  intro i
  unfold val_main_v33
  exact isReal_gather _ _ _ (v18_real x1 x2 hx2) i

theorem v26_real (hx2 : ∀ i, IsReal (x2 i)) : ∀ i, IsReal (val_main_v26 (F := Ideal) x1 x2 i) := by
  intro i
  rw [val_main_v26_apply]
  exact IsReal.mul _ _ (v25_real x1 x2 hx2 i) (v8_real x2 hx2 i)

/-- The edge normalisation is real. -/
theorem v34_real (hx2 : ∀ i, IsReal (x2 i)) : ∀ i, IsReal (val_main_v34 (F := Ideal) x1 x2 i) := by
  intro i
  rw [val_main_v34_apply]
  exact IsReal.mul _ _ (v26_real x1 x2 hx2 i) (v33_real x1 x2 hx2 i)

/-- The first layer's dot product is real. -/
theorem v35_real (hx0 : ∀ i, IsReal (x0 i)) (hx4 : ∀ i, IsReal (x4 i)) : ∀ i, IsReal (val_main_v35 (F := Ideal) x0 x4 i) := by
  intro i
  rw [val_main_v35_apply]
  exact isReal_dot _ _ (fun k => hx0 _) (fun k => hx4 _)

theorem v42_real (hx0 : ∀ i, IsReal (x0 i)) (hx4 : ∀ i, IsReal (x4 i)) :
    ∀ i, IsReal (val_main_v42 (F := Ideal) x0 x1 x4 i) := by
  intro i
  unfold val_main_v42
  exact isReal_gather _ _ _ (v35_real x0 x4 hx0 hx4) i

theorem v44_real (hx2 : ∀ i, IsReal (x2 i)) : ∀ i, IsReal (val_main_v44 (F := Ideal) x1 x2 i) := by
  intro i
  rw [val_main_v44_apply, val_main_v43_apply]
  exact v34_real x1 x2 hx2 _

theorem v45_real (hx0 : ∀ i, IsReal (x0 i)) (hx2 : ∀ i, IsReal (x2 i)) (hx4 : ∀ i, IsReal (x4 i)) :
    ∀ i, IsReal (val_main_v45 (F := Ideal) x0 x1 x2 x4 i) := by
  intro i
  rw [val_main_v45_apply]
  exact IsReal.mul _ _ (v42_real x0 x1 x4 hx0 hx4 i) (v44_real x1 x2 hx2 i)

theorem v46_real : ∀ i, IsReal (val_main_v46 (F := Ideal) i) := by
  intro i
  rw [val_main_v46_apply, val_main_cst_10_apply]
  exact isReal_ofBits_zero

/-- The first layer's aggregation is real: zero plus a finite sum of real scaled rows. -/
theorem v48_real (hx0 : ∀ i, IsReal (x0 i)) (hx2 : ∀ i, IsReal (x2 i)) (hx4 : ∀ i, IsReal (x4 i)) :
    ∀ i, IsReal (val_main_v48 (F := Ideal) x0 x1 x2 x4 i) := by
  intro i
  unfold val_main_v48
  exact isReal_scatterAdd _ _ _ _ v46_real (v45_real x0 x1 x2 x4 hx0 hx2 hx4) i

theorem v50_real (hx5 : ∀ i, IsReal (x5 i)) : ∀ i, IsReal (val_main_v50 (F := Ideal) x5 i) := by
  intro i
  rw [val_main_v50_apply, val_main_v49_apply]
  exact hx5 _

/-- The first layer's output before its batch normalisation is real. -/
theorem v51_real (hx0 : ∀ i, IsReal (x0 i)) (hx2 : ∀ i, IsReal (x2 i)) (hx4 : ∀ i, IsReal (x4 i))
    (hx5 : ∀ i, IsReal (x5 i)) : ∀ i, IsReal (val_main_v51 (F := Ideal) x0 x1 x2 x4 x5 i) := by
  intro i
  rw [val_main_v51_apply]
  exact IsReal.add _ _ (v48_real x0 x1 x2 x4 hx0 hx2 hx4 i) (v50_real x5 hx5 i)

/-! ## The second layer, given that the first layer's normalised output is real -/

theorem v78_real_of (hx6 : ∀ i, IsReal (x6 i))
    (h77 : ∀ i, IsReal (val_main_v77 (F := Ideal) x0 x1 x2 x4 x5 x8 x9 i)) :
    ∀ i, IsReal (val_main_v78 (F := Ideal) x0 x1 x2 x4 x5 x6 x8 x9 i) := by
  intro i
  rw [val_main_v78_apply]
  exact isReal_dot _ _ (fun k => h77 _) (fun k => hx6 _)

theorem v85_real_of (hx6 : ∀ i, IsReal (x6 i))
    (h77 : ∀ i, IsReal (val_main_v77 (F := Ideal) x0 x1 x2 x4 x5 x8 x9 i)) :
    ∀ i, IsReal (val_main_v85 (F := Ideal) x0 x1 x2 x4 x5 x6 x8 x9 i) := by
  intro i
  unfold val_main_v85
  exact isReal_gather _ _ _ (v78_real_of x0 x1 x2 x4 x5 x6 x8 x9 hx6 h77) i

theorem v87_real (hx2 : ∀ i, IsReal (x2 i)) : ∀ i, IsReal (val_main_v87 (F := Ideal) x1 x2 i) := by
  intro i
  rw [val_main_v87_apply, val_main_v86_apply]
  exact v34_real x1 x2 hx2 _

theorem v88_real_of (hx2 : ∀ i, IsReal (x2 i)) (hx6 : ∀ i, IsReal (x6 i))
    (h77 : ∀ i, IsReal (val_main_v77 (F := Ideal) x0 x1 x2 x4 x5 x8 x9 i)) :
    ∀ i, IsReal (val_main_v88 (F := Ideal) x0 x1 x2 x4 x5 x6 x8 x9 i) := by
  intro i
  rw [val_main_v88_apply]
  exact IsReal.mul _ _ (v85_real_of x0 x1 x2 x4 x5 x6 x8 x9 hx6 h77 i) (v87_real x1 x2 hx2 i)

theorem v89_real : ∀ i, IsReal (val_main_v89 (F := Ideal) i) := by
  intro i
  rw [val_main_v89_apply, val_main_cst_18_apply]
  exact isReal_ofBits_zero

theorem v91_real_of (hx2 : ∀ i, IsReal (x2 i)) (hx6 : ∀ i, IsReal (x6 i))
    (h77 : ∀ i, IsReal (val_main_v77 (F := Ideal) x0 x1 x2 x4 x5 x8 x9 i)) :
    ∀ i, IsReal (val_main_v91 (F := Ideal) x0 x1 x2 x4 x5 x6 x8 x9 i) := by
  intro i
  unfold val_main_v91
  exact isReal_scatterAdd _ _ _ _ v89_real (v88_real_of x0 x1 x2 x4 x5 x6 x8 x9 hx2 hx6 h77) i

theorem v93_real (hx7 : ∀ i, IsReal (x7 i)) : ∀ i, IsReal (val_main_v93 (F := Ideal) x7 i) := by
  intro i
  rw [val_main_v93_apply, val_main_v92_apply]
  exact hx7 _

/-- The second layer's output before its batch normalisation is real, given that the first layer's normalised output
    is. -/
theorem v94_real_of (hx2 : ∀ i, IsReal (x2 i)) (hx6 : ∀ i, IsReal (x6 i)) (hx7 : ∀ i, IsReal (x7 i))
    (h77 : ∀ i, IsReal (val_main_v77 (F := Ideal) x0 x1 x2 x4 x5 x8 x9 i)) :
    ∀ i, IsReal (val_main_v94 (F := Ideal) x0 x1 x2 x4 x5 x6 x7 x8 x9 i) := by
  intro i
  rw [val_main_v94_apply]
  exact IsReal.add _ _ (v91_real_of x0 x1 x2 x4 x5 x6 x8 x9 hx2 hx6 h77 i) (v93_real x7 hx7 i)

end Cert.RefFinite

end
-- ==== Proof.Seg1.lean ====
/-
  The host prefix of the kernel program, read back against the reference's stages. The prefix computes, from the edge
  list and the edge weights, row = concat(edge_index[0], iota) and col = concat(edge_index[1], iota), the weights with
  a unit weight per self loop, the weighted in-degree deg = scatter-add of the weights at col, dinv = rsqrt(deg) where
  deg > 0 and 0 elsewhere, and the edge normalisation dinv[row] * w * dinv[col]. The reference's first 35 stages are
  the same operations in the same order, so stage by stage the buffer the prefix leaves equals the reference's stage
  as a function of the two argument arrays. The other argument arrays are not written.
-/
import proofs.«113360_j59854664237267_1_alg».proof.Proof.Gen.KernelIdeal.Frame
import proofs.«113360_j59854664237267_1_alg».proof.Proof.Gen.ReferenceIdeal.Read
import Idealize.ShloMosaic.Lib.StableHlo.Run
import Idealize.ShloMosaic.Lib.ValueIdx

set_option maxRecDepth 16384

noncomputable section

namespace Cert.KernelIdeal.Seg1

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

macro "keep_ops" ops:ident : tactic => `(tactic|
  exact StableHlo.after_of_forall_not_mem _ _ (List.forall_iff_forall_mem.mp (by
    simp only [$ops:ident, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## After the first stretch: row, col, the weights, the degree and its two positivity masks, the constant 1 -/

theorem w1_v3 (c : Dev nD) : W1 m ρ c (Proc.devRef .tc main_v3) = ReferenceIdeal.Read.val_main_v3 (F := Ideal) (m ((c : Thread nD τ).loc main_arg1)) := by
  show StableHlo.after hostOps0 _ (Proc.devRef .tc main_v3) = _
  after_results
  have e1 : W0 m ρ c (Proc.tc.devRef main_arg1) = m (c.tc.loc main_arg1) := rfl
  rw [e1]
  generalize m (c.tc.loc main_arg1) = x1
  unfold ReferenceIdeal.Read.val_main_v3 ReferenceIdeal.Read.val_main_v2 ReferenceIdeal.Read.val_main_v1 ReferenceIdeal.Read.val_main_v0
  rfl

theorem w1_v6 (c : Dev nD) : W1 m ρ c (Proc.devRef .tc main_v6) = ReferenceIdeal.Read.val_main_v6 (F := Ideal) (m ((c : Thread nD τ).loc main_arg1)) := by
  show StableHlo.after hostOps0 _ (Proc.devRef .tc main_v6) = _
  after_results
  have e1 : W0 m ρ c (Proc.tc.devRef main_arg1) = m (c.tc.loc main_arg1) := rfl
  rw [e1]
  generalize m (c.tc.loc main_arg1) = x1
  unfold ReferenceIdeal.Read.val_main_v6 ReferenceIdeal.Read.val_main_v5 ReferenceIdeal.Read.val_main_v4 ReferenceIdeal.Read.val_main_v0
  rfl

theorem w1_v8 (c : Dev nD) : W1 m ρ c (Proc.devRef .tc main_v8) = ReferenceIdeal.Read.val_main_v8 (F := Ideal) (m ((c : Thread nD τ).loc main_arg2)) := by
  show StableHlo.after hostOps0 _ (Proc.devRef .tc main_v8) = _
  after_results
  have e2 : W0 m ρ c (Proc.tc.devRef main_arg2) = m (c.tc.loc main_arg2) := rfl
  rw [e2]
  generalize m (c.tc.loc main_arg2) = x2
  unfold ReferenceIdeal.Read.val_main_v8 ReferenceIdeal.Read.val_main_v7 ReferenceIdeal.Read.val_main_cst
  rfl

theorem w1_v11 (c : Dev nD) : W1 m ρ c (Proc.devRef .tc main_v11) = ReferenceIdeal.Read.val_main_v11 (F := Ideal) (m ((c : Thread nD τ).loc main_arg1)) (m ((c : Thread nD τ).loc main_arg2)) := by
  show StableHlo.after hostOps0 _ (Proc.devRef .tc main_v11) = _
  after_results
  have e1 : W0 m ρ c (Proc.tc.devRef main_arg1) = m (c.tc.loc main_arg1) := rfl
  rw [e1]
  generalize m (c.tc.loc main_arg1) = x1
  have e2 : W0 m ρ c (Proc.tc.devRef main_arg2) = m (c.tc.loc main_arg2) := rfl
  rw [e2]
  generalize m (c.tc.loc main_arg2) = x2
  unfold ReferenceIdeal.Read.val_main_v11 ReferenceIdeal.Read.val_main_v9 ReferenceIdeal.Read.val_main_cst_0 ReferenceIdeal.Read.val_main_v10 ReferenceIdeal.Read.val_main_v6 ReferenceIdeal.Read.val_main_v5 ReferenceIdeal.Read.val_main_v4 ReferenceIdeal.Read.val_main_v0 ReferenceIdeal.Read.val_main_v8 ReferenceIdeal.Read.val_main_v7 ReferenceIdeal.Read.val_main_cst
  rfl

theorem w1_v13 (c : Dev nD) : W1 m ρ c (Proc.devRef .tc main_v13) = ReferenceIdeal.Read.val_main_v13 (F := Ideal) (m ((c : Thread nD τ).loc main_arg1)) (m ((c : Thread nD τ).loc main_arg2)) := by
  show StableHlo.after hostOps0 _ (Proc.devRef .tc main_v13) = _
  after_results
  have e1 : W0 m ρ c (Proc.tc.devRef main_arg1) = m (c.tc.loc main_arg1) := rfl
  rw [e1]
  generalize m (c.tc.loc main_arg1) = x1
  have e2 : W0 m ρ c (Proc.tc.devRef main_arg2) = m (c.tc.loc main_arg2) := rfl
  rw [e2]
  generalize m (c.tc.loc main_arg2) = x2
  unfold ReferenceIdeal.Read.val_main_v13 ReferenceIdeal.Read.val_main_v12 ReferenceIdeal.Read.val_main_cst_1 ReferenceIdeal.Read.val_main_v11 ReferenceIdeal.Read.val_main_v9 ReferenceIdeal.Read.val_main_cst_0 ReferenceIdeal.Read.val_main_v10 ReferenceIdeal.Read.val_main_v6 ReferenceIdeal.Read.val_main_v5 ReferenceIdeal.Read.val_main_v4 ReferenceIdeal.Read.val_main_v0 ReferenceIdeal.Read.val_main_v8 ReferenceIdeal.Read.val_main_v7 ReferenceIdeal.Read.val_main_cst
  rfl

theorem w1_v15 (c : Dev nD) : W1 m ρ c (Proc.devRef .tc main_v15) = ReferenceIdeal.Read.val_main_v15 (F := Ideal) (m ((c : Thread nD τ).loc main_arg1)) (m ((c : Thread nD τ).loc main_arg2)) := by
  show StableHlo.after hostOps0 _ (Proc.devRef .tc main_v15) = _
  after_results
  have e1 : W0 m ρ c (Proc.tc.devRef main_arg1) = m (c.tc.loc main_arg1) := rfl
  rw [e1]
  generalize m (c.tc.loc main_arg1) = x1
  have e2 : W0 m ρ c (Proc.tc.devRef main_arg2) = m (c.tc.loc main_arg2) := rfl
  rw [e2]
  generalize m (c.tc.loc main_arg2) = x2
  unfold ReferenceIdeal.Read.val_main_v15 ReferenceIdeal.Read.val_main_v14 ReferenceIdeal.Read.val_main_cst_2 ReferenceIdeal.Read.val_main_v11 ReferenceIdeal.Read.val_main_v9 ReferenceIdeal.Read.val_main_cst_0 ReferenceIdeal.Read.val_main_v10 ReferenceIdeal.Read.val_main_v6 ReferenceIdeal.Read.val_main_v5 ReferenceIdeal.Read.val_main_v4 ReferenceIdeal.Read.val_main_v0 ReferenceIdeal.Read.val_main_v8 ReferenceIdeal.Read.val_main_v7 ReferenceIdeal.Read.val_main_cst
  rfl

theorem w1_cst_3 (c : Dev nD) : W1 m ρ c (Proc.devRef .tc main_cst_3) = ReferenceIdeal.Read.val_main_cst_3 (F := Ideal) := by
  show StableHlo.after hostOps0 _ (Proc.devRef .tc main_cst_3) = _
  after_results
  unfold ReferenceIdeal.Read.val_main_cst_3
  rfl

/-! ## After the first select: the degree with 1 where it is not positive -/

theorem w2_v3 (c : Dev nD) : W2 m ρ c (Proc.devRef .tc main_v3) = ReferenceIdeal.Read.val_main_v3 (F := Ideal) (m ((c : Thread nD τ).loc main_arg1)) := by
  have k : W2 m ρ c (Proc.devRef .tc main_v3) = W1 m ρ c (Proc.devRef .tc main_v3) := by keep_ops hostOps0_1
  exact k.trans (w1_v3 m ρ c)

theorem w2_v6 (c : Dev nD) : W2 m ρ c (Proc.devRef .tc main_v6) = ReferenceIdeal.Read.val_main_v6 (F := Ideal) (m ((c : Thread nD τ).loc main_arg1)) := by
  have k : W2 m ρ c (Proc.devRef .tc main_v6) = W1 m ρ c (Proc.devRef .tc main_v6) := by keep_ops hostOps0_1
  exact k.trans (w1_v6 m ρ c)

theorem w2_v8 (c : Dev nD) : W2 m ρ c (Proc.devRef .tc main_v8) = ReferenceIdeal.Read.val_main_v8 (F := Ideal) (m ((c : Thread nD τ).loc main_arg2)) := by
  have k : W2 m ρ c (Proc.devRef .tc main_v8) = W1 m ρ c (Proc.devRef .tc main_v8) := by keep_ops hostOps0_1
  exact k.trans (w1_v8 m ρ c)

theorem w2_v13 (c : Dev nD) : W2 m ρ c (Proc.devRef .tc main_v13) = ReferenceIdeal.Read.val_main_v13 (F := Ideal) (m ((c : Thread nD τ).loc main_arg1)) (m ((c : Thread nD τ).loc main_arg2)) := by
  have k : W2 m ρ c (Proc.devRef .tc main_v13) = W1 m ρ c (Proc.devRef .tc main_v13) := by keep_ops hostOps0_1
  exact k.trans (w1_v13 m ρ c)

theorem w2_v16 (c : Dev nD) : W2 m ρ c (Proc.devRef .tc main_v16) = ReferenceIdeal.Read.val_main_v16 (F := Ideal) (m ((c : Thread nD τ).loc main_arg1)) (m ((c : Thread nD τ).loc main_arg2)) := by
  have h_v15 := w1_v15 m ρ c
  have h_v11 := w1_v11 m ρ c
  have h_cst_3 := w1_cst_3 m ρ c
  show StableHlo.after hostOps0_1 (W1 m ρ c) (Proc.devRef .tc main_v16) = _
  generalize W1 m ρ c = V at h_v15 h_v11 h_cst_3 ⊢
  after_results
  dsimp only [TRef.of]
  rw [h_v15, h_v11, h_cst_3]
  unfold ReferenceIdeal.Read.val_main_v16 ReferenceIdeal.Read.val_main_call0_v1 ReferenceIdeal.Read.val_main_call0_v0
  generalize ReferenceIdeal.Read.val_main_v15 (F := Ideal) (m ((c : Thread nD τ).loc main_arg1)) (m ((c : Thread nD τ).loc main_arg2)) = A0
  generalize ReferenceIdeal.Read.val_main_v11 (F := Ideal) (m ((c : Thread nD τ).loc main_arg1)) (m ((c : Thread nD τ).loc main_arg2)) = A1
  generalize ReferenceIdeal.Read.val_main_cst_3 (F := Ideal) = A2
  refine eq_of_heq (HEq.trans (cast_heq _ _) (heq_of_eq ?_))
  rfl

/-! ## After the reciprocal square root -/

theorem w3_v3 (c : Dev nD) : W3 m ρ c (Proc.devRef .tc main_v3) = ReferenceIdeal.Read.val_main_v3 (F := Ideal) (m ((c : Thread nD τ).loc main_arg1)) := by
  have k : W3 m ρ c (Proc.devRef .tc main_v3) = W2 m ρ c (Proc.devRef .tc main_v3) := by keep_ops hostOps0_2
  exact k.trans (w2_v3 m ρ c)

theorem w3_v6 (c : Dev nD) : W3 m ρ c (Proc.devRef .tc main_v6) = ReferenceIdeal.Read.val_main_v6 (F := Ideal) (m ((c : Thread nD τ).loc main_arg1)) := by
  have k : W3 m ρ c (Proc.devRef .tc main_v6) = W2 m ρ c (Proc.devRef .tc main_v6) := by keep_ops hostOps0_2
  exact k.trans (w2_v6 m ρ c)

theorem w3_v8 (c : Dev nD) : W3 m ρ c (Proc.devRef .tc main_v8) = ReferenceIdeal.Read.val_main_v8 (F := Ideal) (m ((c : Thread nD τ).loc main_arg2)) := by
  have k : W3 m ρ c (Proc.devRef .tc main_v8) = W2 m ρ c (Proc.devRef .tc main_v8) := by keep_ops hostOps0_2
  exact k.trans (w2_v8 m ρ c)

theorem w3_v13 (c : Dev nD) : W3 m ρ c (Proc.devRef .tc main_v13) = ReferenceIdeal.Read.val_main_v13 (F := Ideal) (m ((c : Thread nD τ).loc main_arg1)) (m ((c : Thread nD τ).loc main_arg2)) := by
  have k : W3 m ρ c (Proc.devRef .tc main_v13) = W2 m ρ c (Proc.devRef .tc main_v13) := by keep_ops hostOps0_2
  exact k.trans (w2_v13 m ρ c)

theorem w3_v17 (c : Dev nD) : W3 m ρ c (Proc.devRef .tc main_v17) = ReferenceIdeal.Read.val_main_v17 (F := Ideal) (m ((c : Thread nD τ).loc main_arg1)) (m ((c : Thread nD τ).loc main_arg2)) := by
  have h_v16 := w2_v16 m ρ c
  show StableHlo.after hostOps0_2 (W2 m ρ c) (Proc.devRef .tc main_v17) = _
  generalize W2 m ρ c = V at h_v16 ⊢
  after_results
  rw [h_v16]
  unfold ReferenceIdeal.Read.val_main_v17
  generalize ReferenceIdeal.Read.val_main_v16 (F := Ideal) (m ((c : Thread nD τ).loc main_arg1)) (m ((c : Thread nD τ).loc main_arg2)) = A0
  rfl

theorem w3_cst_4 (c : Dev nD) : W3 m ρ c (Proc.devRef .tc main_cst_4) = ReferenceIdeal.Read.val_main_cst_4 (F := Ideal) := by
  show StableHlo.after hostOps0_2 (W2 m ρ c) (Proc.devRef .tc main_cst_4) = _
  generalize W2 m ρ c = V
  after_results
  unfold ReferenceIdeal.Read.val_main_cst_4
  rfl

/-! ## After the second select: dinv -/

theorem w4_v3 (c : Dev nD) : W4 m ρ c (Proc.devRef .tc main_v3) = ReferenceIdeal.Read.val_main_v3 (F := Ideal) (m ((c : Thread nD τ).loc main_arg1)) := by
  have k : W4 m ρ c (Proc.devRef .tc main_v3) = W3 m ρ c (Proc.devRef .tc main_v3) := by keep_ops hostOps0_3
  exact k.trans (w3_v3 m ρ c)

theorem w4_v6 (c : Dev nD) : W4 m ρ c (Proc.devRef .tc main_v6) = ReferenceIdeal.Read.val_main_v6 (F := Ideal) (m ((c : Thread nD τ).loc main_arg1)) := by
  have k : W4 m ρ c (Proc.devRef .tc main_v6) = W3 m ρ c (Proc.devRef .tc main_v6) := by keep_ops hostOps0_3
  exact k.trans (w3_v6 m ρ c)

theorem w4_v8 (c : Dev nD) : W4 m ρ c (Proc.devRef .tc main_v8) = ReferenceIdeal.Read.val_main_v8 (F := Ideal) (m ((c : Thread nD τ).loc main_arg2)) := by
  have k : W4 m ρ c (Proc.devRef .tc main_v8) = W3 m ρ c (Proc.devRef .tc main_v8) := by keep_ops hostOps0_3
  exact k.trans (w3_v8 m ρ c)

theorem w4_v18 (c : Dev nD) : W4 m ρ c (Proc.devRef .tc main_v18) = ReferenceIdeal.Read.val_main_v18 (F := Ideal) (m ((c : Thread nD τ).loc main_arg1)) (m ((c : Thread nD τ).loc main_arg2)) := by
  have h_v13 := w3_v13 m ρ c
  have h_v17 := w3_v17 m ρ c
  have h_cst_4 := w3_cst_4 m ρ c
  show StableHlo.after hostOps0_3 (W3 m ρ c) (Proc.devRef .tc main_v18) = _
  generalize W3 m ρ c = V at h_v13 h_v17 h_cst_4 ⊢
  after_results
  dsimp only [TRef.of]
  rw [h_v13, h_v17, h_cst_4]
  unfold ReferenceIdeal.Read.val_main_v18 ReferenceIdeal.Read.val_main_call1_v1 ReferenceIdeal.Read.val_main_call1_v0
  generalize ReferenceIdeal.Read.val_main_v13 (F := Ideal) (m ((c : Thread nD τ).loc main_arg1)) (m ((c : Thread nD τ).loc main_arg2)) = A0
  generalize ReferenceIdeal.Read.val_main_v17 (F := Ideal) (m ((c : Thread nD τ).loc main_arg1)) (m ((c : Thread nD τ).loc main_arg2)) = A1
  generalize ReferenceIdeal.Read.val_main_cst_4 (F := Ideal) = A2
  refine eq_of_heq (HEq.trans (cast_heq _ _) (heq_of_eq ?_))
  rfl

/-! ## At the end of the prefix: row, col and the edge normalisation -/

theorem w5_v3 (c : Dev nD) : W5 m ρ c (Proc.devRef .tc main_v3) = ReferenceIdeal.Read.val_main_v3 (F := Ideal) (m ((c : Thread nD τ).loc main_arg1)) := by
  have k : W5 m ρ c (Proc.devRef .tc main_v3) = W4 m ρ c (Proc.devRef .tc main_v3) := by keep_ops hostOps0_4
  exact k.trans (w4_v3 m ρ c)

theorem w5_v6 (c : Dev nD) : W5 m ρ c (Proc.devRef .tc main_v6) = ReferenceIdeal.Read.val_main_v6 (F := Ideal) (m ((c : Thread nD τ).loc main_arg1)) := by
  have k : W5 m ρ c (Proc.devRef .tc main_v6) = W4 m ρ c (Proc.devRef .tc main_v6) := by keep_ops hostOps0_4
  exact k.trans (w4_v6 m ρ c)

theorem w5_v8 (c : Dev nD) : W5 m ρ c (Proc.devRef .tc main_v8) = ReferenceIdeal.Read.val_main_v8 (F := Ideal) (m ((c : Thread nD τ).loc main_arg2)) := by
  have k : W5 m ρ c (Proc.devRef .tc main_v8) = W4 m ρ c (Proc.devRef .tc main_v8) := by keep_ops hostOps0_4
  exact k.trans (w4_v8 m ρ c)

theorem w5_v18 (c : Dev nD) : W5 m ρ c (Proc.devRef .tc main_v18) = ReferenceIdeal.Read.val_main_v18 (F := Ideal) (m ((c : Thread nD τ).loc main_arg1)) (m ((c : Thread nD τ).loc main_arg2)) := by
  have k : W5 m ρ c (Proc.devRef .tc main_v18) = W4 m ρ c (Proc.devRef .tc main_v18) := by keep_ops hostOps0_4
  exact k.trans (w4_v18 m ρ c)

theorem w5_v34 (c : Dev nD) : W5 m ρ c (Proc.devRef .tc main_v34) = ReferenceIdeal.Read.val_main_v34 (F := Ideal) (m ((c : Thread nD τ).loc main_arg1)) (m ((c : Thread nD τ).loc main_arg2)) := by
  have h_v3 := w4_v3 m ρ c
  have h_v6 := w4_v6 m ρ c
  have h_v8 := w4_v8 m ρ c
  have h_v18 := w4_v18 m ρ c
  show StableHlo.after hostOps0_4 (W4 m ρ c) (Proc.devRef .tc main_v34) = _
  generalize W4 m ρ c = V at h_v3 h_v6 h_v8 h_v18 ⊢
  after_results_simp
  rw [h_v3, h_v6, h_v8, h_v18]
  unfold ReferenceIdeal.Read.val_main_v34 ReferenceIdeal.Read.val_main_v26 ReferenceIdeal.Read.val_main_v25 ReferenceIdeal.Read.val_main_v24 ReferenceIdeal.Read.val_main_v23 ReferenceIdeal.Read.val_main_v20 ReferenceIdeal.Read.val_main_v19 ReferenceIdeal.Read.val_main_c ReferenceIdeal.Read.val_main_v22 ReferenceIdeal.Read.val_main_v21 ReferenceIdeal.Read.val_main_c_5 ReferenceIdeal.Read.val_main_v33 ReferenceIdeal.Read.val_main_v32 ReferenceIdeal.Read.val_main_v31 ReferenceIdeal.Read.val_main_v28 ReferenceIdeal.Read.val_main_v27 ReferenceIdeal.Read.val_main_c_6 ReferenceIdeal.Read.val_main_v30 ReferenceIdeal.Read.val_main_v29 ReferenceIdeal.Read.val_main_c_7
  generalize ReferenceIdeal.Read.val_main_v3 (F := Ideal) (m ((c : Thread nD τ).loc main_arg1)) = A0
  generalize ReferenceIdeal.Read.val_main_v6 (F := Ideal) (m ((c : Thread nD τ).loc main_arg1)) = A1
  generalize ReferenceIdeal.Read.val_main_v8 (F := Ideal) (m ((c : Thread nD τ).loc main_arg2)) = A2
  generalize ReferenceIdeal.Read.val_main_v18 (F := Ideal) (m ((c : Thread nD τ).loc main_arg1)) (m ((c : Thread nD τ).loc main_arg2)) = A3
  rfl

/-! ## The argument arrays are not written by the prefix: each holds at its end what the launch memory holds -/

theorem w5_arg0 (c : Dev nD) : W5 m ρ c (Proc.devRef .tc main_arg0) = m ((c : Thread nD τ).loc main_arg0) := by
  have k5 : W5 m ρ c (Proc.devRef .tc main_arg0) = W4 m ρ c (Proc.devRef .tc main_arg0) := by keep_ops hostOps0_4
  have k4 : W4 m ρ c (Proc.devRef .tc main_arg0) = W3 m ρ c (Proc.devRef .tc main_arg0) := by keep_ops hostOps0_3
  have k3 : W3 m ρ c (Proc.devRef .tc main_arg0) = W2 m ρ c (Proc.devRef .tc main_arg0) := by keep_ops hostOps0_2
  have k2 : W2 m ρ c (Proc.devRef .tc main_arg0) = W1 m ρ c (Proc.devRef .tc main_arg0) := by keep_ops hostOps0_1
  have k1 : W1 m ρ c (Proc.devRef .tc main_arg0) = W0 m ρ c (Proc.devRef .tc main_arg0) := by keep_ops hostOps0
  exact k5.trans (k4.trans (k3.trans (k2.trans (k1.trans rfl))))

theorem w5_arg3 (c : Dev nD) : W5 m ρ c (Proc.devRef .tc main_arg3) = m ((c : Thread nD τ).loc main_arg3) := by
  have k5 : W5 m ρ c (Proc.devRef .tc main_arg3) = W4 m ρ c (Proc.devRef .tc main_arg3) := by keep_ops hostOps0_4
  have k4 : W4 m ρ c (Proc.devRef .tc main_arg3) = W3 m ρ c (Proc.devRef .tc main_arg3) := by keep_ops hostOps0_3
  have k3 : W3 m ρ c (Proc.devRef .tc main_arg3) = W2 m ρ c (Proc.devRef .tc main_arg3) := by keep_ops hostOps0_2
  have k2 : W2 m ρ c (Proc.devRef .tc main_arg3) = W1 m ρ c (Proc.devRef .tc main_arg3) := by keep_ops hostOps0_1
  have k1 : W1 m ρ c (Proc.devRef .tc main_arg3) = W0 m ρ c (Proc.devRef .tc main_arg3) := by keep_ops hostOps0
  exact k5.trans (k4.trans (k3.trans (k2.trans (k1.trans rfl))))

theorem w5_arg4 (c : Dev nD) : W5 m ρ c (Proc.devRef .tc main_arg4) = m ((c : Thread nD τ).loc main_arg4) := by
  have k5 : W5 m ρ c (Proc.devRef .tc main_arg4) = W4 m ρ c (Proc.devRef .tc main_arg4) := by keep_ops hostOps0_4
  have k4 : W4 m ρ c (Proc.devRef .tc main_arg4) = W3 m ρ c (Proc.devRef .tc main_arg4) := by keep_ops hostOps0_3
  have k3 : W3 m ρ c (Proc.devRef .tc main_arg4) = W2 m ρ c (Proc.devRef .tc main_arg4) := by keep_ops hostOps0_2
  have k2 : W2 m ρ c (Proc.devRef .tc main_arg4) = W1 m ρ c (Proc.devRef .tc main_arg4) := by keep_ops hostOps0_1
  have k1 : W1 m ρ c (Proc.devRef .tc main_arg4) = W0 m ρ c (Proc.devRef .tc main_arg4) := by keep_ops hostOps0
  exact k5.trans (k4.trans (k3.trans (k2.trans (k1.trans rfl))))

theorem w5_arg5 (c : Dev nD) : W5 m ρ c (Proc.devRef .tc main_arg5) = m ((c : Thread nD τ).loc main_arg5) := by
  have k5 : W5 m ρ c (Proc.devRef .tc main_arg5) = W4 m ρ c (Proc.devRef .tc main_arg5) := by keep_ops hostOps0_4
  have k4 : W4 m ρ c (Proc.devRef .tc main_arg5) = W3 m ρ c (Proc.devRef .tc main_arg5) := by keep_ops hostOps0_3
  have k3 : W3 m ρ c (Proc.devRef .tc main_arg5) = W2 m ρ c (Proc.devRef .tc main_arg5) := by keep_ops hostOps0_2
  have k2 : W2 m ρ c (Proc.devRef .tc main_arg5) = W1 m ρ c (Proc.devRef .tc main_arg5) := by keep_ops hostOps0_1
  have k1 : W1 m ρ c (Proc.devRef .tc main_arg5) = W0 m ρ c (Proc.devRef .tc main_arg5) := by keep_ops hostOps0
  exact k5.trans (k4.trans (k3.trans (k2.trans (k1.trans rfl))))

theorem w5_arg6 (c : Dev nD) : W5 m ρ c (Proc.devRef .tc main_arg6) = m ((c : Thread nD τ).loc main_arg6) := by
  have k5 : W5 m ρ c (Proc.devRef .tc main_arg6) = W4 m ρ c (Proc.devRef .tc main_arg6) := by keep_ops hostOps0_4
  have k4 : W4 m ρ c (Proc.devRef .tc main_arg6) = W3 m ρ c (Proc.devRef .tc main_arg6) := by keep_ops hostOps0_3
  have k3 : W3 m ρ c (Proc.devRef .tc main_arg6) = W2 m ρ c (Proc.devRef .tc main_arg6) := by keep_ops hostOps0_2
  have k2 : W2 m ρ c (Proc.devRef .tc main_arg6) = W1 m ρ c (Proc.devRef .tc main_arg6) := by keep_ops hostOps0_1
  have k1 : W1 m ρ c (Proc.devRef .tc main_arg6) = W0 m ρ c (Proc.devRef .tc main_arg6) := by keep_ops hostOps0
  exact k5.trans (k4.trans (k3.trans (k2.trans (k1.trans rfl))))

theorem w5_arg7 (c : Dev nD) : W5 m ρ c (Proc.devRef .tc main_arg7) = m ((c : Thread nD τ).loc main_arg7) := by
  have k5 : W5 m ρ c (Proc.devRef .tc main_arg7) = W4 m ρ c (Proc.devRef .tc main_arg7) := by keep_ops hostOps0_4
  have k4 : W4 m ρ c (Proc.devRef .tc main_arg7) = W3 m ρ c (Proc.devRef .tc main_arg7) := by keep_ops hostOps0_3
  have k3 : W3 m ρ c (Proc.devRef .tc main_arg7) = W2 m ρ c (Proc.devRef .tc main_arg7) := by keep_ops hostOps0_2
  have k2 : W2 m ρ c (Proc.devRef .tc main_arg7) = W1 m ρ c (Proc.devRef .tc main_arg7) := by keep_ops hostOps0_1
  have k1 : W1 m ρ c (Proc.devRef .tc main_arg7) = W0 m ρ c (Proc.devRef .tc main_arg7) := by keep_ops hostOps0
  exact k5.trans (k4.trans (k3.trans (k2.trans (k1.trans rfl))))

theorem w5_arg8 (c : Dev nD) : W5 m ρ c (Proc.devRef .tc main_arg8) = m ((c : Thread nD τ).loc main_arg8) := by
  have k5 : W5 m ρ c (Proc.devRef .tc main_arg8) = W4 m ρ c (Proc.devRef .tc main_arg8) := by keep_ops hostOps0_4
  have k4 : W4 m ρ c (Proc.devRef .tc main_arg8) = W3 m ρ c (Proc.devRef .tc main_arg8) := by keep_ops hostOps0_3
  have k3 : W3 m ρ c (Proc.devRef .tc main_arg8) = W2 m ρ c (Proc.devRef .tc main_arg8) := by keep_ops hostOps0_2
  have k2 : W2 m ρ c (Proc.devRef .tc main_arg8) = W1 m ρ c (Proc.devRef .tc main_arg8) := by keep_ops hostOps0_1
  have k1 : W1 m ρ c (Proc.devRef .tc main_arg8) = W0 m ρ c (Proc.devRef .tc main_arg8) := by keep_ops hostOps0
  exact k5.trans (k4.trans (k3.trans (k2.trans (k1.trans rfl))))

theorem w5_arg9 (c : Dev nD) : W5 m ρ c (Proc.devRef .tc main_arg9) = m ((c : Thread nD τ).loc main_arg9) := by
  have k5 : W5 m ρ c (Proc.devRef .tc main_arg9) = W4 m ρ c (Proc.devRef .tc main_arg9) := by keep_ops hostOps0_4
  have k4 : W4 m ρ c (Proc.devRef .tc main_arg9) = W3 m ρ c (Proc.devRef .tc main_arg9) := by keep_ops hostOps0_3
  have k3 : W3 m ρ c (Proc.devRef .tc main_arg9) = W2 m ρ c (Proc.devRef .tc main_arg9) := by keep_ops hostOps0_2
  have k2 : W2 m ρ c (Proc.devRef .tc main_arg9) = W1 m ρ c (Proc.devRef .tc main_arg9) := by keep_ops hostOps0_1
  have k1 : W1 m ρ c (Proc.devRef .tc main_arg9) = W0 m ρ c (Proc.devRef .tc main_arg9) := by keep_ops hostOps0
  exact k5.trans (k4.trans (k3.trans (k2.trans (k1.trans rfl))))

theorem w5_arg10 (c : Dev nD) : W5 m ρ c (Proc.devRef .tc main_arg10) = m ((c : Thread nD τ).loc main_arg10) := by
  have k5 : W5 m ρ c (Proc.devRef .tc main_arg10) = W4 m ρ c (Proc.devRef .tc main_arg10) := by keep_ops hostOps0_4
  have k4 : W4 m ρ c (Proc.devRef .tc main_arg10) = W3 m ρ c (Proc.devRef .tc main_arg10) := by keep_ops hostOps0_3
  have k3 : W3 m ρ c (Proc.devRef .tc main_arg10) = W2 m ρ c (Proc.devRef .tc main_arg10) := by keep_ops hostOps0_2
  have k2 : W2 m ρ c (Proc.devRef .tc main_arg10) = W1 m ρ c (Proc.devRef .tc main_arg10) := by keep_ops hostOps0_1
  have k1 : W1 m ρ c (Proc.devRef .tc main_arg10) = W0 m ρ c (Proc.devRef .tc main_arg10) := by keep_ops hostOps0
  exact k5.trans (k4.trans (k3.trans (k2.trans (k1.trans rfl))))

theorem w5_arg11 (c : Dev nD) : W5 m ρ c (Proc.devRef .tc main_arg11) = m ((c : Thread nD τ).loc main_arg11) := by
  have k5 : W5 m ρ c (Proc.devRef .tc main_arg11) = W4 m ρ c (Proc.devRef .tc main_arg11) := by keep_ops hostOps0_4
  have k4 : W4 m ρ c (Proc.devRef .tc main_arg11) = W3 m ρ c (Proc.devRef .tc main_arg11) := by keep_ops hostOps0_3
  have k3 : W3 m ρ c (Proc.devRef .tc main_arg11) = W2 m ρ c (Proc.devRef .tc main_arg11) := by keep_ops hostOps0_2
  have k2 : W2 m ρ c (Proc.devRef .tc main_arg11) = W1 m ρ c (Proc.devRef .tc main_arg11) := by keep_ops hostOps0_1
  have k1 : W1 m ρ c (Proc.devRef .tc main_arg11) = W0 m ρ c (Proc.devRef .tc main_arg11) := by keep_ops hostOps0
  exact k5.trans (k4.trans (k3.trans (k2.trans (k1.trans rfl))))

theorem w5_arg12 (c : Dev nD) : W5 m ρ c (Proc.devRef .tc main_arg12) = m ((c : Thread nD τ).loc main_arg12) := by
  have k5 : W5 m ρ c (Proc.devRef .tc main_arg12) = W4 m ρ c (Proc.devRef .tc main_arg12) := by keep_ops hostOps0_4
  have k4 : W4 m ρ c (Proc.devRef .tc main_arg12) = W3 m ρ c (Proc.devRef .tc main_arg12) := by keep_ops hostOps0_3
  have k3 : W3 m ρ c (Proc.devRef .tc main_arg12) = W2 m ρ c (Proc.devRef .tc main_arg12) := by keep_ops hostOps0_2
  have k2 : W2 m ρ c (Proc.devRef .tc main_arg12) = W1 m ρ c (Proc.devRef .tc main_arg12) := by keep_ops hostOps0_1
  have k1 : W1 m ρ c (Proc.devRef .tc main_arg12) = W0 m ρ c (Proc.devRef .tc main_arg12) := by keep_ops hostOps0
  exact k5.trans (k4.trans (k3.trans (k2.trans (k1.trans rfl))))

theorem w5_arg13 (c : Dev nD) : W5 m ρ c (Proc.devRef .tc main_arg13) = m ((c : Thread nD τ).loc main_arg13) := by
  have k5 : W5 m ρ c (Proc.devRef .tc main_arg13) = W4 m ρ c (Proc.devRef .tc main_arg13) := by keep_ops hostOps0_4
  have k4 : W4 m ρ c (Proc.devRef .tc main_arg13) = W3 m ρ c (Proc.devRef .tc main_arg13) := by keep_ops hostOps0_3
  have k3 : W3 m ρ c (Proc.devRef .tc main_arg13) = W2 m ρ c (Proc.devRef .tc main_arg13) := by keep_ops hostOps0_2
  have k2 : W2 m ρ c (Proc.devRef .tc main_arg13) = W1 m ρ c (Proc.devRef .tc main_arg13) := by keep_ops hostOps0_1
  have k1 : W1 m ρ c (Proc.devRef .tc main_arg13) = W0 m ρ c (Proc.devRef .tc main_arg13) := by keep_ops hostOps0
  exact k5.trans (k4.trans (k3.trans (k2.trans (k1.trans rfl))))

end Cert.KernelIdeal.Seg1
end
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.Lin.lean ====
/-
  The two dense layers, read at an element.

  Each of the two linear stages multiplies a [100000, K] array of rows by a [K, 64] weight matrix, fifty blocks of
  2000 rows at a time: grid point t reads rows 2000·t … 2000·t + 1999 of the left array and the whole weight matrix,
  and writes rows 2000·t … 2000·t + 1999 of the output. A block's product into the zero accumulator, read at (r, q), is
  ∑ k, block(r, k) · weight(k, q) on the extended reals, and block row r at point t is array row 2000·t + r; every row
  p of the output lies in the block of point p / 2000. So the output array, read at (p, q), is
  ∑ k, left(p, k) · weight(k, q): K = 128 for the first stage, K = 64 for the second.
-/
import proofs.«113360_j59854664237267_1_alg».proof.Proof.Gen.KernelIdeal.Frame
import proofs.«113360_j59854664237267_1_alg».proof.Proof.LibMatmulAt
import Idealize.ShloMosaic.Lib.Pipeline.Value
import Idealize.ShloMosaic.Lib.ValueIdx

set_option maxRecDepth 16384

noncomputable section

open scoped BigOperators

namespace Cert.KernelIdeal.Lin

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The origin of a rank-2 block. -/
theorem hz : (![0, 0] : Fin 2 → Nat) = fun _ => 0 := funext fun a => by fin_cases a <;> rfl

/-! ## The first stage: [100000, 128] × [128, 64] -/

/-- The block product at (r, q): the sum over k of the row block at (r, k) times the weights at (k, q). -/
theorem pay0_apply (x0 : Vec Ideal S2000x128 .f32) (x1 : Vec Ideal S128x64 .f32) (r : Fin 2000) (q : Fin 64) :
    (k0_pay1 x0 x1 : S2000x64.Idx → EReal) (ix2 r q) = ∑ k : Fin 128, (x0 (ix2 r k) : EReal) * x1 (ix2 k q) :=
  Cert.LibMatmulAt.matmul_zero_apply dot_S2000x128_S128x64_S2000x64_1_0_0_1_n_n rfl rfl rfl rfl rfl rfl none x0 x1 r q

/-- The left array of the first stage, as a function of its index into the extended reals. -/
abbrev X0 (c : Dev nD) : S100000x128.Idx → EReal := V c main_arg0
/-- The weights of the first stage, as a function of their index into the extended reals. -/
abbrev W0 (c : Dev nD) : S128x64.Idx → EReal := V c main_arg4

/-- The whole product of the first stage, index by index. -/
abbrev G0 (c : Dev nD) : S100000x64.Idx → EReal := fun i =>
  ∑ k : Fin 128, X0 V c (ix2 (i 0 : Fin 100000) k) * W0 V c (ix2 k (i 1 : Fin 64))

/-- The block indices at a grid point: the left array's row block is the output's row block, which is the point
    itself; every column block index is 0, and the weights are one block. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What grid point t writes back is block t of the whole product. -/
theorem flushed0 (c : Dev nD) (t : Fin cfg0.N) :
    (dat0 (F := Ideal) V c).flushed 2 t = ((cfg0.win 2).blk t).view.read (Elt Ideal) (G0 V c) := by
  show (cfg0.win 2).cut (grid0.coords t) ((dat0 (F := Ideal) V c).after 2 t) = _
  rw [after0_2]
  unfold out0_2
  rw [View.canon_unit_zero hz]
  simp only [View.ld_unit_zero (S := S2000x128) hz, View.ld_unit_zero (S := S128x64) hz]
  obtain ⟨e0, e1, e2, e3, e4, e5⟩ := idx_facts0 t
  funext j
  revert j
  show ∀ j : S2000x64.Idx, _
  intro j
  obtain ⟨r, q, rfl⟩ : ∃ (r : Fin 2000) (q : Fin 64), j = ix2 r q := ⟨j 0, j 1, eq_ix2 j⟩
  show k0_pay1 (iblk0 V c 0 t) (iblk0 V c 1 t) (ix2 r q) = G0 V c (((cfg0.win 2).blk t).view.emb (ix2 r q))
  refine (pay0_apply _ _ r q).trans ?_
  refine Finset.sum_congr rfl fun k _ => ?_
  -- row r of the left block is the array's row at the output block's row r; column k is column k
  have h0 : ((cfg0.win 0).blk t).view.emb (ix2 r k) = ix2 (((cfg0.win 2).blk t).view.emb (ix2 r q) 0 : Fin 100000) k := by
    funext a; apply Fin.ext
    match a with
    | ⟨0, _⟩ => show win0_0.index t (0 : Fin 2) * 2000 + 1 * r.val = win0_2.index t (0 : Fin 2) * 2000 + 1 * r.val; omega
    | ⟨1, _⟩ => show win0_0.index t (1 : Fin 2) * 128 + 1 * k.val = k.val; omega
  -- the weights' block is the whole matrix; column q of the output block is column q of the array
  have h1 : ((cfg0.win 1).blk t).view.emb (ix2 k q) = ix2 k (((cfg0.win 2).blk t).view.emb (ix2 r q) 1 : Fin 64) := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  show X0 V c (((cfg0.win 0).blk t).view.emb (ix2 r k)) * W0 V c (((cfg0.win 1).blk t).view.emb (ix2 k q)) = _
  rw [h0, h1]
  rfl

/-- An index of the output is in point t's block iff each coordinate is in the block's range on its axis. -/
theorem mem_blk0 (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v35).slice (win0_2.rect t)).set ↔ _
  rw [View.set_slice_whole, Rect.mem_set_unit]
  exact Iff.rfl

/-- Row p of the output is in the block of point p / 2000: the fifty blocks cover the array. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 50 := N_0
  obtain ⟨t, ht⟩ : ∃ t : Fin cfg0.N, t.val = (i 0).val / 2000 := ⟨⟨(i 0).val / 2000, by omega⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- The output array of the first stage is the whole product. -/
theorem final0 (c : Dev nD) : (dat0 (F := Ideal) V c).arrAt 2 cfg0.N = G0 V c :=
  (dat0 (F := Ideal) V c).arrAt_eq_of_cover 2 (G0 V c) (fun t _ => flushed0 V c t) cover0

/-- THE FIRST STAGE AT (p, q): the sum over the 128 input features of left(p, k) · weight(k, q). -/
theorem lin0 (c : Dev nD) (p : Fin 100000) (q : Fin 64) :
    ((dat0 (F := Ideal) V c).arrAt 2 cfg0.N : S100000x64.Idx → EReal) (ix2 p q)
      = ∑ k : Fin 128, X0 V c (ix2 p k) * W0 V c (ix2 k q) :=
  congrFun (final0 V c) (ix2 p q)

/-! ## The second stage: [100000, 64] × [64, 64] -/

/-- The block product at (r, q), the reshape of the left block to its own shape being the identity: the sum over k of
    the row block at (r, k) times the weights at (k, q). -/
theorem pay3_apply (x0 : Vec Ideal S2000x64 .f32) (x1 : Vec Ideal S64x64 .f32) (r : Fin 2000) (q : Fin 64) :
    (k3_pay1 x0 x1 : S2000x64.Idx → EReal) (ix2 r q) = ∑ k : Fin 64, (x0 (ix2 r k) : EReal) * x1 (ix2 k q) := by
  have h : k3_pay1 x0 x1 = matmul dot_S2000x64_S64x64_S2000x64_1_0_0_1_n_n none x0 x1 (constant (F := Ideal) S2000x64 .f32 0x00000000#32) :=
    congrArg (fun v => matmul dot_S2000x64_S64x64_S2000x64_1_0_0_1_n_n none v x1 (constant (F := Ideal) S2000x64 .f32 0x00000000#32))
      (shapeCast_self x0 shapeCasts_S2000x64_S2000x64)
  rw [h]
  exact Cert.LibMatmulAt.matmul_zero_apply dot_S2000x64_S64x64_S2000x64_1_0_0_1_n_n rfl rfl rfl rfl rfl rfl none x0 x1 r q

/-- The left array of the second stage, as a function of its index into the extended reals. -/
abbrev X3 (c : Dev nD) : S100000x64.Idx → EReal := V c main_v65
/-- The weights of the second stage, as a function of their index into the extended reals. -/
abbrev W3 (c : Dev nD) : S64x64.Idx → EReal := V c main_arg6

/-- The whole product of the second stage, index by index. -/
abbrev G3 (c : Dev nD) : S100000x64.Idx → EReal := fun i =>
  ∑ k : Fin 64, X3 V c (ix2 (i 0 : Fin 100000) k) * W3 V c (ix2 k (i 1 : Fin 64))

/-- The block indices at a grid point: the left array's row block is the output's row block, which is the point
    itself; every column block index is 0, and the weights are one block. -/
theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What grid point t writes back is block t of the whole product. -/
theorem flushed3 (c : Dev nD) (t : Fin cfg3.N) :
    (dat3 (F := Ideal) V c).flushed 2 t = ((cfg3.win 2).blk t).view.read (Elt Ideal) (G3 V c) := by
  show (cfg3.win 2).cut (grid3.coords t) ((dat3 (F := Ideal) V c).after 2 t) = _
  rw [after3_2]
  unfold out3_2
  rw [View.canon_unit_zero hz]
  simp only [View.ld_unit_zero (S := S2000x64) hz, View.ld_unit_zero (S := S64x64) hz]
  obtain ⟨e0, e1, e2, e3, e4, e5⟩ := idx_facts3 t
  funext j
  revert j
  show ∀ j : S2000x64.Idx, _
  intro j
  obtain ⟨r, q, rfl⟩ : ∃ (r : Fin 2000) (q : Fin 64), j = ix2 r q := ⟨j 0, j 1, eq_ix2 j⟩
  show k3_pay1 (iblk3 V c 0 t) (iblk3 V c 1 t) (ix2 r q) = G3 V c (((cfg3.win 2).blk t).view.emb (ix2 r q))
  refine (pay3_apply _ _ r q).trans ?_
  refine Finset.sum_congr rfl fun k _ => ?_
  have h0 : ((cfg3.win 0).blk t).view.emb (ix2 r k) = ix2 (((cfg3.win 2).blk t).view.emb (ix2 r q) 0 : Fin 100000) k := by
    funext a; apply Fin.ext
    match a with
    | ⟨0, _⟩ => show win3_0.index t (0 : Fin 2) * 2000 + 1 * r.val = win3_2.index t (0 : Fin 2) * 2000 + 1 * r.val; omega
    | ⟨1, _⟩ => show win3_0.index t (1 : Fin 2) * 64 + 1 * k.val = k.val; omega
  have h1 : ((cfg3.win 1).blk t).view.emb (ix2 k q) = ix2 k (((cfg3.win 2).blk t).view.emb (ix2 r q) 1 : Fin 64) := by
    funext a; apply Fin.ext
    match a with
    | ⟨0, _⟩ => show win3_1.index t (0 : Fin 2) * 64 + 1 * k.val = k.val; omega
    | ⟨1, _⟩ => show win3_1.index t (1 : Fin 2) * 64 + 1 * q.val = win3_2.index t (1 : Fin 2) * 64 + 1 * q.val; omega
  show X3 V c (((cfg3.win 0).blk t).view.emb (ix2 r k)) * W3 V c (((cfg3.win 1).blk t).view.emb (ix2 k q)) = _
  rw [h0, h1]
  rfl

/-- An index of the output is in point t's block iff each coordinate is in the block's range on its axis. -/
theorem mem_blk3 (t : Fin cfg3.N) (i : S100000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v66).slice (win3_2.rect t)).set ↔ _
  rw [View.set_slice_whole, Rect.mem_set_unit]
  exact Iff.rfl

/-- Row p of the output is in the block of point p / 2000: the fifty blocks cover the array. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 50 := N_3
  obtain ⟨t, ht⟩ : ∃ t : Fin cfg3.N, t.val = (i 0).val / 2000 := ⟨⟨(i 0).val / 2000, by omega⟩, rfl⟩
  obtain ⟨e0, e1, e2, e3, e4, e5⟩ := idx_facts3 t
  refine ⟨t, flush3_2 t, ?_⟩
  rw [mem_blk3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 64 ≤ (i 1).val ∧ (i 1).val < win3_2.index t (1 : Fin 2) * 64 + 64; omega

/-- The output array of the second stage is the whole product. -/
theorem final3 (c : Dev nD) : (dat3 (F := Ideal) V c).arrAt 2 cfg3.N = G3 V c :=
  (dat3 (F := Ideal) V c).arrAt_eq_of_cover 2 (G3 V c) (fun t _ => flushed3 V c t) cover3

/-- THE SECOND STAGE AT (p, q): the sum over the 64 hidden features of left(p, k) · weight(k, q). -/
theorem lin3 (c : Dev nD) (p : Fin 100000) (q : Fin 64) :
    ((dat3 (F := Ideal) V c).arrAt 2 cfg3.N : S100000x64.Idx → EReal) (ix2 p q)
      = ∑ k : Fin 64, X3 V c (ix2 p k) * W3 V c (ix2 k q) :=
  congrFun (final3 V c) (ix2 p q)

end Cert.KernelIdeal.Lin

end
-- ==== Proof.Seg2.lean ====
/-
  From the first dense layer's entry to the first normalisation's entry.

  The first dense layer leaves the product of the node features with the first weight matrix; the reference computes
  the same product as one contraction, and the two agree index by index (both are the sum over the 128 input features
  of feature(p, k) · weight(k, q)). The operations that follow — gather the product's rows by each edge's source node,
  scale each by the edge's normalisation coefficient, add them into zeros by each edge's target node, and reshape the
  bias to a row — are the reference's own operations on the same operands, so they leave the reference's values.
-/
import proofs.«113360_j59854664237267_1_alg».proof.Proof.Gen.KernelIdeal.Frame
import proofs.«113360_j59854664237267_1_alg».proof.Proof.Gen.ReferenceIdeal.Read
import proofs.«113360_j59854664237267_1_alg».proof.Proof.Lin
import Idealize.ShloMosaic.Lib.StableHlo.Run
import Idealize.ShloMosaic.Lib.ValueIdx
import Idealize.ShloMosaic.Lib.ValueLayout

set_option maxRecDepth 16384

noncomputable section

open scoped BigOperators

namespace Cert.KernelIdeal.Seg2

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- A buffer no operation of the stretch writes is left as it was. -/
macro "keep_ops" ops:ident : tactic => `(tactic|
  exact StableHlo.after_of_forall_not_mem _ _ (List.forall_iff_forall_mem.mp (by
    simp only [$ops:ident, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-- The first stage's output array is the reference's product: both are, index by index, the same sum over the 128
    input features. -/
theorem w6_v35 (c : Dev nD)
    (x0 : (⟨Cert.ReferenceIdeal.S100000x128, .f32⟩ : BufTy).Contents (Elt Ideal)) (x4 : (⟨Cert.ReferenceIdeal.S128x64, .f32⟩ : BufTy).Contents (Elt Ideal))
    (ha0 : W5 m ρ c (Proc.devRef .tc main_arg0) = x0) (ha4 : W5 m ρ c (Proc.devRef .tc main_arg4) = x4) :
    W6 m ρ c (Proc.devRef .tc main_v35) = Cert.ReferenceIdeal.Read.val_main_v35 (F := Ideal) x0 x4 := by
  refine ((W6_arr m ρ c 2).trans (Lin.final0 (V5 m ρ) c)).trans ?_
  have e0 : Lin.X0 (V5 m ρ) c = x0 := ha0
  have e4 : Lin.W0 (V5 m ρ) c = x4 := ha4
  funext i
  refine Eq.trans ?_ (Cert.ReferenceIdeal.Read.val_main_v35_apply x0 x4 i).symm
  show ∑ k : Fin 128, Lin.X0 (V5 m ρ) c (ix2 (i 0 : Fin 100000) k) * Lin.W0 (V5 m ρ) c (ix2 k (i 1 : Fin 64)) = _
  rw [e0, e4]
  refine Finset.sum_congr rfl fun k _ => ?_
  have hl : (ix2 (i 0 : Fin 100000) k : S100000x128.Idx) = Cert.ReferenceIdeal.Read.lidx_main_v35 i k := by
    funext a; match a with
    | ⟨0, _⟩ => rfl
    | ⟨1, _⟩ => rfl
  have hr : (ix2 k (i 1 : Fin 64) : S128x64.Idx) = Cert.ReferenceIdeal.Read.ridx_main_v35 i k := by
    funext a; match a with
    | ⟨0, _⟩ => rfl
    | ⟨1, _⟩ => rfl
  rw [hl, hr]

set_option maxHeartbeats 400000 in
/-- After the stretch, the aggregation buffer is the reference's: the rows of the product gathered by source node, scaled
    by the edge normalisation, and added into zeros by target node. -/
theorem w7_v48 (c : Dev nD)
    (x0 : (⟨Cert.ReferenceIdeal.S100000x128, .f32⟩ : BufTy).Contents (Elt Ideal)) (x1 : (⟨Cert.ReferenceIdeal.S2x3200000, .i32⟩ : BufTy).Contents (Elt Ideal))
    (x2 : (⟨Cert.ReferenceIdeal.S3200000, .f32⟩ : BufTy).Contents (Elt Ideal)) (x4 : (⟨Cert.ReferenceIdeal.S128x64, .f32⟩ : BufTy).Contents (Elt Ideal))
    (h3 : W5 m ρ c (Proc.devRef .tc main_v3) = Cert.ReferenceIdeal.Read.val_main_v3 (F := Ideal) x1)
    (h6 : W5 m ρ c (Proc.devRef .tc main_v6) = Cert.ReferenceIdeal.Read.val_main_v6 (F := Ideal) x1)
    (h34 : W5 m ρ c (Proc.devRef .tc main_v34) = Cert.ReferenceIdeal.Read.val_main_v34 (F := Ideal) x1 x2)
    (ha0 : W5 m ρ c (Proc.devRef .tc main_arg0) = x0) (ha4 : W5 m ρ c (Proc.devRef .tc main_arg4) = x4) :
    W7 m ρ c (Proc.devRef .tc main_v48) = Cert.ReferenceIdeal.Read.val_main_v48 (F := Ideal) x0 x1 x2 x4 := by
  have h35 := w6_v35 m ρ c x0 x4 ha0 ha4
  have k3 : W6 m ρ c (Proc.devRef .tc main_v3) = Cert.ReferenceIdeal.Read.val_main_v3 (F := Ideal) x1 := (W6_of_ne m ρ c main_v3 (by decide)).trans h3
  have k6 : W6 m ρ c (Proc.devRef .tc main_v6) = Cert.ReferenceIdeal.Read.val_main_v6 (F := Ideal) x1 := (W6_of_ne m ρ c main_v6 (by decide)).trans h6
  have k34 : W6 m ρ c (Proc.devRef .tc main_v34) = Cert.ReferenceIdeal.Read.val_main_v34 (F := Ideal) x1 x2 := (W6_of_ne m ρ c main_v34 (by decide)).trans h34
  show StableHlo.after hostOps1 _ (Proc.devRef .tc main_v48) = _
  after_results
  rw [k3, k6, k34, h35]
  unfold Cert.ReferenceIdeal.Read.val_main_v48 Cert.ReferenceIdeal.Read.val_main_v47 Cert.ReferenceIdeal.Read.val_main_v46 Cert.ReferenceIdeal.Read.val_main_cst_10 Cert.ReferenceIdeal.Read.val_main_v45
    Cert.ReferenceIdeal.Read.val_main_v44 Cert.ReferenceIdeal.Read.val_main_v43 Cert.ReferenceIdeal.Read.val_main_v42 Cert.ReferenceIdeal.Read.val_main_v41 Cert.ReferenceIdeal.Read.val_main_v40
    Cert.ReferenceIdeal.Read.val_main_v39 Cert.ReferenceIdeal.Read.val_main_v38 Cert.ReferenceIdeal.Read.val_main_c_9 Cert.ReferenceIdeal.Read.val_main_v37 Cert.ReferenceIdeal.Read.val_main_v36 Cert.ReferenceIdeal.Read.val_main_c_8
  rfl

/-- The bias row as the stretch leaves it, as a function of its index into the extended reals. -/
abbrev B7 (c : Dev nD) : S1x64.Idx → EReal := W7 m ρ c (Proc.devRef .tc main_v49)

/-- After the stretch, the [1, 64] bias row at (0, q) is the bias at q. -/
theorem w7_v49 (c : Dev nD) (x5 : (⟨Cert.ReferenceIdeal.S64, .f32⟩ : BufTy).Contents (Elt Ideal))
    (ha5 : W5 m ρ c (Proc.devRef .tc main_arg5) = x5) (q : Fin 64) :
    B7 m ρ c (ix2 0 q) = x5 (ix1 q) := by
  have h : W7 m ρ c (Proc.devRef .tc main_v49)
      = shapeCast S1x64 (W6 m ρ c (Proc.devRef .tc main_arg5)) shapeCasts_S64_S1x64 := by
    show StableHlo.after hostOps1 _ (Proc.devRef .tc main_v49) = _
    after_results
    rfl
  have k5 : W6 m ρ c (Proc.devRef .tc main_arg5) = x5 := (W6_of_ne m ρ c main_arg5 (by decide)).trans ha5
  show W7 m ρ c (Proc.devRef .tc main_v49) (ix2 0 q) = _
  rw [h, k5]
  exact shapeCast_a_1a_apply x5 shapeCasts_S64_S1x64 0 q

/-- The stretch and the first stage leave `main_v3` as it was. -/
theorem w7_keep_main_v3 (c : Dev nD) : W7 m ρ c (Proc.devRef .tc main_v3) = W5 m ρ c (Proc.devRef .tc main_v3) :=
  (by keep_ops hostOps1 : W7 m ρ c (Proc.devRef .tc main_v3) = W6 m ρ c (Proc.devRef .tc main_v3)).trans (W6_of_ne m ρ c main_v3 (by decide))

/-- The stretch and the first stage leave `main_v6` as it was. -/
theorem w7_keep_main_v6 (c : Dev nD) : W7 m ρ c (Proc.devRef .tc main_v6) = W5 m ρ c (Proc.devRef .tc main_v6) :=
  (by keep_ops hostOps1 : W7 m ρ c (Proc.devRef .tc main_v6) = W6 m ρ c (Proc.devRef .tc main_v6)).trans (W6_of_ne m ρ c main_v6 (by decide))

/-- The stretch and the first stage leave `main_v34` as it was. -/
theorem w7_keep_main_v34 (c : Dev nD) : W7 m ρ c (Proc.devRef .tc main_v34) = W5 m ρ c (Proc.devRef .tc main_v34) :=
  (by keep_ops hostOps1 : W7 m ρ c (Proc.devRef .tc main_v34) = W6 m ρ c (Proc.devRef .tc main_v34)).trans (W6_of_ne m ρ c main_v34 (by decide))

/-- The stretch and the first stage leave `main_arg3` as it was. -/
theorem w7_keep_main_arg3 (c : Dev nD) : W7 m ρ c (Proc.devRef .tc main_arg3) = W5 m ρ c (Proc.devRef .tc main_arg3) :=
  (by keep_ops hostOps1 : W7 m ρ c (Proc.devRef .tc main_arg3) = W6 m ρ c (Proc.devRef .tc main_arg3)).trans (W6_of_ne m ρ c main_arg3 (by decide))

/-- The stretch and the first stage leave `main_arg6` as it was. -/
theorem w7_keep_main_arg6 (c : Dev nD) : W7 m ρ c (Proc.devRef .tc main_arg6) = W5 m ρ c (Proc.devRef .tc main_arg6) :=
  (by keep_ops hostOps1 : W7 m ρ c (Proc.devRef .tc main_arg6) = W6 m ρ c (Proc.devRef .tc main_arg6)).trans (W6_of_ne m ρ c main_arg6 (by decide))

/-- The stretch and the first stage leave `main_arg7` as it was. -/
theorem w7_keep_main_arg7 (c : Dev nD) : W7 m ρ c (Proc.devRef .tc main_arg7) = W5 m ρ c (Proc.devRef .tc main_arg7) :=
  (by keep_ops hostOps1 : W7 m ρ c (Proc.devRef .tc main_arg7) = W6 m ρ c (Proc.devRef .tc main_arg7)).trans (W6_of_ne m ρ c main_arg7 (by decide))

/-- The stretch and the first stage leave `main_arg8` as it was. -/
theorem w7_keep_main_arg8 (c : Dev nD) : W7 m ρ c (Proc.devRef .tc main_arg8) = W5 m ρ c (Proc.devRef .tc main_arg8) :=
  (by keep_ops hostOps1 : W7 m ρ c (Proc.devRef .tc main_arg8) = W6 m ρ c (Proc.devRef .tc main_arg8)).trans (W6_of_ne m ρ c main_arg8 (by decide))

/-- The stretch and the first stage leave `main_arg9` as it was. -/
theorem w7_keep_main_arg9 (c : Dev nD) : W7 m ρ c (Proc.devRef .tc main_arg9) = W5 m ρ c (Proc.devRef .tc main_arg9) :=
  (by keep_ops hostOps1 : W7 m ρ c (Proc.devRef .tc main_arg9) = W6 m ρ c (Proc.devRef .tc main_arg9)).trans (W6_of_ne m ρ c main_arg9 (by decide))

/-- The stretch and the first stage leave `main_arg10` as it was. -/
theorem w7_keep_main_arg10 (c : Dev nD) : W7 m ρ c (Proc.devRef .tc main_arg10) = W5 m ρ c (Proc.devRef .tc main_arg10) :=
  (by keep_ops hostOps1 : W7 m ρ c (Proc.devRef .tc main_arg10) = W6 m ρ c (Proc.devRef .tc main_arg10)).trans (W6_of_ne m ρ c main_arg10 (by decide))

/-- The stretch and the first stage leave `main_arg11` as it was. -/
theorem w7_keep_main_arg11 (c : Dev nD) : W7 m ρ c (Proc.devRef .tc main_arg11) = W5 m ρ c (Proc.devRef .tc main_arg11) :=
  (by keep_ops hostOps1 : W7 m ρ c (Proc.devRef .tc main_arg11) = W6 m ρ c (Proc.devRef .tc main_arg11)).trans (W6_of_ne m ρ c main_arg11 (by decide))

/-- The stretch and the first stage leave `main_arg12` as it was. -/
theorem w7_keep_main_arg12 (c : Dev nD) : W7 m ρ c (Proc.devRef .tc main_arg12) = W5 m ρ c (Proc.devRef .tc main_arg12) :=
  (by keep_ops hostOps1 : W7 m ρ c (Proc.devRef .tc main_arg12) = W6 m ρ c (Proc.devRef .tc main_arg12)).trans (W6_of_ne m ρ c main_arg12 (by decide))

/-- The stretch and the first stage leave `main_arg13` as it was. -/
theorem w7_keep_main_arg13 (c : Dev nD) : W7 m ρ c (Proc.devRef .tc main_arg13) = W5 m ρ c (Proc.devRef .tc main_arg13) :=
  (by keep_ops hostOps1 : W7 m ρ c (Proc.devRef .tc main_arg13) = W6 m ρ c (Proc.devRef .tc main_arg13)).trans (W6_of_ne m ρ c main_arg13 (by decide))

end Cert.KernelIdeal.Seg2

end
-- ==== Proof.Val.LibVariance.lean ====
/-
  The variance of a finite family of real numbers, two ways, on the extended reals.

  For real numbers h_p (p ranging over a finite type with N ≠ 0 elements) put μ = (∑ h_p) / N. The mean of the squared
  deviations, (∑ (h_p − μ)²) / N, equals the mean of the squares minus the squared mean, (∑ h_p²) / N − μ². Over the
  extended reals the subtraction and the product are total but do not obey the ring laws at the infinities, so the
  identity is stated for entries that are real numbers: every sum and quotient is then the coercion of the real one,
  and the identity is the one of ℝ.
-/
import Idealize.ShloMosaic.PureOps.Ideal

noncomputable section

namespace Cert.Val.Variance

open Idealize.ShloMosaic

/-- A finite sum of real numbers, taken in the extended reals, is the real sum. -/
theorem coe_sum {ι : Type*} (s : Finset ι) (g : ι → ℝ) :
    (∑ p ∈ s, ((g p : ℝ) : EReal)) = ((∑ p ∈ s, g p : ℝ) : EReal) := by
  classical
  induction s using Finset.induction_on with
  | empty => simp
  | insert a s ha ih => rw [Finset.sum_insert ha, Finset.sum_insert ha, ih, EReal.coe_add]

/-- The quotient of two real numbers, the divisor not zero, is the real quotient. -/
theorem div_coe (a b : ℝ) (hb : b ≠ 0) : Ideal.div (a : EReal) (b : EReal) = ((a / b : ℝ) : EReal) := by
  have hb' : ((b : ℝ) : EReal) ≠ 0 := by exact_mod_cast hb
  unfold Ideal.div
  rw [if_neg hb', ← EReal.coe_inv, ← EReal.coe_mul, div_eq_mul_inv]

/-- The identity in ℝ: with N the number of terms, mean of squared deviations = mean of squares − squared mean. -/
theorem real_law {ι : Type*} [Fintype ι] (g : ι → ℝ) (N : ℝ) (hN : N ≠ 0) (hcard : (Fintype.card ι : ℝ) = N) :
    (∑ p, (g p - (∑ p, g p) / N) * (g p - (∑ p, g p) / N)) / N
      = (∑ p, g p * g p) / N - ((∑ p, g p) / N) * ((∑ p, g p) / N) := by
  set S : ℝ := ∑ p, g p with hS
  have e : ∀ p, (g p - S / N) * (g p - S / N) = g p * g p - (2 * (S / N)) * g p + (S / N) * (S / N) := fun p => by ring
  simp only [e]
  rw [Finset.sum_add_distrib, Finset.sum_sub_distrib, ← Finset.mul_sum, Finset.sum_const, Finset.card_univ,
    nsmul_eq_mul, hcard, ← hS]
  field_simp
  ring

/-- The same identity on the extended reals, for a family every member of which is a real number. The mean is taken
    of an arbitrary family `h` with `h p = g p`; the divisor is the real `N`, the number of terms. -/
theorem two_pass_eq_one_pass {ι : Type*} [Fintype ι] (h : ι → EReal) (hreal : ∀ p, ∃ r : ℝ, h p = (r : EReal))
    (N : ℝ) (hN : N ≠ 0) (hcard : (Fintype.card ι : ℝ) = N) :
    Ideal.div (∑ p, (h p - Ideal.div (∑ p, h p) (N : EReal)) * (h p - Ideal.div (∑ p, h p) (N : EReal))) (N : EReal)
      = Ideal.div (∑ p, h p * h p) (N : EReal)
        - Ideal.div (∑ p, h p) (N : EReal) * Ideal.div (∑ p, h p) (N : EReal) := by
  choose g hg using hreal
  have hh : h = fun p => ((g p : ℝ) : EReal) := funext hg
  subst hh
  rw [coe_sum, div_coe _ _ hN]
  simp only [← EReal.coe_sub, ← EReal.coe_mul]
  rw [coe_sum, coe_sum, div_coe _ _ hN, div_coe _ _ hN, ← EReal.coe_sub]
  exact congrArg _ (real_law g N hN hcard)

end Cert.Val.Variance

end
-- ==== Proof.BNMath.lean ====
import Idealize.ShloMosaic.PureOps.Ideal
import proofs.«113360_j59854664237267_1_alg».proof.Proof.LibFinite
import proofs.«113360_j59854664237267_1_alg».proof.Proof.Val.LibVariance

/-!
  Batch normalisation of one column, on the extended reals.

  For a column of N real numbers h_p (N > 0) with mean μ = (∑ h_p)/N, the value
  γ·(h_p − μ)·(σ² + ε)^(−1/2) + β, with σ² the mean of the squared deviations, equals the scale-and-shift form
  h_p·s + (β − μ·s) with s = γ·(E[h²] − μ² + ε)^(−1/2). The two variances agree on real entries; the variance is a
  non-negative real, so with ε > 0 the reciprocal square root is that of a positive real, a real number, and the
  identity is the one of ℝ.
-/

noncomputable section

namespace Cert.BNMath

open Idealize.ShloMosaic Idealize.ShloMosaic.LibFinite
open scoped BigOperators

/-- The reciprocal square root of a positive real number is the real number (√r)⁻¹. -/
theorem rsqrt_of_pos (r : ℝ) (hr : 0 < r) : Ideal.rsqrt (r : EReal) = (((Real.sqrt r)⁻¹ : ℝ) : EReal) := by
  rw [Ideal.rsqrt_coe, if_neg (not_lt.mpr hr.le), if_neg hr.ne']

/-- The mean of N > 0 real numbers is a real number. -/
theorem mean_real {N : ℕ} (hN : 0 < N) (a : Fin N → ℝ) :
    Ideal.div (∑ k, ((a k : ℝ) : EReal)) (((N : ℝ) : EReal)) = (((∑ k, a k) / (N : ℝ) : ℝ) : EReal) := by
  have hN' : (N : ℝ) ≠ 0 := by exact_mod_cast hN.ne'
  rw [← LibFinite.coe_sum, Cert.Val.Variance.div_coe _ _ hN']

/-- The one-pass variance E[h²] − μ² of N > 0 real numbers is a non-negative real number. -/
theorem var_real {N : ℕ} (hN : 0 < N) (a : Fin N → ℝ) :
    ∃ v : ℝ, 0 ≤ v ∧
      Ideal.div (∑ k, ((a k : ℝ) : EReal) * ((a k : ℝ) : EReal)) (((N : ℝ) : EReal))
        - Ideal.div (∑ k, ((a k : ℝ) : EReal)) (((N : ℝ) : EReal))
          * Ideal.div (∑ k, ((a k : ℝ) : EReal)) (((N : ℝ) : EReal)) = (v : EReal) := by
  have hN' : (N : ℝ) ≠ 0 := by exact_mod_cast hN.ne'
  have hcard : ((Fintype.card (Fin N) : ℕ) : ℝ) = (N : ℝ) := by rw [Fintype.card_fin]
  rw [← Cert.Val.Variance.two_pass_eq_one_pass (fun k => ((a k : ℝ) : EReal)) (fun k => ⟨a k, rfl⟩) (N : ℝ) hN' hcard]
  rw [mean_real hN a]
  simp only [← EReal.coe_sub, ← EReal.coe_mul]
  rw [← LibFinite.coe_sum, Cert.Val.Variance.div_coe _ _ hN']
  refine ⟨_, ?_, rfl⟩
  exact div_nonneg (Finset.sum_nonneg fun k _ => mul_self_nonneg _) (Nat.cast_nonneg N)

/-- Both forms of the normalised entry of a column of real numbers are one and the same real number. -/
theorem bn_column_coe {N : ℕ} (hN : 0 < N) (a : Fin N → ℝ) (ε γ β : ℝ) (hε : 0 < ε) (p : Fin N) :
    ∃ x : ℝ,
      ((a p : ℝ) : EReal) * ((γ : EReal) * Ideal.rsqrt (Ideal.div (∑ k, ((a k : ℝ) : EReal) * ((a k : ℝ) : EReal)) ((N : ℝ) : EReal)
            - Ideal.div (∑ k, ((a k : ℝ) : EReal)) ((N : ℝ) : EReal) * Ideal.div (∑ k, ((a k : ℝ) : EReal)) ((N : ℝ) : EReal) + (ε : EReal)))
          + ((β : EReal) - Ideal.div (∑ k, ((a k : ℝ) : EReal)) ((N : ℝ) : EReal)
              * ((γ : EReal) * Ideal.rsqrt (Ideal.div (∑ k, ((a k : ℝ) : EReal) * ((a k : ℝ) : EReal)) ((N : ℝ) : EReal)
                - Ideal.div (∑ k, ((a k : ℝ) : EReal)) ((N : ℝ) : EReal) * Ideal.div (∑ k, ((a k : ℝ) : EReal)) ((N : ℝ) : EReal) + (ε : EReal))))
        = (x : EReal) ∧
      (γ : EReal) * (((a p : ℝ) : EReal) - Ideal.div (0 + ∑ k, ((a k : ℝ) : EReal)) ((N : ℝ) : EReal))
          * Ideal.rsqrt (Ideal.div (0 + ∑ k, (((a k : ℝ) : EReal) - Ideal.div (0 + ∑ k, ((a k : ℝ) : EReal)) ((N : ℝ) : EReal))
              * (((a k : ℝ) : EReal) - Ideal.div (0 + ∑ k, ((a k : ℝ) : EReal)) ((N : ℝ) : EReal))) ((N : ℝ) : EReal) + (ε : EReal))
          + (β : EReal)
        = (x : EReal) := by
  have hN' : (N : ℝ) ≠ 0 := by exact_mod_cast hN.ne'
  have hcard : ((Fintype.card (Fin N) : ℕ) : ℝ) = (N : ℝ) := by rw [Fintype.card_fin]
  obtain ⟨v, hv0, hv⟩ := var_real hN a
  have hpos : 0 < v + ε := by linarith
  simp only [zero_add]
  rw [Cert.Val.Variance.two_pass_eq_one_pass (fun k => ((a k : ℝ) : EReal)) (fun k => ⟨a k, rfl⟩) (N : ℝ) hN' hcard]
  rw [hv, mean_real hN a, ← EReal.coe_add, rsqrt_of_pos _ hpos]
  simp only [← EReal.coe_sub, ← EReal.coe_mul, ← EReal.coe_add]
  refine ⟨_, rfl, ?_⟩
  exact congrArg _ (by ring)

/-- Batch normalisation of a column followed by the rectifier: the scale-and-shift form with the one-pass variance
    equals γ·(h − μ)·(σ² + ε)^(−1/2) + β with the two-pass variance (sums started at 0). -/
theorem bn_column {N : ℕ} (hN : 0 < N) (h : Fin N → EReal) (hh : ∀ p, IsReal (h p)) (n e g b : EReal)
    (hn : n = ((N : ℝ) : EReal)) (he : ∃ r : ℝ, 0 < r ∧ e = (r : EReal)) (hg : IsReal g) (hb : IsReal b) (p : Fin N) :
    max (h p * (g * Ideal.rsqrt (Ideal.div (∑ k, h k * h k) n - Ideal.div (∑ k, h k) n * Ideal.div (∑ k, h k) n + e))
          + (b - Ideal.div (∑ k, h k) n * (g * Ideal.rsqrt (Ideal.div (∑ k, h k * h k) n - Ideal.div (∑ k, h k) n * Ideal.div (∑ k, h k) n + e)))) 0
    = max (g * (h p - Ideal.div (0 + ∑ k, h k) n)
            * Ideal.rsqrt (Ideal.div (0 + ∑ k, (h k - Ideal.div (0 + ∑ k, h k) n) * (h k - Ideal.div (0 + ∑ k, h k) n)) n + e)
          + b) 0 := by
  subst hn
  obtain ⟨ε, hε, rfl⟩ := he
  obtain ⟨γ, rfl⟩ := hg
  obtain ⟨β, rfl⟩ := hb
  choose a ha using hh
  obtain rfl : h = fun k => ((a k : ℝ) : EReal) := funext ha
  obtain ⟨x, hx, hy⟩ := bn_column_coe hN a ε γ β hε p
  exact (congrArg (fun t => max t (0 : EReal)) hx).trans (congrArg (fun t => max t (0 : EReal)) hy).symm

/-- The rectified scale-and-shift form is a real number. -/
theorem bn_column_real {N : ℕ} (hN : 0 < N) (h : Fin N → EReal) (hh : ∀ p, IsReal (h p)) (n e g b : EReal)
    (hn : n = ((N : ℝ) : EReal)) (he : ∃ r : ℝ, 0 < r ∧ e = (r : EReal)) (hg : IsReal g) (hb : IsReal b) (p : Fin N) :
    IsReal (max (h p * (g * Ideal.rsqrt (Ideal.div (∑ k, h k * h k) n - Ideal.div (∑ k, h k) n * Ideal.div (∑ k, h k) n + e))
          + (b - Ideal.div (∑ k, h k) n * (g * Ideal.rsqrt (Ideal.div (∑ k, h k * h k) n - Ideal.div (∑ k, h k) n * Ideal.div (∑ k, h k) n + e)))) 0) := by
  subst hn
  obtain ⟨ε, hε, rfl⟩ := he
  obtain ⟨γ, rfl⟩ := hg
  obtain ⟨β, rfl⟩ := hb
  choose a ha using hh
  obtain rfl : h = fun k => ((a k : ℝ) : EReal) := funext ha
  obtain ⟨x, hx, -⟩ := bn_column_coe hN a ε γ β hε p
  exact (congrArg (fun t => IsReal (max t (0 : EReal))) hx).mpr (IsReal.max _ _ (IsReal.coe x) IsReal.zero)

/-- The single-precision word 0x47C35000 denotes 100000: sign +, exponent field 143, fraction field 4411392, so
    (2²³ + 4411392)·2^(143 − 127 − 23) = 12800000/128. -/
theorem ofBits_n : Ideal.ofBits .f32 0x47C35000#32 = ((100000 : ℝ) : EReal) := by
  show Ideal.ieee 8 23 (0x47C35000#32 : BitVec 32) = _
  unfold Ideal.ieee
  have h1 : ((0x47C35000#32 : BitVec 32).extractLsb' (8 + 23) 1 == 1#1) = false := by decide
  have h2 : ((0x47C35000#32 : BitVec 32).extractLsb' 23 8).toNat = 143 := by decide
  have h3 : ((0x47C35000#32 : BitVec 32).extractLsb' 0 23).toNat = 4411392 := by decide
  simp only [h1, h2, h3]
  norm_num

/-- The single-precision word 0x3727C5AC denotes a positive real number: sign +, exponent field 110, fraction field
    2606508, so (2²³ + 2606508)·2^(110 − 127 − 23). -/
theorem ofBits_eps : ∃ r : ℝ, 0 < r ∧ Ideal.ofBits .f32 0x3727C5AC#32 = (r : EReal) := by
  show ∃ r : ℝ, 0 < r ∧ Ideal.ieee 8 23 (0x3727C5AC#32 : BitVec 32) = _
  unfold Ideal.ieee
  have h1 : ((0x3727C5AC#32 : BitVec 32).extractLsb' (8 + 23) 1 == 1#1) = false := by decide
  have h2 : ((0x3727C5AC#32 : BitVec 32).extractLsb' 23 8).toNat = 110 := by decide
  have h3 : ((0x3727C5AC#32 : BitVec 32).extractLsb' 0 23).toNat = 2606508 := by decide
  simp only [h1, h2, h3]
  norm_num

end Cert.BNMath

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.Norm.lean ====
/-
  The two normalization regions, read: each leaves, at row p and column q of its output array, the input's
  entry there times the column's scale plus the column's shift, clamped below at zero. Per region: the body's
  result at one element; what a grid point writes back as a block of one whole-array function; the blocks
  cover the array; so the array after the region is that function.
-/
import proofs.«113360_j59854664237267_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.Norm

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets, however spelt. -/
theorem hz : (![0, 0] : Fin 2 → Nat) = fun _ => 0 := funext fun a => by fin_cases a <;> rfl

/-- Scale by the column's coefficient, shift by the column's offset, clamp below at zero: the normalized
    activations as one function of the whole arrays, index by index. -/
abbrev scaleShiftClamp (h : S100000x64.Idx → EReal) (a b : S1x64.Idx → EReal) : S100000x64.Idx → EReal :=
  fun i => max (h i * a (ix2 0 (i 1)) + b (ix2 0 (i 1))) 0

/-! ## The first normalization (region 2) -/

/-- The normalize payload read at one element: the row's entry scaled and shifted by the column's
    coefficients, then clamped below at zero. -/
theorem pay2_apply (x0 : Vec Ideal S2000x64 .f32) (x1 x2 : Vec Ideal S1x64 .f32) (r : Fin 2000) (q : Fin 64) :
    k2_pay1 (F := Ideal) x0 x1 x2 (ix2 r q) = max (x0 (ix2 r q) * x1 (ix2 0 q) + x2 (ix2 0 q)) 0 := by
  unfold k2_pay1
  simp only [maximumf_apply, addf_apply, mulf_apply, broadcast_apply, shapeCast_self]
  have h1 : broadcastTo S2000x64 x1 broadcasts_S1x64_S2000x64 (ix2 r q) = x1 (ix2 0 q) :=
    broadcastTo_1b_ab_apply (a := 2000) (b := 64) x1 broadcasts_S1x64_S2000x64 r q
  have h2 : broadcastTo S2000x64 x2 broadcasts_S1x64_S2000x64 (ix2 r q) = x2 (ix2 0 q) :=
    broadcastTo_1b_ab_apply (a := 2000) (b := 64) x2 broadcasts_S1x64_S2000x64 r q
  rw [h1, h2]
  exact congrArg _ Ideal.ofBits_zero_f32

/-- One element of a block's result is the whole-array function at the element's place in the array, when the
    row block reads the array there, the columns agree, and the coefficient blocks are the coefficient rows. -/
theorem point2 (h : S100000x64.Idx → EReal) (a b : S1x64.Idx → EReal)
    (x0 : Vec Ideal S2000x64 .f32) (x1 x2 : Vec Ideal S1x64 .f32) (y : S2000x64.Idx) (i : S100000x64.Idx)
    (h0 : x0 y = h i) (hq : (i 1).val = (y 1).val)
    (h1 : ∀ q : Fin 64, x1 (ix2 0 q) = a (ix2 0 q)) (h2 : ∀ q : Fin 64, x2 (ix2 0 q) = b (ix2 0 q)) :
    k2_pay1 (F := Ideal) x0 x1 x2 y = scaleShiftClamp h a b i := by
  obtain ⟨r, q, rfl⟩ : ∃ (r : Fin 2000) (q : Fin 64), y = ix2 r q := ⟨y 0, y 1, eq_ix2 y⟩
  rw [pay2_apply]
  have e : i 1 = q := Fin.ext hq
  show _ = max (h i * a (ix2 0 (i 1)) + b (ix2 0 (i 1))) 0
  rw [e, h0, h1, h2]

/-- The printed index maps, decided over the grid: the row blocks of the input and of the output sit at the
    point's number, and the coefficient rows are read whole at every point. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What a point writes back is its block of the whole-array function of the arrays as the region finds them. -/
theorem flushed2_eq (c : Dev nD) (t : Fin cfg2.N) :
    (dat2 (F := Ideal) V c).flushed 3 t
      = ((cfg2.win 3).blk t).view.read (Elt Ideal) (scaleShiftClamp (V c main_v50_0) (V c main_v61) (V c main_v64)) := by
  show (cfg2.win 3).cut (grid2.coords t) ((dat2 (F := Ideal) V c).after 3 t) = _
  rw [after2_3]
  unfold out2_3
  rw [View.canon_unit_zero hz]
  simp only [View.ld_unit_zero (S := S2000x64) hz, View.ld_unit_zero (S := S1x64) hz]
  obtain ⟨e00, e01, e10, e11, e20, e21, e30, e31⟩ := idx_facts2 t
  funext j
  show k2_pay1 (F := Ideal) (iblk2 V c 0 t) (iblk2 V c 1 t) (iblk2 V c 2 t) ((cfg2.win 3).xinj (grid2.coords t) j)
    = scaleShiftClamp (V c main_v50_0) (V c main_v61) (V c main_v64) (((cfg2.win 3).blk t).view.emb j)
  refine point2 (V c main_v50_0) (V c main_v61) (V c main_v64) (iblk2 V c 0 t) (iblk2 V c 1 t) (iblk2 V c 2 t) _ _ ?_ ?_ ?_ ?_
  · show V c main_v50_0 (((cfg2.win 0).blk t).view.emb ((cfg2.win 3).xinj (grid2.coords t) j))
      = V c main_v50_0 (((cfg2.win 3).blk t).view.emb j)
    refine congrArg (V c main_v50_0) ?_
    funext a; apply Fin.ext
    match a with
    | ⟨0, _⟩ =>
      show win2_0.index t (0 : Fin 2) * 2000 + 1 * (j 0).val = win2_3.index t (0 : Fin 2) * 2000 + 1 * (j 0).val
      rw [e00, e30]
    | ⟨1, _⟩ =>
      show win2_0.index t (1 : Fin 2) * 64 + 1 * (j 1).val = win2_3.index t (1 : Fin 2) * 64 + 1 * (j 1).val
      rw [e01, e31]
  · show win2_3.index t (1 : Fin 2) * 64 + 1 * (j 1).val = (j 1).val
    omega
  · intro q
    show V c main_v61 (((cfg2.win 1).blk t).view.emb (ix2 0 q)) = V c main_v61 (ix2 0 q)
    refine congrArg (V c main_v61) ?_
    funext a; apply Fin.ext
    match a with
    | ⟨0, _⟩ => show win2_1.index t (0 : Fin 2) * 1 + 1 * 0 = 0; omega
    | ⟨1, _⟩ => show win2_1.index t (1 : Fin 2) * 64 + 1 * q.val = q.val; omega
  · intro q
    show V c main_v64 (((cfg2.win 2).blk t).view.emb (ix2 0 q)) = V c main_v64 (ix2 0 q)
    refine congrArg (V c main_v64) ?_
    funext a; apply Fin.ext
    match a with
    | ⟨0, _⟩ => show win2_2.index t (0 : Fin 2) * 1 + 1 * 0 = 0; omega
    | ⟨1, _⟩ => show win2_2.index t (1 : Fin 2) * 64 + 1 * q.val = q.val; omega

/-- An index of the array is in a point's block iff each coordinate is in the block's range on its axis. -/
theorem mem_blk2 (t : Fin cfg2.N) (i : S100000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v65).slice (win2_3.rect t)).set ↔ _
  rw [View.set_slice_whole, Rect.mem_set_unit]
  exact Iff.rfl

/-- Every row is in the block of the point numbered by the row's quotient by the block height. -/
theorem cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  let t : Fin cfg2.N := ⟨(i 0).val / 2000, by show (i 0).val / 2000 < 50; omega⟩
  obtain ⟨-, -, -, -, -, -, e30, e31⟩ := idx_facts2 t
  have ht : t.val = (i 0).val / 2000 := rfl
  refine ⟨t, flush2_3 t, ?_⟩
  rw [mem_blk2]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 64 ≤ (i 1).val ∧ (i 1).val < win2_3.index t (1 : Fin 2) * 64 + 64; omega

/-- The normalized array after the region: the whole-array function of the arrays the region finds. -/
theorem final2 (c : Dev nD) :
    (dat2 (F := Ideal) V c).arrAt 3 cfg2.N = scaleShiftClamp (V c main_v50_0) (V c main_v61) (V c main_v64) :=
  (dat2 (F := Ideal) V c).arrAt_eq_of_cover 3 _ (fun t _ => flushed2_eq V c t) cover2

/-- The normalized array at one element, the three arrays the region reads named as functions. -/
theorem norm2_of (c : Dev nD) (h : S100000x64.Idx → EReal) (a b : S1x64.Idx → EReal)
    (hh : V c main_v50_0 = h) (ha : V c main_v61 = a) (hb : V c main_v64 = b) (p : Fin 100000) (q : Fin 64) :
    ((dat2 (F := Ideal) V c).arrAt 3 cfg2.N : S100000x64.Idx → EReal) (ix2 p q)
      = max (h (ix2 p q) * a (ix2 0 q) + b (ix2 0 q)) 0 := by
  rw [final2]; subst hh ha hb; rfl

/-- The normalized array at one element: the whole-array function of the arrays the region finds, there. -/
theorem norm2 (c : Dev nD) (p : Fin 100000) (q : Fin 64) :
    ((dat2 (F := Ideal) V c).arrAt 3 cfg2.N : S100000x64.Idx → EReal) (ix2 p q)
      = scaleShiftClamp (V c main_v50_0) (V c main_v61) (V c main_v64) (ix2 p q) :=
  norm2_of V c _ _ _ rfl rfl rfl p q

/-! ## The second normalization (region 5) -/

/-- The normalize payload read at one element: the row's entry scaled and shifted by the column's
    coefficients, then clamped below at zero. -/
theorem pay5_apply (x0 : Vec Ideal S2000x64 .f32) (x1 x2 : Vec Ideal S1x64 .f32) (r : Fin 2000) (q : Fin 64) :
    k5_pay1 (F := Ideal) x0 x1 x2 (ix2 r q) = max (x0 (ix2 r q) * x1 (ix2 0 q) + x2 (ix2 0 q)) 0 := by
  unfold k5_pay1
  simp only [maximumf_apply, addf_apply, mulf_apply, broadcast_apply, shapeCast_self]
  have h1 : broadcastTo S2000x64 x1 broadcasts_S1x64_S2000x64 (ix2 r q) = x1 (ix2 0 q) :=
    broadcastTo_1b_ab_apply (a := 2000) (b := 64) x1 broadcasts_S1x64_S2000x64 r q
  have h2 : broadcastTo S2000x64 x2 broadcasts_S1x64_S2000x64 (ix2 r q) = x2 (ix2 0 q) :=
    broadcastTo_1b_ab_apply (a := 2000) (b := 64) x2 broadcasts_S1x64_S2000x64 r q
  rw [h1, h2]
  exact congrArg _ Ideal.ofBits_zero_f32

/-- One element of a block's result is the whole-array function at the element's place in the array, when the
    row block reads the array there, the columns agree, and the coefficient blocks are the coefficient rows. -/
theorem point5 (h : S100000x64.Idx → EReal) (a b : S1x64.Idx → EReal)
    (x0 : Vec Ideal S2000x64 .f32) (x1 x2 : Vec Ideal S1x64 .f32) (y : S2000x64.Idx) (i : S100000x64.Idx)
    (h0 : x0 y = h i) (hq : (i 1).val = (y 1).val)
    (h1 : ∀ q : Fin 64, x1 (ix2 0 q) = a (ix2 0 q)) (h2 : ∀ q : Fin 64, x2 (ix2 0 q) = b (ix2 0 q)) :
    k5_pay1 (F := Ideal) x0 x1 x2 y = scaleShiftClamp h a b i := by
  obtain ⟨r, q, rfl⟩ : ∃ (r : Fin 2000) (q : Fin 64), y = ix2 r q := ⟨y 0, y 1, eq_ix2 y⟩
  rw [pay5_apply]
  have e : i 1 = q := Fin.ext hq
  show _ = max (h i * a (ix2 0 (i 1)) + b (ix2 0 (i 1))) 0
  rw [e, h0, h1, h2]

/-- The printed index maps, decided over the grid: the row blocks of the input and of the output sit at the
    point's number, and the coefficient rows are read whole at every point. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What a point writes back is its block of the whole-array function of the arrays as the region finds them. -/
theorem flushed5_eq (c : Dev nD) (t : Fin cfg5.N) :
    (dat5 (F := Ideal) V c).flushed 3 t
      = ((cfg5.win 3).blk t).view.read (Elt Ideal) (scaleShiftClamp (V c main_v81_0) (V c main_v92) (V c main_v95)) := by
  show (cfg5.win 3).cut (grid5.coords t) ((dat5 (F := Ideal) V c).after 3 t) = _
  rw [after5_3]
  unfold out5_3
  rw [View.canon_unit_zero hz]
  simp only [View.ld_unit_zero (S := S2000x64) hz, View.ld_unit_zero (S := S1x64) hz]
  obtain ⟨e00, e01, e10, e11, e20, e21, e30, e31⟩ := idx_facts5 t
  funext j
  show k5_pay1 (F := Ideal) (iblk5 V c 0 t) (iblk5 V c 1 t) (iblk5 V c 2 t) ((cfg5.win 3).xinj (grid5.coords t) j)
    = scaleShiftClamp (V c main_v81_0) (V c main_v92) (V c main_v95) (((cfg5.win 3).blk t).view.emb j)
  refine point5 (V c main_v81_0) (V c main_v92) (V c main_v95) (iblk5 V c 0 t) (iblk5 V c 1 t) (iblk5 V c 2 t) _ _ ?_ ?_ ?_ ?_
  · show V c main_v81_0 (((cfg5.win 0).blk t).view.emb ((cfg5.win 3).xinj (grid5.coords t) j))
      = V c main_v81_0 (((cfg5.win 3).blk t).view.emb j)
    refine congrArg (V c main_v81_0) ?_
    funext a; apply Fin.ext
    match a with
    | ⟨0, _⟩ =>
      show win5_0.index t (0 : Fin 2) * 2000 + 1 * (j 0).val = win5_3.index t (0 : Fin 2) * 2000 + 1 * (j 0).val
      rw [e00, e30]
    | ⟨1, _⟩ =>
      show win5_0.index t (1 : Fin 2) * 64 + 1 * (j 1).val = win5_3.index t (1 : Fin 2) * 64 + 1 * (j 1).val
      rw [e01, e31]
  · show win5_3.index t (1 : Fin 2) * 64 + 1 * (j 1).val = (j 1).val
    omega
  · intro q
    show V c main_v92 (((cfg5.win 1).blk t).view.emb (ix2 0 q)) = V c main_v92 (ix2 0 q)
    refine congrArg (V c main_v92) ?_
    funext a; apply Fin.ext
    match a with
    | ⟨0, _⟩ => show win5_1.index t (0 : Fin 2) * 1 + 1 * 0 = 0; omega
    | ⟨1, _⟩ => show win5_1.index t (1 : Fin 2) * 64 + 1 * q.val = q.val; omega
  · intro q
    show V c main_v95 (((cfg5.win 2).blk t).view.emb (ix2 0 q)) = V c main_v95 (ix2 0 q)
    refine congrArg (V c main_v95) ?_
    funext a; apply Fin.ext
    match a with
    | ⟨0, _⟩ => show win5_2.index t (0 : Fin 2) * 1 + 1 * 0 = 0; omega
    | ⟨1, _⟩ => show win5_2.index t (1 : Fin 2) * 64 + 1 * q.val = q.val; omega

/-- An index of the array is in a point's block iff each coordinate is in the block's range on its axis. -/
theorem mem_blk5 (t : Fin cfg5.N) (i : S100000x64.Idx) :
    i ∈ ((cfg5.win 3).blk t).view.set ↔ ∀ a : Fin 2, win5_3.index t a * S2000x64.size a ≤ (i a).val ∧ (i a).val < win5_3.index t a * S2000x64.size a + S2000x64.size a := by
  show i ∈ ((View.whole main_v96).slice (win5_3.rect t)).set ↔ _
  rw [View.set_slice_whole, Rect.mem_set_unit]
  exact Iff.rfl

/-- Every row is in the block of the point numbered by the row's quotient by the block height. -/
theorem cover5 (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  let t : Fin cfg5.N := ⟨(i 0).val / 2000, by show (i 0).val / 2000 < 50; omega⟩
  obtain ⟨-, -, -, -, -, -, e30, e31⟩ := idx_facts5 t
  have ht : t.val = (i 0).val / 2000 := rfl
  refine ⟨t, flush5_3 t, ?_⟩
  rw [mem_blk5]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 64 ≤ (i 1).val ∧ (i 1).val < win5_3.index t (1 : Fin 2) * 64 + 64; omega

/-- The normalized array after the region: the whole-array function of the arrays the region finds. -/
theorem final5 (c : Dev nD) :
    (dat5 (F := Ideal) V c).arrAt 3 cfg5.N = scaleShiftClamp (V c main_v81_0) (V c main_v92) (V c main_v95) :=
  (dat5 (F := Ideal) V c).arrAt_eq_of_cover 3 _ (fun t _ => flushed5_eq V c t) cover5

/-- The normalized array at one element, the three arrays the region reads named as functions. -/
theorem norm5_of (c : Dev nD) (h : S100000x64.Idx → EReal) (a b : S1x64.Idx → EReal)
    (hh : V c main_v81_0 = h) (ha : V c main_v92 = a) (hb : V c main_v95 = b) (p : Fin 100000) (q : Fin 64) :
    ((dat5 (F := Ideal) V c).arrAt 3 cfg5.N : S100000x64.Idx → EReal) (ix2 p q)
      = max (h (ix2 p q) * a (ix2 0 q) + b (ix2 0 q)) 0 := by
  rw [final5]; subst hh ha hb; rfl

/-- The normalized array at one element: the whole-array function of the arrays the region finds, there. -/
theorem norm5 (c : Dev nD) (p : Fin 100000) (q : Fin 64) :
    ((dat5 (F := Ideal) V c).arrAt 3 cfg5.N : S100000x64.Idx → EReal) (ix2 p q)
      = scaleShiftClamp (V c main_v81_0) (V c main_v92) (V c main_v95) (ix2 p q) :=
  norm5_of V c _ _ _ rfl rfl rfl p q

end Cert.KernelIdeal.Norm

end
-- ==== Proof.LibColReduce.lean ====
/-
  Reductions of a two-axis array along its FIRST axis, read at an index over the extended reals: the sum down column q is
  the plain sum over the rows of the entries of that column, the minimum down column q is min folded over the rows from
  the initial word. The companions, for the first axis, of the row reductions along the second. For any extents and
  element type. Names no program.
-/
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibColReduce

open Idealize.ShloMosaic Idealize.ShloMosaic.ValueIdx

variable {a b : ℕ}

/-- Result index q of a reduction along the first axis, with the dropped coordinate k put back, is (k, q). -/
theorem lift_col (h : (⟨2, ![a, b]⟩ : Shape).Reduces [(0 : Fin 2)] ⟨1, ![b]⟩) (q : Fin b) (k : Fin a) :
    h.lift (ix1 q) k = ix2 k q := by
  funext c
  apply Fin.ext
  match c with
  | ⟨0, _⟩ => rfl
  | ⟨1, _⟩ => rfl

/-- The sum down column q: the plain sum over the rows. -/
theorem colSum_apply {φ : FTy} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ) (q : Fin b) :
    multiReduction .add [(0 : Fin 2)] ⟨1, ![b]⟩ src acc h hφ hacc (ix1 q) = ∑ k : Fin a, src (ix2 k q) :=
  (Ideal.multiReduction_add_single src acc h hφ hacc (ix1 q)).trans
    (Finset.sum_congr rfl fun k _ => congrArg src (lift_col h q k))

/-- The minimum down column q: min folded over the rows from the initial word. -/
theorem colMin_apply {φ : FTy} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.minimumf.neutral φ hφ) (q : Fin b) :
    multiReduction .minimumf [(0 : Fin 2)] ⟨1, ![b]⟩ src acc h hφ hacc (ix1 q)
      = (Finset.univ : Finset (Fin a)).fold min (FloatOps.ofBits (F := Ideal) φ acc) (fun k => src (ix2 k q)) := by
  rw [multiReduction_minimumf_eq_fold]
  refine (h.fold_filter_drop_single _ _ src (ix1 q)).trans ?_
  exact congrArg (fun f => (Finset.univ : Finset (Fin a)).fold min (FloatOps.ofBits (F := Ideal) φ acc) f)
    (funext fun k => congrArg src (lift_col h q k))

/-- The sum down column q of an f32 array from the zero word, with the side condition on the initial word spelt as an
    equation between the two literal words (the form a printed reduction carries). -/
theorem colSum_f32 (src : FVec Ideal ⟨2, ![a, b]⟩ .f32)
    (h : (⟨2, ![a, b]⟩ : Shape).Reduces [(0 : Fin 2)] ⟨1, ![b]⟩) (hφ : FKind.Formats .f32)
    (hacc : (0x00000000#32 : BitVec 32) = 0x00000000#32) (q : Fin b) :
    multiReduction .add [(0 : Fin 2)] ⟨1, ![b]⟩ src 0x00000000#32 h hφ hacc (ix1 q) = ∑ k : Fin a, src (ix2 k q) :=
  colSum_apply src 0x00000000#32 h hφ hacc q

/-- The minimum down column q of an f32 array from the word of +∞, the side condition spelt the same way. -/
theorem colMin_f32 (src : FVec Ideal ⟨2, ![a, b]⟩ .f32)
    (h : (⟨2, ![a, b]⟩ : Shape).Reduces [(0 : Fin 2)] ⟨1, ![b]⟩) (hφ : FKind.Formats .f32)
    (hacc : (0x7F800000#32 : BitVec 32) = 0x7F800000#32) (q : Fin b) :
    multiReduction .minimumf [(0 : Fin 2)] ⟨1, ![b]⟩ src 0x7F800000#32 h hφ hacc (ix1 q)
      = (Finset.univ : Finset (Fin a)).fold min (Ideal.ofBits .f32 0x7F800000#32) (fun k => src (ix2 k q)) :=
  colMin_apply src 0x7F800000#32 h hφ hacc q

end Cert.LibColReduce

end
-- ==== Proof.LibSumBlocks.lean ====
/-
  A sum over consecutive blocks is the sum over the whole range.

  For a function f on the natural numbers with values in an additive commutative monoid, adding up, block by
  block, the n values f (n * kb), ..., f (n * kb + n - 1) of each of the B blocks kb = 0, ..., B - 1 gives the
  sum of f over all of 0, ..., B * n - 1.
-/
import Mathlib.Algebra.BigOperators.Fin

namespace Cert.Hamming

/-- The sum over `B` consecutive blocks of length `n` (block `kb` holding the arguments `n * kb + j`, `j < n`)
is the sum over the whole range `0, ..., B * n - 1`. -/
theorem sum_blocks {M : Type*} [AddCommMonoid M] (B n : ℕ) (f : ℕ → M) :
    ∑ kb ∈ Finset.range B, ∑ j : Fin n, f (n * kb + j.val) = ∑ d : Fin (B * n), f d.val := by
  rw [Fin.sum_univ_eq_sum_range (fun d => f d) (B * n)]
  induction B with
  | zero => simp
  | succ B ih =>
    rw [Finset.sum_range_succ, ih, Nat.succ_mul, Finset.sum_range_add,
      Fin.sum_univ_eq_sum_range (fun j => f (n * B + j)) n, Nat.mul_comm n B]

/-- Ten blocks of length 1024 make up the range `0, ..., 10239`. -/
theorem sum_blocks_10_1024 {M : Type*} [AddCommMonoid M] (f : ℕ → M) :
    ∑ kb ∈ Finset.range 10, ∑ j : Fin 1024, f (1024 * kb + j.val) = ∑ d : Fin 10240, f d.val :=
  sum_blocks 10 1024 f

end Cert.Hamming
-- ==== Proof.Reduce.lean ====
/-
  The two batch-norm reduction regions, read as values over the extended reals.

  Each region walks the 100000 rows of an array in fifty blocks of 2000 rows. At every block it forms
  h = (aggregated rows) + (bias row), writes that block of h out, and adds the block's column sums of h and of h * h
  into two accumulator rows, which start from zero at the first block and are written out once, after the last block.
  So the first output array is h entry by entry, and the two rows end at the sums over all 100000 rows of h and of h * h,
  column by column: the running rows after block n hold the sums over blocks 0, ..., n (induction on n; addition of
  extended reals is commutative and associative), and fifty consecutive blocks of 2000 rows are all the rows.
-/
import proofs.«113360_j59854664237267_1_alg».proof.Proof.Gen.KernelIdeal.Frame
import proofs.«113360_j59854664237267_1_alg».proof.Proof.LibColReduce
import proofs.«113360_j59854664237267_1_alg».proof.Proof.LibSumBlocks
import Idealize.ShloMosaic.Lib.Pipeline.Value
import Idealize.ShloMosaic.PureOps.Ideal
import Idealize.ShloMosaic.PureOps.Ideal.Laws
import Idealize.ShloMosaic.Lib.ValueLayout
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Reduce
open Cert.KernelIdeal Cert.KernelIdeal.Gen

/-! ## The first reduction region -/

section Pieces
variable {F : FTy → Type} [FloatOps F]

theorem hz : (![0, 0] : Fin 2 → Nat) = fun _ => 0 := funext fun a => by fin_cases a <;> rfl

theorem out1_A_2_eq (c : Dev nD) (i : grid1.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S1x64 .f32) (h4 : a4.IsWhole) (a5 : Memref sig .tc .vmem S1x64 .f32) (h5 : a5.IsWhole) (hc : cond1_0 i)
    (x0 : Vec F S2000x64 .f32) (x1 : Vec F S1x64 .f32) :
    out1_A_2 c i a1 h1 a2 h2 a3 h3 a4 h4 a5 h5 hc x0 x1 = k1_pay1 x0 x1 := by
  unfold out1_A_2
  rw [View.read_writes_eq_canon _ _ _ (cover1_A_2 c i a1 h1 a2 h2 a3 h3 a4 h4 a5 h5 hc x0 x1)]
  unfold kernelRun1_A
  dsimp only
  rw [View.canon_unit_zero hz]
  simp only [View.readAt_eq_ld, h1.read_unread, h2.read_unread, View.ld_unit_zero (S := S2000x64) hz, View.ld_unit_zero (S := S1x64) hz]

theorem out1_A_3_eq (c : Dev nD) (i : grid1.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S1x64 .f32) (h4 : a4.IsWhole) (a5 : Memref sig .tc .vmem S1x64 .f32) (h5 : a5.IsWhole) (hc : cond1_0 i)
    (x0 : Vec F S2000x64 .f32) (x1 : Vec F S1x64 .f32) :
    out1_A_3 c i a1 h1 a2 h2 a3 h3 a4 h4 a5 h5 hc x0 x1 = k1_pay4 x0 x1 k1_pay2 := by
  unfold out1_A_3
  rw [View.read_writes_eq_canon _ _ _ (cover1_A_3 c i a1 h1 a2 h2 a3 h3 a4 h4 a5 h5 hc x0 x1)]
  unfold kernelRun1_A
  dsimp only
  sl_unfold_words
  rw [View.canon_cons_unit_zero (S := S1x64) hz, View.readCov_unit_zero (S := S1x64) _ hz]
  simp only [View.readAt_eq_ld, h1.read_unread, h2.read_unread, View.ld_unit_zero (S := S2000x64) hz, View.ld_unit_zero (S := S1x64) hz]

theorem out1_A_4_eq (c : Dev nD) (i : grid1.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S1x64 .f32) (h4 : a4.IsWhole) (a5 : Memref sig .tc .vmem S1x64 .f32) (h5 : a5.IsWhole) (hc : cond1_0 i)
    (x0 : Vec F S2000x64 .f32) (x1 : Vec F S1x64 .f32) :
    out1_A_4 c i a1 h1 a2 h2 a3 h3 a4 h4 a5 h5 hc x0 x1 = k1_pay5 x0 x1 k1_pay3 := by
  unfold out1_A_4
  rw [View.read_writes_eq_canon _ _ _ (cover1_A_4 c i a1 h1 a2 h2 a3 h3 a4 h4 a5 h5 hc x0 x1)]
  unfold kernelRun1_A
  dsimp only
  sl_unfold_words
  rw [View.canon_cons_unit_zero (S := S1x64) hz, View.readCov_unit_zero (S := S1x64) _ hz]
  simp only [View.readAt_eq_ld, h1.read_unread, h2.read_unread, View.ld_unit_zero (S := S2000x64) hz, View.ld_unit_zero (S := S1x64) hz]

theorem out1_B_2_eq (c : Dev nD) (i : grid1.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S1x64 .f32) (h4 : a4.IsWhole) (a5 : Memref sig .tc .vmem S1x64 .f32) (h5 : a5.IsWhole) (hc : ¬cond1_0 i)
    (x0 : Vec F S2000x64 .f32) (x1 : Vec F S1x64 .f32) (xo3 xo4 : Vec F S1x64 .f32) :
    out1_B_2 c i a1 h1 a2 h2 a3 h3 a4 h4 a5 h5 hc x0 x1 xo3 xo4 = k1_pay1 x0 x1 := by
  unfold out1_B_2
  rw [View.read_writes_eq_canon _ _ _ (cover1_B_2 c i a1 h1 a2 h2 a3 h3 a4 h4 a5 h5 hc x0 x1 xo3 xo4)]
  unfold kernelRun1_B
  dsimp only
  rw [View.canon_unit_zero hz]
  simp only [View.readAt_eq_ld, h1.read_unread, h2.read_unread, h4.read_unread, h5.read_unread, View.ld_unit_zero (S := S2000x64) hz, View.ld_unit_zero (S := S1x64) hz]

theorem out1_B_3_eq (c : Dev nD) (i : grid1.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S1x64 .f32) (h4 : a4.IsWhole) (a5 : Memref sig .tc .vmem S1x64 .f32) (h5 : a5.IsWhole) (hc : ¬cond1_0 i)
    (x0 : Vec F S2000x64 .f32) (x1 : Vec F S1x64 .f32) (xo3 xo4 : Vec F S1x64 .f32) :
    out1_B_3 c i a1 h1 a2 h2 a3 h3 a4 h4 a5 h5 hc x0 x1 xo3 xo4 = k1_pay4 x0 x1 xo3 := by
  unfold out1_B_3
  rw [View.read_writes_eq_canon _ _ _ (cover1_B_3 c i a1 h1 a2 h2 a3 h3 a4 h4 a5 h5 hc x0 x1 xo3 xo4)]
  unfold kernelRun1_B
  dsimp only
  rw [View.canon_unit_zero hz]
  simp only [View.readAt_eq_ld, h1.read_unread, h2.read_unread, h4.read_unread, h5.read_unread, View.ld_unit_zero (S := S2000x64) hz, View.ld_unit_zero (S := S1x64) hz]

theorem out1_B_4_eq (c : Dev nD) (i : grid1.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S1x64 .f32) (h4 : a4.IsWhole) (a5 : Memref sig .tc .vmem S1x64 .f32) (h5 : a5.IsWhole) (hc : ¬cond1_0 i)
    (x0 : Vec F S2000x64 .f32) (x1 : Vec F S1x64 .f32) (xo3 xo4 : Vec F S1x64 .f32) :
    out1_B_4 c i a1 h1 a2 h2 a3 h3 a4 h4 a5 h5 hc x0 x1 xo3 xo4 = k1_pay5 x0 x1 xo4 := by
  unfold out1_B_4
  rw [View.read_writes_eq_canon _ _ _ (cover1_B_4 c i a1 h1 a2 h2 a3 h3 a4 h4 a5 h5 hc x0 x1 xo3 xo4)]
  unfold kernelRun1_B
  dsimp only
  rw [View.canon_unit_zero hz]
  simp only [View.readAt_eq_ld, h1.read_unread, h2.read_unread, h4.read_unread, h5.read_unread, View.ld_unit_zero (S := S2000x64) hz, View.ld_unit_zero (S := S1x64) hz]

end Pieces

section Payload

/-- The block of h: entry (j, q) is the aggregated row's entry plus the bias at column q. -/
theorem pay1_1_apply (x0 : Vec Ideal S2000x64 .f32) (x1 : Vec Ideal S1x64 .f32) (j : Fin 2000) (q : Fin 64) :
    k1_pay1 (F := Ideal) x0 x1 (ix2 j q) = x0 (ix2 j q) + x1 (ix2 0 q) := by
  unfold k1_pay1
  (try dsimp only)
  rw [addf_apply, shapeCast_self, shapeCast_self]
  exact congrArg (x0 (ix2 j q) + ·) (broadcastTo_1b_ab_apply x1 _ j q)

/-- The reset row is zero. -/
theorem pay1_2_apply (q : Fin 64) : k1_pay2 (F := Ideal) (ix2 0 q) = 0 := by
  unfold k1_pay2
  exact Ideal.ofBits_zero_f32

theorem pay1_3_apply (q : Fin 64) : k1_pay3 (F := Ideal) (ix2 0 q) = 0 := by
  unfold k1_pay3
  exact Ideal.ofBits_zero_f32

/-- The running sum row after a point: what it held plus the column sums of the point's block of h. -/
theorem pay1_4_apply (x0 : Vec Ideal S2000x64 .f32) (x1 : Vec Ideal S1x64 .f32) (acc : Vec Ideal S1x64 .f32) (q : Fin 64) :
    k1_pay4 (F := Ideal) x0 x1 acc (ix2 0 q) = acc (ix2 0 q) + ∑ j : Fin 2000, (x0 (ix2 j q) + x1 (ix2 0 q)) := by
  unfold k1_pay4
  (try dsimp only)
  rw [addf_apply, shapeCast_self]
  refine congrArg (acc (ix2 0 q) + ·) ?_
  refine (shapeCast_a_1a_apply _ shapeCasts_S64_S1x64 0 q).trans ?_
  refine (Cert.LibColReduce.colSum_f32 (k1_pay1 (F := Ideal) x0 x1) reduces_S2000x64_S64 (.inl rfl) rfl q).trans ?_
  exact Finset.sum_congr rfl fun j _ => pay1_1_apply x0 x1 j q

/-- The running sum of squares row after a point: what it held plus the column sums of the squares of the point's block of h. -/
theorem pay1_5_apply (x0 : Vec Ideal S2000x64 .f32) (x1 : Vec Ideal S1x64 .f32) (acc : Vec Ideal S1x64 .f32) (q : Fin 64) :
    k1_pay5 (F := Ideal) x0 x1 acc (ix2 0 q)
      = acc (ix2 0 q) + ∑ j : Fin 2000, (x0 (ix2 j q) + x1 (ix2 0 q)) * (x0 (ix2 j q) + x1 (ix2 0 q)) := by
  unfold k1_pay5
  (try dsimp only)
  rw [addf_apply, shapeCast_self]
  refine congrArg (acc (ix2 0 q) + ·) ?_
  refine (shapeCast_a_1a_apply _ shapeCasts_S64_S1x64 0 q).trans ?_
  refine (Cert.LibColReduce.colSum_f32 (mulf (k1_pay1 (F := Ideal) x0 x1) (k1_pay1 (F := Ideal) x0 x1)) reduces_S2000x64_S64 (.inl rfl) rfl q).trans ?_
  exact Finset.sum_congr rfl fun j _ => by rw [mulf_apply, pay1_1_apply x0 x1 j q]

end Payload

section Blocks
variable (V : (c : Dev nD) → (b : Ref sig .tc) → Buf (Elt Ideal) ((c : Thread nD τ).loc b))

/-- The index maps over the grid: the row windows (0: the aggregated rows, 2: the rows of h) move one block per point,
    the bias row and the two accumulator rows stay at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Point t's block of the aggregated rows holds rows 2000 t, ..., 2000 t + 1999. -/
theorem blk1_0_apply (c : Dev nD) (t : Fin cfg1.N) (j : Fin 2000) (q : Fin 64) (hp : 2000 * t.val + j.val < 100000) :
    (iblk1 V c 0 t : Vec Ideal S2000x64 .f32) (ix2 j q)
      = (V c main_v48 : S100000x64.Idx → EReal) (ix2 ⟨2000 * t.val + j.val, hp⟩ q) := by
  obtain ⟨e0, e1, -⟩ := idx_facts1 t
  unfold iblk1
  rw [View.read_apply]
  show (V c main_v48 : S100000x64.Idx → EReal) _ = _
  refine congrArg (V c main_v48 : S100000x64.Idx → EReal) ?_
  funext a
  apply Fin.ext
  match a with
  | ⟨0, _⟩ => show win1_0.index t (0 : Fin 2) * 2000 + 1 * j.val = 2000 * t.val + j.val; rw [e0]; omega
  | ⟨1, _⟩ => show win1_0.index t (1 : Fin 2) * 64 + 1 * q.val = q.val; rw [e1]; omega

/-- Every point's block of the bias row is the row. -/
theorem blk1_1_apply (c : Dev nD) (t : Fin cfg1.N) (q : Fin 64) :
    (iblk1 V c 1 t : Vec Ideal S1x64 .f32) (ix2 0 q) = (V c main_v49 : S1x64.Idx → EReal) (ix2 0 q) := by
  obtain ⟨-, -, e0, e1, -⟩ := idx_facts1 t
  unfold iblk1
  rw [View.read_apply]
  show (V c main_v49 : S1x64.Idx → EReal) _ = _
  refine congrArg (V c main_v49 : S1x64.Idx → EReal) ?_
  funext a
  apply Fin.ext
  match a with
  | ⟨0, _⟩ => show win1_1.index t (0 : Fin 2) * 1 + 1 * 0 = 0; rw [e0]
  | ⟨1, _⟩ => show win1_1.index t (1 : Fin 2) * 64 + 1 * q.val = q.val; rw [e1]; omega

end Blocks

section Arrays
variable (V : (c : Dev nD) → (b : Ref sig .tc) → Buf (Elt Ideal) ((c : Thread nD τ).loc b))
/-- The aggregated rows, as the region finds them. -/
abbrev agg1 (c : Dev nD) : S100000x64.Idx → EReal := V c main_v48
/-- The bias row, as the region finds it. -/
abbrev bias1 (c : Dev nD) : S1x64.Idx → EReal := V c main_v49
end Arrays

section Invariant
variable (V : (c : Dev nD) → (b : Ref sig .tc) → Buf (Elt Ideal) ((c : Thread nD τ).loc b))

/-- What the three output buffers hold after the first point: the block of h, and the zero rows plus the block's column sums. -/
theorem outs1_A (c : Dev nD) (t : Fin cfg1.N) (h0 : t.val % 50 = 0) :
    (outsAt1 V c t.val t.isLt).1 = k1_pay1 (F := Ideal) (iblk1 V c 0 t) (iblk1 V c 1 t)
    ∧ (outsAt1 V c t.val t.isLt).2.1 = k1_pay4 (F := Ideal) (iblk1 V c 0 t) (iblk1 V c 1 t) (k1_pay2 (F := Ideal))
    ∧ (outsAt1 V c t.val t.isLt).2.2 = k1_pay5 (F := Ideal) (iblk1 V c 0 t) (iblk1 V c 1 t) (k1_pay3 (F := Ideal)) := by
  rw [outsAt1_A V c t h0]
  dsimp only
  refine ⟨?_, ?_, ?_⟩
  · exact out1_A_2_eq (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)
  · exact out1_A_3_eq (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)
  · exact out1_A_4_eq (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)

/-- What they hold after a later point: the block of h, and the rows of the point before plus the block's column sums. -/
theorem outs1_B (c : Dev nD) (t : Fin cfg1.N) (h0 : ¬t.val % 50 = 0) :
    (outsAt1 V c t.val t.isLt).1 = k1_pay1 (F := Ideal) (iblk1 V c 0 t) (iblk1 V c 1 t)
    ∧ (outsAt1 V c t.val t.isLt).2.1 = k1_pay4 (F := Ideal) (iblk1 V c 0 t) (iblk1 V c 1 t) (outsAt1 V c (t.val - 1) (Nat.lt_of_le_of_lt (Nat.sub_le _ _) t.isLt)).2.1
    ∧ (outsAt1 V c t.val t.isLt).2.2 = k1_pay5 (F := Ideal) (iblk1 V c 0 t) (iblk1 V c 1 t) (outsAt1 V c (t.val - 1) (Nat.lt_of_le_of_lt (Nat.sub_le _ _) t.isLt)).2.2 := by
  rw [outsAt1_B V c t h0]
  dsimp only
  refine ⟨?_, ?_, ?_⟩
  · exact out1_B_2_eq (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2
  · exact out1_B_3_eq (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2
  · exact out1_B_4_eq (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2

/-- Row d of h at column q, as a function of the natural number d (zero past the last row). -/
def hrow1 (c : Dev nD) (q : Fin 64) (d : ℕ) : EReal :=
  if hd : d < 100000 then agg1 V c (ix2 ⟨d, hd⟩ q) + bias1 V c (ix2 0 q) else 0

theorem hrow1_of_lt (c : Dev nD) (q : Fin 64) (d : ℕ) (hd : d < 100000) :
    hrow1 V c q d = agg1 V c (ix2 ⟨d, hd⟩ q) + bias1 V c (ix2 0 q) := dif_pos hd

/-- Entry (j, q) of point t's block of h is row 2000 t + j of h. -/
theorem hblk1_apply (c : Dev nD) (t : Fin cfg1.N) (j : Fin 2000) (q : Fin 64) (x0 : Vec Ideal S2000x64 .f32) (x1 : Vec Ideal S1x64 .f32)
    (hx0 : x0 = iblk1 V c 0 t) (hx1 : x1 = iblk1 V c 1 t) :
    x0 (ix2 j q) + x1 (ix2 0 q)
      = hrow1 V c q (2000 * t.val + j.val) := by
  have hN : t.val < 50 := lt_of_lt_of_eq t.isLt (show cfg1.N = 50 from N_1)
  have hp : 2000 * t.val + j.val < 100000 := by have := j.isLt; omega
  subst hx0 hx1
  rw [hrow1_of_lt V c q _ hp]
  exact congrArg₂ (· + ·) (blk1_0_apply V c t j q hp) (blk1_1_apply V c t q)

/-- After point n the sum row holds, at column q, the sum of h's column q over the rows of blocks 0, ..., n. -/
theorem sum_inv1 (c : Dev nD) (q : Fin 64) : ∀ (n : ℕ) (hn : n < cfg1.N),
    ((outsAt1 V c n hn).2.1 : Vec Ideal S1x64 .f32) (ix2 0 q)
      = ∑ s ∈ Finset.range (n + 1), ∑ j : Fin 2000, hrow1 V c q (2000 * s + j.val)
  | 0, hn => by
    rw [(outs1_A V c ⟨0, hn⟩ rfl).2.1, pay1_4_apply, pay1_2_apply, zero_add, Finset.sum_range_one]
    exact Finset.sum_congr rfl fun j _ => hblk1_apply V c ⟨0, hn⟩ j q _ _ rfl rfl
  | n + 1, hn => by
    have hN : cfg1.N = 50 := N_1
    have hB : ¬(⟨n + 1, hn⟩ : Fin cfg1.N).val % 50 = 0 := by dsimp only; omega
    rw [(outs1_B V c ⟨n + 1, hn⟩ hB).2.1, pay1_4_apply, Finset.sum_range_succ _ (n + 1)]
    refine congrArg₂ (· + ·) (sum_inv1 c q n (Nat.lt_of_succ_lt hn)) ?_
    exact Finset.sum_congr rfl fun j _ => hblk1_apply V c ⟨n + 1, hn⟩ j q _ _ rfl rfl

/-- After point n the sum-of-squares row holds, at column q, the sum of the squares of h's column q over the rows of blocks 0, ..., n. -/
theorem sumsq_inv1 (c : Dev nD) (q : Fin 64) : ∀ (n : ℕ) (hn : n < cfg1.N),
    ((outsAt1 V c n hn).2.2 : Vec Ideal S1x64 .f32) (ix2 0 q)
      = ∑ s ∈ Finset.range (n + 1), ∑ j : Fin 2000, hrow1 V c q (2000 * s + j.val) * hrow1 V c q (2000 * s + j.val)
  | 0, hn => by
    rw [(outs1_A V c ⟨0, hn⟩ rfl).2.2, pay1_5_apply, pay1_3_apply, zero_add, Finset.sum_range_one]
    exact Finset.sum_congr rfl fun j _ => by rw [hblk1_apply V c ⟨0, hn⟩ j q _ _ rfl rfl]
  | n + 1, hn => by
    have hN : cfg1.N = 50 := N_1
    have hB : ¬(⟨n + 1, hn⟩ : Fin cfg1.N).val % 50 = 0 := by dsimp only; omega
    rw [(outs1_B V c ⟨n + 1, hn⟩ hB).2.2, pay1_5_apply, Finset.sum_range_succ _ (n + 1)]
    refine congrArg₂ (· + ·) (sumsq_inv1 c q n (Nat.lt_of_succ_lt hn)) ?_
    exact Finset.sum_congr rfl fun j _ => by rw [hblk1_apply V c ⟨n + 1, hn⟩ j q _ _ rfl rfl]

end Invariant

section Final
variable (V : (c : Dev nD) → (b : Ref sig .tc) → Buf (Elt Ideal) ((c : Thread nD τ).loc b))

/-- h as one array: entry (p, q) is the aggregated entry plus the bias at column q. -/
def hArr1 (c : Dev nD) : S100000x64.Idx → EReal := fun i =>
  agg1 V c i + bias1 V c (ix2 0 (⟨(i 1).val, idx2_lt1 i⟩ : Fin 64))

/-- The sum of h's column q over all the rows. -/
def sumRow1 (c : Dev nD) (q : Fin 64) : EReal :=
  ∑ p : Fin 100000, (agg1 V c (ix2 p q) + bias1 V c (ix2 0 q))

/-- The sum of the squares of h's column q over all the rows. -/
def sumsqRow1 (c : Dev nD) (q : Fin 64) : EReal :=
  ∑ p : Fin 100000, (agg1 V c (ix2 p q) + bias1 V c (ix2 0 q)) * (agg1 V c (ix2 p q) + bias1 V c (ix2 0 q))

/-- The column sums of h as one row. -/
def sumArr1 (c : Dev nD) : S1x64.Idx → EReal := fun i => sumRow1 V c (⟨(i 1).val, idx2_lt1 i⟩ : Fin 64)

/-- The column sums of the squares of h as one row. -/
def sumsqArr1 (c : Dev nD) : S1x64.Idx → EReal := fun i => sumsqRow1 V c (⟨(i 1).val, idx2_lt1 i⟩ : Fin 64)

/-- Entry (j, q) of point t's block of the h array sits at row 2000 t + j. -/
theorem emb1_2 (t : Fin cfg1.N) (j : Fin 2000) (q : Fin 64) (hp : 2000 * t.val + j.val < 100000) :
    ((cfg1.win 2).blk t).view.emb (ix2 j q) = (ix2 ⟨2000 * t.val + j.val, hp⟩ q : S100000x64.Idx) := by
  obtain ⟨-, -, -, -, e0, e1, -⟩ := idx_facts1 t
  funext a
  apply Fin.ext
  match a with
  | ⟨0, _⟩ => show win1_2.index t (0 : Fin 2) * 2000 + 1 * j.val = 2000 * t.val + j.val; rw [e0]; omega
  | ⟨1, _⟩ => show win1_2.index t (1 : Fin 2) * 64 + 1 * q.val = q.val; rw [e1]; omega

/-- What every point writes back to the h array is its block of h. -/
theorem flushed1_2_eq (c : Dev nD) (t : Fin cfg1.N) :
    (dat1 V c).flushed 2 t = ((cfg1.win 2).blk t).view.read (Elt Ideal) (hArr1 V c) := by
  have hN : t.val < 50 := lt_of_lt_of_eq t.isLt (show cfg1.N = 50 from N_1)
  have h1 : (outsAt1 V c t.val t.isLt).1 = k1_pay1 (F := Ideal) (iblk1 V c 0 t) (iblk1 V c 1 t) := by
    by_cases h0 : t.val % 50 = 0
    · exact (outs1_A V c t h0).1
    · exact (outs1_B V c t h0).1
  show (cfg1.win 2).cut (grid1.coords t) ((dat1 V c).after 2 t) = _
  rw [after1_2, h1]
  funext y
  obtain ⟨j, q, rfl⟩ : ∃ (j : Fin 2000) (q : Fin 64), y = ix2 j q := ⟨y 0, y 1, eq_ix2 y⟩
  have hp : 2000 * t.val + j.val < 100000 := by have := j.isLt; omega
  show k1_pay1 (F := Ideal) (iblk1 V c 0 t) (iblk1 V c 1 t) (ix2 j q) = hArr1 V c (((cfg1.win 2).blk t).view.emb (ix2 j q))
  rw [emb1_2 t j q hp, pay1_1_apply, blk1_0_apply V c t j q hp, blk1_1_apply V c t q]
  rfl

/-- An index of the h array is in point t's block iff each coordinate is in the block's range on its axis. -/
theorem mem_blk1_2 (t : Fin cfg1.N) (i : S100000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v50_0).slice (win1_2.rect t)).set ↔ _
  rw [View.set_slice_whole, Rect.mem_set_unit]
  exact Iff.rfl

/-- The h array after the region: row p is written by point p / 2000. -/
theorem final1_2 (c : Dev nD) : (dat1 V c).arrAt 2 cfg1.N = hArr1 V c :=
  (dat1 V c).arrAt_eq_of_cover 2 (hArr1 V c) (fun t _ => flushed1_2_eq V c t) fun i => by
    have hi0 : (i 0).val < 100000 := (i 0).isLt
    have hi1 : (i 1).val < 64 := (i 1).isLt
    have hN : cfg1.N = 50 := N_1
    refine ⟨⟨(i 0).val / 2000, by omega⟩, flush1_2 _, ?_⟩
    rw [mem_blk1_2]
    obtain ⟨-, -, -, -, e0, e1, -⟩ := idx_facts1 ⟨(i 0).val / 2000, by omega⟩
    intro a
    match a with
    | ⟨0, _⟩ => show win1_2.index _ (0 : Fin 2) * 2000 ≤ (i 0).val ∧ (i 0).val < win1_2.index _ (0 : Fin 2) * 2000 + 2000; rw [e0]; dsimp only; omega
    | ⟨1, _⟩ => show win1_2.index _ (1 : Fin 2) * 64 ≤ (i 1).val ∧ (i 1).val < win1_2.index _ (1 : Fin 2) * 64 + 64; rw [e1]; omega

/-- The fifty blocks' sums make up the sum over all the rows. -/
theorem regroup_sum1 (c : Dev nD) (q : Fin 64) :
    ∑ s ∈ Finset.range 50, ∑ j : Fin 2000, hrow1 V c q (2000 * s + j.val) = sumRow1 V c q := by
  unfold sumRow1
  refine (Cert.Hamming.sum_blocks 50 2000 fun d => hrow1 V c q d).trans ?_
  exact Finset.sum_congr rfl fun p _ => hrow1_of_lt V c q p.val p.isLt

theorem regroup_sumsq1 (c : Dev nD) (q : Fin 64) :
    ∑ s ∈ Finset.range 50, ∑ j : Fin 2000, hrow1 V c q (2000 * s + j.val) * hrow1 V c q (2000 * s + j.val) = sumsqRow1 V c q := by
  unfold sumsqRow1
  refine (Cert.Hamming.sum_blocks 50 2000 fun d => hrow1 V c q d * hrow1 V c q d).trans ?_
  exact Finset.sum_congr rfl fun p _ => congrArg₂ (· * ·) (hrow1_of_lt V c q p.val p.isLt) (hrow1_of_lt V c q p.val p.isLt)

/-- The one block of an accumulator row is the row. -/
theorem emb1_3 (t : Fin cfg1.N) (q : Fin 64) : ((cfg1.win 3).blk t).view.emb (ix2 0 q) = (ix2 0 q : S1x64.Idx) := by
  obtain ⟨-, -, -, -, -, -, e0, e1, -⟩ := idx_facts1 t
  funext a
  apply Fin.ext
  match a with
  | ⟨0, _⟩ => show win1_3.index t (0 : Fin 2) * 1 + 1 * 0 = 0; rw [e0]
  | ⟨1, _⟩ => show win1_3.index t (1 : Fin 2) * 64 + 1 * q.val = q.val; rw [e1]; omega

theorem emb1_4 (t : Fin cfg1.N) (q : Fin 64) : ((cfg1.win 4).blk t).view.emb (ix2 0 q) = (ix2 0 q : S1x64.Idx) := by
  obtain ⟨-, -, -, -, -, -, -, -, e0, e1⟩ := idx_facts1 t
  funext a
  apply Fin.ext
  match a with
  | ⟨0, _⟩ => show win1_4.index t (0 : Fin 2) * 1 + 1 * 0 = 0; rw [e0]
  | ⟨1, _⟩ => show win1_4.index t (1 : Fin 2) * 64 + 1 * q.val = q.val; rw [e1]; omega

/-- The one write-back of the sum row, at the last point, writes the column sums of h. -/
theorem flushed1_3_eq (c : Dev nD) (t : Fin cfg1.N) (hf : (cfg1.win 3).flush t = true) :
    (dat1 V c).flushed 3 t = ((cfg1.win 3).blk t).view.read (Elt Ideal) (sumArr1 V c) := by
  have hN : t.val < 50 := lt_of_lt_of_eq t.isLt (show cfg1.N = 50 from N_1)
  have h49 : t.val = 49 := by have := (flush1_3 t).mp hf; omega
  show (cfg1.win 3).cut (grid1.coords t) ((dat1 V c).after 3 t) = _
  rw [after1_3]
  funext y
  obtain ⟨u, q, rfl⟩ : ∃ (u : Fin 1) (q : Fin 64), y = ix2 u q := ⟨y 0, y 1, eq_ix2 y⟩
  obtain rfl : u = 0 := Subsingleton.elim _ _
  have hG : sumArr1 V c (ix2 0 q) = sumRow1 V c q := rfl
  generalize sumArr1 V c = G at hG ⊢
  show ((outsAt1 V c t.val t.isLt).2.1 : Vec Ideal S1x64 .f32) (ix2 0 q) = G (((cfg1.win 3).blk t).view.emb (ix2 0 q))
  rw [emb1_3 t q, hG, sum_inv1 V c q t.val t.isLt, h49]
  exact regroup_sum1 V c q

/-- The one write-back of the sum-of-squares row, at the last point, writes the column sums of the squares of h. -/
theorem flushed1_4_eq (c : Dev nD) (t : Fin cfg1.N) (hf : (cfg1.win 4).flush t = true) :
    (dat1 V c).flushed 4 t = ((cfg1.win 4).blk t).view.read (Elt Ideal) (sumsqArr1 V c) := by
  have hN : t.val < 50 := lt_of_lt_of_eq t.isLt (show cfg1.N = 50 from N_1)
  have h49 : t.val = 49 := by have := (flush1_4 t).mp hf; omega
  show (cfg1.win 4).cut (grid1.coords t) ((dat1 V c).after 4 t) = _
  rw [after1_4]
  funext y
  obtain ⟨u, q, rfl⟩ : ∃ (u : Fin 1) (q : Fin 64), y = ix2 u q := ⟨y 0, y 1, eq_ix2 y⟩
  obtain rfl : u = 0 := Subsingleton.elim _ _
  have hG : sumsqArr1 V c (ix2 0 q) = sumsqRow1 V c q := rfl
  generalize sumsqArr1 V c = G at hG ⊢
  show ((outsAt1 V c t.val t.isLt).2.2 : Vec Ideal S1x64 .f32) (ix2 0 q) = G (((cfg1.win 4).blk t).view.emb (ix2 0 q))
  rw [emb1_4 t q, hG, sumsq_inv1 V c q t.val t.isLt, h49]
  exact regroup_sumsq1 V c q

theorem mem_blk1_3 (t : Fin cfg1.N) (i : S1x64.Idx) :
    i ∈ ((cfg1.win 3).blk t).view.set ↔ ∀ a : Fin 2, win1_3.index t a * S1x64.size a ≤ (i a).val ∧ (i a).val < win1_3.index t a * S1x64.size a + S1x64.size a := by
  show i ∈ ((View.whole main_v50_1).slice (win1_3.rect t)).set ↔ _
  rw [View.set_slice_whole, Rect.mem_set_unit]
  exact Iff.rfl

theorem mem_blk1_4 (t : Fin cfg1.N) (i : S1x64.Idx) :
    i ∈ ((cfg1.win 4).blk t).view.set ↔ ∀ a : Fin 2, win1_4.index t a * S1x64.size a ≤ (i a).val ∧ (i a).val < win1_4.index t a * S1x64.size a + S1x64.size a := by
  show i ∈ ((View.whole main_v50_2).slice (win1_4.rect t)).set ↔ _
  rw [View.set_slice_whole, Rect.mem_set_unit]
  exact Iff.rfl

/-- The last point. -/
abbrev tlast1 : Fin cfg1.N := ⟨49, by rw [show cfg1.N = 50 from N_1]; decide⟩

/-- The sum row after the region. -/
theorem final1_3 (c : Dev nD) : (dat1 V c).arrAt 3 cfg1.N = sumArr1 V c :=
  (dat1 V c).arrAt_eq_of_cover 3 (sumArr1 V c) (flushed1_3_eq V c) fun i => by
    have hi0 : (i 0).val < 1 := (i 0).isLt
    have hi1 : (i 1).val < 64 := (i 1).isLt
    refine ⟨tlast1, (flush1_3 tlast1).mpr rfl, ?_⟩
    rw [mem_blk1_3]
    obtain ⟨-, -, -, -, -, -, e0, e1, -⟩ := idx_facts1 tlast1
    intro a
    match a with
    | ⟨0, _⟩ => show win1_3.index _ (0 : Fin 2) * 1 ≤ (i 0).val ∧ (i 0).val < win1_3.index _ (0 : Fin 2) * 1 + 1; rw [e0]; omega
    | ⟨1, _⟩ => show win1_3.index _ (1 : Fin 2) * 64 ≤ (i 1).val ∧ (i 1).val < win1_3.index _ (1 : Fin 2) * 64 + 64; rw [e1]; omega

/-- The sum-of-squares row after the region. -/
theorem final1_4 (c : Dev nD) : (dat1 V c).arrAt 4 cfg1.N = sumsqArr1 V c :=
  (dat1 V c).arrAt_eq_of_cover 4 (sumsqArr1 V c) (flushed1_4_eq V c) fun i => by
    have hi0 : (i 0).val < 1 := (i 0).isLt
    have hi1 : (i 1).val < 64 := (i 1).isLt
    refine ⟨tlast1, (flush1_4 tlast1).mpr rfl, ?_⟩
    rw [mem_blk1_4]
    obtain ⟨-, -, -, -, -, -, -, -, e0, e1⟩ := idx_facts1 tlast1
    intro a
    match a with
    | ⟨0, _⟩ => show win1_4.index _ (0 : Fin 2) * 1 ≤ (i 0).val ∧ (i 0).val < win1_4.index _ (0 : Fin 2) * 1 + 1; rw [e0]; omega
    | ⟨1, _⟩ => show win1_4.index _ (1 : Fin 2) * 64 ≤ (i 1).val ∧ (i 1).val < win1_4.index _ (1 : Fin 2) * 64 + 64; rw [e1]; omega

/-- The h array after the region, entry by entry. -/
theorem red1_h (c : Dev nD) (p : Fin 100000) (q : Fin 64) :
    ((dat1 (F := Ideal) V c).arrAt 2 cfg1.N : S100000x64.Idx → EReal) (ix2 p q)
      = agg1 V c (ix2 p q) + bias1 V c (ix2 0 q) := by
  rw [final1_2 V c]
  rfl

/-- The sum row after the region: column q holds the sum of h's column q over all the rows. -/
theorem red1_sum (c : Dev nD) (q : Fin 64) :
    ((dat1 (F := Ideal) V c).arrAt 3 cfg1.N : S1x64.Idx → EReal) (ix2 0 q)
      = ∑ p : Fin 100000, (agg1 V c (ix2 p q) + bias1 V c (ix2 0 q)) := by
  rw [final1_3 V c]
  unfold sumArr1
  rfl

/-- The sum-of-squares row after the region: column q holds the sum of the squares of h's column q over all the rows. -/
theorem red1_sumsq (c : Dev nD) (q : Fin 64) :
    ((dat1 (F := Ideal) V c).arrAt 4 cfg1.N : S1x64.Idx → EReal) (ix2 0 q)
      = ∑ p : Fin 100000, (agg1 V c (ix2 p q) + bias1 V c (ix2 0 q))
          * (agg1 V c (ix2 p q) + bias1 V c (ix2 0 q)) := by
  rw [final1_4 V c]
  unfold sumsqArr1
  rfl

end Final

/-! ## The second reduction region -/

section Pieces
variable {F : FTy → Type} [FloatOps F]

theorem out4_A_2_eq (c : Dev nD) (i : grid4.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S1x64 .f32) (h4 : a4.IsWhole) (a5 : Memref sig .tc .vmem S1x64 .f32) (h5 : a5.IsWhole) (hc : cond4_0 i)
    (x0 : Vec F S2000x64 .f32) (x1 : Vec F S1x64 .f32) :
    out4_A_2 c i a1 h1 a2 h2 a3 h3 a4 h4 a5 h5 hc x0 x1 = k4_pay1 x0 x1 := by
  unfold out4_A_2
  rw [View.read_writes_eq_canon _ _ _ (cover4_A_2 c i a1 h1 a2 h2 a3 h3 a4 h4 a5 h5 hc x0 x1)]
  unfold kernelRun4_A
  dsimp only
  rw [View.canon_unit_zero hz]
  simp only [View.readAt_eq_ld, h1.read_unread, h2.read_unread, View.ld_unit_zero (S := S2000x64) hz, View.ld_unit_zero (S := S1x64) hz]

theorem out4_A_3_eq (c : Dev nD) (i : grid4.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S1x64 .f32) (h4 : a4.IsWhole) (a5 : Memref sig .tc .vmem S1x64 .f32) (h5 : a5.IsWhole) (hc : cond4_0 i)
    (x0 : Vec F S2000x64 .f32) (x1 : Vec F S1x64 .f32) :
    out4_A_3 c i a1 h1 a2 h2 a3 h3 a4 h4 a5 h5 hc x0 x1 = k4_pay4 x0 x1 k4_pay2 := by
  unfold out4_A_3
  rw [View.read_writes_eq_canon _ _ _ (cover4_A_3 c i a1 h1 a2 h2 a3 h3 a4 h4 a5 h5 hc x0 x1)]
  unfold kernelRun4_A
  dsimp only
  sl_unfold_words
  rw [View.canon_cons_unit_zero (S := S1x64) hz, View.readCov_unit_zero (S := S1x64) _ hz]
  simp only [View.readAt_eq_ld, h1.read_unread, h2.read_unread, View.ld_unit_zero (S := S2000x64) hz, View.ld_unit_zero (S := S1x64) hz]

theorem out4_A_4_eq (c : Dev nD) (i : grid4.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S1x64 .f32) (h4 : a4.IsWhole) (a5 : Memref sig .tc .vmem S1x64 .f32) (h5 : a5.IsWhole) (hc : cond4_0 i)
    (x0 : Vec F S2000x64 .f32) (x1 : Vec F S1x64 .f32) :
    out4_A_4 c i a1 h1 a2 h2 a3 h3 a4 h4 a5 h5 hc x0 x1 = k4_pay5 x0 x1 k4_pay3 := by
  unfold out4_A_4
  rw [View.read_writes_eq_canon _ _ _ (cover4_A_4 c i a1 h1 a2 h2 a3 h3 a4 h4 a5 h5 hc x0 x1)]
  unfold kernelRun4_A
  dsimp only
  sl_unfold_words
  rw [View.canon_cons_unit_zero (S := S1x64) hz, View.readCov_unit_zero (S := S1x64) _ hz]
  simp only [View.readAt_eq_ld, h1.read_unread, h2.read_unread, View.ld_unit_zero (S := S2000x64) hz, View.ld_unit_zero (S := S1x64) hz]

theorem out4_B_2_eq (c : Dev nD) (i : grid4.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S1x64 .f32) (h4 : a4.IsWhole) (a5 : Memref sig .tc .vmem S1x64 .f32) (h5 : a5.IsWhole) (hc : ¬cond4_0 i)
    (x0 : Vec F S2000x64 .f32) (x1 : Vec F S1x64 .f32) (xo3 xo4 : Vec F S1x64 .f32) :
    out4_B_2 c i a1 h1 a2 h2 a3 h3 a4 h4 a5 h5 hc x0 x1 xo3 xo4 = k4_pay1 x0 x1 := by
  unfold out4_B_2
  rw [View.read_writes_eq_canon _ _ _ (cover4_B_2 c i a1 h1 a2 h2 a3 h3 a4 h4 a5 h5 hc x0 x1 xo3 xo4)]
  unfold kernelRun4_B
  dsimp only
  rw [View.canon_unit_zero hz]
  simp only [View.readAt_eq_ld, h1.read_unread, h2.read_unread, h4.read_unread, h5.read_unread, View.ld_unit_zero (S := S2000x64) hz, View.ld_unit_zero (S := S1x64) hz]

theorem out4_B_3_eq (c : Dev nD) (i : grid4.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S1x64 .f32) (h4 : a4.IsWhole) (a5 : Memref sig .tc .vmem S1x64 .f32) (h5 : a5.IsWhole) (hc : ¬cond4_0 i)
    (x0 : Vec F S2000x64 .f32) (x1 : Vec F S1x64 .f32) (xo3 xo4 : Vec F S1x64 .f32) :
    out4_B_3 c i a1 h1 a2 h2 a3 h3 a4 h4 a5 h5 hc x0 x1 xo3 xo4 = k4_pay4 x0 x1 xo3 := by
  unfold out4_B_3
  rw [View.read_writes_eq_canon _ _ _ (cover4_B_3 c i a1 h1 a2 h2 a3 h3 a4 h4 a5 h5 hc x0 x1 xo3 xo4)]
  unfold kernelRun4_B
  dsimp only
  rw [View.canon_unit_zero hz]
  simp only [View.readAt_eq_ld, h1.read_unread, h2.read_unread, h4.read_unread, h5.read_unread, View.ld_unit_zero (S := S2000x64) hz, View.ld_unit_zero (S := S1x64) hz]

theorem out4_B_4_eq (c : Dev nD) (i : grid4.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S1x64 .f32) (h4 : a4.IsWhole) (a5 : Memref sig .tc .vmem S1x64 .f32) (h5 : a5.IsWhole) (hc : ¬cond4_0 i)
    (x0 : Vec F S2000x64 .f32) (x1 : Vec F S1x64 .f32) (xo3 xo4 : Vec F S1x64 .f32) :
    out4_B_4 c i a1 h1 a2 h2 a3 h3 a4 h4 a5 h5 hc x0 x1 xo3 xo4 = k4_pay5 x0 x1 xo4 := by
  unfold out4_B_4
  rw [View.read_writes_eq_canon _ _ _ (cover4_B_4 c i a1 h1 a2 h2 a3 h3 a4 h4 a5 h5 hc x0 x1 xo3 xo4)]
  unfold kernelRun4_B
  dsimp only
  rw [View.canon_unit_zero hz]
  simp only [View.readAt_eq_ld, h1.read_unread, h2.read_unread, h4.read_unread, h5.read_unread, View.ld_unit_zero (S := S2000x64) hz, View.ld_unit_zero (S := S1x64) hz]

end Pieces

section Payload

/-- The block of h: entry (j, q) is the aggregated row's entry plus the bias at column q. -/
theorem pay4_1_apply (x0 : Vec Ideal S2000x64 .f32) (x1 : Vec Ideal S1x64 .f32) (j : Fin 2000) (q : Fin 64) :
    k4_pay1 (F := Ideal) x0 x1 (ix2 j q) = x0 (ix2 j q) + x1 (ix2 0 q) := by
  unfold k4_pay1
  (try dsimp only)
  rw [addf_apply, shapeCast_self, shapeCast_self]
  exact congrArg (x0 (ix2 j q) + ·) (broadcastTo_1b_ab_apply x1 _ j q)

/-- The reset row is zero. -/
theorem pay4_2_apply (q : Fin 64) : k4_pay2 (F := Ideal) (ix2 0 q) = 0 := by
  unfold k4_pay2
  exact Ideal.ofBits_zero_f32

theorem pay4_3_apply (q : Fin 64) : k4_pay3 (F := Ideal) (ix2 0 q) = 0 := by
  unfold k4_pay3
  exact Ideal.ofBits_zero_f32

/-- The running sum row after a point: what it held plus the column sums of the point's block of h. -/
theorem pay4_4_apply (x0 : Vec Ideal S2000x64 .f32) (x1 : Vec Ideal S1x64 .f32) (acc : Vec Ideal S1x64 .f32) (q : Fin 64) :
    k4_pay4 (F := Ideal) x0 x1 acc (ix2 0 q) = acc (ix2 0 q) + ∑ j : Fin 2000, (x0 (ix2 j q) + x1 (ix2 0 q)) := by
  unfold k4_pay4
  (try dsimp only)
  rw [addf_apply, shapeCast_self]
  refine congrArg (acc (ix2 0 q) + ·) ?_
  refine (shapeCast_a_1a_apply _ shapeCasts_S64_S1x64 0 q).trans ?_
  refine (Cert.LibColReduce.colSum_f32 (k4_pay1 (F := Ideal) x0 x1) reduces_S2000x64_S64 (.inl rfl) rfl q).trans ?_
  exact Finset.sum_congr rfl fun j _ => pay4_1_apply x0 x1 j q

/-- The running sum of squares row after a point: what it held plus the column sums of the squares of the point's block of h. -/
theorem pay4_5_apply (x0 : Vec Ideal S2000x64 .f32) (x1 : Vec Ideal S1x64 .f32) (acc : Vec Ideal S1x64 .f32) (q : Fin 64) :
    k4_pay5 (F := Ideal) x0 x1 acc (ix2 0 q)
      = acc (ix2 0 q) + ∑ j : Fin 2000, (x0 (ix2 j q) + x1 (ix2 0 q)) * (x0 (ix2 j q) + x1 (ix2 0 q)) := by
  unfold k4_pay5
  (try dsimp only)
  rw [addf_apply, shapeCast_self]
  refine congrArg (acc (ix2 0 q) + ·) ?_
  refine (shapeCast_a_1a_apply _ shapeCasts_S64_S1x64 0 q).trans ?_
  refine (Cert.LibColReduce.colSum_f32 (mulf (k4_pay1 (F := Ideal) x0 x1) (k4_pay1 (F := Ideal) x0 x1)) reduces_S2000x64_S64 (.inl rfl) rfl q).trans ?_
  exact Finset.sum_congr rfl fun j _ => by rw [mulf_apply, pay4_1_apply x0 x1 j q]

end Payload

section Blocks
variable (V : (c : Dev nD) → (b : Ref sig .tc) → Buf (Elt Ideal) ((c : Thread nD τ).loc b))

/-- The index maps over the grid: the row windows (0: the aggregated rows, 2: the rows of h) move one block per point,
    the bias row and the two accumulator rows stay at block (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- Point t's block of the aggregated rows holds rows 2000 t, ..., 2000 t + 1999. -/
theorem blk4_0_apply (c : Dev nD) (t : Fin cfg4.N) (j : Fin 2000) (q : Fin 64) (hp : 2000 * t.val + j.val < 100000) :
    (iblk4 V c 0 t : Vec Ideal S2000x64 .f32) (ix2 j q)
      = (V c main_v79 : S100000x64.Idx → EReal) (ix2 ⟨2000 * t.val + j.val, hp⟩ q) := by
  obtain ⟨e0, e1, -⟩ := idx_facts4 t
  unfold iblk4
  rw [View.read_apply]
  show (V c main_v79 : S100000x64.Idx → EReal) _ = _
  refine congrArg (V c main_v79 : S100000x64.Idx → EReal) ?_
  funext a
  apply Fin.ext
  match a with
  | ⟨0, _⟩ => show win4_0.index t (0 : Fin 2) * 2000 + 1 * j.val = 2000 * t.val + j.val; rw [e0]; omega
  | ⟨1, _⟩ => show win4_0.index t (1 : Fin 2) * 64 + 1 * q.val = q.val; rw [e1]; omega

/-- Every point's block of the bias row is the row. -/
theorem blk4_1_apply (c : Dev nD) (t : Fin cfg4.N) (q : Fin 64) :
    (iblk4 V c 1 t : Vec Ideal S1x64 .f32) (ix2 0 q) = (V c main_v80 : S1x64.Idx → EReal) (ix2 0 q) := by
  obtain ⟨-, -, e0, e1, -⟩ := idx_facts4 t
  unfold iblk4
  rw [View.read_apply]
  show (V c main_v80 : S1x64.Idx → EReal) _ = _
  refine congrArg (V c main_v80 : S1x64.Idx → EReal) ?_
  funext a
  apply Fin.ext
  match a with
  | ⟨0, _⟩ => show win4_1.index t (0 : Fin 2) * 1 + 1 * 0 = 0; rw [e0]
  | ⟨1, _⟩ => show win4_1.index t (1 : Fin 2) * 64 + 1 * q.val = q.val; rw [e1]; omega

end Blocks

section Arrays
variable (V : (c : Dev nD) → (b : Ref sig .tc) → Buf (Elt Ideal) ((c : Thread nD τ).loc b))
/-- The aggregated rows, as the region finds them. -/
abbrev agg4 (c : Dev nD) : S100000x64.Idx → EReal := V c main_v79
/-- The bias row, as the region finds it. -/
abbrev bias4 (c : Dev nD) : S1x64.Idx → EReal := V c main_v80
end Arrays

section Invariant
variable (V : (c : Dev nD) → (b : Ref sig .tc) → Buf (Elt Ideal) ((c : Thread nD τ).loc b))

/-- What the three output buffers hold after the first point: the block of h, and the zero rows plus the block's column sums. -/
theorem outs4_A (c : Dev nD) (t : Fin cfg4.N) (h0 : t.val % 50 = 0) :
    (outsAt4 V c t.val t.isLt).1 = k4_pay1 (F := Ideal) (iblk4 V c 0 t) (iblk4 V c 1 t)
    ∧ (outsAt4 V c t.val t.isLt).2.1 = k4_pay4 (F := Ideal) (iblk4 V c 0 t) (iblk4 V c 1 t) (k4_pay2 (F := Ideal))
    ∧ (outsAt4 V c t.val t.isLt).2.2 = k4_pay5 (F := Ideal) (iblk4 V c 0 t) (iblk4 V c 1 t) (k4_pay3 (F := Ideal)) := by
  rw [outsAt4_A V c t h0]
  dsimp only
  refine ⟨?_, ?_, ?_⟩
  · exact out4_A_2_eq (F := Ideal) c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t)
  · exact out4_A_3_eq (F := Ideal) c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t)
  · exact out4_A_4_eq (F := Ideal) c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t)

/-- What they hold after a later point: the block of h, and the rows of the point before plus the block's column sums. -/
theorem outs4_B (c : Dev nD) (t : Fin cfg4.N) (h0 : ¬t.val % 50 = 0) :
    (outsAt4 V c t.val t.isLt).1 = k4_pay1 (F := Ideal) (iblk4 V c 0 t) (iblk4 V c 1 t)
    ∧ (outsAt4 V c t.val t.isLt).2.1 = k4_pay4 (F := Ideal) (iblk4 V c 0 t) (iblk4 V c 1 t) (outsAt4 V c (t.val - 1) (Nat.lt_of_le_of_lt (Nat.sub_le _ _) t.isLt)).2.1
    ∧ (outsAt4 V c t.val t.isLt).2.2 = k4_pay5 (F := Ideal) (iblk4 V c 0 t) (iblk4 V c 1 t) (outsAt4 V c (t.val - 1) (Nat.lt_of_le_of_lt (Nat.sub_le _ _) t.isLt)).2.2 := by
  rw [outsAt4_B V c t h0]
  dsimp only
  refine ⟨?_, ?_, ?_⟩
  · exact out4_B_2_eq (F := Ideal) c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2
  · exact out4_B_3_eq (F := Ideal) c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2
  · exact out4_B_4_eq (F := Ideal) c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2

/-- Row d of h at column q, as a function of the natural number d (zero past the last row). -/
def hrow4 (c : Dev nD) (q : Fin 64) (d : ℕ) : EReal :=
  if hd : d < 100000 then agg4 V c (ix2 ⟨d, hd⟩ q) + bias4 V c (ix2 0 q) else 0

theorem hrow4_of_lt (c : Dev nD) (q : Fin 64) (d : ℕ) (hd : d < 100000) :
    hrow4 V c q d = agg4 V c (ix2 ⟨d, hd⟩ q) + bias4 V c (ix2 0 q) := dif_pos hd

/-- Entry (j, q) of point t's block of h is row 2000 t + j of h. -/
theorem hblk4_apply (c : Dev nD) (t : Fin cfg4.N) (j : Fin 2000) (q : Fin 64) (x0 : Vec Ideal S2000x64 .f32) (x1 : Vec Ideal S1x64 .f32)
    (hx0 : x0 = iblk4 V c 0 t) (hx1 : x1 = iblk4 V c 1 t) :
    x0 (ix2 j q) + x1 (ix2 0 q)
      = hrow4 V c q (2000 * t.val + j.val) := by
  have hN : t.val < 50 := lt_of_lt_of_eq t.isLt (show cfg4.N = 50 from N_4)
  have hp : 2000 * t.val + j.val < 100000 := by have := j.isLt; omega
  subst hx0 hx1
  rw [hrow4_of_lt V c q _ hp]
  exact congrArg₂ (· + ·) (blk4_0_apply V c t j q hp) (blk4_1_apply V c t q)

/-- After point n the sum row holds, at column q, the sum of h's column q over the rows of blocks 0, ..., n. -/
theorem sum_inv4 (c : Dev nD) (q : Fin 64) : ∀ (n : ℕ) (hn : n < cfg4.N),
    ((outsAt4 V c n hn).2.1 : Vec Ideal S1x64 .f32) (ix2 0 q)
      = ∑ s ∈ Finset.range (n + 1), ∑ j : Fin 2000, hrow4 V c q (2000 * s + j.val)
  | 0, hn => by
    rw [(outs4_A V c ⟨0, hn⟩ rfl).2.1, pay4_4_apply, pay4_2_apply, zero_add, Finset.sum_range_one]
    exact Finset.sum_congr rfl fun j _ => hblk4_apply V c ⟨0, hn⟩ j q _ _ rfl rfl
  | n + 1, hn => by
    have hN : cfg4.N = 50 := N_4
    have hB : ¬(⟨n + 1, hn⟩ : Fin cfg4.N).val % 50 = 0 := by dsimp only; omega
    rw [(outs4_B V c ⟨n + 1, hn⟩ hB).2.1, pay4_4_apply, Finset.sum_range_succ _ (n + 1)]
    refine congrArg₂ (· + ·) (sum_inv4 c q n (Nat.lt_of_succ_lt hn)) ?_
    exact Finset.sum_congr rfl fun j _ => hblk4_apply V c ⟨n + 1, hn⟩ j q _ _ rfl rfl

/-- After point n the sum-of-squares row holds, at column q, the sum of the squares of h's column q over the rows of blocks 0, ..., n. -/
theorem sumsq_inv4 (c : Dev nD) (q : Fin 64) : ∀ (n : ℕ) (hn : n < cfg4.N),
    ((outsAt4 V c n hn).2.2 : Vec Ideal S1x64 .f32) (ix2 0 q)
      = ∑ s ∈ Finset.range (n + 1), ∑ j : Fin 2000, hrow4 V c q (2000 * s + j.val) * hrow4 V c q (2000 * s + j.val)
  | 0, hn => by
    rw [(outs4_A V c ⟨0, hn⟩ rfl).2.2, pay4_5_apply, pay4_3_apply, zero_add, Finset.sum_range_one]
    exact Finset.sum_congr rfl fun j _ => by rw [hblk4_apply V c ⟨0, hn⟩ j q _ _ rfl rfl]
  | n + 1, hn => by
    have hN : cfg4.N = 50 := N_4
    have hB : ¬(⟨n + 1, hn⟩ : Fin cfg4.N).val % 50 = 0 := by dsimp only; omega
    rw [(outs4_B V c ⟨n + 1, hn⟩ hB).2.2, pay4_5_apply, Finset.sum_range_succ _ (n + 1)]
    refine congrArg₂ (· + ·) (sumsq_inv4 c q n (Nat.lt_of_succ_lt hn)) ?_
    exact Finset.sum_congr rfl fun j _ => by rw [hblk4_apply V c ⟨n + 1, hn⟩ j q _ _ rfl rfl]

end Invariant

section Final
variable (V : (c : Dev nD) → (b : Ref sig .tc) → Buf (Elt Ideal) ((c : Thread nD τ).loc b))

/-- h as one array: entry (p, q) is the aggregated entry plus the bias at column q. -/
def hArr4 (c : Dev nD) : S100000x64.Idx → EReal := fun i =>
  agg4 V c i + bias4 V c (ix2 0 (⟨(i 1).val, idx2_lt1 i⟩ : Fin 64))

/-- The sum of h's column q over all the rows. -/
def sumRow4 (c : Dev nD) (q : Fin 64) : EReal :=
  ∑ p : Fin 100000, (agg4 V c (ix2 p q) + bias4 V c (ix2 0 q))

/-- The sum of the squares of h's column q over all the rows. -/
def sumsqRow4 (c : Dev nD) (q : Fin 64) : EReal :=
  ∑ p : Fin 100000, (agg4 V c (ix2 p q) + bias4 V c (ix2 0 q)) * (agg4 V c (ix2 p q) + bias4 V c (ix2 0 q))

/-- The column sums of h as one row. -/
def sumArr4 (c : Dev nD) : S1x64.Idx → EReal := fun i => sumRow4 V c (⟨(i 1).val, idx2_lt1 i⟩ : Fin 64)

/-- The column sums of the squares of h as one row. -/
def sumsqArr4 (c : Dev nD) : S1x64.Idx → EReal := fun i => sumsqRow4 V c (⟨(i 1).val, idx2_lt1 i⟩ : Fin 64)

/-- Entry (j, q) of point t's block of the h array sits at row 2000 t + j. -/
theorem emb4_2 (t : Fin cfg4.N) (j : Fin 2000) (q : Fin 64) (hp : 2000 * t.val + j.val < 100000) :
    ((cfg4.win 2).blk t).view.emb (ix2 j q) = (ix2 ⟨2000 * t.val + j.val, hp⟩ q : S100000x64.Idx) := by
  obtain ⟨-, -, -, -, e0, e1, -⟩ := idx_facts4 t
  funext a
  apply Fin.ext
  match a with
  | ⟨0, _⟩ => show win4_2.index t (0 : Fin 2) * 2000 + 1 * j.val = 2000 * t.val + j.val; rw [e0]; omega
  | ⟨1, _⟩ => show win4_2.index t (1 : Fin 2) * 64 + 1 * q.val = q.val; rw [e1]; omega

/-- What every point writes back to the h array is its block of h. -/
theorem flushed4_2_eq (c : Dev nD) (t : Fin cfg4.N) :
    (dat4 V c).flushed 2 t = ((cfg4.win 2).blk t).view.read (Elt Ideal) (hArr4 V c) := by
  have hN : t.val < 50 := lt_of_lt_of_eq t.isLt (show cfg4.N = 50 from N_4)
  have h1 : (outsAt4 V c t.val t.isLt).1 = k4_pay1 (F := Ideal) (iblk4 V c 0 t) (iblk4 V c 1 t) := by
    by_cases h0 : t.val % 50 = 0
    · exact (outs4_A V c t h0).1
    · exact (outs4_B V c t h0).1
  show (cfg4.win 2).cut (grid4.coords t) ((dat4 V c).after 2 t) = _
  rw [after4_2, h1]
  funext y
  obtain ⟨j, q, rfl⟩ : ∃ (j : Fin 2000) (q : Fin 64), y = ix2 j q := ⟨y 0, y 1, eq_ix2 y⟩
  have hp : 2000 * t.val + j.val < 100000 := by have := j.isLt; omega
  show k4_pay1 (F := Ideal) (iblk4 V c 0 t) (iblk4 V c 1 t) (ix2 j q) = hArr4 V c (((cfg4.win 2).blk t).view.emb (ix2 j q))
  rw [emb4_2 t j q hp, pay4_1_apply, blk4_0_apply V c t j q hp, blk4_1_apply V c t q]
  rfl

/-- An index of the h array is in point t's block iff each coordinate is in the block's range on its axis. -/
theorem mem_blk4_2 (t : Fin cfg4.N) (i : S100000x64.Idx) :
    i ∈ ((cfg4.win 2).blk t).view.set ↔ ∀ a : Fin 2, win4_2.index t a * S2000x64.size a ≤ (i a).val ∧ (i a).val < win4_2.index t a * S2000x64.size a + S2000x64.size a := by
  show i ∈ ((View.whole main_v81_0).slice (win4_2.rect t)).set ↔ _
  rw [View.set_slice_whole, Rect.mem_set_unit]
  exact Iff.rfl

/-- The h array after the region: row p is written by point p / 2000. -/
theorem final4_2 (c : Dev nD) : (dat4 V c).arrAt 2 cfg4.N = hArr4 V c :=
  (dat4 V c).arrAt_eq_of_cover 2 (hArr4 V c) (fun t _ => flushed4_2_eq V c t) fun i => by
    have hi0 : (i 0).val < 100000 := (i 0).isLt
    have hi1 : (i 1).val < 64 := (i 1).isLt
    have hN : cfg4.N = 50 := N_4
    refine ⟨⟨(i 0).val / 2000, by omega⟩, flush4_2 _, ?_⟩
    rw [mem_blk4_2]
    obtain ⟨-, -, -, -, e0, e1, -⟩ := idx_facts4 ⟨(i 0).val / 2000, by omega⟩
    intro a
    match a with
    | ⟨0, _⟩ => show win4_2.index _ (0 : Fin 2) * 2000 ≤ (i 0).val ∧ (i 0).val < win4_2.index _ (0 : Fin 2) * 2000 + 2000; rw [e0]; dsimp only; omega
    | ⟨1, _⟩ => show win4_2.index _ (1 : Fin 2) * 64 ≤ (i 1).val ∧ (i 1).val < win4_2.index _ (1 : Fin 2) * 64 + 64; rw [e1]; omega

/-- The fifty blocks' sums make up the sum over all the rows. -/
theorem regroup_sum4 (c : Dev nD) (q : Fin 64) :
    ∑ s ∈ Finset.range 50, ∑ j : Fin 2000, hrow4 V c q (2000 * s + j.val) = sumRow4 V c q := by
  unfold sumRow4
  refine (Cert.Hamming.sum_blocks 50 2000 fun d => hrow4 V c q d).trans ?_
  exact Finset.sum_congr rfl fun p _ => hrow4_of_lt V c q p.val p.isLt

theorem regroup_sumsq4 (c : Dev nD) (q : Fin 64) :
    ∑ s ∈ Finset.range 50, ∑ j : Fin 2000, hrow4 V c q (2000 * s + j.val) * hrow4 V c q (2000 * s + j.val) = sumsqRow4 V c q := by
  unfold sumsqRow4
  refine (Cert.Hamming.sum_blocks 50 2000 fun d => hrow4 V c q d * hrow4 V c q d).trans ?_
  exact Finset.sum_congr rfl fun p _ => congrArg₂ (· * ·) (hrow4_of_lt V c q p.val p.isLt) (hrow4_of_lt V c q p.val p.isLt)

/-- The one block of an accumulator row is the row. -/
theorem emb4_3 (t : Fin cfg4.N) (q : Fin 64) : ((cfg4.win 3).blk t).view.emb (ix2 0 q) = (ix2 0 q : S1x64.Idx) := by
  obtain ⟨-, -, -, -, -, -, e0, e1, -⟩ := idx_facts4 t
  funext a
  apply Fin.ext
  match a with
  | ⟨0, _⟩ => show win4_3.index t (0 : Fin 2) * 1 + 1 * 0 = 0; rw [e0]
  | ⟨1, _⟩ => show win4_3.index t (1 : Fin 2) * 64 + 1 * q.val = q.val; rw [e1]; omega

theorem emb4_4 (t : Fin cfg4.N) (q : Fin 64) : ((cfg4.win 4).blk t).view.emb (ix2 0 q) = (ix2 0 q : S1x64.Idx) := by
  obtain ⟨-, -, -, -, -, -, -, -, e0, e1⟩ := idx_facts4 t
  funext a
  apply Fin.ext
  match a with
  | ⟨0, _⟩ => show win4_4.index t (0 : Fin 2) * 1 + 1 * 0 = 0; rw [e0]
  | ⟨1, _⟩ => show win4_4.index t (1 : Fin 2) * 64 + 1 * q.val = q.val; rw [e1]; omega

/-- The one write-back of the sum row, at the last point, writes the column sums of h. -/
theorem flushed4_3_eq (c : Dev nD) (t : Fin cfg4.N) (hf : (cfg4.win 3).flush t = true) :
    (dat4 V c).flushed 3 t = ((cfg4.win 3).blk t).view.read (Elt Ideal) (sumArr4 V c) := by
  have hN : t.val < 50 := lt_of_lt_of_eq t.isLt (show cfg4.N = 50 from N_4)
  have h49 : t.val = 49 := by have := (flush4_3 t).mp hf; omega
  show (cfg4.win 3).cut (grid4.coords t) ((dat4 V c).after 3 t) = _
  rw [after4_3]
  funext y
  obtain ⟨u, q, rfl⟩ : ∃ (u : Fin 1) (q : Fin 64), y = ix2 u q := ⟨y 0, y 1, eq_ix2 y⟩
  obtain rfl : u = 0 := Subsingleton.elim _ _
  have hG : sumArr4 V c (ix2 0 q) = sumRow4 V c q := rfl
  generalize sumArr4 V c = G at hG ⊢
  show ((outsAt4 V c t.val t.isLt).2.1 : Vec Ideal S1x64 .f32) (ix2 0 q) = G (((cfg4.win 3).blk t).view.emb (ix2 0 q))
  rw [emb4_3 t q, hG, sum_inv4 V c q t.val t.isLt, h49]
  exact regroup_sum4 V c q

/-- The one write-back of the sum-of-squares row, at the last point, writes the column sums of the squares of h. -/
theorem flushed4_4_eq (c : Dev nD) (t : Fin cfg4.N) (hf : (cfg4.win 4).flush t = true) :
    (dat4 V c).flushed 4 t = ((cfg4.win 4).blk t).view.read (Elt Ideal) (sumsqArr4 V c) := by
  have hN : t.val < 50 := lt_of_lt_of_eq t.isLt (show cfg4.N = 50 from N_4)
  have h49 : t.val = 49 := by have := (flush4_4 t).mp hf; omega
  show (cfg4.win 4).cut (grid4.coords t) ((dat4 V c).after 4 t) = _
  rw [after4_4]
  funext y
  obtain ⟨u, q, rfl⟩ : ∃ (u : Fin 1) (q : Fin 64), y = ix2 u q := ⟨y 0, y 1, eq_ix2 y⟩
  obtain rfl : u = 0 := Subsingleton.elim _ _
  have hG : sumsqArr4 V c (ix2 0 q) = sumsqRow4 V c q := rfl
  generalize sumsqArr4 V c = G at hG ⊢
  show ((outsAt4 V c t.val t.isLt).2.2 : Vec Ideal S1x64 .f32) (ix2 0 q) = G (((cfg4.win 4).blk t).view.emb (ix2 0 q))
  rw [emb4_4 t q, hG, sumsq_inv4 V c q t.val t.isLt, h49]
  exact regroup_sumsq4 V c q

theorem mem_blk4_3 (t : Fin cfg4.N) (i : S1x64.Idx) :
    i ∈ ((cfg4.win 3).blk t).view.set ↔ ∀ a : Fin 2, win4_3.index t a * S1x64.size a ≤ (i a).val ∧ (i a).val < win4_3.index t a * S1x64.size a + S1x64.size a := by
  show i ∈ ((View.whole main_v81_1).slice (win4_3.rect t)).set ↔ _
  rw [View.set_slice_whole, Rect.mem_set_unit]
  exact Iff.rfl

theorem mem_blk4_4 (t : Fin cfg4.N) (i : S1x64.Idx) :
    i ∈ ((cfg4.win 4).blk t).view.set ↔ ∀ a : Fin 2, win4_4.index t a * S1x64.size a ≤ (i a).val ∧ (i a).val < win4_4.index t a * S1x64.size a + S1x64.size a := by
  show i ∈ ((View.whole main_v81_2).slice (win4_4.rect t)).set ↔ _
  rw [View.set_slice_whole, Rect.mem_set_unit]
  exact Iff.rfl

/-- The last point. -/
abbrev tlast4 : Fin cfg4.N := ⟨49, by rw [show cfg4.N = 50 from N_4]; decide⟩

/-- The sum row after the region. -/
theorem final4_3 (c : Dev nD) : (dat4 V c).arrAt 3 cfg4.N = sumArr4 V c :=
  (dat4 V c).arrAt_eq_of_cover 3 (sumArr4 V c) (flushed4_3_eq V c) fun i => by
    have hi0 : (i 0).val < 1 := (i 0).isLt
    have hi1 : (i 1).val < 64 := (i 1).isLt
    refine ⟨tlast4, (flush4_3 tlast4).mpr rfl, ?_⟩
    rw [mem_blk4_3]
    obtain ⟨-, -, -, -, -, -, e0, e1, -⟩ := idx_facts4 tlast4
    intro a
    match a with
    | ⟨0, _⟩ => show win4_3.index _ (0 : Fin 2) * 1 ≤ (i 0).val ∧ (i 0).val < win4_3.index _ (0 : Fin 2) * 1 + 1; rw [e0]; omega
    | ⟨1, _⟩ => show win4_3.index _ (1 : Fin 2) * 64 ≤ (i 1).val ∧ (i 1).val < win4_3.index _ (1 : Fin 2) * 64 + 64; rw [e1]; omega

/-- The sum-of-squares row after the region. -/
theorem final4_4 (c : Dev nD) : (dat4 V c).arrAt 4 cfg4.N = sumsqArr4 V c :=
  (dat4 V c).arrAt_eq_of_cover 4 (sumsqArr4 V c) (flushed4_4_eq V c) fun i => by
    have hi0 : (i 0).val < 1 := (i 0).isLt
    have hi1 : (i 1).val < 64 := (i 1).isLt
    refine ⟨tlast4, (flush4_4 tlast4).mpr rfl, ?_⟩
    rw [mem_blk4_4]
    obtain ⟨-, -, -, -, -, -, -, -, e0, e1⟩ := idx_facts4 tlast4
    intro a
    match a with
    | ⟨0, _⟩ => show win4_4.index _ (0 : Fin 2) * 1 ≤ (i 0).val ∧ (i 0).val < win4_4.index _ (0 : Fin 2) * 1 + 1; rw [e0]; omega
    | ⟨1, _⟩ => show win4_4.index _ (1 : Fin 2) * 64 ≤ (i 1).val ∧ (i 1).val < win4_4.index _ (1 : Fin 2) * 64 + 64; rw [e1]; omega

/-- The h array after the region, entry by entry. -/
theorem red4_h (c : Dev nD) (p : Fin 100000) (q : Fin 64) :
    ((dat4 (F := Ideal) V c).arrAt 2 cfg4.N : S100000x64.Idx → EReal) (ix2 p q)
      = agg4 V c (ix2 p q) + bias4 V c (ix2 0 q) := by
  rw [final4_2 V c]
  rfl

/-- The sum row after the region: column q holds the sum of h's column q over all the rows. -/
theorem red4_sum (c : Dev nD) (q : Fin 64) :
    ((dat4 (F := Ideal) V c).arrAt 3 cfg4.N : S1x64.Idx → EReal) (ix2 0 q)
      = ∑ p : Fin 100000, (agg4 V c (ix2 p q) + bias4 V c (ix2 0 q)) := by
  rw [final4_3 V c]
  unfold sumArr4
  rfl

/-- The sum-of-squares row after the region: column q holds the sum of the squares of h's column q over all the rows. -/
theorem red4_sumsq (c : Dev nD) (q : Fin 64) :
    ((dat4 (F := Ideal) V c).arrAt 4 cfg4.N : S1x64.Idx → EReal) (ix2 0 q)
      = ∑ p : Fin 100000, (agg4 V c (ix2 p q) + bias4 V c (ix2 0 q))
          * (agg4 V c (ix2 p q) + bias4 V c (ix2 0 q)) := by
  rw [final4_4 V c]
  unfold sumsqArr4
  rfl

end Final

end Cert.KernelIdeal.Reduce
end
-- ==== Proof.RefBN.lean ====
/-
  The reference's two batch-normalisation stages, the two dense products and the bias additions, each read at an
  index (p, q): the value is written with the column mean (the column sum divided by the row count), the column
  variance (the mean of the squared deviations), the reciprocal square root of the variance plus a constant, the scale
  and shift vectors, and the maximum with zero.
-/
import proofs.«113360_j59854664237267_1_alg».proof.Proof.Gen.ReferenceIdeal.Read
import Idealize.ShloMosaic.Lib.ValueIdx

noncomputable section

open scoped BigOperators

namespace Cert.RefBN

open Cert.ReferenceIdeal Cert.ReferenceIdeal.Read Idealize.ShloMosaic Idealize.ShloMosaic.ValueIdx

variable (x0 : (⟨S100000x128, .f32⟩ : BufTy).Contents (Elt Ideal)) (x1 : (⟨S2x3200000, .i32⟩ : BufTy).Contents (Elt Ideal))
  (x2 : (⟨S3200000, .f32⟩ : BufTy).Contents (Elt Ideal)) (x4 : (⟨S128x64, .f32⟩ : BufTy).Contents (Elt Ideal))
  (x5 : (⟨S64, .f32⟩ : BufTy).Contents (Elt Ideal)) (x6 : (⟨S64x64, .f32⟩ : BufTy).Contents (Elt Ideal))
  (x7 x8 x9 x10 x11 : (⟨S64, .f32⟩ : BufTy).Contents (Elt Ideal))

/-- The first dense product at (p, q): the sum over k of x0[p, k] · x4[k, q]. -/
theorem v35_at (p : Fin 100000) (q : Fin 64) :
    val_main_v35 (F := Ideal) x0 x4 (ix2 p q) = ∑ k : Fin 128, x0 (ix2 p k) * x4 (ix2 k q) := by
  rw [val_main_v35_apply]
  refine Finset.sum_congr rfl fun k _ => ?_
  have el : lidx_main_v35 (ix2 p q) k = ix2 p k :=
    funext fun a => Fin.ext (by match a with | ⟨0, _⟩ => rfl | ⟨1, _⟩ => rfl)
  have er : ridx_main_v35 (ix2 p q) k = ix2 k q :=
    funext fun a => Fin.ext (by match a with | ⟨0, _⟩ => rfl | ⟨1, _⟩ => rfl)
  rw [el, er]

/-- The first bias addition at (p, q). -/
theorem v51_at (p : Fin 100000) (q : Fin 64) :
    val_main_v51 (F := Ideal) x0 x1 x2 x4 x5 (ix2 p q)
      = val_main_v48 (F := Ideal) x0 x1 x2 x4 (ix2 p q) + x5 (ix1 q) := by
  rw [val_main_v51_apply, val_main_v50_apply, val_main_v49_apply, Ideal.addf_def]
  have e : idx_main_v49 (idx_main_v50 (ix2 p q)) = ix1 q :=
    funext fun a => Fin.ext (by match a with | ⟨0, _⟩ => rfl)
  rw [e]

/-! ## The first normalisation stage -/

/-- The column mean: the column sum of the biased activations divided by the row count. -/
theorem v54_at (q : Fin 64) :
    val_main_v54 (F := Ideal) x0 x1 x2 x4 x5 (ix1 q)
      = Ideal.div (0 + ∑ k : Fin 100000, val_main_v51 (F := Ideal) x0 x1 x2 x4 x5 (ix2 k q)) (Ideal.ofBits .f32 0x47C35000#32) := by
  rw [val_main_v54_apply, val_main_v52_apply, val_main_v53_apply, val_main_cst_11_apply, val_main_cst_12_apply]
  simp only [Ideal.hostDivf_def, Ideal.ofBits_def, Ideal.ofBits_zero_f32]
  have e : ∀ k : Fin 100000, idx_main_v52 (ix1 q) k = ix2 k q := fun k =>
    funext fun a => Fin.ext (by match a with | ⟨0, _⟩ => rfl | ⟨1, _⟩ => rfl)
  simp only [e]

/-- The deviation from the column mean (the copy that is squared). -/
theorem v57_at (p : Fin 100000) (q : Fin 64) :
    val_main_v57 (F := Ideal) x0 x1 x2 x4 x5 (ix2 p q)
      = val_main_v51 (F := Ideal) x0 x1 x2 x4 x5 (ix2 p q) - val_main_v54 (F := Ideal) x0 x1 x2 x4 x5 (ix1 q) := by
  rw [val_main_v57_apply, val_main_v56_apply, val_main_v55_apply, Ideal.subf_def]
  have e : idx_main_v55 (idx_main_v56 (ix2 p q)) = ix1 q := funext fun a => Fin.ext (by match a with | ⟨0, _⟩ => rfl)
  rw [e]

/-- The deviation from the column mean (the copy that is scaled). -/
theorem v64_at (p : Fin 100000) (q : Fin 64) :
    val_main_v64 (F := Ideal) x0 x1 x2 x4 x5 (ix2 p q)
      = val_main_v51 (F := Ideal) x0 x1 x2 x4 x5 (ix2 p q) - val_main_v54 (F := Ideal) x0 x1 x2 x4 x5 (ix1 q) := by
  rw [val_main_v64_apply, val_main_v63_apply, val_main_v62_apply, Ideal.subf_def]
  have e : idx_main_v62 (idx_main_v63 (ix2 p q)) = ix1 q := funext fun a => Fin.ext (by match a with | ⟨0, _⟩ => rfl)
  rw [e]

/-- The column variance: the column sum of the squared deviations divided by the row count. -/
theorem v61_at (q : Fin 64) :
    val_main_v61 (F := Ideal) x0 x1 x2 x4 x5 (ix1 q)
      = Ideal.div (0 + ∑ k : Fin 100000,
            (val_main_v51 (F := Ideal) x0 x1 x2 x4 x5 (ix2 k q) - val_main_v54 (F := Ideal) x0 x1 x2 x4 x5 (ix1 q))
              * (val_main_v51 (F := Ideal) x0 x1 x2 x4 x5 (ix2 k q) - val_main_v54 (F := Ideal) x0 x1 x2 x4 x5 (ix1 q))) (Ideal.ofBits .f32 0x47C35000#32) := by
  rw [val_main_v61_apply, val_main_v59_apply, val_main_v60_apply, val_main_cst_13_apply, val_main_cst_14_apply]
  simp only [Ideal.hostDivf_def, Ideal.ofBits_def, Ideal.ofBits_zero_f32]
  have hs : ∀ k : Fin 100000, val_main_v58 (F := Ideal) x0 x1 x2 x4 x5 (idx_main_v59 (ix1 q) k)
      = (val_main_v51 (F := Ideal) x0 x1 x2 x4 x5 (ix2 k q) - val_main_v54 (F := Ideal) x0 x1 x2 x4 x5 (ix1 q))
        * (val_main_v51 (F := Ideal) x0 x1 x2 x4 x5 (ix2 k q) - val_main_v54 (F := Ideal) x0 x1 x2 x4 x5 (ix1 q)) := fun k => by
    have e : idx_main_v59 (ix1 q) k = ix2 k q :=
      funext fun a => Fin.ext (by match a with | ⟨0, _⟩ => rfl | ⟨1, _⟩ => rfl)
    rw [e, val_main_v58_apply, Ideal.mulf_def, v57_at]
  rw [Finset.sum_congr rfl fun k _ => hs k]

/-- The reciprocal square root of the variance plus the constant. -/
theorem v70_at (q : Fin 64) :
    val_main_v70 (F := Ideal) x0 x1 x2 x4 x5 (ix1 q)
      = Ideal.rsqrt (val_main_v61 (F := Ideal) x0 x1 x2 x4 x5 (ix1 q) + Ideal.ofBits .f32 0x3727C5AC#32) := by
  rw [val_main_v70_apply, val_main_v69_apply, val_main_v68_apply, val_main_cst_15_apply]
  simp only [Ideal.hostUnary_rsqrt_def, Ideal.addf_def, Ideal.ofBits_def]

/-- The normalised, scaled, shifted and rectified activation at (p, q), in terms of the column mean and the
    reciprocal square root as the program names them. -/
theorem v77_at_named (p : Fin 100000) (q : Fin 64) :
    val_main_v77 (F := Ideal) x0 x1 x2 x4 x5 x8 x9 (ix2 p q)
      = max (x8 (ix1 q) * (val_main_v51 (F := Ideal) x0 x1 x2 x4 x5 (ix2 p q) - val_main_v54 (F := Ideal) x0 x1 x2 x4 x5 (ix1 q))
              * val_main_v70 (F := Ideal) x0 x1 x2 x4 x5 (ix1 q) + x9 (ix1 q)) 0 := by
  rw [val_main_v77_apply, val_main_v76_apply, val_main_v73_apply, val_main_v67_apply, val_main_v66_apply, val_main_v65_apply, val_main_v72_apply, val_main_v71_apply,
    val_main_v75_apply, val_main_v74_apply, val_main_call2_v0_apply, val_main_call2_cst_apply, v64_at]
  have e1 : idx_main_v65 (idx_main_v66 (ix2 p q)) = ix1 q := funext fun a => Fin.ext (by match a with | ⟨0, _⟩ => rfl)
  have e2 : idx_main_v71 (idx_main_v72 (ix2 p q)) = ix1 q := funext fun a => Fin.ext (by match a with | ⟨0, _⟩ => rfl)
  have e3 : idx_main_v74 (idx_main_v75 (ix2 p q)) = ix1 q := funext fun a => Fin.ext (by match a with | ⟨0, _⟩ => rfl)
  rw [e1, e2, e3]
  simp only [Ideal.maximumf_def, Ideal.addf_def, Ideal.mulf_def, Ideal.ofBits_def, Ideal.ofBits_zero_f32]

/-- The same, with the mean, the variance and the reciprocal square root written out over the column. -/
theorem v77_at (p : Fin 100000) (q : Fin 64) :
    val_main_v77 (F := Ideal) x0 x1 x2 x4 x5 x8 x9 (ix2 p q)
      = max (x8 (ix1 q) * (val_main_v51 (F := Ideal) x0 x1 x2 x4 x5 (ix2 p q) - Ideal.div (0 + ∑ k : Fin 100000, val_main_v51 (F := Ideal) x0 x1 x2 x4 x5 (ix2 k q)) (Ideal.ofBits .f32 0x47C35000#32))
              * Ideal.rsqrt (Ideal.div (0 + ∑ k : Fin 100000,
                    (val_main_v51 (F := Ideal) x0 x1 x2 x4 x5 (ix2 k q) - Ideal.div (0 + ∑ k : Fin 100000, val_main_v51 (F := Ideal) x0 x1 x2 x4 x5 (ix2 k q)) (Ideal.ofBits .f32 0x47C35000#32))
                      * (val_main_v51 (F := Ideal) x0 x1 x2 x4 x5 (ix2 k q) - Ideal.div (0 + ∑ k : Fin 100000, val_main_v51 (F := Ideal) x0 x1 x2 x4 x5 (ix2 k q)) (Ideal.ofBits .f32 0x47C35000#32))) (Ideal.ofBits .f32 0x47C35000#32)
                  + Ideal.ofBits .f32 0x3727C5AC#32)
            + x9 (ix1 q)) 0 := by
  rw [v77_at_named, v70_at, v61_at, v54_at]

/-- The second dense product at (p, q): the sum over k of the first stage's output at (p, k) times x6[k, q]. -/
theorem v78_at (p : Fin 100000) (q : Fin 64) :
    val_main_v78 (F := Ideal) x0 x1 x2 x4 x5 x6 x8 x9 (ix2 p q)
      = ∑ k : Fin 64, val_main_v77 (F := Ideal) x0 x1 x2 x4 x5 x8 x9 (ix2 p k) * x6 (ix2 k q) := by
  rw [val_main_v78_apply]
  refine Finset.sum_congr rfl fun k _ => ?_
  have el : lidx_main_v78 (ix2 p q) k = ix2 p k :=
    funext fun a => Fin.ext (by match a with | ⟨0, _⟩ => rfl | ⟨1, _⟩ => rfl)
  have er : ridx_main_v78 (ix2 p q) k = ix2 k q :=
    funext fun a => Fin.ext (by match a with | ⟨0, _⟩ => rfl | ⟨1, _⟩ => rfl)
  rw [el, er]

/-- The second bias addition at (p, q). -/
theorem v94_at (p : Fin 100000) (q : Fin 64) :
    val_main_v94 (F := Ideal) x0 x1 x2 x4 x5 x6 x7 x8 x9 (ix2 p q)
      = val_main_v91 (F := Ideal) x0 x1 x2 x4 x5 x6 x8 x9 (ix2 p q) + x7 (ix1 q) := by
  rw [val_main_v94_apply, val_main_v93_apply, val_main_v92_apply, Ideal.addf_def]
  have e : idx_main_v92 (idx_main_v93 (ix2 p q)) = ix1 q :=
    funext fun a => Fin.ext (by match a with | ⟨0, _⟩ => rfl)
  rw [e]

/-! ## The second normalisation stage -/

/-- The column mean: the column sum of the biased activations divided by the row count. -/
theorem v97_at (q : Fin 64) :
    val_main_v97 (F := Ideal) x0 x1 x2 x4 x5 x6 x7 x8 x9 (ix1 q)
      = Ideal.div (0 + ∑ k : Fin 100000, val_main_v94 (F := Ideal) x0 x1 x2 x4 x5 x6 x7 x8 x9 (ix2 k q)) (Ideal.ofBits .f32 0x47C35000#32) := by
  rw [val_main_v97_apply, val_main_v95_apply, val_main_v96_apply, val_main_cst_19_apply, val_main_cst_20_apply]
  simp only [Ideal.hostDivf_def, Ideal.ofBits_def, Ideal.ofBits_zero_f32]
  have e : ∀ k : Fin 100000, idx_main_v95 (ix1 q) k = ix2 k q := fun k =>
    funext fun a => Fin.ext (by match a with | ⟨0, _⟩ => rfl | ⟨1, _⟩ => rfl)
  simp only [e]

/-- The deviation from the column mean (the copy that is squared). -/
theorem v100_at (p : Fin 100000) (q : Fin 64) :
    val_main_v100 (F := Ideal) x0 x1 x2 x4 x5 x6 x7 x8 x9 (ix2 p q)
      = val_main_v94 (F := Ideal) x0 x1 x2 x4 x5 x6 x7 x8 x9 (ix2 p q) - val_main_v97 (F := Ideal) x0 x1 x2 x4 x5 x6 x7 x8 x9 (ix1 q) := by
  rw [val_main_v100_apply, val_main_v99_apply, val_main_v98_apply, Ideal.subf_def]
  have e : idx_main_v98 (idx_main_v99 (ix2 p q)) = ix1 q := funext fun a => Fin.ext (by match a with | ⟨0, _⟩ => rfl)
  rw [e]

/-- The deviation from the column mean (the copy that is scaled). -/
theorem v107_at (p : Fin 100000) (q : Fin 64) :
    val_main_v107 (F := Ideal) x0 x1 x2 x4 x5 x6 x7 x8 x9 (ix2 p q)
      = val_main_v94 (F := Ideal) x0 x1 x2 x4 x5 x6 x7 x8 x9 (ix2 p q) - val_main_v97 (F := Ideal) x0 x1 x2 x4 x5 x6 x7 x8 x9 (ix1 q) := by
  rw [val_main_v107_apply, val_main_v106_apply, val_main_v105_apply, Ideal.subf_def]
  have e : idx_main_v105 (idx_main_v106 (ix2 p q)) = ix1 q := funext fun a => Fin.ext (by match a with | ⟨0, _⟩ => rfl)
  rw [e]

/-- The column variance: the column sum of the squared deviations divided by the row count. -/
theorem v104_at (q : Fin 64) :
    val_main_v104 (F := Ideal) x0 x1 x2 x4 x5 x6 x7 x8 x9 (ix1 q)
      = Ideal.div (0 + ∑ k : Fin 100000,
            (val_main_v94 (F := Ideal) x0 x1 x2 x4 x5 x6 x7 x8 x9 (ix2 k q) - val_main_v97 (F := Ideal) x0 x1 x2 x4 x5 x6 x7 x8 x9 (ix1 q))
              * (val_main_v94 (F := Ideal) x0 x1 x2 x4 x5 x6 x7 x8 x9 (ix2 k q) - val_main_v97 (F := Ideal) x0 x1 x2 x4 x5 x6 x7 x8 x9 (ix1 q))) (Ideal.ofBits .f32 0x47C35000#32) := by
  rw [val_main_v104_apply, val_main_v102_apply, val_main_v103_apply, val_main_cst_21_apply, val_main_cst_22_apply]
  simp only [Ideal.hostDivf_def, Ideal.ofBits_def, Ideal.ofBits_zero_f32]
  have hs : ∀ k : Fin 100000, val_main_v101 (F := Ideal) x0 x1 x2 x4 x5 x6 x7 x8 x9 (idx_main_v102 (ix1 q) k)
      = (val_main_v94 (F := Ideal) x0 x1 x2 x4 x5 x6 x7 x8 x9 (ix2 k q) - val_main_v97 (F := Ideal) x0 x1 x2 x4 x5 x6 x7 x8 x9 (ix1 q))
        * (val_main_v94 (F := Ideal) x0 x1 x2 x4 x5 x6 x7 x8 x9 (ix2 k q) - val_main_v97 (F := Ideal) x0 x1 x2 x4 x5 x6 x7 x8 x9 (ix1 q)) := fun k => by
    have e : idx_main_v102 (ix1 q) k = ix2 k q :=
      funext fun a => Fin.ext (by match a with | ⟨0, _⟩ => rfl | ⟨1, _⟩ => rfl)
    rw [e, val_main_v101_apply, Ideal.mulf_def, v100_at]
  rw [Finset.sum_congr rfl fun k _ => hs k]

/-- The reciprocal square root of the variance plus the constant. -/
theorem v113_at (q : Fin 64) :
    val_main_v113 (F := Ideal) x0 x1 x2 x4 x5 x6 x7 x8 x9 (ix1 q)
      = Ideal.rsqrt (val_main_v104 (F := Ideal) x0 x1 x2 x4 x5 x6 x7 x8 x9 (ix1 q) + Ideal.ofBits .f32 0x3727C5AC#32) := by
  rw [val_main_v113_apply, val_main_v112_apply, val_main_v111_apply, val_main_cst_23_apply]
  simp only [Ideal.hostUnary_rsqrt_def, Ideal.addf_def, Ideal.ofBits_def]

/-- The normalised, scaled, shifted and rectified activation at (p, q), in terms of the column mean and the
    reciprocal square root as the program names them. -/
theorem v120_at_named (p : Fin 100000) (q : Fin 64) :
    val_main_v120 (F := Ideal) x0 x1 x2 x4 x5 x6 x7 x8 x9 x10 x11 (ix2 p q)
      = max (x10 (ix1 q) * (val_main_v94 (F := Ideal) x0 x1 x2 x4 x5 x6 x7 x8 x9 (ix2 p q) - val_main_v97 (F := Ideal) x0 x1 x2 x4 x5 x6 x7 x8 x9 (ix1 q))
              * val_main_v113 (F := Ideal) x0 x1 x2 x4 x5 x6 x7 x8 x9 (ix1 q) + x11 (ix1 q)) 0 := by
  rw [val_main_v120_apply, val_main_v119_apply, val_main_v116_apply, val_main_v110_apply, val_main_v109_apply, val_main_v108_apply, val_main_v115_apply, val_main_v114_apply,
    val_main_v118_apply, val_main_v117_apply, val_main_call3_v0_apply, val_main_call3_cst_apply, v107_at]
  have e1 : idx_main_v108 (idx_main_v109 (ix2 p q)) = ix1 q := funext fun a => Fin.ext (by match a with | ⟨0, _⟩ => rfl)
  have e2 : idx_main_v114 (idx_main_v115 (ix2 p q)) = ix1 q := funext fun a => Fin.ext (by match a with | ⟨0, _⟩ => rfl)
  have e3 : idx_main_v117 (idx_main_v118 (ix2 p q)) = ix1 q := funext fun a => Fin.ext (by match a with | ⟨0, _⟩ => rfl)
  rw [e1, e2, e3]
  simp only [Ideal.maximumf_def, Ideal.addf_def, Ideal.mulf_def, Ideal.ofBits_def, Ideal.ofBits_zero_f32]

/-- The same, with the mean, the variance and the reciprocal square root written out over the column. -/
theorem v120_at (p : Fin 100000) (q : Fin 64) :
    val_main_v120 (F := Ideal) x0 x1 x2 x4 x5 x6 x7 x8 x9 x10 x11 (ix2 p q)
      = max (x10 (ix1 q) * (val_main_v94 (F := Ideal) x0 x1 x2 x4 x5 x6 x7 x8 x9 (ix2 p q) - Ideal.div (0 + ∑ k : Fin 100000, val_main_v94 (F := Ideal) x0 x1 x2 x4 x5 x6 x7 x8 x9 (ix2 k q)) (Ideal.ofBits .f32 0x47C35000#32))
              * Ideal.rsqrt (Ideal.div (0 + ∑ k : Fin 100000,
                    (val_main_v94 (F := Ideal) x0 x1 x2 x4 x5 x6 x7 x8 x9 (ix2 k q) - Ideal.div (0 + ∑ k : Fin 100000, val_main_v94 (F := Ideal) x0 x1 x2 x4 x5 x6 x7 x8 x9 (ix2 k q)) (Ideal.ofBits .f32 0x47C35000#32))
                      * (val_main_v94 (F := Ideal) x0 x1 x2 x4 x5 x6 x7 x8 x9 (ix2 k q) - Ideal.div (0 + ∑ k : Fin 100000, val_main_v94 (F := Ideal) x0 x1 x2 x4 x5 x6 x7 x8 x9 (ix2 k q)) (Ideal.ofBits .f32 0x47C35000#32))) (Ideal.ofBits .f32 0x47C35000#32)
                  + Ideal.ofBits .f32 0x3727C5AC#32)
            + x11 (ix1 q)) 0 := by
  rw [v120_at_named, v113_at, v104_at, v97_at]

end Cert.RefBN
-- ==== Proof.Seg3.lean ====
/-
  The first batch-normalisation layer, end to end. The first region leaves the biased activations h = agg + b and,
  per column, the sum of h and the sum of h²; the host stretch turns the two sums into the column's scale
  γ·(E[h²] − mean² + ε)^(−1/2) and shift β − mean·scale; the second region leaves max(h·scale + shift, 0). On real
  entries this is the reference's γ·(h − mean)·(σ² + ε)^(−1/2) + β clamped below at zero, σ² the mean of the squared
  deviations: so the array after the second region is the reference's first normalised layer, entry by entry, and
  every such entry is a real number.
-/
import proofs.«113360_j59854664237267_1_alg».proof.Proof.Gen.KernelIdeal.Frame
import proofs.«113360_j59854664237267_1_alg».proof.Proof.Gen.ReferenceIdeal.Read
import proofs.«113360_j59854664237267_1_alg».proof.Proof.BNMath
import proofs.«113360_j59854664237267_1_alg».proof.Proof.LibColumn
import proofs.«113360_j59854664237267_1_alg».proof.Proof.Norm
import proofs.«113360_j59854664237267_1_alg».proof.Proof.Reduce
import proofs.«113360_j59854664237267_1_alg».proof.Proof.RefBN
import proofs.«113360_j59854664237267_1_alg».proof.Proof.RefFinite
import Idealize.ShloMosaic.Lib.StableHlo.Run
import Idealize.ShloMosaic.Lib.ValueIdx
import Idealize.ShloMosaic.Lib.ValueLayout

set_option maxRecDepth 16384

noncomputable section

open scoped BigOperators

namespace Cert.KernelIdeal.Seg3

open Cert.KernelIdeal Cert.KernelIdeal.Gen Idealize.ShloMosaic Idealize.ShloMosaic.TcCoe Idealize.SL.Sem Idealize.ShloMosaic.StableHlo
open Idealize.ShloMosaic.ValueIdx Idealize.ShloMosaic.LibFinite

variable (m : (ℓ : Loc nD τ sig) → Buf (Elt Ideal) ℓ) (ρ : Dev nD → PrngReg)

macro "keep_ops" ops:ident : tactic => `(tactic|
  exact StableHlo.after_of_forall_not_mem _ _ (List.forall_iff_forall_mem.mp (by
    simp only [$ops:ident, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The host stretch between the two regions: the column's scale and shift -/

/-- A scalar constant broadcast to a row reads the constant's value everywhere. -/
theorem bcast_const_at (w : BitVec 32) (j : S1x64.Idx) :
    broadcastInDim S1x64 ![] bcast_S_S1x64 (constant (F := Ideal) S_ .f32 w) j = Ideal.ofBits .f32 w :=
  Cert.LibColumn.bcastInDim_scalar_apply _ _ j (fun a => a.elim0)

/-- A vector of 64 entries viewed as a row reads, at column q, its q-th entry. -/
theorem row_at (x : S64.Idx → EReal) (q : Fin 64) :
    shapeCast S1x64 x shapeCasts_S64_S1x64 (ix2 0 q) = x (ix1 q) :=
  shapeCast_a_1a_apply (a := 64) x shapeCasts_S64_S1x64 0 q

/-- The scale row at column q: γ_q times the reciprocal square root of E[h²] − mean² + ε, the two means being the
    column sums divided by the row count. -/
theorem scale_at (g : S64.Idx → EReal) (s1 s2 : S1x64.Idx → EReal) (q : Fin 64) :
    (mulf (F := Ideal) (φ := .f32) (fun i => shapeCast S1x64 g shapeCasts_S64_S1x64 i)
      (Host.rsqrt (addf (subf
          (Host.divf s2 (broadcastInDim S1x64 ![] bcast_S_S1x64 (constant (F := Ideal) S_ .f32 0x47C35000#32)))
          (mulf (Host.divf s1 (broadcastInDim S1x64 ![] bcast_S_S1x64 (constant (F := Ideal) S_ .f32 0x47C35000#32)))
                (Host.divf s1 (broadcastInDim S1x64 ![] bcast_S_S1x64 (constant (F := Ideal) S_ .f32 0x47C35000#32)))))
        (broadcastInDim S1x64 ![] bcast_S_S1x64 (constant (F := Ideal) S_ .f32 0x3727C5AC#32)))) : S1x64.Idx → EReal) (ix2 0 q)
      = g (ix1 q) * Ideal.rsqrt (Ideal.div (s2 (ix2 0 q)) (Ideal.ofBits .f32 0x47C35000#32)
          - Ideal.div (s1 (ix2 0 q)) (Ideal.ofBits .f32 0x47C35000#32) * Ideal.div (s1 (ix2 0 q)) (Ideal.ofBits .f32 0x47C35000#32)
          + Ideal.ofBits .f32 0x3727C5AC#32) := by
  show shapeCast S1x64 g shapeCasts_S64_S1x64 (ix2 0 q) * Ideal.rsqrt (Ideal.div (s2 (ix2 0 q)) (broadcastInDim S1x64 ![] bcast_S_S1x64 (constant (F := Ideal) S_ .f32 0x47C35000#32) (ix2 0 q))
          - Ideal.div (s1 (ix2 0 q)) (broadcastInDim S1x64 ![] bcast_S_S1x64 (constant (F := Ideal) S_ .f32 0x47C35000#32) (ix2 0 q)) * Ideal.div (s1 (ix2 0 q)) (broadcastInDim S1x64 ![] bcast_S_S1x64 (constant (F := Ideal) S_ .f32 0x47C35000#32) (ix2 0 q))
          + broadcastInDim S1x64 ![] bcast_S_S1x64 (constant (F := Ideal) S_ .f32 0x3727C5AC#32) (ix2 0 q)) = _
  rw [row_at, bcast_const_at, bcast_const_at]

/-- The shift row at column q: β_q minus the column mean times the scale. -/
theorem shift_at (b : S64.Idx → EReal) (s1 sc : S1x64.Idx → EReal) (q : Fin 64) :
    (subf (F := Ideal) (φ := .f32) (fun i => shapeCast S1x64 b shapeCasts_S64_S1x64 i)
      (mulf (Host.divf s1 (broadcastInDim S1x64 ![] bcast_S_S1x64 (constant (F := Ideal) S_ .f32 0x47C35000#32))) sc) : S1x64.Idx → EReal) (ix2 0 q)
      = b (ix1 q) - Ideal.div (s1 (ix2 0 q)) (Ideal.ofBits .f32 0x47C35000#32) * sc (ix2 0 q) := by
  show shapeCast S1x64 b shapeCasts_S64_S1x64 (ix2 0 q)
      - Ideal.div (s1 (ix2 0 q)) (broadcastInDim S1x64 ![] bcast_S_S1x64 (constant (F := Ideal) S_ .f32 0x47C35000#32) (ix2 0 q)) * sc (ix2 0 q) = _
  rw [row_at, bcast_const_at]

/-- The scale row after the host stretch, as the stretch computes it from the column sums the first region left. -/
theorem w9_v61 (c : Dev nD) :
    W9 m ρ c (Proc.devRef .tc main_v61)
      = mulf (F := Ideal) (φ := .f32) (fun i => shapeCast S1x64 (W8 m ρ c (Proc.devRef .tc main_arg8)) shapeCasts_S64_S1x64 i)
      (Host.rsqrt (addf (subf
          (Host.divf (W8 m ρ c (Proc.devRef .tc main_v50_2)) (broadcastInDim S1x64 ![] bcast_S_S1x64 (constant (F := Ideal) S_ .f32 0x47C35000#32)))
          (mulf (Host.divf (W8 m ρ c (Proc.devRef .tc main_v50_1)) (broadcastInDim S1x64 ![] bcast_S_S1x64 (constant (F := Ideal) S_ .f32 0x47C35000#32)))
                (Host.divf (W8 m ρ c (Proc.devRef .tc main_v50_1)) (broadcastInDim S1x64 ![] bcast_S_S1x64 (constant (F := Ideal) S_ .f32 0x47C35000#32)))))
        (broadcastInDim S1x64 ![] bcast_S_S1x64 (constant (F := Ideal) S_ .f32 0x3727C5AC#32)))) := by
  show StableHlo.after hostOps2 _ (Proc.devRef .tc main_v61) = _
  after_results_simp
  rfl

/-- The shift row after the host stretch, in terms of the scale row. -/
theorem w9_v64 (c : Dev nD) :
    W9 m ρ c (Proc.devRef .tc main_v64)
      = subf (F := Ideal) (φ := .f32) (fun i => shapeCast S1x64 (W8 m ρ c (Proc.devRef .tc main_arg9)) shapeCasts_S64_S1x64 i)
      (mulf (Host.divf (W8 m ρ c (Proc.devRef .tc main_v50_1)) (broadcastInDim S1x64 ![] bcast_S_S1x64 (constant (F := Ideal) S_ .f32 0x47C35000#32)))
        (W9 m ρ c (Proc.devRef .tc main_v61))) := by
  rw [w9_v61]
  show StableHlo.after hostOps2 _ (Proc.devRef .tc main_v64) = _
  after_results_simp
  rfl

/-! ## The segment: the first region's exit, the stretch, the second region's exit -/

variable (x0 : (⟨Cert.ReferenceIdeal.S100000x128, .f32⟩ : BufTy).Contents (Elt Ideal))
  (x1 : (⟨Cert.ReferenceIdeal.S2x3200000, .i32⟩ : BufTy).Contents (Elt Ideal))
  (x2 : (⟨Cert.ReferenceIdeal.S3200000, .f32⟩ : BufTy).Contents (Elt Ideal))
  (x4 : (⟨Cert.ReferenceIdeal.S128x64, .f32⟩ : BufTy).Contents (Elt Ideal))
  (x5 x8 x9 : (⟨Cert.ReferenceIdeal.S64, .f32⟩ : BufTy).Contents (Elt Ideal))

/-- The activations array after the first region. -/
abbrev act8 (c : Dev nD) : S100000x64.Idx → EReal := W8 m ρ c (Proc.devRef .tc main_v50_0)
/-- The row of column sums after the first region. -/
abbrev sum8 (c : Dev nD) : S1x64.Idx → EReal := W8 m ρ c (Proc.devRef .tc main_v50_1)
/-- The row of column sums of squares after the first region. -/
abbrev sq8 (c : Dev nD) : S1x64.Idx → EReal := W8 m ρ c (Proc.devRef .tc main_v50_2)
/-- The scale vector γ after the first region. -/
abbrev gam8 (c : Dev nD) : S64.Idx → EReal := W8 m ρ c (Proc.devRef .tc main_arg8)
/-- The shift vector β after the first region. -/
abbrev bet8 (c : Dev nD) : S64.Idx → EReal := W8 m ρ c (Proc.devRef .tc main_arg9)
/-- The activations array after the host stretch. -/
abbrev act9 (c : Dev nD) : S100000x64.Idx → EReal := W9 m ρ c (Proc.devRef .tc main_v50_0)
/-- The scale row after the host stretch. -/
abbrev scale9 (c : Dev nD) : S1x64.Idx → EReal := W9 m ρ c (Proc.devRef .tc main_v61)
/-- The shift row after the host stretch. -/
abbrev shift9 (c : Dev nD) : S1x64.Idx → EReal := W9 m ρ c (Proc.devRef .tc main_v64)
/-- The normalised array after the second region. -/
abbrev out10 (c : Dev nD) : S100000x64.Idx → EReal := W10 m ρ c (Proc.devRef .tc main_v65)

theorem act9_eq (c : Dev nD) : act9 m ρ c = act8 m ρ c := by
  show W9 m ρ c (Proc.devRef .tc main_v50_0) = W8 m ρ c (Proc.devRef .tc main_v50_0)
  keep_ops hostOps2

section Body

variable (c : Dev nD)
  (h48 : W7 m ρ c (Proc.devRef .tc main_v48) = Cert.ReferenceIdeal.Read.val_main_v48 (F := Ideal) x0 x1 x2 x4)
  (h49 : ∀ q : Fin 64, (W7 m ρ c (Proc.devRef .tc main_v49) : S1x64.Idx → EReal) (ix2 0 q) = x5 (ix1 q))
  (ha8 : W7 m ρ c (Proc.devRef .tc main_arg8) = x8)
  (ha9 : W7 m ρ c (Proc.devRef .tc main_arg9) = x9)

include h48 h49 in
/-- The kernel's biased activation at (p, q) is the reference's. -/
theorem hK_eq (p : Fin 100000) (q : Fin 64) :
    Reduce.agg1 (V7 m ρ) c (ix2 p q) + Reduce.bias1 (V7 m ρ) c (ix2 0 q) = Cert.ReferenceIdeal.Read.val_main_v51 (F := Ideal) x0 x1 x2 x4 x5 (ix2 p q) := by
  have e48 : Reduce.agg1 (V7 m ρ) c = Cert.ReferenceIdeal.Read.val_main_v48 (F := Ideal) x0 x1 x2 x4 := h48
  have e49 : Reduce.bias1 (V7 m ρ) c (ix2 0 q) = x5 (ix1 q) := h49 q
  rw [Cert.RefBN.v51_at, e48, e49]

include h48 h49 in
/-- After the first region the activations array holds the reference's biased activations. -/
theorem act8_at (p : Fin 100000) (q : Fin 64) : act8 m ρ c (ix2 p q) = Cert.ReferenceIdeal.Read.val_main_v51 (F := Ideal) x0 x1 x2 x4 x5 (ix2 p q) := by
  have e : act8 m ρ c = (dat1 (F := Ideal) (V7 m ρ) c).arrAt 2 cfg1.N := W8_arr m ρ c 2
  rw [e, Reduce.red1_h (V7 m ρ) c p q]
  exact hK_eq m ρ x0 x1 x2 x4 x5 c h48 h49 p q

include h48 h49 in
/-- After the first region the first row of sums holds the column sums of the biased activations. -/
theorem sum8_at (q : Fin 64) : sum8 m ρ c (ix2 0 q) = ∑ k : Fin 100000, Cert.ReferenceIdeal.Read.val_main_v51 (F := Ideal) x0 x1 x2 x4 x5 (ix2 k q) := by
  have e : sum8 m ρ c = (dat1 (F := Ideal) (V7 m ρ) c).arrAt 3 cfg1.N := W8_arr m ρ c 3
  rw [e, Reduce.red1_sum (V7 m ρ) c q]
  refine Finset.sum_congr rfl fun p _ => ?_
  exact hK_eq m ρ x0 x1 x2 x4 x5 c h48 h49 p q

include h48 h49 in
/-- After the first region the second row of sums holds the column sums of the squares. -/
theorem sq8_at (q : Fin 64) :
    sq8 m ρ c (ix2 0 q) = ∑ k : Fin 100000, Cert.ReferenceIdeal.Read.val_main_v51 (F := Ideal) x0 x1 x2 x4 x5 (ix2 k q) * Cert.ReferenceIdeal.Read.val_main_v51 (F := Ideal) x0 x1 x2 x4 x5 (ix2 k q) := by
  have e : sq8 m ρ c = (dat1 (F := Ideal) (V7 m ρ) c).arrAt 4 cfg1.N := W8_arr m ρ c 4
  rw [e, Reduce.red1_sumsq (V7 m ρ) c q]
  refine Finset.sum_congr rfl fun p _ => ?_
  rw [hK_eq m ρ x0 x1 x2 x4 x5 c h48 h49 p q]

include h48 h49 ha8 in
/-- The scale row at column q: γ_q times the reciprocal square root of E[h²] − mean² + ε over the column. -/
theorem scale9_at (q : Fin 64) :
    scale9 m ρ c (ix2 0 q) = x8 (ix1 q) * Ideal.rsqrt (Ideal.div (∑ k : Fin 100000, Cert.ReferenceIdeal.Read.val_main_v51 (F := Ideal) x0 x1 x2 x4 x5 (ix2 k q) * Cert.ReferenceIdeal.Read.val_main_v51 (F := Ideal) x0 x1 x2 x4 x5 (ix2 k q)) (Ideal.ofBits .f32 0x47C35000#32)
          - Ideal.div (∑ k : Fin 100000, Cert.ReferenceIdeal.Read.val_main_v51 (F := Ideal) x0 x1 x2 x4 x5 (ix2 k q)) (Ideal.ofBits .f32 0x47C35000#32)
            * Ideal.div (∑ k : Fin 100000, Cert.ReferenceIdeal.Read.val_main_v51 (F := Ideal) x0 x1 x2 x4 x5 (ix2 k q)) (Ideal.ofBits .f32 0x47C35000#32)
          + (Ideal.ofBits .f32 0x3727C5AC#32)) := by
  have e : scale9 m ρ c = mulf (F := Ideal) (φ := .f32) (fun i => shapeCast S1x64 (gam8 m ρ c) shapeCasts_S64_S1x64 i)
      (Host.rsqrt (addf (subf (Host.divf (sq8 m ρ c) (broadcastInDim S1x64 ![] bcast_S_S1x64 (constant (F := Ideal) S_ .f32 0x47C35000#32)))
          (mulf (Host.divf (sum8 m ρ c) (broadcastInDim S1x64 ![] bcast_S_S1x64 (constant (F := Ideal) S_ .f32 0x47C35000#32))) (Host.divf (sum8 m ρ c) (broadcastInDim S1x64 ![] bcast_S_S1x64 (constant (F := Ideal) S_ .f32 0x47C35000#32))))) (broadcastInDim S1x64 ![] bcast_S_S1x64 (constant (F := Ideal) S_ .f32 0x3727C5AC#32)))) := w9_v61 m ρ c
  have eg : gam8 m ρ c = x8 := (W8_of_ne m ρ c main_arg8 (by decide)).trans ha8
  rw [e, scale_at, sum8_at m ρ x0 x1 x2 x4 x5 c h48 h49 q, sq8_at m ρ x0 x1 x2 x4 x5 c h48 h49 q, eg]

include h48 h49 ha9 in
/-- The shift row at column q: β_q minus the column mean times the scale. -/
theorem shift9_at (q : Fin 64) :
    shift9 m ρ c (ix2 0 q) = x9 (ix1 q) - Ideal.div (∑ k : Fin 100000, Cert.ReferenceIdeal.Read.val_main_v51 (F := Ideal) x0 x1 x2 x4 x5 (ix2 k q)) (Ideal.ofBits .f32 0x47C35000#32) * scale9 m ρ c (ix2 0 q) := by
  have e : shift9 m ρ c = subf (F := Ideal) (φ := .f32) (fun i => shapeCast S1x64 (bet8 m ρ c) shapeCasts_S64_S1x64 i)
      (mulf (Host.divf (sum8 m ρ c) (broadcastInDim S1x64 ![] bcast_S_S1x64 (constant (F := Ideal) S_ .f32 0x47C35000#32))) (scale9 m ρ c)) := w9_v64 m ρ c
  have eb : bet8 m ρ c = x9 := (W8_of_ne m ρ c main_arg9 (by decide)).trans ha9
  rw [e, shift_at, sum8_at m ρ x0 x1 x2 x4 x5 c h48 h49 q, eb]

variable (hx0 : ∀ i, IsReal (x0 i)) (hx2 : ∀ i, IsReal (x2 i)) (hx4 : ∀ i, IsReal (x4 i)) (hx5 : ∀ i, IsReal (x5 i))
  (hx8 : ∀ i, IsReal (x8 i)) (hx9 : ∀ i, IsReal (x9 i))

/-- The row count's word is the real number 100000, the number of rows. -/
theorem n_eq : Ideal.ofBits .f32 0x47C35000#32 = (((100000 : ℕ) : ℝ) : EReal) := by
  rw [Cert.BNMath.ofBits_n, Nat.cast_ofNat]

include hx0 hx2 hx4 hx5 hx8 hx9 in
/-- The scale-and-shift form over a column of the reference's biased activations is the reference's normalised entry. -/
theorem bn_at (p : Fin 100000) (q : Fin 64) :
    max (Cert.ReferenceIdeal.Read.val_main_v51 (F := Ideal) x0 x1 x2 x4 x5 (ix2 p q) * (x8 (ix1 q) * Ideal.rsqrt (Ideal.div (∑ k : Fin 100000, Cert.ReferenceIdeal.Read.val_main_v51 (F := Ideal) x0 x1 x2 x4 x5 (ix2 k q) * Cert.ReferenceIdeal.Read.val_main_v51 (F := Ideal) x0 x1 x2 x4 x5 (ix2 k q)) (Ideal.ofBits .f32 0x47C35000#32)
          - Ideal.div (∑ k : Fin 100000, Cert.ReferenceIdeal.Read.val_main_v51 (F := Ideal) x0 x1 x2 x4 x5 (ix2 k q)) (Ideal.ofBits .f32 0x47C35000#32)
            * Ideal.div (∑ k : Fin 100000, Cert.ReferenceIdeal.Read.val_main_v51 (F := Ideal) x0 x1 x2 x4 x5 (ix2 k q)) (Ideal.ofBits .f32 0x47C35000#32)
          + (Ideal.ofBits .f32 0x3727C5AC#32)))
          + (x9 (ix1 q) - Ideal.div (∑ k : Fin 100000, Cert.ReferenceIdeal.Read.val_main_v51 (F := Ideal) x0 x1 x2 x4 x5 (ix2 k q)) (Ideal.ofBits .f32 0x47C35000#32) * (x8 (ix1 q) * Ideal.rsqrt (Ideal.div (∑ k : Fin 100000, Cert.ReferenceIdeal.Read.val_main_v51 (F := Ideal) x0 x1 x2 x4 x5 (ix2 k q) * Cert.ReferenceIdeal.Read.val_main_v51 (F := Ideal) x0 x1 x2 x4 x5 (ix2 k q)) (Ideal.ofBits .f32 0x47C35000#32)
          - Ideal.div (∑ k : Fin 100000, Cert.ReferenceIdeal.Read.val_main_v51 (F := Ideal) x0 x1 x2 x4 x5 (ix2 k q)) (Ideal.ofBits .f32 0x47C35000#32)
            * Ideal.div (∑ k : Fin 100000, Cert.ReferenceIdeal.Read.val_main_v51 (F := Ideal) x0 x1 x2 x4 x5 (ix2 k q)) (Ideal.ofBits .f32 0x47C35000#32)
          + (Ideal.ofBits .f32 0x3727C5AC#32))))) 0
      = Cert.ReferenceIdeal.Read.val_main_v77 (F := Ideal) x0 x1 x2 x4 x5 x8 x9 (ix2 p q) := by
  have key := Cert.BNMath.bn_column (N := 100000) (by norm_num) (fun p => Cert.ReferenceIdeal.Read.val_main_v51 (F := Ideal) x0 x1 x2 x4 x5 (ix2 p q))
    (fun p => Cert.RefFinite.v51_real x0 x1 x2 x4 x5 hx0 hx2 hx4 hx5 _) (Ideal.ofBits .f32 0x47C35000#32) (Ideal.ofBits .f32 0x3727C5AC#32) (x8 (ix1 q)) (x9 (ix1 q))
    n_eq Cert.BNMath.ofBits_eps (hx8 _) (hx9 _) p
  beta_reduce at key
  rw [Cert.RefBN.v77_at]
  exact key

end Body

section Conclusions

variable (c : Dev nD)
  (h48 : W7 m ρ c (Proc.devRef .tc main_v48) = Cert.ReferenceIdeal.Read.val_main_v48 (F := Ideal) x0 x1 x2 x4)
  (h49 : ∀ q : Fin 64, (W7 m ρ c (Proc.devRef .tc main_v49) : S1x64.Idx → EReal) (ix2 0 q) = x5 (ix1 q))
  (ha8 : W7 m ρ c (Proc.devRef .tc main_arg8) = x8)
  (ha9 : W7 m ρ c (Proc.devRef .tc main_arg9) = x9)
  (hx0 : ∀ i, IsReal (x0 i)) (hx2 : ∀ i, IsReal (x2 i)) (hx4 : ∀ i, IsReal (x4 i)) (hx5 : ∀ i, IsReal (x5 i))
  (hx8 : ∀ i, IsReal (x8 i)) (hx9 : ∀ i, IsReal (x9 i))

include h48 h49 ha8 ha9 hx0 hx2 hx4 hx5 hx8 hx9 in
/-- After the second region the normalised array holds, at (p, q), the reference's normalised entry. -/
theorem out10_at (p : Fin 100000) (q : Fin 64) : out10 m ρ c (ix2 p q) = Cert.ReferenceIdeal.Read.val_main_v77 (F := Ideal) x0 x1 x2 x4 x5 x8 x9 (ix2 p q) := by
  have e : out10 m ρ c = (dat2 (F := Ideal) (V9 m ρ) c).arrAt 3 cfg2.N := W10_arr m ρ c 3
  rw [e, Norm.norm2_of (V9 m ρ) c (act9 m ρ c) (scale9 m ρ c) (shift9 m ρ c) rfl rfl rfl p q,
    shift9_at m ρ x0 x1 x2 x4 x5 x9 c h48 h49 ha9 q, scale9_at m ρ x0 x1 x2 x4 x5 x8 c h48 h49 ha8 q,
    act9_eq, act8_at m ρ x0 x1 x2 x4 x5 c h48 h49 p q]
  exact bn_at x0 x1 x2 x4 x5 x8 x9 hx0 hx2 hx4 hx5 hx8 hx9 p q

include h48 h49 ha8 ha9 hx0 hx2 hx4 hx5 hx8 hx9 in
/-- After the second region the normalised array is the reference's first normalised layer. -/
theorem w10_v65 : W10 m ρ c (Proc.devRef .tc main_v65) = Cert.ReferenceIdeal.Read.val_main_v77 (F := Ideal) x0 x1 x2 x4 x5 x8 x9 := by
  have h : out10 m ρ c = Cert.ReferenceIdeal.Read.val_main_v77 (F := Ideal) x0 x1 x2 x4 x5 x8 x9 := funext fun i => by
    obtain ⟨p, q, rfl⟩ : ∃ (p : Fin 100000) (q : Fin 64), i = ix2 p q := ⟨i 0, i 1, eq_ix2 i⟩
    exact out10_at m ρ x0 x1 x2 x4 x5 x8 x9 c h48 h49 ha8 ha9 hx0 hx2 hx4 hx5 hx8 hx9 p q
  exact h

end Conclusions

section Real

variable (hx0 : ∀ i, IsReal (x0 i)) (hx2 : ∀ i, IsReal (x2 i)) (hx4 : ∀ i, IsReal (x4 i)) (hx5 : ∀ i, IsReal (x5 i))
  (hx8 : ∀ i, IsReal (x8 i)) (hx9 : ∀ i, IsReal (x9 i))

include hx0 hx2 hx4 hx5 hx8 hx9 in
/-- Every entry of the reference's first normalised layer is a real number. -/
theorem v77_real : ∀ i, IsReal (Cert.ReferenceIdeal.Read.val_main_v77 (F := Ideal) x0 x1 x2 x4 x5 x8 x9 i) := by
  intro i
  obtain ⟨p, q, rfl⟩ : ∃ (p : Fin 100000) (q : Fin 64), i = ix2 p q := ⟨i 0, i 1, eq_ix2 i⟩
  rw [← bn_at x0 x1 x2 x4 x5 x8 x9 hx0 hx2 hx4 hx5 hx8 hx9 p q]
  have key := Cert.BNMath.bn_column_real (N := 100000) (by norm_num) (fun p => Cert.ReferenceIdeal.Read.val_main_v51 (F := Ideal) x0 x1 x2 x4 x5 (ix2 p q))
    (fun p => Cert.RefFinite.v51_real x0 x1 x2 x4 x5 hx0 hx2 hx4 hx5 _) (Ideal.ofBits .f32 0x47C35000#32) (Ideal.ofBits .f32 0x3727C5AC#32) (x8 (ix1 q)) (x9 (ix1 q))
    n_eq Cert.BNMath.ofBits_eps (hx8 _) (hx9 _) p
  beta_reduce at key
  exact key

end Real

/-! ## The buffers the segment leaves alone -/

/-- A buffer that neither region writes and the stretch does not write is the same after the segment. -/
theorem keep_w10 (c : Dev nD) (b : Ref sig .tc) (h1 : ∀ w, Pipeline.arrRef spec2 w ≠ b)
    (h2 : W9 m ρ c (Proc.devRef .tc b) = W8 m ρ c (Proc.devRef .tc b)) (h3 : ∀ w, Pipeline.arrRef spec1 w ≠ b) :
    W10 m ρ c (Proc.devRef .tc b) = W7 m ρ c (Proc.devRef .tc b) :=
  (W10_of_ne m ρ c b h1).trans (h2.trans (W8_of_ne m ρ c b h3))

theorem keep_v3 (c : Dev nD) : W10 m ρ c (Proc.devRef .tc main_v3) = W7 m ρ c (Proc.devRef .tc main_v3) :=
  keep_w10 m ρ c main_v3 (by decide) (by keep_ops hostOps2) (by decide)
theorem keep_v6 (c : Dev nD) : W10 m ρ c (Proc.devRef .tc main_v6) = W7 m ρ c (Proc.devRef .tc main_v6) :=
  keep_w10 m ρ c main_v6 (by decide) (by keep_ops hostOps2) (by decide)
theorem keep_v34 (c : Dev nD) : W10 m ρ c (Proc.devRef .tc main_v34) = W7 m ρ c (Proc.devRef .tc main_v34) :=
  keep_w10 m ρ c main_v34 (by decide) (by keep_ops hostOps2) (by decide)
theorem keep_arg3 (c : Dev nD) : W10 m ρ c (Proc.devRef .tc main_arg3) = W7 m ρ c (Proc.devRef .tc main_arg3) :=
  keep_w10 m ρ c main_arg3 (by decide) (by keep_ops hostOps2) (by decide)
theorem keep_arg6 (c : Dev nD) : W10 m ρ c (Proc.devRef .tc main_arg6) = W7 m ρ c (Proc.devRef .tc main_arg6) :=
  keep_w10 m ρ c main_arg6 (by decide) (by keep_ops hostOps2) (by decide)
theorem keep_arg7 (c : Dev nD) : W10 m ρ c (Proc.devRef .tc main_arg7) = W7 m ρ c (Proc.devRef .tc main_arg7) :=
  keep_w10 m ρ c main_arg7 (by decide) (by keep_ops hostOps2) (by decide)
theorem keep_arg10 (c : Dev nD) : W10 m ρ c (Proc.devRef .tc main_arg10) = W7 m ρ c (Proc.devRef .tc main_arg10) :=
  keep_w10 m ρ c main_arg10 (by decide) (by keep_ops hostOps2) (by decide)
theorem keep_arg11 (c : Dev nD) : W10 m ρ c (Proc.devRef .tc main_arg11) = W7 m ρ c (Proc.devRef .tc main_arg11) :=
  keep_w10 m ρ c main_arg11 (by decide) (by keep_ops hostOps2) (by decide)
theorem keep_arg12 (c : Dev nD) : W10 m ρ c (Proc.devRef .tc main_arg12) = W7 m ρ c (Proc.devRef .tc main_arg12) :=
  keep_w10 m ρ c main_arg12 (by decide) (by keep_ops hostOps2) (by decide)
theorem keep_arg13 (c : Dev nD) : W10 m ρ c (Proc.devRef .tc main_arg13) = W7 m ρ c (Proc.devRef .tc main_arg13) :=
  keep_w10 m ρ c main_arg13 (by decide) (by keep_ops hostOps2) (by decide)

end Cert.KernelIdeal.Seg3

end
-- ==== Proof.Seg4.lean ====
import proofs.«113360_j59854664237267_1_alg».proof.Proof.Gen.KernelIdeal.Frame
import proofs.«113360_j59854664237267_1_alg».proof.Proof.Gen.ReferenceIdeal.Read
import proofs.«113360_j59854664237267_1_alg».proof.Proof.Lin
import Idealize.ShloMosaic.Lib.StableHlo.Run
import Idealize.ShloMosaic.Lib.ValueIdx
import Idealize.ShloMosaic.Lib.ValueLayout

/-!
  The second layer from the normalised first layer's output to the entry of its batch normalisation.

  The second linear stage leaves, at every row and column, the sum over the 64 hidden features of the normalised
  activation times the weight: the reference's dot product. The host operations that follow gather its rows by the
  source vertex of each edge, scale each gathered row by the edge normalisation, and accumulate the scaled rows into
  zeros at the target vertex of each edge: the reference's aggregation, operation by operation. The bias is laid out as
  one row, and the later arguments are untouched.

  The host operations are read in three groups, one after the other: the row indices; the gathered and scaled rows; the
  accumulation.
-/

noncomputable section

namespace Cert.KernelIdeal.Seg4

open Cert.KernelIdeal Cert.KernelIdeal.Gen Idealize.ShloMosaic Idealize.ShloMosaic.TcCoe Idealize.SL.Sem Idealize.ShloMosaic.StableHlo
open Idealize.ShloMosaic.ValueIdx
open scoped BigOperators

/-- The contents after two runs of operations, one after the other, are those after the second run from the contents
    after the first. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- A run of operations read as its first `n` operations followed by the rest. -/
theorem after_split (n : Nat) (ops : List (HloOp τ sig (Elt Ideal))) (V : Valuation τ sig (Elt Ideal)) :
    after ops V = after (ops.drop n) (after (ops.take n) V) := by
  rw [← after_append, List.take_append_drop]

macro "keep_ops" ops:ident : tactic => `(tactic|
  exact StableHlo.after_of_forall_not_mem _ _ (List.forall_iff_forall_mem.mp (by
    simp only [$ops:ident, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg)

/-- The second linear stage's output is the reference's second dot product. -/
theorem w11_v66 (c : Dev nD)
    (x0 : (⟨Cert.ReferenceIdeal.S100000x128, .f32⟩ : BufTy).Contents (Elt Ideal))
    (x1 : (⟨Cert.ReferenceIdeal.S2x3200000, .i32⟩ : BufTy).Contents (Elt Ideal))
    (x2 : (⟨Cert.ReferenceIdeal.S3200000, .f32⟩ : BufTy).Contents (Elt Ideal))
    (x4 : (⟨Cert.ReferenceIdeal.S128x64, .f32⟩ : BufTy).Contents (Elt Ideal))
    (x5 : (⟨Cert.ReferenceIdeal.S64, .f32⟩ : BufTy).Contents (Elt Ideal))
    (x6 : (⟨Cert.ReferenceIdeal.S64x64, .f32⟩ : BufTy).Contents (Elt Ideal))
    (x8 x9 : (⟨Cert.ReferenceIdeal.S64, .f32⟩ : BufTy).Contents (Elt Ideal))
    (h65 : W10 m ρ c (Proc.devRef .tc main_v65) = Cert.ReferenceIdeal.Read.val_main_v77 (F := Ideal) x0 x1 x2 x4 x5 x8 x9)
    (ha6 : W10 m ρ c (Proc.devRef .tc main_arg6) = x6) :
    W11 m ρ c (Proc.devRef .tc main_v66) = Cert.ReferenceIdeal.Read.val_main_v78 (F := Ideal) x0 x1 x2 x4 x5 x6 x8 x9 := by
  refine (W11_arr m ρ c 2).trans ?_
  rw [Lin.final3 (V10 m ρ) c]
  funext i
  rw [Cert.ReferenceIdeal.Read.val_main_v78_apply]
  refine Finset.sum_congr rfl fun k _ => ?_
  have el : (ix2 (i 0) k : S100000x64.Idx) = Cert.ReferenceIdeal.Read.lidx_main_v78 i k :=
    funext fun a => match a with | ⟨0, _⟩ => rfl | ⟨1, _⟩ => rfl
  have er : (ix2 k (i 1) : S64x64.Idx) = Cert.ReferenceIdeal.Read.ridx_main_v78 i k :=
    funext fun a => match a with | ⟨0, _⟩ => rfl | ⟨1, _⟩ => rfl
  have e1 : Lin.X3 (V10 m ρ) c (ix2 (i 0) k)
      = Cert.ReferenceIdeal.Read.val_main_v77 (F := Ideal) x0 x1 x2 x4 x5 x8 x9 (Cert.ReferenceIdeal.Read.lidx_main_v78 i k) :=
    (congrFun h65 _).trans (congrArg _ el)
  have e2 : Lin.W3 (V10 m ρ) c (ix2 k (i 1)) = x6 (Cert.ReferenceIdeal.Read.ridx_main_v78 i k) :=
    (congrFun ha6 _).trans (congrArg _ er)
  rw [e1, e2]

set_option maxHeartbeats 400000 in
/-- After the host operations the accumulated rows are the reference's second aggregation. -/
theorem w12_v79 (c : Dev nD)
    (x0 : (⟨Cert.ReferenceIdeal.S100000x128, .f32⟩ : BufTy).Contents (Elt Ideal))
    (x1 : (⟨Cert.ReferenceIdeal.S2x3200000, .i32⟩ : BufTy).Contents (Elt Ideal))
    (x2 : (⟨Cert.ReferenceIdeal.S3200000, .f32⟩ : BufTy).Contents (Elt Ideal))
    (x4 : (⟨Cert.ReferenceIdeal.S128x64, .f32⟩ : BufTy).Contents (Elt Ideal))
    (x5 : (⟨Cert.ReferenceIdeal.S64, .f32⟩ : BufTy).Contents (Elt Ideal))
    (x6 : (⟨Cert.ReferenceIdeal.S64x64, .f32⟩ : BufTy).Contents (Elt Ideal))
    (x8 x9 : (⟨Cert.ReferenceIdeal.S64, .f32⟩ : BufTy).Contents (Elt Ideal))
    (h65 : W10 m ρ c (Proc.devRef .tc main_v65) = Cert.ReferenceIdeal.Read.val_main_v77 (F := Ideal) x0 x1 x2 x4 x5 x8 x9)
    (ha6 : W10 m ρ c (Proc.devRef .tc main_arg6) = x6)
    (h3 : W10 m ρ c (Proc.devRef .tc main_v3) = Cert.ReferenceIdeal.Read.val_main_v3 (F := Ideal) x1)
    (h6 : W10 m ρ c (Proc.devRef .tc main_v6) = Cert.ReferenceIdeal.Read.val_main_v6 (F := Ideal) x1)
    (h34 : W10 m ρ c (Proc.devRef .tc main_v34) = Cert.ReferenceIdeal.Read.val_main_v34 (F := Ideal) x1 x2) :
    W12 m ρ c (Proc.devRef .tc main_v79) = Cert.ReferenceIdeal.Read.val_main_v91 (F := Ideal) x0 x1 x2 x4 x5 x6 x8 x9 := by
  have h66 := w11_v66 m ρ c x0 x1 x2 x4 x5 x6 x8 x9 h65 ha6
  have e3 := (W11_of_ne m ρ c main_v3 (by decide)).trans h3
  have e6 := (W11_of_ne m ρ c main_v6 (by decide)).trans h6
  have e34 := (W11_of_ne m ρ c main_v34 (by decide)).trans h34
  generalize hR : Cert.ReferenceIdeal.Read.val_main_v91 (F := Ideal) x0 x1 x2 x4 x5 x6 x8 x9 = rhs
  show StableHlo.after hostOps4 (W11 m ρ c) (Proc.devRef .tc main_v79) = _
  rw [after_split 12 hostOps4, after_split 8 (List.take 12 hostOps4)]
  have tA : List.take 8 (List.take 12 (hostOps4 : List (HloOp τ sig (Elt Ideal)))) = [_, _, _, _, _, _, _, _] := rfl
  have tB : List.drop 8 (List.take 12 (hostOps4 : List (HloOp τ sig (Elt Ideal)))) = [_, _, _, _] := rfl
  have tC : List.drop 12 (hostOps4 : List (HloOp τ sig (Elt Ideal))) = [_, _, _, _, _] := rfl
  -- the first eight operations: the row indices
  have hA72 : after (List.take 8 (List.take 12 (hostOps4 : List (HloOp τ sig (Elt Ideal))))) (W11 m ρ c) (Proc.devRef .tc main_v72)
      = Cert.ReferenceIdeal.Read.val_main_v84 (F := Ideal) x1 := by
    rw [tA]
    after_results
    rw [e3]
    unfold Cert.ReferenceIdeal.Read.val_main_v84 Cert.ReferenceIdeal.Read.val_main_v83 Cert.ReferenceIdeal.Read.val_main_v82 Cert.ReferenceIdeal.Read.val_main_v81 Cert.ReferenceIdeal.Read.val_main_v80 Cert.ReferenceIdeal.Read.val_main_v79 Cert.ReferenceIdeal.Read.val_main_c_16 Cert.ReferenceIdeal.Read.val_main_c_17
    rfl
  have hA66 : after (List.take 8 (List.take 12 (hostOps4 : List (HloOp τ sig (Elt Ideal))))) (W11 m ρ c) (Proc.devRef .tc main_v66)
      = Cert.ReferenceIdeal.Read.val_main_v78 (F := Ideal) x0 x1 x2 x4 x5 x6 x8 x9 := by
    rw [tA]
    after_results
    exact h66
  have hA34 : after (List.take 8 (List.take 12 (hostOps4 : List (HloOp τ sig (Elt Ideal))))) (W11 m ρ c) (Proc.devRef .tc main_v34)
      = Cert.ReferenceIdeal.Read.val_main_v34 (F := Ideal) x1 x2 := by
    rw [tA]
    after_results
    exact e34
  have hA6 : after (List.take 8 (List.take 12 (hostOps4 : List (HloOp τ sig (Elt Ideal))))) (W11 m ρ c) (Proc.devRef .tc main_v6)
      = Cert.ReferenceIdeal.Read.val_main_v6 (F := Ideal) x1 := by
    rw [tA]
    after_results
    exact e6
  generalize after (List.take 8 (List.take 12 (hostOps4 : List (HloOp τ sig (Elt Ideal))))) (W11 m ρ c) = VA at hA72 hA66 hA34 hA6 ⊢
  -- the next four: the gathered rows scaled by the edge normalisation
  have hB76 : after (List.drop 8 (List.take 12 (hostOps4 : List (HloOp τ sig (Elt Ideal))))) VA (Proc.devRef .tc main_v76)
      = Cert.ReferenceIdeal.Read.val_main_v88 (F := Ideal) x0 x1 x2 x4 x5 x6 x8 x9 := by
    rw [tB]
    after_results
    rw [hA72, hA66, hA34]
    unfold Cert.ReferenceIdeal.Read.val_main_v88 Cert.ReferenceIdeal.Read.val_main_v87 Cert.ReferenceIdeal.Read.val_main_v86 Cert.ReferenceIdeal.Read.val_main_v85
    rfl
  have hB6 : after (List.drop 8 (List.take 12 (hostOps4 : List (HloOp τ sig (Elt Ideal))))) VA (Proc.devRef .tc main_v6)
      = Cert.ReferenceIdeal.Read.val_main_v6 (F := Ideal) x1 := by
    rw [tB]
    after_results
    exact hA6
  generalize after (List.drop 8 (List.take 12 (hostOps4 : List (HloOp τ sig (Elt Ideal))))) VA = VB at hB76 hB6 ⊢
  -- the last five: the accumulating row scatter into zeros
  rw [tC]
  after_results
  rw [hB76, hB6, ← hR]
  unfold Cert.ReferenceIdeal.Read.val_main_v91 Cert.ReferenceIdeal.Read.val_main_v90 Cert.ReferenceIdeal.Read.val_main_v89 Cert.ReferenceIdeal.Read.val_main_cst_18
  rfl

/-- The reshaped second bias after the stretch, as a function of its index into the extended reals. -/
abbrev A80 (c : Dev nD) : S1x64.Idx → EReal := W12 m ρ c (Proc.devRef .tc main_v80)

/-- After the host operations the reshaped second bias reads, at column `q` of its one row, the bias at `q`. -/
theorem w12_v80 (c : Dev nD) (x7 : (⟨Cert.ReferenceIdeal.S64, .f32⟩ : BufTy).Contents (Elt Ideal))
    (ha7 : W10 m ρ c (Proc.devRef .tc main_arg7) = x7) : ∀ q : Fin 64, A80 m ρ c (ix2 0 q) = x7 (ix1 q) := by
  intro q
  have e7 := (W11_of_ne m ρ c main_arg7 (by decide)).trans ha7
  have t16 : List.take 16 (hostOps4 : List (HloOp τ sig (Elt Ideal))) = [_, _, _, _, _, _, _, _, _, _, _, _, _, _, _, _] := rfl
  have tL : List.drop 16 (hostOps4 : List (HloOp τ sig (Elt Ideal))) = [_] := rfl
  have k16 : after (List.take 16 (hostOps4 : List (HloOp τ sig (Elt Ideal)))) (W11 m ρ c) (Proc.devRef .tc main_arg7) = x7 := by
    rw [t16]
    after_results
    exact e7
  show after hostOps4 (W11 m ρ c) (Proc.devRef .tc main_v80) (ix2 0 q) = _
  rw [after_split 16 hostOps4]
  generalize after (List.take 16 (hostOps4 : List (HloOp τ sig (Elt Ideal)))) (W11 m ρ c) = V16 at k16 ⊢
  rw [tL]
  after_results
  exact (shapeCast_a_1a_apply (a := 64) (V16 (Proc.devRef .tc main_arg7)) shapeCasts_S64_S1x64 0 q).trans (congrFun k16 (ix1 q))

/-! ## The later arguments are untouched by the stage and by the host operations -/

theorem keep_arg3 (c : Dev nD) : W12 m ρ c (Proc.devRef .tc main_arg3) = W10 m ρ c (Proc.devRef .tc main_arg3) := by
  refine Eq.trans ?_ (W11_of_ne m ρ c main_arg3 (by decide))
  keep_ops hostOps4
theorem keep_arg10 (c : Dev nD) : W12 m ρ c (Proc.devRef .tc main_arg10) = W10 m ρ c (Proc.devRef .tc main_arg10) := by
  refine Eq.trans ?_ (W11_of_ne m ρ c main_arg10 (by decide))
  keep_ops hostOps4
theorem keep_arg11 (c : Dev nD) : W12 m ρ c (Proc.devRef .tc main_arg11) = W10 m ρ c (Proc.devRef .tc main_arg11) := by
  refine Eq.trans ?_ (W11_of_ne m ρ c main_arg11 (by decide))
  keep_ops hostOps4
theorem keep_arg12 (c : Dev nD) : W12 m ρ c (Proc.devRef .tc main_arg12) = W10 m ρ c (Proc.devRef .tc main_arg12) := by
  refine Eq.trans ?_ (W11_of_ne m ρ c main_arg12 (by decide))
  keep_ops hostOps4
theorem keep_arg13 (c : Dev nD) : W12 m ρ c (Proc.devRef .tc main_arg13) = W10 m ρ c (Proc.devRef .tc main_arg13) := by
  refine Eq.trans ?_ (W11_of_ne m ρ c main_arg13 (by decide))
  keep_ops hostOps4

end Cert.KernelIdeal.Seg4

end
-- ==== Proof.Seg5.lean ====
/-
  The second batch-normalisation layer, from the reduction region's entry to the normalisation region's exit.

  The reduction region leaves the biased activations H (the aggregated activations plus the bias row) and, per column,
  the sum of H and the sum of H². The host operations between the two regions turn those sums into one scale and one
  shift per column: with μ the column's mean and E[H²] the mean of the squares, scale = γ·(E[H²] − μ² + ε)^(−1/2) and
  shift = β − μ·scale. The normalisation region leaves max(H·scale + shift, 0). The reference instead computes
  max(γ·(H − μ)·(σ² + ε)^(−1/2) + β, 0) with σ² the mean of the squared deviations. On real entries the two variances
  agree and ε > 0 keeps the root's argument positive, so the two forms are the same real number.
-/
import proofs.«113360_j59854664237267_1_alg».proof.Proof.Gen.KernelIdeal.Frame
import proofs.«113360_j59854664237267_1_alg».proof.Proof.Gen.ReferenceIdeal.Read
import proofs.«113360_j59854664237267_1_alg».proof.Proof.BNMath
import proofs.«113360_j59854664237267_1_alg».proof.Proof.Norm
import proofs.«113360_j59854664237267_1_alg».proof.Proof.Reduce
import proofs.«113360_j59854664237267_1_alg».proof.Proof.RefBN
import proofs.«113360_j59854664237267_1_alg».proof.Proof.LibColumn
import proofs.«113360_j59854664237267_1_alg».proof.Proof.LibFinite
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

open scoped BigOperators

namespace Cert.KernelIdeal.Seg5

open Cert.KernelIdeal Cert.KernelIdeal.Gen Idealize.ShloMosaic Idealize.ShloMosaic.TcCoe Idealize.SL.Sem
open Idealize.ShloMosaic.StableHlo Idealize.ShloMosaic.ValueIdx Idealize.ShloMosaic.LibFinite

variable (m : (ℓ : Loc nD τ sig) → Buf (Elt Ideal) ℓ) (ρ : Dev nD → PrngReg)

/-- A buffer no operation of the stretch writes is left as it was. -/
macro "keep_ops" ops:ident : tactic => `(tactic|
  exact StableHlo.after_of_forall_not_mem _ _ (List.forall_iff_forall_mem.mp (by
    simp only [$ops:ident, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The statistics stretch, read at a column -/

set_option maxHeartbeats 400000 in
/-- The scale row after the stretch, at column q: γ(q) times the reciprocal square root of the one-pass variance
    E[h²] − μ² of the column plus ε, the two means being the column's sums S and Q over the row count. -/
theorem scale_at (c : Dev nD) (g : S64.Idx → EReal) (S Q : S1x64.Idx → EReal)
    (hg : W13 m ρ c (Proc.devRef .tc main_arg10) = g) (hS : W13 m ρ c (Proc.devRef .tc main_v81_1) = S)
    (hQ : W13 m ρ c (Proc.devRef .tc main_v81_2) = Q) (q : Fin 64) :
    (W14 m ρ c (Proc.devRef .tc main_v92) : S1x64.Idx → EReal) (ix2 (0 : Fin 1) q)
      = g (ix1 q)
        * Ideal.rsqrt (Ideal.div (Q (ix2 (0 : Fin 1) q)) (Ideal.ofBits .f32 0x47C35000#32)
            - Ideal.div (S (ix2 (0 : Fin 1) q)) (Ideal.ofBits .f32 0x47C35000#32)
              * Ideal.div (S (ix2 (0 : Fin 1) q)) (Ideal.ofBits .f32 0x47C35000#32)
            + Ideal.ofBits .f32 0x3727C5AC#32) := by
  have h : W14 m ρ c (Proc.devRef .tc main_v92)
      = mulf (shapeCast S1x64 (W13 m ρ c (Proc.devRef .tc main_arg10)) shapeCasts_S64_S1x64)
          (Host.rsqrt (addf (subf
              (Host.divf (W13 m ρ c (Proc.devRef .tc main_v81_2)) (broadcastInDim S1x64 ![] bcast_S_S1x64 (constant (F := Ideal) S_ .f32 0x47C35000#32)))
              (mulf (Host.divf (W13 m ρ c (Proc.devRef .tc main_v81_1)) (broadcastInDim S1x64 ![] bcast_S_S1x64 (constant (F := Ideal) S_ .f32 0x47C35000#32)))
                (Host.divf (W13 m ρ c (Proc.devRef .tc main_v81_1)) (broadcastInDim S1x64 ![] bcast_S_S1x64 (constant (F := Ideal) S_ .f32 0x47C35000#32)))))
            (broadcastInDim S1x64 ![] bcast_S_S1x64 (constant (F := Ideal) S_ .f32 0x3727C5AC#32)))) := by
    show StableHlo.after hostOps5 _ (Proc.devRef .tc main_v92) = _
    after_results
    rfl
  rw [h, hg, hS, hQ]
  exact congrArg (· * _) (shapeCast_a_1a_apply g shapeCasts_S64_S1x64 (0 : Fin 1) q)

set_option maxHeartbeats 400000 in
/-- The shift row after the stretch, at column q: β(q) minus the column's mean times the scale. -/
theorem shift_at (c : Dev nD) (g b : S64.Idx → EReal) (S Q : S1x64.Idx → EReal)
    (hg : W13 m ρ c (Proc.devRef .tc main_arg10) = g) (hb : W13 m ρ c (Proc.devRef .tc main_arg11) = b)
    (hS : W13 m ρ c (Proc.devRef .tc main_v81_1) = S) (hQ : W13 m ρ c (Proc.devRef .tc main_v81_2) = Q) (q : Fin 64) :
    (W14 m ρ c (Proc.devRef .tc main_v95) : S1x64.Idx → EReal) (ix2 (0 : Fin 1) q)
      = b (ix1 q)
        - Ideal.div (S (ix2 (0 : Fin 1) q)) (Ideal.ofBits .f32 0x47C35000#32)
          * (g (ix1 q)
            * Ideal.rsqrt (Ideal.div (Q (ix2 (0 : Fin 1) q)) (Ideal.ofBits .f32 0x47C35000#32)
                - Ideal.div (S (ix2 (0 : Fin 1) q)) (Ideal.ofBits .f32 0x47C35000#32)
                  * Ideal.div (S (ix2 (0 : Fin 1) q)) (Ideal.ofBits .f32 0x47C35000#32)
                + Ideal.ofBits .f32 0x3727C5AC#32)) := by
  have h : W14 m ρ c (Proc.devRef .tc main_v95)
      = subf (shapeCast S1x64 (W13 m ρ c (Proc.devRef .tc main_arg11)) shapeCasts_S64_S1x64)
          (mulf (Host.divf (W13 m ρ c (Proc.devRef .tc main_v81_1)) (broadcastInDim S1x64 ![] bcast_S_S1x64 (constant (F := Ideal) S_ .f32 0x47C35000#32)))
            (mulf (shapeCast S1x64 (W13 m ρ c (Proc.devRef .tc main_arg10)) shapeCasts_S64_S1x64)
              (Host.rsqrt (addf (subf
                  (Host.divf (W13 m ρ c (Proc.devRef .tc main_v81_2)) (broadcastInDim S1x64 ![] bcast_S_S1x64 (constant (F := Ideal) S_ .f32 0x47C35000#32)))
                  (mulf (Host.divf (W13 m ρ c (Proc.devRef .tc main_v81_1)) (broadcastInDim S1x64 ![] bcast_S_S1x64 (constant (F := Ideal) S_ .f32 0x47C35000#32)))
                    (Host.divf (W13 m ρ c (Proc.devRef .tc main_v81_1)) (broadcastInDim S1x64 ![] bcast_S_S1x64 (constant (F := Ideal) S_ .f32 0x47C35000#32)))))
                (broadcastInDim S1x64 ![] bcast_S_S1x64 (constant (F := Ideal) S_ .f32 0x3727C5AC#32)))))) := by
    show StableHlo.after hostOps5 _ (Proc.devRef .tc main_v95) = _
    after_results
    rfl
  rw [h, hg, hb, hS, hQ]
  exact congrArg₂ (fun u v => u - _ * (v * _)) (shapeCast_a_1a_apply b shapeCasts_S64_S1x64 (0 : Fin 1) q)
    (shapeCast_a_1a_apply g shapeCasts_S64_S1x64 (0 : Fin 1) q)

/-! ## The layer, end to end -/

section Main
variable (x0 : (⟨Cert.ReferenceIdeal.S100000x128, .f32⟩ : BufTy).Contents (Elt Ideal))
  (x1 : (⟨Cert.ReferenceIdeal.S2x3200000, .i32⟩ : BufTy).Contents (Elt Ideal))
  (x2 : (⟨Cert.ReferenceIdeal.S3200000, .f32⟩ : BufTy).Contents (Elt Ideal))
  (x4 : (⟨Cert.ReferenceIdeal.S128x64, .f32⟩ : BufTy).Contents (Elt Ideal))
  (x6 : (⟨Cert.ReferenceIdeal.S64x64, .f32⟩ : BufTy).Contents (Elt Ideal))
  (x5 x7 x8 x9 x10 x11 : (⟨Cert.ReferenceIdeal.S64, .f32⟩ : BufTy).Contents (Elt Ideal))

/-- The reduction region leaves the two parameter vectors as they were. -/
theorem w13_arg10 (c : Dev nD) : W13 m ρ c (Proc.devRef .tc main_arg10) = W12 m ρ c (Proc.devRef .tc main_arg10) :=
  W13_of_ne m ρ c main_arg10 (by decide)
theorem w13_arg11 (c : Dev nD) : W13 m ρ c (Proc.devRef .tc main_arg11) = W12 m ρ c (Proc.devRef .tc main_arg11) :=
  W13_of_ne m ρ c main_arg11 (by decide)

/-- The stretch leaves the biased activations as the reduction region left them. -/
theorem w14_v81_0 (c : Dev nD) : W14 m ρ c (Proc.devRef .tc main_v81_0) = W13 m ρ c (Proc.devRef .tc main_v81_0) := by
  keep_ops hostOps5

/-- THE SECOND NORMALISATION LAYER: the normalisation region's output array is the reference's normalised, rectified
    activations. The reduction region leaves the biased activations H and the columns' sums of H and of H²; the stretch
    turns the sums into a scale γ·(E[H²] − μ² + ε)^(−1/2) and a shift β − μ·scale per column; the normalisation region
    leaves max(H·scale + shift, 0); on real entries that is max(γ·(H − μ)·(σ² + ε)^(−1/2) + β, 0) with the two-pass
    variance σ², which is what the reference computes. -/
theorem w15_v96 (c : Dev nD)
    (h79 : W12 m ρ c (Proc.devRef .tc main_v79) = Cert.ReferenceIdeal.Read.val_main_v91 (F := Ideal) x0 x1 x2 x4 x5 x6 x8 x9)
    (h80 : ∀ q : Fin 64, (W12 m ρ c (Proc.devRef .tc main_v80) : S1x64.Idx → EReal) (ix2 (0 : Fin 1) q) = x7 (ix1 q))
    (ha10 : W12 m ρ c (Proc.devRef .tc main_arg10) = x10) (ha11 : W12 m ρ c (Proc.devRef .tc main_arg11) = x11)
    (hreal : ∀ i, IsReal (Cert.ReferenceIdeal.Read.val_main_v94 (F := Ideal) x0 x1 x2 x4 x5 x6 x7 x8 x9 i))
    (hx10 : ∀ i, IsReal (x10 i)) (hx11 : ∀ i, IsReal (x11 i)) :
    W15 m ρ c (Proc.devRef .tc main_v96)
      = Cert.ReferenceIdeal.Read.val_main_v120 (F := Ideal) x0 x1 x2 x4 x5 x6 x7 x8 x9 x10 x11 := by
  -- the aggregated activations plus the bias row, at an entry, are the reference's biased activations
  have eK : Reduce.agg4 (V12 m ρ) c = Cert.ReferenceIdeal.Read.val_main_v91 (F := Ideal) x0 x1 x2 x4 x5 x6 x8 x9 := h79
  have eB : ∀ q : Fin 64, Reduce.bias4 (V12 m ρ) c (ix2 (0 : Fin 1) q) = x7 (ix1 q) := h80
  have hH : ∀ (p : Fin 100000) (q : Fin 64),
      Reduce.agg4 (V12 m ρ) c (ix2 p q) + Reduce.bias4 (V12 m ρ) c (ix2 (0 : Fin 1) q)
        = Cert.ReferenceIdeal.Read.val_main_v94 (F := Ideal) x0 x1 x2 x4 x5 x6 x7 x8 x9 (ix2 p q) := fun p q => by
    rw [Cert.RefBN.v94_at x0 x1 x2 x4 x5 x6 x7 x8 x9 p q, eK, eB q]
  -- what the reduction region leaves
  have s0 : ∀ (p : Fin 100000) (q : Fin 64), (W13 m ρ c (Proc.devRef .tc main_v81_0) : S100000x64.Idx → EReal) (ix2 p q)
      = Cert.ReferenceIdeal.Read.val_main_v94 (F := Ideal) x0 x1 x2 x4 x5 x6 x7 x8 x9 (ix2 p q) := fun p q => by
    rw [show W13 m ρ c (Proc.devRef .tc main_v81_0) = (dat4 (V12 m ρ) c).arrAt 2 cfg4.N from W13_arr m ρ c 2,
      Reduce.red4_h (V12 m ρ) c p q, hH p q]
  have s1 : ∀ q : Fin 64, (W13 m ρ c (Proc.devRef .tc main_v81_1) : S1x64.Idx → EReal) (ix2 (0 : Fin 1) q)
      = ∑ p : Fin 100000, Cert.ReferenceIdeal.Read.val_main_v94 (F := Ideal) x0 x1 x2 x4 x5 x6 x7 x8 x9 (ix2 p q) := fun q => by
    have t1 : (∑ p : Fin 100000, (Reduce.agg4 (V12 m ρ) c (ix2 p q) + Reduce.bias4 (V12 m ρ) c (ix2 (0 : Fin 1) q)) : EReal)
        = ∑ p : Fin 100000, Cert.ReferenceIdeal.Read.val_main_v94 (F := Ideal) x0 x1 x2 x4 x5 x6 x7 x8 x9 (ix2 p q) :=
      Finset.sum_congr rfl fun p _ => hH p q
    rw [show W13 m ρ c (Proc.devRef .tc main_v81_1) = (dat4 (V12 m ρ) c).arrAt 3 cfg4.N from W13_arr m ρ c 3,
      Reduce.red4_sum (V12 m ρ) c q, t1]
  have s2 : ∀ q : Fin 64, (W13 m ρ c (Proc.devRef .tc main_v81_2) : S1x64.Idx → EReal) (ix2 (0 : Fin 1) q)
      = ∑ p : Fin 100000, Cert.ReferenceIdeal.Read.val_main_v94 (F := Ideal) x0 x1 x2 x4 x5 x6 x7 x8 x9 (ix2 p q)
          * Cert.ReferenceIdeal.Read.val_main_v94 (F := Ideal) x0 x1 x2 x4 x5 x6 x7 x8 x9 (ix2 p q) := fun q => by
    have t2 : (∑ p : Fin 100000, (Reduce.agg4 (V12 m ρ) c (ix2 p q) + Reduce.bias4 (V12 m ρ) c (ix2 (0 : Fin 1) q))
          * (Reduce.agg4 (V12 m ρ) c (ix2 p q) + Reduce.bias4 (V12 m ρ) c (ix2 (0 : Fin 1) q)) : EReal)
        = ∑ p : Fin 100000, Cert.ReferenceIdeal.Read.val_main_v94 (F := Ideal) x0 x1 x2 x4 x5 x6 x7 x8 x9 (ix2 p q)
            * Cert.ReferenceIdeal.Read.val_main_v94 (F := Ideal) x0 x1 x2 x4 x5 x6 x7 x8 x9 (ix2 p q) :=
      Finset.sum_congr rfl fun p _ => by rw [hH p q]
    rw [show W13 m ρ c (Proc.devRef .tc main_v81_2) = (dat4 (V12 m ρ) c).arrAt 4 cfg4.N from W13_arr m ρ c 4,
      Reduce.red4_sumsq (V12 m ρ) c q, t2]
  have a10 : W13 m ρ c (Proc.devRef .tc main_arg10) = x10 := (w13_arg10 m ρ c).trans ha10
  have a11 : W13 m ρ c (Proc.devRef .tc main_arg11) = x11 := (w13_arg11 m ρ c).trans ha11
  funext i
  obtain ⟨p, q, rfl⟩ : ∃ (p : Fin 100000) (q : Fin 64), i = ix2 p q := ⟨i 0, i 1, eq_ix2 i⟩
  rw [Cert.RefBN.v120_at x0 x1 x2 x4 x5 x6 x7 x8 x9 x10 x11 p q]
  rw [show W15 m ρ c (Proc.devRef .tc main_v96) = (dat5 (V14 m ρ) c).arrAt 3 cfg5.N from W15_arr m ρ c 3]
  refine (Norm.norm5_of (V14 m ρ) c (W14 m ρ c (Proc.devRef .tc main_v81_0)) (W14 m ρ c (Proc.devRef .tc main_v92))
    (W14 m ρ c (Proc.devRef .tc main_v95)) rfl rfl rfl p q).trans ?_
  rw [w14_v81_0 m ρ c,
    scale_at m ρ c x10 (W13 m ρ c (Proc.devRef .tc main_v81_1)) (W13 m ρ c (Proc.devRef .tc main_v81_2)) a10 rfl rfl q,
    shift_at m ρ c x10 x11 (W13 m ρ c (Proc.devRef .tc main_v81_1)) (W13 m ρ c (Proc.devRef .tc main_v81_2)) a10 a11 rfl rfl q,
    s0 p q, s1 q, s2 q]
  exact Cert.BNMath.bn_column (N := 100000) (by norm_num)
    (fun k => Cert.ReferenceIdeal.Read.val_main_v94 (F := Ideal) x0 x1 x2 x4 x5 x6 x7 x8 x9 (ix2 k q)) (fun k => hreal _)
    (Ideal.ofBits .f32 0x47C35000#32) (Ideal.ofBits .f32 0x3727C5AC#32) (x10 (ix1 q)) (x11 (ix1 q))
    (by rw [Cert.BNMath.ofBits_n]; norm_num) Cert.BNMath.ofBits_eps (hx10 _) (hx11 _) p

/-- The layer leaves the batch ids and the last layer's parameters as they were. -/
theorem w15_keep_main_arg3 (c : Dev nD) : W15 m ρ c (Proc.devRef .tc main_arg3) = W12 m ρ c (Proc.devRef .tc main_arg3) :=
  ((W15_of_ne m ρ c main_arg3 (by decide)).trans
    (by keep_ops hostOps5 : W14 m ρ c (Proc.devRef .tc main_arg3) = W13 m ρ c (Proc.devRef .tc main_arg3))).trans
    (W13_of_ne m ρ c main_arg3 (by decide))
theorem w15_keep_main_arg12 (c : Dev nD) : W15 m ρ c (Proc.devRef .tc main_arg12) = W12 m ρ c (Proc.devRef .tc main_arg12) :=
  ((W15_of_ne m ρ c main_arg12 (by decide)).trans
    (by keep_ops hostOps5 : W14 m ρ c (Proc.devRef .tc main_arg12) = W13 m ρ c (Proc.devRef .tc main_arg12))).trans
    (W13_of_ne m ρ c main_arg12 (by decide))
theorem w15_keep_main_arg13 (c : Dev nD) : W15 m ρ c (Proc.devRef .tc main_arg13) = W12 m ρ c (Proc.devRef .tc main_arg13) :=
  ((W15_of_ne m ρ c main_arg13 (by decide)).trans
    (by keep_ops hostOps5 : W14 m ρ c (Proc.devRef .tc main_arg13) = W13 m ρ c (Proc.devRef .tc main_arg13))).trans
    (W13_of_ne m ρ c main_arg13 (by decide))

end Main

end Cert.KernelIdeal.Seg5
end
-- ==== Proof.PoolMath.lean ====
import Mathlib
import Idealize.ShloMosaic.PureOps.Ideal

/-! # One-hot sums are sums over the rows that hit

For a table of 32-bit words `b` and a group number `g < 64`, the word `b p` equals the word of `g` exactly when
its signed value is `g`. Hence a sum weighted by the one-hot indicator `[b p = g]` is the sum over the rows
whose signed value is `g`. -/

namespace Cert.PoolMath

/-- A 32-bit word equals the word of `g < 64` exactly when its signed value is `g`. -/
theorem eq_ofNat_iff_toInt (b : BitVec 32) (g : Fin 64) :
    b = BitVec.ofNat 32 g.val ↔ b.toInt = (g.val : ℤ) := by
  have hb := b.isLt
  have hg := g.isLt
  rw [← BitVec.toNat_inj, BitVec.toNat_ofNat, BitVec.toInt_eq_toNat_cond]
  split <;> omega

/-- The one-hot indicator of `b p = g`, as an extended real. -/
theorem onehot_eq (b : BitVec 32) (g : Fin 64) :
    (if b = BitVec.ofNat 32 g.val then (1 : EReal) else 0) = if b.toInt = (g.val : ℤ) then (1 : EReal) else 0 := by
  by_cases h : b = BitVec.ofNat 32 g.val
  · rw [if_pos h, if_pos ((eq_ofNat_iff_toInt b g).1 h)]
  · rw [if_neg h, if_neg (fun h' => h ((eq_ofNat_iff_toInt b g).2 h'))]

/-- A one-hot weighted sum is the sum over the rows that hit. -/
theorem onehot_sum (b : Fin 100000 → BitVec 32) (H : Fin 100000 → EReal) (g : Fin 64) :
    (∑ p, (if b p = BitVec.ofNat 32 g.val then (1 : EReal) else 0) * H p)
      = ∑ p ∈ Finset.univ.filter (fun p => (b p).toInt = (g.val : ℤ)), H p := by
  rw [Finset.sum_filter]
  refine Finset.sum_congr rfl fun p _ => ?_
  rw [onehot_eq]
  by_cases h : (b p).toInt = (g.val : ℤ)
  · rw [if_pos h, if_pos h, one_mul]
  · rw [if_neg h, if_neg h, zero_mul]

/-- The one-hot count is the number of rows that hit, as a sum of ones. -/
theorem onehot_cnt (b : Fin 100000 → BitVec 32) (g : Fin 64) :
    (∑ p, (if b p = BitVec.ofNat 32 g.val then (1 : EReal) else 0))
      = ∑ p ∈ Finset.univ.filter (fun p => (b p).toInt = (g.val : ℤ)), (1 : EReal) := by
  rw [Finset.sum_filter]
  exact Finset.sum_congr rfl fun p _ => onehot_eq (b p) g

end Cert.PoolMath
-- ==== Proof.LibColDot.lean ====
/-
  A matrix product that contracts the FIRST axis of both operands, read at an index.

  The product of a `[K, R]` array with a `[K, C]` array into `[R, C]` that contracts the leading axis of both —
  the transposed left operand times the right operand, `lhsᵀ · rhs` — has the dimension numbers of the record
  `colDot` below, whose side condition is a parameter: any record with the same lists is one of them by unfolding.
  On the extended reals the product into a zero accumulator, read at `(p, q)`, is the sum over `k` of
  `lhs (k, p) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibColDot

open Idealize.ShloMosaic Idealize.ShloMosaic.ValueIdx

/-- The dimension numbers of a `[K, R] × [K, C] → [R, C]` product contracting the leading axis of both operands. -/
abbrev colDot (K R C : Nat)
    (wf : DotDims.WF ⟨2, ![K, R]⟩ ⟨2, ![K, C]⟩ ⟨2, ![R, C]⟩ [0] [0] [1] [1] [] []) :
    DotDims ⟨2, ![K, R]⟩ ⟨2, ![K, C]⟩ ⟨2, ![R, C]⟩ where
  lhsContracting := [0]
  rhsContracting := [0]
  lhsNonContracting := [1]
  rhsNonContracting := [1]
  lhsBatch := []
  rhsBatch := []
  wf := wf

section
variable {K R C : Nat} (wf : DotDims.WF ⟨2, ![K, R]⟩ ⟨2, ![K, C]⟩ ⟨2, ![R, C]⟩ [0] [0] [1] [1] [] [])

/-- The left operand's index for output `(p, q)` and contraction coordinate `k` is `(k, p)`. -/
theorem colDot_lhsIdx (p : Fin R) (q : Fin C) (k : Fin K) :
    (colDot K R C wf).lhsIdx (ix2 p q) ((contrEquiv1 (colDot K R C wf) K rfl rfl).symm k) = ix2 k p := by
  have hk := contrEquiv1_symm_val (colDot K R C wf) K rfl rfl k
  funext a
  refine Fin.ext ?_
  match a with
  | ⟨0, _⟩ =>
    exact ((colDot K R C wf).lhsIdx_val_of_single (cl := (0 : Fin 2)) rfl (ix2 p q) _).trans hk
  | ⟨1, _⟩ =>
    show ((colDot K R C wf).lhsIdx (ix2 p q) ((contrEquiv1 (colDot K R C wf) K rfl rfl).symm k) 1).val = p.val
    unfold DotDims.lhsIdx
    rw [dif_neg (show ¬(1 : Fin 2) ∈ (colDot K R C wf).lhsBatch from List.not_mem_nil),
      dif_pos (show (1 : Fin 2) ∈ (colDot K R C wf).lhsNonContracting from List.mem_singleton.mpr rfl)]
    rfl

/-- The right operand's index for output `(p, q)` and contraction coordinate `k` is `(k, q)`. -/
theorem colDot_rhsIdx (p : Fin R) (q : Fin C) (k : Fin K) :
    (colDot K R C wf).rhsIdx (ix2 p q) ((contrEquiv1 (colDot K R C wf) K rfl rfl).symm k) = ix2 k q := by
  have hk := contrEquiv1_symm_val (colDot K R C wf) K rfl rfl k
  funext a
  refine Fin.ext ?_
  match a with
  | ⟨0, _⟩ =>
    exact ((colDot K R C wf).rhsIdx_val_of_single (cr := (0 : Fin 2)) rfl (ix2 p q) _).trans hk
  | ⟨1, _⟩ =>
    show ((colDot K R C wf).rhsIdx (ix2 p q) ((contrEquiv1 (colDot K R C wf) K rfl rfl).symm k) 1).val = q.val
    unfold DotDims.rhsIdx
    rw [dif_neg (show ¬(1 : Fin 2) ∈ (colDot K R C wf).rhsBatch from List.not_mem_nil),
      dif_pos (show (1 : Fin 2) ∈ (colDot K R C wf).rhsNonContracting from List.mem_singleton.mpr rfl)]
    rfl

/-- THE PRODUCT `lhsᵀ · rhs` INTO A ZERO ACCUMULATOR AT `(p, q)`: the sum over `k` of `lhs (k, p) * rhs (k, q)`. -/
theorem matmul_zero_apply {φ₁ φ₂ : FTy} (prec : Option ContractPrecision)
    (lhs : FVec Ideal ⟨2, ![K, R]⟩ φ₁) (rhs : FVec Ideal ⟨2, ![K, C]⟩ φ₂) (p : Fin R) (q : Fin C) :
    FloatOps.matmul (colDot K R C wf) prec lhs rhs (constant ⟨2, ![R, C]⟩ .f32 0x00000000#32) (ix2 p q)
      = ∑ k : Fin K, lhs (ix2 k p) * rhs (ix2 k q) := by
  rw [Ideal.matmul_constant_zero_apply, ← Equiv.sum_comp (contrEquiv1 (colDot K R C wf) K rfl rfl).symm]
  refine Finset.sum_congr rfl fun k _ => ?_
  rw [colDot_lhsIdx wf p q k, colDot_rhsIdx wf p q k]

end

end Cert.LibColDot

end
-- ==== Proof.Pool.lean ====
/-
  The pooling region: the per-graph sums of the rows and the per-graph row counts.

  The 100000 rows come in 50 blocks of 2000. For the block of a grid point the body forms the one-hot block
  (entry (j, g) is 1 when row j's batch id equals graph id g, else 0), adds its transpose times the block of rows
  to a [64, 64] accumulator and its column sums to a [1, 64] accumulator; the first point starts both from zero and
  both are written out after the last point only. Over the extended reals, where addition is associative and
  commutative and nothing is rounded, the pooled array at (g, d) is therefore the sum over ALL rows p of
  [row p is in graph g] * h (p, d), and the counts array at (0, g) the sum over all rows p of [row p is in graph g].

  The steps: what each of the two cases leaves in each accumulator, as the body's arithmetic of the blocks; that
  arithmetic read at an index; the blocks read as rows 2000 t + j of the arrays; the accumulators after point n as the
  sum over the points 0 … n, by induction on n; the single write-back at point 49, whose block is the whole array;
  and 50 blocks of 2000 regrouped as one sum over 100000.
-/
import proofs.«113360_j59854664237267_1_alg».proof.Proof.Gen.KernelIdeal.Frame
import proofs.«113360_j59854664237267_1_alg».proof.Proof.LibColDot
import proofs.«113360_j59854664237267_1_alg».proof.Proof.LibColReduce
import proofs.«113360_j59854664237267_1_alg».proof.Proof.LibColumn
import proofs.«113360_j59854664237267_1_alg».proof.Proof.LibSumBlocks
import Idealize.ShloMosaic.Lib.Pipeline.Value
import Idealize.ShloMosaic.Lib.ValueIdx
import Idealize.ShloMosaic.Lib.ValueLayout
import Idealize.ShloMosaic.Lib.Tactic
import Idealize.ShloMosaic.PureOps.Ideal
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Pool

open Cert.KernelIdeal Cert.KernelIdeal.Gen

section Pieces
variable {F : FTy → Type} [FloatOps F]

theorem hz : (![0, 0] : Fin 2 → Nat) = fun _ => 0 := funext fun a => by fin_cases a <;> rfl

/-- A later point leaves, in the pooled accumulator holding `xo3`, the accumulator plus the one-hot block transposed
    times the block of rows. -/
theorem out_B_3 (c : Dev nD) (i : grid6.Coords) (a1 : Memref sig .tc .vmem S2000x64 .f32) (h1 : a1.IsWhole)
    (a2 : Memref sig .tc .vmem S2000x1 .i32) (h2 : a2.IsWhole) (a3 : Memref sig .tc .vmem S1x64 .i32) (h3 : a3.IsWhole)
    (a4 : Memref sig .tc .vmem S64x64 .f32) (h4 : a4.IsWhole) (a5 : Memref sig .tc .vmem S1x64 .f32) (h5 : a5.IsWhole)
    (hc : ¬cond6_0 i) (x0 : Vec F S2000x64 .f32) (x1 : Vec F S2000x1 .i32) (x2 : Vec F S1x64 .i32)
    (xo3 : Vec F S64x64 .f32) (xo4 : Vec F S1x64 .f32) :
    out6_B_3 c i a1 h1 a2 h2 a3 h3 a4 h4 a5 h5 hc x0 x1 x2 xo3 xo4 = k6_pay4 x1 x2 x0 xo3 := by
  unfold out6_B_3
  rw [View.read_writes_eq_canon _ _ _ (cover6_B_3 c i a1 h1 a2 h2 a3 h3 a4 h4 a5 h5 hc x0 x1 x2 xo3 xo4)]
  unfold kernelRun6_B
  dsimp only
  rw [View.canon_unit_zero hz]
  simp only [View.readAt_eq_ld, h1.read_unread, h2.read_unread, h3.read_unread, h4.read_unread,
    View.ld_unit_zero (S := S2000x64) hz, View.ld_unit_zero (S := S2000x1) hz, View.ld_unit_zero (S := S1x64) hz,
    View.ld_unit_zero (S := S64x64) hz]

/-- A later point leaves, in the counts accumulator holding `xo4`, the accumulator plus the column sums of the one-hot
    block. -/
theorem out_B_4 (c : Dev nD) (i : grid6.Coords) (a1 : Memref sig .tc .vmem S2000x64 .f32) (h1 : a1.IsWhole)
    (a2 : Memref sig .tc .vmem S2000x1 .i32) (h2 : a2.IsWhole) (a3 : Memref sig .tc .vmem S1x64 .i32) (h3 : a3.IsWhole)
    (a4 : Memref sig .tc .vmem S64x64 .f32) (h4 : a4.IsWhole) (a5 : Memref sig .tc .vmem S1x64 .f32) (h5 : a5.IsWhole)
    (hc : ¬cond6_0 i) (x0 : Vec F S2000x64 .f32) (x1 : Vec F S2000x1 .i32) (x2 : Vec F S1x64 .i32)
    (xo3 : Vec F S64x64 .f32) (xo4 : Vec F S1x64 .f32) :
    out6_B_4 c i a1 h1 a2 h2 a3 h3 a4 h4 a5 h5 hc x0 x1 x2 xo3 xo4 = k6_pay5 x1 x2 xo4 := by
  unfold out6_B_4
  rw [View.read_writes_eq_canon _ _ _ (cover6_B_4 c i a1 h1 a2 h2 a3 h3 a4 h4 a5 h5 hc x0 x1 x2 xo3 xo4)]
  unfold kernelRun6_B
  dsimp only
  rw [View.canon_unit_zero hz]
  simp only [View.readAt_eq_ld, h1.read_unread, h2.read_unread, h3.read_unread, h5.read_unread,
    View.ld_unit_zero (S := S2000x64) hz, View.ld_unit_zero (S := S2000x1) hz, View.ld_unit_zero (S := S1x64) hz,
    View.ld_unit_zero (S := S64x64) hz]

/-- The first point stores the zero block, reads it back, and leaves zero plus the one-hot block transposed times the
    block of rows. -/
theorem out_A_3 (c : Dev nD) (i : grid6.Coords) (a1 : Memref sig .tc .vmem S2000x64 .f32) (h1 : a1.IsWhole)
    (a2 : Memref sig .tc .vmem S2000x1 .i32) (h2 : a2.IsWhole) (a3 : Memref sig .tc .vmem S1x64 .i32) (h3 : a3.IsWhole)
    (a4 : Memref sig .tc .vmem S64x64 .f32) (h4 : a4.IsWhole) (a5 : Memref sig .tc .vmem S1x64 .f32) (h5 : a5.IsWhole)
    (hc : cond6_0 i) (x0 : Vec F S2000x64 .f32) (x1 : Vec F S2000x1 .i32) (x2 : Vec F S1x64 .i32) :
    out6_A_3 c i a1 h1 a2 h2 a3 h3 a4 h4 a5 h5 hc x0 x1 x2 = k6_pay4 x1 x2 x0 (k6_pay1 (F := F)) := by
  unfold out6_A_3
  rw [View.read_writes_eq_canon _ _ _ (cover6_A_3 c i a1 h1 a2 h2 a3 h3 a4 h4 a5 h5 hc x0 x1 x2)]
  unfold kernelRun6_A
  dsimp only
  sl_unfold_words
  rw [View.canon_cons_unit_zero (S := S64x64) hz, View.readCov_unit_zero (S := S64x64) _ hz]
  simp only [View.readAt_eq_ld, h1.read_unread, h2.read_unread, h3.read_unread,
    View.ld_unit_zero (S := S2000x64) hz, View.ld_unit_zero (S := S2000x1) hz, View.ld_unit_zero (S := S1x64) hz]

/-- The first point stores the zero row, reads it back, and leaves zero plus the column sums of the one-hot block. -/
theorem out_A_4 (c : Dev nD) (i : grid6.Coords) (a1 : Memref sig .tc .vmem S2000x64 .f32) (h1 : a1.IsWhole)
    (a2 : Memref sig .tc .vmem S2000x1 .i32) (h2 : a2.IsWhole) (a3 : Memref sig .tc .vmem S1x64 .i32) (h3 : a3.IsWhole)
    (a4 : Memref sig .tc .vmem S64x64 .f32) (h4 : a4.IsWhole) (a5 : Memref sig .tc .vmem S1x64 .f32) (h5 : a5.IsWhole)
    (hc : cond6_0 i) (x0 : Vec F S2000x64 .f32) (x1 : Vec F S2000x1 .i32) (x2 : Vec F S1x64 .i32) :
    out6_A_4 c i a1 h1 a2 h2 a3 h3 a4 h4 a5 h5 hc x0 x1 x2 = k6_pay5 x1 x2 (k6_pay2 (F := F)) := by
  unfold out6_A_4
  rw [View.read_writes_eq_canon _ _ _ (cover6_A_4 c i a1 h1 a2 h2 a3 h3 a4 h4 a5 h5 hc x0 x1 x2)]
  unfold kernelRun6_A
  dsimp only
  sl_unfold_words
  rw [View.canon_cons_unit_zero (S := S1x64) hz, View.readCov_unit_zero (S := S1x64) _ hz]
  simp only [View.readAt_eq_ld, h1.read_unread, h2.read_unread, h3.read_unread,
    View.ld_unit_zero (S := S2000x64) hz, View.ld_unit_zero (S := S2000x1) hz, View.ld_unit_zero (S := S1x64) hz]

end Pieces

section Values

/-- The word of an equality test, widened to 32 bits and read as a signed integer, is 1 on equal operands and 0
    otherwise. -/
theorem hotWord (a b : BitVec 32) :
    ((((IntOp.cmpi .eq a b).setWidth 32).toInt : ℝ) : EReal) = if a = b then 1 else 0 := by
  by_cases h : a = b
  · rw [if_pos h, IntOp.cmpi_eq.mpr h, show ((1#1 : BitVec 1).setWidth 32).toInt = 1 from by decide]
    simp
  · have h0 : IntOp.cmpi .eq a b = 0#1 := by
      rcases BitVec.eq_zero_or_eq_one (IntOp.cmpi .eq a b) with h' | h'
      · exact h'
      · exact absurd (IntOp.cmpi_eq.mp h') h
    rw [if_neg h, h0, show ((0#1 : BitVec 1).setWidth 32).toInt = 0 from by decide]
    simp

/-- The one-hot block at (j, g): 1 when the id of row j is the graph id g, 0 otherwise. -/
theorem pay3_apply (x1 : Vec Ideal S2000x1 .i32) (x2 : Vec Ideal S1x64 .i32) (j : Fin 2000) (g : Fin 64) :
    k6_pay3 (F := Ideal) x1 x2 (ix2 j g)
      = if x1 (ix2 j (0 : Fin 1)) = x2 (ix2 (0 : Fin 1) g) then 1 else 0 := by
  unfold k6_pay3
  have e1 : broadcastTo S2000x64 (shapeCast S2000x1 x1 shapeCasts_S2000x1_S2000x1) broadcasts_S2000x1_S2000x64 (ix2 j g)
      = x1 (ix2 j (0 : Fin 1)) :=
    (LibColumn.broadcastTo_a1_ab_apply _ _ j g).trans (by rw [shapeCast_self])
  have e2 : broadcastTo S2000x64 (shapeCast S1x64 x2 shapeCasts_S1x64_S1x64) broadcasts_S1x64_S2000x64 (ix2 j g)
      = x2 (ix2 (0 : Fin 1) g) :=
    (broadcastTo_1b_ab_apply _ _ j g).trans (by rw [shapeCast_self])
  show ((((IntOp.cmpi .eq
      (broadcastTo S2000x64 (shapeCast S2000x1 x1 shapeCasts_S2000x1_S2000x1) broadcasts_S2000x1_S2000x64 (ix2 j g))
      (broadcastTo S2000x64 (shapeCast S1x64 x2 shapeCasts_S1x64_S1x64) broadcasts_S1x64_S2000x64 (ix2 j g))).setWidth 32).toInt : ℝ) : EReal) = _
  rw [e1, e2]
  exact hotWord _ _

/-- The zero block and the zero row the first point stores. -/
theorem pay1_apply (i : S64x64.Idx) : k6_pay1 (F := Ideal) i = 0 := by
  unfold k6_pay1
  show Ideal.ofBits .f32 0x00000000#32 = 0
  exact Ideal.ofBits_zero_f32

theorem pay2_apply (i : S1x64.Idx) : k6_pay2 (F := Ideal) i = 0 := by
  unfold k6_pay2
  show Ideal.ofBits .f32 0x00000000#32 = 0
  exact Ideal.ofBits_zero_f32

/-- The pooled update at (g, d): the accumulator there plus the sum over the block's rows j of the one-hot entry
    (j, g) times the row entry (j, d). -/
theorem pay4_apply (x1 : Vec Ideal S2000x1 .i32) (x2 : Vec Ideal S1x64 .i32) (x0 : Vec Ideal S2000x64 .f32)
    (xo3 : Vec Ideal S64x64 .f32) (g d : Fin 64) :
    k6_pay4 (F := Ideal) x1 x2 x0 xo3 (ix2 g d)
      = xo3 (ix2 g d) + ∑ j : Fin 2000, k6_pay3 (F := Ideal) x1 x2 (ix2 j g) * x0 (ix2 j d) := by
  unfold k6_pay4
  show shapeCast S64x64 xo3 shapeCasts_S64x64_S64x64 (ix2 g d)
      + FloatOps.matmul (LibColDot.colDot 2000 64 64 dot_S2000x64_S2000x64_S64x64_0_0_1_1_n_n.wf) none
          (k6_pay3 (F := Ideal) x1 x2) (shapeCast S2000x64 x0 shapeCasts_S2000x64_S2000x64)
          (constant (F := Ideal) S64x64 .f32 0x00000000#32) (ix2 g d) = _
  rw [shapeCast_self, shapeCast_self]
  exact congrArg (xo3 (ix2 g d) + ·)
    (LibColDot.matmul_zero_apply dot_S2000x64_S2000x64_S64x64_0_0_1_1_n_n.wf none (k6_pay3 (F := Ideal) x1 x2) x0 g d)

/-- The counts update at (0, g): the accumulator there plus the sum down column g of the one-hot block. -/
theorem pay5_apply (x1 : Vec Ideal S2000x1 .i32) (x2 : Vec Ideal S1x64 .i32) (xo4 : Vec Ideal S1x64 .f32) (g : Fin 64) :
    k6_pay5 (F := Ideal) x1 x2 xo4 (ix2 (0 : Fin 1) g)
      = xo4 (ix2 (0 : Fin 1) g) + ∑ j : Fin 2000, k6_pay3 (F := Ideal) x1 x2 (ix2 j g) := by
  unfold k6_pay5
  show shapeCast S1x64 xo4 shapeCasts_S1x64_S1x64 (ix2 (0 : Fin 1) g)
      + shapeCast S1x64 (multiReduction (F := Ideal) .add [(0 : Fin 2)] S64 (k6_pay3 (F := Ideal) x1 x2) 0x00000000#32
          reduces_S2000x64_S64 (.inl rfl) rfl) shapeCasts_S64_S1x64 (ix2 (0 : Fin 1) g) = _
  rw [shapeCast_self]
  exact congrArg (xo4 (ix2 (0 : Fin 1) g) + ·)
    ((shapeCast_a_1a_apply _ shapeCasts_S64_S1x64 (0 : Fin 1) g).trans
      (LibColReduce.colSum_f32 (k6_pay3 (F := Ideal) x1 x2) reduces_S2000x64_S64 (.inl rfl) rfl g))

end Values

section Blocks
variable (V : (c : Dev nD) → (b : Ref sig .tc) → Buf (Elt Ideal) ((c : Thread nD τ).loc b))

theorem N50 : cfg6.N = 50 := N_6

/-- The index maps over the grid: the row blocks move with the point, the other windows stay. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

/-- Row j of the block of rows at point t is row 2000 t + j of the array. -/
theorem blk0_apply (c : Dev nD) (t : Fin cfg6.N) (j : Fin 2000) (d : Fin 64) (hp : 2000 * t.val + j.val < 100000) :
    (iblk6 V c 0 t : Vec Ideal S2000x64 .f32) (ix2 j d)
      = (V c main_v96 : S100000x64.Idx → EReal) (ix2 (⟨2000 * t.val + j.val, hp⟩ : Fin 100000) d) := by
  obtain ⟨e0, e1, -⟩ := idx_facts t
  unfold iblk6
  rw [View.read_apply]
  show V c main_v96 (((cfg6.win 0).blk t).view.emb (ix2 j d)) = V c main_v96 _
  refine congrArg (V c main_v96) ?_
  funext a; apply Fin.ext
  match a with
  | ⟨0, _⟩ => show win6_0.index t (0 : Fin 2) * 2000 + 1 * j.val = 2000 * t.val + j.val; rw [e0]; omega
  | ⟨1, _⟩ => show win6_0.index t (1 : Fin 2) * 64 + 1 * d.val = d.val; rw [e1]; omega

/-- Entry j of the block of batch ids at point t is entry 2000 t + j of the column. -/
theorem blk1_apply (c : Dev nD) (t : Fin cfg6.N) (j : Fin 2000) (hp : 2000 * t.val + j.val < 100000) :
    (iblk6 V c 1 t : Vec Ideal S2000x1 .i32) (ix2 j (0 : Fin 1))
      = (V c main_v99 : S100000x1.Idx → BitVec 32) (ix2 (⟨2000 * t.val + j.val, hp⟩ : Fin 100000) (0 : Fin 1)) := by
  obtain ⟨-, -, e0, e1, -⟩ := idx_facts t
  unfold iblk6
  rw [View.read_apply]
  show V c main_v99 (((cfg6.win 1).blk t).view.emb (ix2 j (0 : Fin 1))) = V c main_v99 _
  refine congrArg (V c main_v99) ?_
  funext a; apply Fin.ext
  match a with
  | ⟨0, _⟩ => show win6_1.index t (0 : Fin 2) * 2000 + 1 * j.val = 2000 * t.val + j.val; rw [e0]; omega
  | ⟨1, _⟩ => show win6_1.index t (1 : Fin 2) * 1 + 1 * 0 = 0; rw [e1]

/-- The row of graph ids is read whole at every point. -/
theorem blk2_apply (c : Dev nD) (t : Fin cfg6.N) (g : Fin 64) :
    (iblk6 V c 2 t : Vec Ideal S1x64 .i32) (ix2 (0 : Fin 1) g)
      = (V c main_v98 : S1x64.Idx → BitVec 32) (ix2 (0 : Fin 1) g) := by
  obtain ⟨-, -, -, -, e0, e1, -⟩ := idx_facts t
  unfold iblk6
  rw [View.read_apply]
  show V c main_v98 (((cfg6.win 2).blk t).view.emb (ix2 (0 : Fin 1) g)) = V c main_v98 _
  refine congrArg (V c main_v98) ?_
  funext a; apply Fin.ext
  match a with
  | ⟨0, _⟩ => show win6_2.index t (0 : Fin 2) * 1 + 1 * 0 = 0; rw [e0]
  | ⟨1, _⟩ => show win6_2.index t (1 : Fin 2) * 64 + 1 * g.val = g.val; rw [e1]; omega

end Blocks

section Sum
variable (V : (c : Dev nD) → (b : Ref sig .tc) → Buf (Elt Ideal) ((c : Thread nD τ).loc b))

/-- 1 when row p belongs to graph g (its batch id is the graph's id), 0 otherwise. -/
def hot (c : Dev nD) (p : Fin 100000) (g : Fin 64) : EReal :=
  if (V c main_v99 : S100000x1.Idx → BitVec 32) (ix2 p (0 : Fin 1)) = (V c main_v98 : S1x64.Idx → BitVec 32) (ix2 (0 : Fin 1) g)
  then 1 else 0

/-- Row p's membership in graph g, as a function of a natural number (0 past the last row). -/
def hotN (c : Dev nD) (g : Fin 64) (p : ℕ) : EReal :=
  if hp : p < 100000 then hot V c ⟨p, hp⟩ g else 0

/-- Row p's contribution to the pooled entry (g, d), as a function of a natural number (0 past the last row). -/
def termN (c : Dev nD) (g d : Fin 64) (p : ℕ) : EReal :=
  if hp : p < 100000 then hot V c ⟨p, hp⟩ g * (V c main_v96 : S100000x64.Idx → EReal) (ix2 ⟨p, hp⟩ d) else 0

/-- The one-hot block of point t at (j, g) is the membership of row 2000 t + j in graph g. -/
theorem blockHot (c : Dev nD) (t : Fin cfg6.N) (g : Fin 64) (j : Fin 2000) :
    k6_pay3 (F := Ideal) (iblk6 V c 1 t) (iblk6 V c 2 t) (ix2 j g) = hotN V c g (2000 * t.val + j.val) := by
  have hN : t.val < 50 := lt_of_lt_of_eq t.isLt N50
  have hj := j.isLt
  have hp : 2000 * t.val + j.val < 100000 := by omega
  refine (pay3_apply (iblk6 V c 1 t) (iblk6 V c 2 t) j g).trans ?_
  rw [blk1_apply V c t j hp, blk2_apply V c t g]
  unfold hotN
  rw [dif_pos hp]
  rfl

/-- The product of the one-hot entry (j, g) and the row entry (j, d) of point t is row 2000 t + j's contribution. -/
theorem blockTerm (c : Dev nD) (t : Fin cfg6.N) (g d : Fin 64) (j : Fin 2000) :
    k6_pay3 (F := Ideal) (iblk6 V c 1 t) (iblk6 V c 2 t) (ix2 j g) * (iblk6 V c 0 t : Vec Ideal S2000x64 .f32) (ix2 j d)
      = termN V c g d (2000 * t.val + j.val) := by
  have hN : t.val < 50 := lt_of_lt_of_eq t.isLt N50
  have hj := j.isLt
  have hp : 2000 * t.val + j.val < 100000 := by omega
  rw [blockHot V c t g j, blk0_apply V c t j d hp]
  unfold hotN termN
  rw [dif_pos hp, dif_pos hp]

/-- One point's pooled update, for any blocks: the accumulator's entry plus the block's contributions. -/
theorem pool_step (x1 : Vec Ideal S2000x1 .i32) (x2 : Vec Ideal S1x64 .i32) (x0 : Vec Ideal S2000x64 .f32)
    (xo3 : Vec Ideal S64x64 .f32) (g d : Fin 64) (a : EReal) (f : Fin 2000 → EReal) (ha : xo3 (ix2 g d) = a)
    (hf : ∀ j : Fin 2000, k6_pay3 (F := Ideal) x1 x2 (ix2 j g) * x0 (ix2 j d) = f j) :
    k6_pay4 (F := Ideal) x1 x2 x0 xo3 (ix2 g d) = a + ∑ j : Fin 2000, f j := by
  rw [pay4_apply, ha]
  exact congrArg (a + ·) (Finset.sum_congr rfl fun j _ => hf j)

/-- One point's counts update, for any blocks: the accumulator's entry plus the block's memberships. -/
theorem cnt_step (x1 : Vec Ideal S2000x1 .i32) (x2 : Vec Ideal S1x64 .i32) (xo4 : Vec Ideal S1x64 .f32) (g : Fin 64)
    (a : EReal) (f : Fin 2000 → EReal) (ha : xo4 (ix2 (0 : Fin 1) g) = a)
    (hf : ∀ j : Fin 2000, k6_pay3 (F := Ideal) x1 x2 (ix2 j g) = f j) :
    k6_pay5 (F := Ideal) x1 x2 xo4 (ix2 (0 : Fin 1) g) = a + ∑ j : Fin 2000, f j := by
  rw [pay5_apply, ha]
  exact congrArg (a + ·) (Finset.sum_congr rfl fun j _ => hf j)

/-- What the first point leaves in the two accumulators. -/
theorem at_first (c : Dev nD) (t : Fin cfg6.N) (h0 : t.val % 50 = 0) :
    (outsAt6 V c t.val t.isLt).1 = k6_pay4 (F := Ideal) (iblk6 V c 1 t) (iblk6 V c 2 t) (iblk6 V c 0 t) (k6_pay1 (F := Ideal))
    ∧ (outsAt6 V c t.val t.isLt).2 = k6_pay5 (F := Ideal) (iblk6 V c 1 t) (iblk6 V c 2 t) (k6_pay2 (F := Ideal)) := by
  rw [outsAt6_A V c t h0]
  exact ⟨out_A_3 (F := Ideal) c (grid6.coords t) (ms6_0 t) (hs6_0 t) (ms6_1 t) (hs6_1 t) (ms6_2 t) (hs6_2 t) (ms6_3 t) (hs6_3 t)
      (ms6_4 t) (hs6_4 t) ((hcond6_0 t).mpr h0) (iblk6 V c 0 t) (iblk6 V c 1 t) (iblk6 V c 2 t),
    out_A_4 (F := Ideal) c (grid6.coords t) (ms6_0 t) (hs6_0 t) (ms6_1 t) (hs6_1 t) (ms6_2 t) (hs6_2 t) (ms6_3 t) (hs6_3 t)
      (ms6_4 t) (hs6_4 t) ((hcond6_0 t).mpr h0) (iblk6 V c 0 t) (iblk6 V c 1 t) (iblk6 V c 2 t)⟩

/-- What a later point leaves in the two accumulators, over what the point before left. -/
theorem at_later (c : Dev nD) (t : Fin cfg6.N) (h0 : ¬t.val % 50 = 0) :
    (outsAt6 V c t.val t.isLt).1 = k6_pay4 (F := Ideal) (iblk6 V c 1 t) (iblk6 V c 2 t) (iblk6 V c 0 t)
        (outsAt6 V c (t.val - 1) (Nat.lt_of_le_of_lt (Nat.sub_le _ _) t.isLt)).1
    ∧ (outsAt6 V c t.val t.isLt).2 = k6_pay5 (F := Ideal) (iblk6 V c 1 t) (iblk6 V c 2 t)
        (outsAt6 V c (t.val - 1) (Nat.lt_of_le_of_lt (Nat.sub_le _ _) t.isLt)).2 := by
  rw [outsAt6_B V c t h0]
  exact ⟨out_B_3 (F := Ideal) c (grid6.coords t) (ms6_0 t) (hs6_0 t) (ms6_1 t) (hs6_1 t) (ms6_2 t) (hs6_2 t) (ms6_3 t) (hs6_3 t)
      (ms6_4 t) (hs6_4 t) (fun h => h0 ((hcond6_0 t).mp h)) (iblk6 V c 0 t) (iblk6 V c 1 t) (iblk6 V c 2 t)
      (outsAt6 V c (t.val - 1) (Nat.lt_of_le_of_lt (Nat.sub_le _ _) t.isLt)).1
      (outsAt6 V c (t.val - 1) (Nat.lt_of_le_of_lt (Nat.sub_le _ _) t.isLt)).2,
    out_B_4 (F := Ideal) c (grid6.coords t) (ms6_0 t) (hs6_0 t) (ms6_1 t) (hs6_1 t) (ms6_2 t) (hs6_2 t) (ms6_3 t) (hs6_3 t)
      (ms6_4 t) (hs6_4 t) (fun h => h0 ((hcond6_0 t).mp h)) (iblk6 V c 0 t) (iblk6 V c 1 t) (iblk6 V c 2 t)
      (outsAt6 V c (t.val - 1) (Nat.lt_of_le_of_lt (Nat.sub_le _ _) t.isLt)).1
      (outsAt6 V c (t.val - 1) (Nat.lt_of_le_of_lt (Nat.sub_le _ _) t.isLt)).2⟩

/-- After point n the pooled accumulator holds, at (g, d), the contributions of the rows of points 0 … n, and the
    counts accumulator, at (0, g), the memberships of those rows — by induction on the point. -/
theorem outsAt_eq (c : Dev nD) (n : ℕ) : ∀ h : n < cfg6.N,
    (∀ g d : Fin 64, ((outsAt6 V c n h).1 : Vec Ideal S64x64 .f32) (ix2 g d)
        = ∑ s ∈ Finset.range (n + 1), ∑ j : Fin 2000, termN V c g d (2000 * s + j.val))
    ∧ (∀ g : Fin 64, ((outsAt6 V c n h).2 : Vec Ideal S1x64 .f32) (ix2 (0 : Fin 1) g)
        = ∑ s ∈ Finset.range (n + 1), ∑ j : Fin 2000, hotN V c g (2000 * s + j.val)) := by
  induction n with
  | zero =>
    intro h
    obtain ⟨e3, e4⟩ := at_first V c ⟨0, h⟩ rfl
    have e3' : (outsAt6 V c 0 h).1 = k6_pay4 (F := Ideal) (iblk6 V c 1 ⟨0, h⟩) (iblk6 V c 2 ⟨0, h⟩) (iblk6 V c 0 ⟨0, h⟩)
        (k6_pay1 (F := Ideal)) := e3
    have e4' : (outsAt6 V c 0 h).2 = k6_pay5 (F := Ideal) (iblk6 V c 1 ⟨0, h⟩) (iblk6 V c 2 ⟨0, h⟩) (k6_pay2 (F := Ideal)) := e4
    refine ⟨fun g d => ?_, fun g => ?_⟩
    · rw [e3', Finset.sum_range_one]
      refine (pool_step (iblk6 V c 1 ⟨0, h⟩) (iblk6 V c 2 ⟨0, h⟩) (iblk6 V c 0 ⟨0, h⟩) (k6_pay1 (F := Ideal)) g d 0
        (fun j => termN V c g d (2000 * 0 + j.val)) (pay1_apply _) (fun j => blockTerm V c ⟨0, h⟩ g d j)).trans ?_
      exact zero_add _
    · rw [e4', Finset.sum_range_one]
      refine (cnt_step (iblk6 V c 1 ⟨0, h⟩) (iblk6 V c 2 ⟨0, h⟩) (k6_pay2 (F := Ideal)) g 0
        (fun j => hotN V c g (2000 * 0 + j.val)) (pay2_apply _) (fun j => blockHot V c ⟨0, h⟩ g j)).trans ?_
      exact zero_add _
  | succ n ih =>
    intro h
    have hN : n + 1 < 50 := lt_of_lt_of_eq h N50
    obtain ⟨i3, i4⟩ := ih (Nat.lt_of_succ_lt h)
    obtain ⟨e3, e4⟩ := at_later V c ⟨n + 1, h⟩ (by dsimp only; omega)
    have e3' : (outsAt6 V c (n + 1) h).1 = k6_pay4 (F := Ideal) (iblk6 V c 1 ⟨n + 1, h⟩) (iblk6 V c 2 ⟨n + 1, h⟩)
        (iblk6 V c 0 ⟨n + 1, h⟩) (outsAt6 V c n (Nat.lt_of_succ_lt h)).1 := e3
    have e4' : (outsAt6 V c (n + 1) h).2 = k6_pay5 (F := Ideal) (iblk6 V c 1 ⟨n + 1, h⟩) (iblk6 V c 2 ⟨n + 1, h⟩)
        (outsAt6 V c n (Nat.lt_of_succ_lt h)).2 := e4
    refine ⟨fun g d => ?_, fun g => ?_⟩
    · rw [e3', Finset.sum_range_succ _ (n + 1)]
      exact pool_step (iblk6 V c 1 ⟨n + 1, h⟩) (iblk6 V c 2 ⟨n + 1, h⟩) (iblk6 V c 0 ⟨n + 1, h⟩)
        (outsAt6 V c n (Nat.lt_of_succ_lt h)).1 g d _ (fun j => termN V c g d (2000 * (n + 1) + j.val)) (i3 g d)
        (fun j => blockTerm V c ⟨n + 1, h⟩ g d j)
    · rw [e4', Finset.sum_range_succ _ (n + 1)]
      exact cnt_step (iblk6 V c 1 ⟨n + 1, h⟩) (iblk6 V c 2 ⟨n + 1, h⟩) (outsAt6 V c n (Nat.lt_of_succ_lt h)).2 g _
        (fun j => hotN V c g (2000 * (n + 1) + j.val)) (i4 g) (fun j => blockHot V c ⟨n + 1, h⟩ g j)

end Sum

section Final
variable (V : (c : Dev nD) → (b : Ref sig .tc) → Buf (Elt Ideal) ((c : Thread nD τ).loc b))

theorem last_lt : 49 < cfg6.N := by rw [N50]; decide

/-- The extents of the two accumulators' blocks over the grid: each block is its whole array. -/
theorem xsize_facts : ∀ t : Fin cfg6.N,
    win6_3.xsize (grid6.coords t) (0 : Fin 2) = 64 ∧ win6_3.xsize (grid6.coords t) (1 : Fin 2) = 64
    ∧ win6_4.xsize (grid6.coords t) (0 : Fin 2) = 1 ∧ win6_4.xsize (grid6.coords t) (1 : Fin 2) = 64 :=
  (by decide +kernel : ∀ t : Fin grid6.N, _)

/-- What a point left does not depend on how the point is written. -/
theorem outsAt_congr (c : Dev nD) (n n' : ℕ) (h : n < cfg6.N) (h' : n' < cfg6.N) (e : n = n') :
    outsAt6 V c n h = outsAt6 V c n' h' := by
  subst e; rfl

/-- The one write-back of the pooled accumulator, at the last point, writes what that point left: its block read
    through zero offsets is the whole array. -/
theorem flushed3_eq (c : Dev nD) (t : Fin cfg6.N) (hf : (cfg6.win 3).flush t = true) :
    (dat6 (F := Ideal) V c).flushed 3 t = ((cfg6.win 3).blk t).view.read (Elt Ideal) (outsAt6 V c 49 last_lt).1 := by
  have h49 : t.val = 49 := by
    have h1 := (flush6_3 t).mp hf
    have h2 : t.val < 50 := lt_of_lt_of_eq t.isLt N50
    omega
  show (cfg6.win 3).cut (grid6.coords t) ((dat6 (F := Ideal) V c).after 3 t) = _
  rw [after6_3, outsAt_congr V c t.val 49 t.isLt last_lt h49]
  obtain ⟨-, -, -, -, -, -, e0, e1, -⟩ := idx_facts t
  have hz' : (fun a => win6_3.index t a * main_v100_0.ty.shape.size a) = fun _ => 0 := funext fun a => by
    match a with
    | ⟨0, _⟩ => show win6_3.index t (0 : Fin 2) * 64 = 0; rw [e0]
    | ⟨1, _⟩ => show win6_3.index t (1 : Fin 2) * 64 = 0; rw [e1]
  exact (Memref.read_access_unit_zero (Elt Ideal) main_v100_0 hz' (fun a => by rw [congrFun hz' a]; simp)
    (outsAt6 V c 49 last_lt).1).symm

/-- The same for the counts accumulator. -/
theorem flushed4_eq (c : Dev nD) (t : Fin cfg6.N) (hf : (cfg6.win 4).flush t = true) :
    (dat6 (F := Ideal) V c).flushed 4 t = ((cfg6.win 4).blk t).view.read (Elt Ideal) (outsAt6 V c 49 last_lt).2 := by
  have h49 : t.val = 49 := by
    have h1 := (flush6_4 t).mp hf
    have h2 : t.val < 50 := lt_of_lt_of_eq t.isLt N50
    omega
  show (cfg6.win 4).cut (grid6.coords t) ((dat6 (F := Ideal) V c).after 4 t) = _
  rw [after6_4, outsAt_congr V c t.val 49 t.isLt last_lt h49]
  obtain ⟨-, -, -, -, -, -, -, -, e0, e1⟩ := idx_facts t
  have hz' : (fun a => win6_4.index t a * main_v100_1.ty.shape.size a) = fun _ => 0 := funext fun a => by
    match a with
    | ⟨0, _⟩ => show win6_4.index t (0 : Fin 2) * 1 = 0; rw [e0]
    | ⟨1, _⟩ => show win6_4.index t (1 : Fin 2) * 64 = 0; rw [e1]
  exact (Memref.read_access_unit_zero (Elt Ideal) main_v100_1 hz' (fun a => by rw [congrFun hz' a]; simp)
    (outsAt6 V c 49 last_lt).2).symm

/-- The pooled array ends holding what the last point left (the last point's block covers it). -/
theorem pooled_final (c : Dev nD) : (dat6 (F := Ideal) V c).arrAt 3 cfg6.N = (outsAt6 V c 49 last_lt).1 :=
  (dat6 (F := Ideal) V c).arrAt_eq_of_cover 3 (outsAt6 V c 49 last_lt).1 (flushed3_eq V c) fun i =>
    ⟨⟨49, last_lt⟩, (flush6_3 ⟨49, last_lt⟩).mpr rfl, by
      show i ∈ ((View.whole main_v100_0).slice (win6_3.rect ⟨49, last_lt⟩)).set
      rw [View.set_slice_whole, Rect.mem_set_unit]
      intro a
      obtain ⟨-, -, -, -, -, -, e0, e1, -⟩ := idx_facts ⟨49, last_lt⟩
      obtain ⟨x0, x1, -⟩ := xsize_facts ⟨49, last_lt⟩
      have h0 : (i 0 : Nat) < 64 := (i 0).isLt
      have h1 : (i 1 : Nat) < 64 := (i 1).isLt
      match a with
      | ⟨0, _⟩ =>
        show win6_3.index ⟨49, last_lt⟩ (0 : Fin 2) * 64 ≤ (i 0 : Nat)
          ∧ (i 0 : Nat) < win6_3.index ⟨49, last_lt⟩ (0 : Fin 2) * 64 + win6_3.xsize (grid6.coords ⟨49, last_lt⟩) (0 : Fin 2)
        rw [e0, x0]; omega
      | ⟨1, _⟩ =>
        show win6_3.index ⟨49, last_lt⟩ (1 : Fin 2) * 64 ≤ (i 1 : Nat)
          ∧ (i 1 : Nat) < win6_3.index ⟨49, last_lt⟩ (1 : Fin 2) * 64 + win6_3.xsize (grid6.coords ⟨49, last_lt⟩) (1 : Fin 2)
        rw [e1, x1]; omega⟩

/-- The counts array ends holding what the last point left. -/
theorem counts_final (c : Dev nD) : (dat6 (F := Ideal) V c).arrAt 4 cfg6.N = (outsAt6 V c 49 last_lt).2 :=
  (dat6 (F := Ideal) V c).arrAt_eq_of_cover 4 (outsAt6 V c 49 last_lt).2 (flushed4_eq V c) fun i =>
    ⟨⟨49, last_lt⟩, (flush6_4 ⟨49, last_lt⟩).mpr rfl, by
      show i ∈ ((View.whole main_v100_1).slice (win6_4.rect ⟨49, last_lt⟩)).set
      rw [View.set_slice_whole, Rect.mem_set_unit]
      intro a
      obtain ⟨-, -, -, -, -, -, -, -, e0, e1⟩ := idx_facts ⟨49, last_lt⟩
      obtain ⟨-, -, x0, x1⟩ := xsize_facts ⟨49, last_lt⟩
      have h0 : (i 0 : Nat) < 1 := (i 0).isLt
      have h1 : (i 1 : Nat) < 64 := (i 1).isLt
      match a with
      | ⟨0, _⟩ =>
        show win6_4.index ⟨49, last_lt⟩ (0 : Fin 2) * 1 ≤ (i 0 : Nat)
          ∧ (i 0 : Nat) < win6_4.index ⟨49, last_lt⟩ (0 : Fin 2) * 1 + win6_4.xsize (grid6.coords ⟨49, last_lt⟩) (0 : Fin 2)
        rw [e0, x0]; omega
      | ⟨1, _⟩ =>
        show win6_4.index ⟨49, last_lt⟩ (1 : Fin 2) * 64 ≤ (i 1 : Nat)
          ∧ (i 1 : Nat) < win6_4.index ⟨49, last_lt⟩ (1 : Fin 2) * 64 + win6_4.xsize (grid6.coords ⟨49, last_lt⟩) (1 : Fin 2)
        rw [e1, x1]; omega⟩

/-- THE POOLED SUMS: entry (g, d) of the pooled array is the sum, over all 100000 rows p, of row p's membership in
    graph g times row p's entry d. -/
theorem pool_sum (c : Dev nD) (g d : Fin 64) :
    ((dat6 (F := Ideal) V c).arrAt 3 cfg6.N : S64x64.Idx → EReal) (ix2 g d)
      = ∑ p : Fin 100000, hot V c p g * (V c main_v96 : S100000x64.Idx → EReal) (ix2 p d) := by
  rw [pooled_final V c, (outsAt_eq V c 49 last_lt).1 g d]
  refine (Cert.Hamming.sum_blocks 50 2000 (termN V c g d)).trans ?_
  show ∑ p : Fin 100000, termN V c g d p.val = _
  refine Finset.sum_congr rfl fun p _ => ?_
  unfold termN
  rw [dif_pos p.isLt]

/-- THE COUNTS: entry (0, g) of the counts array is the number of rows of graph g, as the sum of the memberships. -/
theorem pool_cnt (c : Dev nD) (g : Fin 64) :
    ((dat6 (F := Ideal) V c).arrAt 4 cfg6.N : S1x64.Idx → EReal) (ix2 (0 : Fin 1) g)
      = ∑ p : Fin 100000, hot V c p g := by
  rw [counts_final V c, (outsAt_eq V c 49 last_lt).2 g]
  refine (Cert.Hamming.sum_blocks 50 2000 (hotN V c g)).trans ?_
  show ∑ p : Fin 100000, hotN V c g p.val = _
  refine Finset.sum_congr rfl fun p _ => ?_
  unfold hotN
  rw [dif_pos p.isLt]

end Final

end Cert.KernelIdeal.Pool
end
-- ==== Proof.RefPool.lean ====
import proofs.«113360_j59854664237267_1_alg».proof.Proof.Gen.ReferenceIdeal.Read
import Idealize.ShloMosaic.Lib.ValueIdx
import Idealize.ShloMosaic.Lib.IdealHost
import Idealize.ShloMosaic.PureOps.Ideal.Laws

/-! # The mean-pool tail of the reference at an index

The reference pools the rows of the last hidden array by group: a scatter-add of the rows into a zero array at the
row given by the group word, a scatter-add of ones for the group sizes, a division by the size (at least one), a
product with a column and a shift. Here each stage is read at an index. A row `p` lands on group row `g` exactly
when the SIGNED value of its group word is `g`: the start index is read signed and is not clamped, the window
coordinate on the inserted axis is zero, and on the kept axis the window coordinate is the column itself. -/

noncomputable section

namespace Cert.RefPool

open Cert.ReferenceIdeal Cert.ReferenceIdeal.Read Idealize.ShloMosaic Idealize.ShloMosaic.ValueIdx

/-- The dimension numbers of the scatter of rows. -/
abbrev d123 := scatter_S64x64_S100000x1_S100000x64_1_0_0_1
/-- The dimension numbers of the scatter of ones. -/
abbrev d127 := scatter_S64_S100000x1_S100000_n_0_0_1

/-! ## A rank-1 index set is its coordinate range -/

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Where an update lands: the scatter of rows -/

theorem siIdx123 (j : S100000x64.Idx) (c : Fin d123.scatterDimsToOperandDims.length) :
    d123.siIdx j c = ix2 (n0 := 100000) (n1 := 1) (j 0) 0 := by
  funext b
  match b with
  | ⟨0, h0⟩ =>
    unfold ScatterDims.siIdx
    have hn : ¬ ((⟨0, h0⟩ : Fin S100000x1.rank).val = d123.indexVectorDim) := (by decide : ¬ (0 : Nat) = 1)
    rw [dif_neg hn]
    apply Fin.ext
    rfl
  | ⟨1, h1⟩ =>
    unfold ScatterDims.siIdx
    have hn : ((⟨1, h1⟩ : Fin S100000x1.rank).val = d123.indexVectorDim) := (rfl : (1 : Nat) = 1)
    rw [dif_pos hn]
    apply Fin.ext
    have hc : c.val < 1 := c.isLt
    show c.val = 0
    omega

theorem start123_0 (j : S100000x64.Idx) (idx : IVec S100000x1 32) :
    d123.start j idx 0 = (idx (ix2 (n0 := 100000) (n1 := 1) (j 0) 0)).toInt := by
  unfold ScatterDims.start
  rw [dif_pos (by decide)]
  exact congrArg (fun k => (idx k).toInt) (siIdx123 j _)

theorem start123_1 (j : S100000x64.Idx) (idx : IVec S100000x1 32) :
    d123.start j idx 1 = 0 := by
  unfold ScatterDims.start
  rw [dif_neg (by decide)]

theorem window123_0 (j : S100000x64.Idx) : d123.window j 0 = 0 := by
  unfold ScatterDims.window
  rw [dif_neg (by decide)]

theorem window123_1 (j : S100000x64.Idx) : d123.window j 1 = (j 1).val := by
  unfold ScatterDims.window
  rw [dif_pos (by decide)]
  rfl

/-- Update index `j` lands on `i` exactly when the signed group word of row `j 0` is `i 0` and the columns agree. -/
theorem resultIdx123 (idx : IVec S100000x1 32) (j : S100000x64.Idx) (i : S64x64.Idx) :
    d123.resultIdx? j idx = some i ↔
      ((idx (ix2 (n0 := 100000) (n1 := 1) (j 0) 0)).toInt = ((i 0).val : ℤ) ∧ (j 1).val = (i 1).val) := by
  have s0 := start123_0 j idx
  have s1 := start123_1 j idx
  have w0 := window123_0 j
  have w1 := window123_1 j
  have hi0 : (i 0).val < 64 := (i 0).isLt
  have hi1 : (i 1).val < 64 := (i 1).isLt
  have hj1 : (j 1).val < 64 := (j 1).isLt
  unfold ScatterDims.resultIdx?
  constructor
  · intro h
    split at h
    · rename_i hc
      have h' := Option.some.inj h
      have h0 : (d123.start j idx 0 + (d123.window j 0 : ℤ)).toNat = (i 0).val := congrArg (fun f => (f 0).val) h'
      have h1 : (d123.start j idx 1 + (d123.window j 1 : ℤ)).toNat = (i 1).val := congrArg (fun f => (f 1).val) h'
      have c0 : 0 ≤ d123.start j idx 0 + (d123.window j 0 : ℤ) := (hc 0).1
      have c1 : 0 ≤ d123.start j idx 1 + (d123.window j 1 : ℤ) := (hc 1).1
      rw [s0, w0] at h0 c0
      rw [s1, w1] at h1 c1
      constructor <;> omega
    · cases h
  · rintro ⟨h0, h1⟩
    have hall : ∀ a, 0 ≤ d123.start j idx a + (d123.window j a : ℤ) ∧
        d123.start j idx a + (d123.window j a : ℤ) < (S64x64.size a : ℤ) := by
      refine Fin.forall_fin_two.2 ⟨?_, ?_⟩
      · show 0 ≤ d123.start j idx 0 + (d123.window j 0 : ℤ) ∧ d123.start j idx 0 + (d123.window j 0 : ℤ) < ((64 : ℕ) : ℤ)
        rw [s0, w0]; omega
      · show 0 ≤ d123.start j idx 1 + (d123.window j 1 : ℤ) ∧ d123.start j idx 1 + (d123.window j 1 : ℤ) < ((64 : ℕ) : ℤ)
        rw [s1, w1]; omega
    split
    · refine congrArg some (funext fun a => Fin.ext ?_)
      revert a
      refine Fin.forall_fin_two.2 ⟨?_, ?_⟩
      · show (d123.start j idx 0 + (d123.window j 0 : ℤ)).toNat = (i 0).val
        rw [s0, w0]; omega
      · show (d123.start j idx 1 + (d123.window j 1 : ℤ)).toNat = (i 1).val
        rw [s1, w1]; omega
    · rename_i hc
      exact absurd hall hc

/-- The same at coordinates. -/
theorem resultIdx123_ix (idx : IVec S100000x1 32) (p : Fin 100000) (b g d : Fin 64) :
    d123.resultIdx? (ix2 p b) idx = some (ix2 g d) ↔ ((idx (ix2 p 0)).toInt = (g.val : ℤ) ∧ b = d) := by
  rw [resultIdx123]
  show ((idx (ix2 p 0)).toInt = (g.val : ℤ) ∧ b.val = d.val) ↔ _
  rw [Fin.val_inj]

/-! ## Where an update lands: the scatter of ones -/

theorem siIdx127 (j : S100000.Idx) (c : Fin d127.scatterDimsToOperandDims.length) :
    d127.siIdx j c = ix2 (n0 := 100000) (n1 := 1) (j 0) 0 := by
  funext b
  match b with
  | ⟨0, h0⟩ =>
    unfold ScatterDims.siIdx
    have hn : ¬ ((⟨0, h0⟩ : Fin S100000x1.rank).val = d127.indexVectorDim) := (by decide : ¬ (0 : Nat) = 1)
    rw [dif_neg hn]
    apply Fin.ext
    rfl
  | ⟨1, h1⟩ =>
    unfold ScatterDims.siIdx
    have hn : ((⟨1, h1⟩ : Fin S100000x1.rank).val = d127.indexVectorDim) := (rfl : (1 : Nat) = 1)
    rw [dif_pos hn]
    apply Fin.ext
    have hc : c.val < 1 := c.isLt
    show c.val = 0
    omega

theorem start127_0 (j : S100000.Idx) (idx : IVec S100000x1 32) :
    d127.start j idx 0 = (idx (ix2 (n0 := 100000) (n1 := 1) (j 0) 0)).toInt := by
  unfold ScatterDims.start
  rw [dif_pos (by decide)]
  exact congrArg (fun k => (idx k).toInt) (siIdx127 j _)

theorem window127_0 (j : S100000.Idx) : d127.window j 0 = 0 := by
  unfold ScatterDims.window
  rw [dif_neg (by decide)]

/-- Update index `j` lands on `i` exactly when the signed group word of row `j 0` is `i 0`. -/
theorem resultIdx127 (idx : IVec S100000x1 32) (j : S100000.Idx) (i : S64.Idx) :
    d127.resultIdx? j idx = some i ↔
      (idx (ix2 (n0 := 100000) (n1 := 1) (j 0) 0)).toInt = ((i 0).val : ℤ) := by
  have s0 := start127_0 j idx
  have w0 := window127_0 j
  have hi0 : (i 0).val < 64 := (i 0).isLt
  unfold ScatterDims.resultIdx?
  constructor
  · intro h
    split at h
    · rename_i hc
      have h' := Option.some.inj h
      have h0 : (d127.start j idx 0 + (d127.window j 0 : ℤ)).toNat = (i 0).val := congrArg (fun f => (f 0).val) h'
      have c0 : 0 ≤ d127.start j idx 0 + (d127.window j 0 : ℤ) := (hc 0).1
      rw [s0, w0] at h0 c0
      omega
    · cases h
  · intro h0
    have hall : ∀ a, 0 ≤ d127.start j idx a + (d127.window j a : ℤ) ∧
        d127.start j idx a + (d127.window j a : ℤ) < (S64.size a : ℤ) := by
      refine Fin.forall_fin_one.2 ?_
      show 0 ≤ d127.start j idx 0 + (d127.window j 0 : ℤ) ∧ d127.start j idx 0 + (d127.window j 0 : ℤ) < ((64 : ℕ) : ℤ)
      rw [s0, w0]; omega
    split
    · refine congrArg some (funext fun a => Fin.ext ?_)
      revert a
      refine Fin.forall_fin_one.2 ?_
      show (d127.start j idx 0 + (d127.window j 0 : ℤ)).toNat = (i 0).val
      rw [s0, w0]; omega
    · rename_i hc
      exact absurd hall hc

theorem resultIdx127_ix (idx : IVec S100000x1 32) (p : Fin 100000) (g : Fin 64) :
    d127.resultIdx? (ix1 p) idx = some (ix1 g) ↔ (idx (ix2 p 0)).toInt = (g.val : ℤ) := by
  rw [resultIdx127]

/-! ## The stages at an index -/

/-- The accumulating scatter at an index: the operand's element plus the sum of the updates that land on it. -/
theorem scatterAdd_apply {s si su : Shape} (d : ScatterDims s si su) {w : Nat} (x : s.Idx → EReal) (idx : IVec si w)
    (u : su.Idx → EReal) (i : s.Idx) :
    Host.scatterAdd (F := Ideal) (φ := .f32) d x idx u i
      = x i + ∑ j ∈ Finset.univ.filter (fun j => d.resultIdx? j idx = some i), u j := rfl

theorem idx122 (p : Fin 100000) : idx_main_v122 (ix2 p 0) = ix1 p := by
  funext a; match a with | ⟨0, _⟩ => rfl

theorem idx126 (p : Fin 100000) : idx_main_v126 (ix2 p 0) = ix1 p := by
  funext a; match a with | ⟨0, _⟩ => rfl

/-- The scatter of rows at `(g, d)`: the sum of column `d` over the rows whose signed group word is `g`. -/
theorem v123_at (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S100000, .i32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 x8 x9 x10 x11 : (⟨S64, .f32⟩ : BufTy).Contents (Elt Ideal)) (g d : Fin 64) :
    (val_main_v123 (F := Ideal) x0 x1 x2 x3 x4 x5 x6 x7 x8 x9 x10 x11 (ix2 g d) : EReal)
      = 0 + ∑ p ∈ Finset.univ.filter (fun p : Fin 100000 => BitVec.toInt (x3 (ix1 p)) = (g.val : ℤ)),
          (val_main_v120 (F := Ideal) x0 x1 x2 x4 x5 x6 x7 x8 x9 x10 x11 (ix2 p d) : EReal) := by
  unfold val_main_v123
  generalize val_main_v120 (F := Ideal) x0 x1 x2 x4 x5 x6 x7 x8 x9 x10 x11 = H
  refine (scatterAdd_apply d123 _ _ H (ix2 g d)).trans ?_
  have hz : val_main_v121 (F := Ideal) (ix2 g d) = (0 : EReal) := by
    rw [val_main_v121_apply, val_main_cst_24_apply]; exact Ideal.ofBits_zero_f32
  rw [hz]
  refine congrArg (HAdd.hAdd (0 : EReal)) ?_
  rw [Finset.sum_filter, Finset.sum_filter, sum_idx2]
  refine Finset.sum_congr rfl fun p _ => ?_
  have hx : val_main_v122 (F := Ideal) x3 (ix2 p 0) = x3 (ix1 p) := by rw [val_main_v122_apply, idx122]
  by_cases hp : BitVec.toInt (x3 (ix1 p)) = (g.val : ℤ)
  · rw [if_pos hp, Finset.sum_eq_single d]
    · exact if_pos ((resultIdx123_ix _ p d g d).2 ⟨(congrArg BitVec.toInt hx).trans hp, rfl⟩)
    · intro b _ hb
      exact if_neg fun h => hb ((resultIdx123_ix _ p b g d).1 h).2
    · intro h; exact absurd (Finset.mem_univ d) h
  · rw [if_neg hp]
    refine Finset.sum_eq_zero fun b _ => ?_
    exact if_neg fun h => hp ((congrArg BitVec.toInt hx).symm.trans ((resultIdx123_ix _ p b g d).1 h).1)

/-- The scatter of ones at `g`: one for each row whose signed group word is `g`. -/
theorem v127_at (x3 : (⟨S100000, .i32⟩ : BufTy).Contents (Elt Ideal)) (g : Fin 64) :
    (val_main_v127 (F := Ideal) x3 (ix1 g) : EReal)
      = 0 + ∑ p ∈ Finset.univ.filter (fun p : Fin 100000 => BitVec.toInt (x3 (ix1 p)) = (g.val : ℤ)), (1 : EReal) := by
  unfold val_main_v127
  refine (scatterAdd_apply d127 _ _ _ (ix1 g)).trans ?_
  have hz : val_main_v125 (F := Ideal) (ix1 g) = (0 : EReal) := by
    rw [val_main_v125_apply, val_main_cst_26_apply]; exact Ideal.ofBits_zero_f32
  rw [hz]
  refine congrArg (HAdd.hAdd (0 : EReal)) ?_
  rw [Finset.sum_filter, Finset.sum_filter, sum_idx1]
  refine Finset.sum_congr rfl fun p _ => ?_
  have hx : val_main_v126 (F := Ideal) x3 (ix2 p 0) = x3 (ix1 p) := by rw [val_main_v126_apply, idx126]
  have h1 : val_main_v124 (F := Ideal) (ix1 p) = (1 : EReal) := by
    rw [val_main_v124_apply, val_main_cst_25_apply]; exact Ideal.ofBits_one_f32
  rw [h1]
  by_cases hp : BitVec.toInt (x3 (ix1 p)) = (g.val : ℤ)
  · rw [if_pos hp]
    exact if_pos ((resultIdx127_ix _ p g).2 ((congrArg BitVec.toInt hx).trans hp))
  · rw [if_neg hp]
    exact if_neg fun h => hp ((congrArg BitVec.toInt hx).symm.trans ((resultIdx127_ix _ p g).1 h))

/-- The mean at `(g, d)`: the pooled sum divided by the group size, taken at least one. -/
theorem v132_at (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S100000, .i32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 x8 x9 x10 x11 : (⟨S64, .f32⟩ : BufTy).Contents (Elt Ideal)) (g d : Fin 64) :
    (val_main_v132 (F := Ideal) x0 x1 x2 x3 x4 x5 x6 x7 x8 x9 x10 x11 (ix2 g d) : EReal)
      = Ideal.div (val_main_v123 (F := Ideal) x0 x1 x2 x3 x4 x5 x6 x7 x8 x9 x10 x11 (ix2 g d)) (max (val_main_v127 (F := Ideal) x3 (ix1 g)) 1) := by
  rw [val_main_v132_apply, val_main_v131_apply, val_main_v130_apply, val_main_v129_apply, val_main_v128_apply,
    val_main_cst_27_apply]
  have hi : idx_main_v130 (idx_main_v131 (ix2 g d)) = ix1 g := by
    funext a; match a with | ⟨0, _⟩ => rfl
  rw [hi]
  show Ideal.div _ (max _ (Ideal.ofBits .f32 0x3F800000#32)) = _
  rw [Ideal.ofBits_one_f32]

/-- The output at `g`: the mean row times the column, plus the shift. -/
theorem v136_at (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S100000, .i32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 x8 x9 x10 x11 : (⟨S64, .f32⟩ : BufTy).Contents (Elt Ideal)) (x12 : (⟨S64x1, .f32⟩ : BufTy).Contents (Elt Ideal)) (x13 : (⟨S1, .f32⟩ : BufTy).Contents (Elt Ideal)) (g : Fin 64) :
    (val_main_v136 (F := Ideal) x0 x1 x2 x3 x4 x5 x6 x7 x8 x9 x10 x11 x12 x13 (ix2 g 0) : EReal)
      = (∑ k : Fin 64, (val_main_v132 (F := Ideal) x0 x1 x2 x3 x4 x5 x6 x7 x8 x9 x10 x11 (ix2 g k) : EReal) * (x12 (ix2 k 0) : EReal))
        + (x13 (ix1 0) : EReal) := by
  rw [val_main_v136_apply, val_main_v133_apply, val_main_v135_apply, val_main_v134_apply]
  have h13 : idx_main_v134 (idx_main_v135 (ix2 g 0)) = ix1 0 := by
    funext a; match a with | ⟨0, _⟩ => rfl
  rw [h13]
  refine congrArg (fun t : EReal => t + (x13 (ix1 0) : EReal)) ?_
  refine Finset.sum_congr rfl fun k _ => ?_
  have hl : lidx_main_v133 (ix2 g 0) k = ix2 g k := by
    funext a; match a with | ⟨0, _⟩ => rfl | ⟨1, _⟩ => rfl
  have hr : ridx_main_v133 (ix2 g 0) k = ix2 k 0 := by
    funext a; match a with | ⟨0, _⟩ => rfl | ⟨1, _⟩ => rfl
  rw [hl, hr]

end Cert.RefPool
-- ==== Proof.Seg6.lean ====
/-
  The pool and the tail, against the reference.

  After the second normalization the program forms the row of group numbers 0 … 63 and the column of batch words,
  pools the normalized rows by group (sums and counts), divides each pooled row by its count taken at least one,
  multiplies by the last layer's column and adds its shift. The reference scatters the rows and a vector of ones by
  the batch words and then does the same division, product and shift.

  The steps: the group row holds the word of g at column g and the batch column holds the batch word of row p at
  row p; so "row p is in group g" is "the batch word of row p is the word of g", and a one-hot weighted sum is the sum
  over the rows whose signed batch value is g, which is what each scatter computes; the counts row read as a column and
  spread over the columns is the count of the row's group; hence the two quotient arrays are equal element by element,
  and the last product and shift are the same operations of equal operands.
-/
import proofs.«113360_j59854664237267_1_alg».proof.Proof.Gen.KernelIdeal.Frame
import proofs.«113360_j59854664237267_1_alg».proof.Proof.Gen.ReferenceIdeal.Read
import proofs.«113360_j59854664237267_1_alg».proof.Proof.LibColumn
import proofs.«113360_j59854664237267_1_alg».proof.Proof.PoolMath
import proofs.«113360_j59854664237267_1_alg».proof.Proof.Pool
import proofs.«113360_j59854664237267_1_alg».proof.Proof.RefPool
import Idealize.ShloMosaic.Lib.StableHlo.Run
import Idealize.ShloMosaic.Lib.ValueIdx
import Idealize.ShloMosaic.Lib.ValueLayout
import Idealize.ShloMosaic.PureOps.Ideal
import Idealize.ShloMosaic.PureOps.Ideal.Laws

set_option maxRecDepth 16384

noncomputable section

open scoped BigOperators

namespace Cert.KernelIdeal.Seg6

open Cert.KernelIdeal Cert.KernelIdeal.Gen Idealize.ShloMosaic Idealize.ShloMosaic.TcCoe Idealize.SL.Sem Idealize.ShloMosaic.StableHlo
open Idealize.ShloMosaic.ValueIdx

open Cert.ReferenceIdeal.Read

variable (m : (ℓ : Loc nD τ sig) → Buf (Elt Ideal) ℓ) (ρ : Dev nD → PrngReg)

macro "keep_ops" ops:ident : tactic => `(tactic|
  exact StableHlo.after_of_forall_not_mem _ _ (List.forall_iff_forall_mem.mp (by
    simp only [$ops:ident, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-- A `[1, a]` array cast to `[a, 1]` reads, at `(i, u)`, the operand at `(0, i)`: the same row-major position. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    omega)

/-! ## The stretch before the pool -/

/-- The normalized activations cross the stretch unchanged. -/
theorem w16_v96 (c : Dev nD) : W16 m ρ c (Proc.devRef .tc main_v96) = W15 m ρ c (Proc.devRef .tc main_v96) := by
  keep_ops hostOps6

/-- The row of group numbers: column `g` holds the word of `g`. -/
theorem w16_v98 (c : Dev nD) (g : Fin 64) :
    (W16 m ρ c (Proc.devRef .tc main_v98) : S1x64.Idx → BitVec 32) (ix2 (0 : Fin 1) g) = BitVec.ofNat 32 g.val := by
  have h : W16 m ρ c (Proc.devRef .tc main_v98)
      = (shapeCast S1x64 (iotaInDim S64 32 0) shapeCasts_S64_S1x64 : S1x64.Idx → BitVec 32) := by
    show StableHlo.after hostOps6 _ (Proc.devRef .tc main_v98) = _
    after_results
    rfl
  rw [h]
  exact (shapeCast_a_1a_apply (a := 64) _ shapeCasts_S64_S1x64 0 g).trans rfl

/-- The column of batch words: row `p` holds the batch array's word `p`. -/
theorem w16_v99 (c : Dev nD) (p : Fin 100000) :
    (W16 m ρ c (Proc.devRef .tc main_v99) : S100000x1.Idx → BitVec 32) (ix2 p (0 : Fin 1))
      = (W15 m ρ c (Proc.devRef .tc main_arg3) : S100000.Idx → BitVec 32) (ix1 p) := by
  have h : W16 m ρ c (Proc.devRef .tc main_v99)
      = (shapeCast S100000x1 (W15 m ρ c (Proc.devRef .tc main_arg3) : S100000.Idx → BitVec 32) shapeCasts_S100000_S100000x1 : S100000x1.Idx → BitVec 32) := by
    show StableHlo.after hostOps6 _ (Proc.devRef .tc main_v99) = _
    after_results
    rfl
  rw [h]
  exact Cert.LibColumn.shapeCast_a_a1_apply (a := 100000) _ shapeCasts_S100000_S100000x1 p 0

/-! ## The pool's arrays against the reference's scatters -/

/-- Row `p`'s membership in group `g`, read from the arrays after the stretch: the batch word of row `p` against the
    word of `g`. -/
theorem hot_eq (c : Dev nD) (x3 : (⟨Cert.ReferenceIdeal.S100000, .i32⟩ : BufTy).Contents (Elt Ideal))
    (ha3 : W15 m ρ c (Proc.devRef .tc main_arg3) = x3) (p : Fin 100000) (g : Fin 64) :
    Pool.hot (V16 m ρ) c p g = if x3 (ix1 p) = BitVec.ofNat 32 g.val then (1 : EReal) else 0 := by
  unfold Pool.hot
  refine if_congr (Iff.of_eq ?_) rfl rfl
  show ((W16 m ρ c (Proc.devRef .tc main_v99) : S100000x1.Idx → BitVec 32) (ix2 p (0 : Fin 1))
      = (W16 m ρ c (Proc.devRef .tc main_v98) : S1x64.Idx → BitVec 32) (ix2 (0 : Fin 1) g)) = _
  rw [w16_v99, w16_v98, ha3]

/-- The pooled sums are the reference's scatter of rows: both are, at `(g, d)`, the sum of column `d` over the rows of
    group `g`. -/
theorem w17_pooled (c : Dev nD) (x0 : (⟨Cert.ReferenceIdeal.S100000x128, .f32⟩ : BufTy).Contents (Elt Ideal)) (x1 : (⟨Cert.ReferenceIdeal.S2x3200000, .i32⟩ : BufTy).Contents (Elt Ideal)) (x2 : (⟨Cert.ReferenceIdeal.S3200000, .f32⟩ : BufTy).Contents (Elt Ideal)) (x3 : (⟨Cert.ReferenceIdeal.S100000, .i32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal)) (x7 x8 x9 x10 x11 : (⟨Cert.ReferenceIdeal.S64, .f32⟩ : BufTy).Contents (Elt Ideal))
    (h96 : W15 m ρ c (Proc.devRef .tc main_v96) = val_main_v120 (F := Ideal) x0 x1 x2 x4 x5 x6 x7 x8 x9 x10 x11)
    (ha3 : W15 m ρ c (Proc.devRef .tc main_arg3) = x3) (g d : Fin 64) :
    (W17 m ρ c (Proc.devRef .tc main_v100_0) : S64x64.Idx → EReal) (ix2 g d)
      = val_main_v123 (F := Ideal) x0 x1 x2 x3 x4 x5 x6 x7 x8 x9 x10 x11 (ix2 g d) := by
  have e : W17 m ρ c (Proc.devRef .tc main_v100_0) = (dat6 (F := Ideal) (V16 m ρ) c).arrAt 3 cfg6.N := W17_arr m ρ c 3
  have key : (∑ p : Fin 100000, Pool.hot (V16 m ρ) c p g * (V16 m ρ c main_v96 : S100000x64.Idx → EReal) (ix2 p d))
      = ∑ p ∈ Finset.univ.filter (fun p : Fin 100000 => BitVec.toInt (x3 (ix1 p)) = (g.val : ℤ)),
          (val_main_v120 (F := Ideal) x0 x1 x2 x4 x5 x6 x7 x8 x9 x10 x11 (ix2 p d) : EReal) := by
    refine Eq.trans ?_ (Cert.PoolMath.onehot_sum (fun p => x3 (ix1 p))
      (fun p => val_main_v120 (F := Ideal) x0 x1 x2 x4 x5 x6 x7 x8 x9 x10 x11 (ix2 p d)) g)
    refine Finset.sum_congr rfl fun p _ => ?_
    rw [hot_eq m ρ c x3 ha3 p g]
    refine congrArg _ ?_
    show (W16 m ρ c (Proc.devRef .tc main_v96) : S100000x64.Idx → EReal) (ix2 p d) = _
    rw [w16_v96, h96]
  rw [e]
  exact (Pool.pool_sum (V16 m ρ) c g d).trans (key.trans ((zero_add (M := EReal) _).symm.trans
    (Cert.RefPool.v123_at x0 x1 x2 x3 x4 x5 x6 x7 x8 x9 x10 x11 g d).symm))

/-- The counts are the reference's scatter of ones: both are, at `g`, the number of rows of group `g`. -/
theorem w17_counts (c : Dev nD) (x3 : (⟨Cert.ReferenceIdeal.S100000, .i32⟩ : BufTy).Contents (Elt Ideal))
    (ha3 : W15 m ρ c (Proc.devRef .tc main_arg3) = x3) (g : Fin 64) :
    (W17 m ρ c (Proc.devRef .tc main_v100_1) : S1x64.Idx → EReal) (ix2 (0 : Fin 1) g)
      = val_main_v127 (F := Ideal) x3 (ix1 g) := by
  have e : W17 m ρ c (Proc.devRef .tc main_v100_1) = (dat6 (F := Ideal) (V16 m ρ) c).arrAt 4 cfg6.N := W17_arr m ρ c 4
  have key : (∑ p : Fin 100000, Pool.hot (V16 m ρ) c p g)
      = ∑ p ∈ Finset.univ.filter (fun p : Fin 100000 => BitVec.toInt (x3 (ix1 p)) = (g.val : ℤ)), (1 : EReal) :=
    (Finset.sum_congr rfl fun p _ => hot_eq m ρ c x3 ha3 p g).trans (Cert.PoolMath.onehot_cnt (fun p => x3 (ix1 p)) g)
  rw [e]
  exact (Pool.pool_cnt (V16 m ρ) c g).trans (key.trans ((zero_add (M := EReal) _).symm.trans
    (Cert.RefPool.v127_at x3 g).symm))

/-- The last layer's weights cross the stretch and the pool unchanged. -/
theorem w17_arg12 (c : Dev nD) : W17 m ρ c (Proc.devRef .tc main_arg12) = W15 m ρ c (Proc.devRef .tc main_arg12) :=
  (W17_of_ne m ρ c main_arg12 (by decide)).trans (by keep_ops hostOps6)

/-- The last layer's shift crosses the stretch and the pool unchanged. -/
theorem w17_arg13 (c : Dev nD) : W17 m ρ c (Proc.devRef .tc main_arg13) = W15 m ρ c (Proc.devRef .tc main_arg13) :=
  (W17_of_ne m ρ c main_arg13 (by decide)).trans (by keep_ops hostOps6)

/-! ## The tail: mean, last layer, shift -/

/-- The output after the last stretch, as the stretch's operations of the pool's arrays and the last layer's
    parameters. -/
theorem w18_form (c : Dev nD) : W18 m ρ c (Proc.devRef .tc main_v109)
    = (addf
        (Host.dotGeneral (φ₂ := .f32) dot_S64x64_S64x1_S64x1_1_0_0_1_n_n none
          (Host.divf (W17 m ρ c (Proc.devRef .tc main_v100_0) : (⟨S64x64, .f32⟩ : BufTy).Contents (Elt Ideal))
          (broadcastInDim S64x64 ![0, 1] bcast_S64x1_S64x64_0_1
            (maximumf (shapeCast S64x1 (W17 m ρ c (Proc.devRef .tc main_v100_1) : (⟨S1x64, .f32⟩ : BufTy).Contents (Elt Ideal)) shapeCasts_S1x64_S64x1 : (⟨S64x1, .f32⟩ : BufTy).Contents (Elt Ideal))
            (broadcastInDim S64x1 ![] bcast_S_S64x1 (constant (F := Ideal) S_ .f32 0x3F800000#32)) : (⟨S64x1, .f32⟩ : BufTy).Contents (Elt Ideal))) : (⟨S64x64, .f32⟩ : BufTy).Contents (Elt Ideal))
          (W17 m ρ c (Proc.devRef .tc main_arg12) : (⟨S64x1, .f32⟩ : BufTy).Contents (Elt Ideal)) : (⟨S64x1, .f32⟩ : BufTy).Contents (Elt Ideal))
        (broadcastInDim S64x1 ![0, 1] bcast_S1x1_S64x1_0_1
          (broadcastInDim S1x1 ![1] bcast_S1_S1x1_1 (W17 m ρ c (Proc.devRef .tc main_arg13) : (⟨S1, .f32⟩ : BufTy).Contents (Elt Ideal)) : (⟨S1x1, .f32⟩ : BufTy).Contents (Elt Ideal))) : (⟨S64x1, .f32⟩ : BufTy).Contents (Elt Ideal)) := by
  show StableHlo.after hostOps7 _ (Proc.devRef .tc main_v109) = _
  after_results
  rfl

/-- The mean array: the kernel's quotient of the pooled sums by the counts (at least one), the counts row turned into a
    column and spread over the columns, is the reference's quotient, element by element. -/
theorem mean_eq (c : Dev nD) (x0 : (⟨Cert.ReferenceIdeal.S100000x128, .f32⟩ : BufTy).Contents (Elt Ideal)) (x1 : (⟨Cert.ReferenceIdeal.S2x3200000, .i32⟩ : BufTy).Contents (Elt Ideal)) (x2 : (⟨Cert.ReferenceIdeal.S3200000, .f32⟩ : BufTy).Contents (Elt Ideal)) (x3 : (⟨Cert.ReferenceIdeal.S100000, .i32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal)) (x7 x8 x9 x10 x11 : (⟨Cert.ReferenceIdeal.S64, .f32⟩ : BufTy).Contents (Elt Ideal))
    (h96 : W15 m ρ c (Proc.devRef .tc main_v96) = val_main_v120 (F := Ideal) x0 x1 x2 x4 x5 x6 x7 x8 x9 x10 x11)
    (ha3 : W15 m ρ c (Proc.devRef .tc main_arg3) = x3) :
    (Host.divf (W17 m ρ c (Proc.devRef .tc main_v100_0) : (⟨S64x64, .f32⟩ : BufTy).Contents (Elt Ideal))
          (broadcastInDim S64x64 ![0, 1] bcast_S64x1_S64x64_0_1
            (maximumf (shapeCast S64x1 (W17 m ρ c (Proc.devRef .tc main_v100_1) : (⟨S1x64, .f32⟩ : BufTy).Contents (Elt Ideal)) shapeCasts_S1x64_S64x1 : (⟨S64x1, .f32⟩ : BufTy).Contents (Elt Ideal))
            (broadcastInDim S64x1 ![] bcast_S_S64x1 (constant (F := Ideal) S_ .f32 0x3F800000#32)) : (⟨S64x1, .f32⟩ : BufTy).Contents (Elt Ideal))) : (⟨S64x64, .f32⟩ : BufTy).Contents (Elt Ideal))
      = val_main_v132 (F := Ideal) x0 x1 x2 x3 x4 x5 x6 x7 x8 x9 x10 x11 := by
  funext i
  obtain ⟨g, d, rfl⟩ : ∃ (g d : Fin 64), i = ix2 g d := ⟨i 0, i 1, eq_ix2 i⟩
  rw [Cert.RefPool.v132_at]
  have hs : shapeCast S64x1 (W17 m ρ c (Proc.devRef .tc main_v100_1) : (⟨S1x64, .f32⟩ : BufTy).Contents (Elt Ideal)) shapeCasts_S1x64_S64x1 (ix2 g (0 : Fin 1))
      = val_main_v127 (F := Ideal) x3 (ix1 g) :=
    (shapeCast_1a_a1_apply (a := 64) _ shapeCasts_S1x64_S64x1 g 0).trans (w17_counts m ρ c x3 ha3 g)
  have hc : broadcastInDim S64x1 ![] bcast_S_S64x1 (constant (F := Ideal) S_ .f32 0x3F800000#32) (ix2 g (0 : Fin 1)) = (1 : EReal) :=
    (Cert.LibColumn.bcastInDim_scalar_apply _ bcast_S_S64x1 (ix2 g (0 : Fin 1)) ix0).trans Ideal.ofBits_one_f32
  have hden : broadcastInDim S64x64 ![0, 1] bcast_S64x1_S64x64_0_1
            (maximumf (shapeCast S64x1 (W17 m ρ c (Proc.devRef .tc main_v100_1) : (⟨S1x64, .f32⟩ : BufTy).Contents (Elt Ideal)) shapeCasts_S1x64_S64x1 : (⟨S64x1, .f32⟩ : BufTy).Contents (Elt Ideal))
            (broadcastInDim S64x1 ![] bcast_S_S64x1 (constant (F := Ideal) S_ .f32 0x3F800000#32)) : (⟨S64x1, .f32⟩ : BufTy).Contents (Elt Ideal)) (ix2 g d)
      = max (val_main_v127 (F := Ideal) x3 (ix1 g)) (1 : EReal) :=
    (Cert.LibColumn.bcastInDim_a1_ab_apply (a := 64) (b := 64) _ bcast_S64x1_S64x64_0_1 g d).trans
      (congrArg₂ (max : EReal → EReal → EReal) hs hc)
  have hnum := w17_pooled m ρ c x0 x1 x2 x3 x4 x5 x6 x7 x8 x9 x10 x11 h96 ha3 g d
  exact congrArg₂ Ideal.div hnum hden

/-- THE SEGMENT: from the second normalization's output equal to the reference's, and the batch array and the last
    layer's parameters as launched, the program's output after the pool and the tail is the reference's output. -/
theorem w18_v109 (c : Dev nD) (x0 : (⟨Cert.ReferenceIdeal.S100000x128, .f32⟩ : BufTy).Contents (Elt Ideal)) (x1 : (⟨Cert.ReferenceIdeal.S2x3200000, .i32⟩ : BufTy).Contents (Elt Ideal)) (x2 : (⟨Cert.ReferenceIdeal.S3200000, .f32⟩ : BufTy).Contents (Elt Ideal)) (x3 : (⟨Cert.ReferenceIdeal.S100000, .i32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal)) (x7 x8 x9 x10 x11 : (⟨Cert.ReferenceIdeal.S64, .f32⟩ : BufTy).Contents (Elt Ideal)) (x12 : (⟨Cert.ReferenceIdeal.S64x1, .f32⟩ : BufTy).Contents (Elt Ideal)) (x13 : (⟨Cert.ReferenceIdeal.S1, .f32⟩ : BufTy).Contents (Elt Ideal))
    (h96 : W15 m ρ c (Proc.devRef .tc main_v96) = val_main_v120 (F := Ideal) x0 x1 x2 x4 x5 x6 x7 x8 x9 x10 x11)
    (ha3 : W15 m ρ c (Proc.devRef .tc main_arg3) = x3)
    (ha12 : W15 m ρ c (Proc.devRef .tc main_arg12) = x12)
    (ha13 : W15 m ρ c (Proc.devRef .tc main_arg13) = x13) :
    W18 m ρ c (Proc.devRef .tc main_v109)
      = val_main_v136 (F := Ideal) x0 x1 x2 x3 x4 x5 x6 x7 x8 x9 x10 x11 x12 x13 := by
  rw [w18_form, mean_eq m ρ c x0 x1 x2 x3 x4 x5 x6 x7 x8 x9 x10 x11 h96 ha3, w17_arg12, ha12, w17_arg13, ha13]
  unfold val_main_v136 val_main_v135 val_main_v134 val_main_v133
  rfl

end Cert.KernelIdeal.Seg6

end
-- ==== Proof.Final.lean ====
/-
  The idealized kernel's result equals the reference's last stage.
  The buffers the TensorCore holds at the boundaries of @main's eighteen segments are read one segment after the other: the
  shared prefix (the edge lists with self loops and the symmetric normalisation), then per layer the projection, the
  gather-scale-scatter aggregation, the column statistics and the normalised, clamped activations, then the mean pool and the
  last product. Each boundary's contents are the reference's stage of the same name of the argument arrays; finiteness of the
  float arguments is what makes the one-pass column variance the two-pass one.
-/
import proofs.«113360_j59854664237267_1_alg».proof.Defs
import proofs.«113360_j59854664237267_1_alg».proof.Proof.PreReal
import proofs.«113360_j59854664237267_1_alg».proof.Proof.LibFinite
import proofs.«113360_j59854664237267_1_alg».proof.Proof.RefFinite
import proofs.«113360_j59854664237267_1_alg».proof.Proof.Seg1
import proofs.«113360_j59854664237267_1_alg».proof.Proof.Seg2
import proofs.«113360_j59854664237267_1_alg».proof.Proof.Seg3
import proofs.«113360_j59854664237267_1_alg».proof.Proof.Seg4
import proofs.«113360_j59854664237267_1_alg».proof.Proof.Seg5
import proofs.«113360_j59854664237267_1_alg».proof.Proof.Seg6

set_option maxRecDepth 16384

noncomputable section

open Idealize.ShloMosaic Idealize.ShloMosaic.TcCoe Idealize.SL.Sem

namespace Cert.KernelIdeal.Final

open Cert.KernelIdeal Cert.KernelIdeal.Gen Idealize.ShloMosaic.LibFinite Idealize.ShloMosaic.ValueIdx

variable (m : (ℓ : Loc nD τ sig) → Buf (Elt Ideal) ℓ) (ρ : Dev nD → PrngReg)

/-- The argument arrays as launched, typed as the reference's stages take them. -/
abbrev X0 (c : Dev nD) : (⟨Cert.ReferenceIdeal.S100000x128, .f32⟩ : BufTy).Contents (Elt Ideal) := m ((c.tc : Thread nD τ).loc main_arg0)
abbrev X1 (c : Dev nD) : (⟨Cert.ReferenceIdeal.S2x3200000, .i32⟩ : BufTy).Contents (Elt Ideal) := m ((c.tc : Thread nD τ).loc main_arg1)
abbrev X2 (c : Dev nD) : (⟨Cert.ReferenceIdeal.S3200000, .f32⟩ : BufTy).Contents (Elt Ideal) := m ((c.tc : Thread nD τ).loc main_arg2)
abbrev X3 (c : Dev nD) : (⟨Cert.ReferenceIdeal.S100000, .i32⟩ : BufTy).Contents (Elt Ideal) := m ((c.tc : Thread nD τ).loc main_arg3)
abbrev X4 (c : Dev nD) : (⟨Cert.ReferenceIdeal.S128x64, .f32⟩ : BufTy).Contents (Elt Ideal) := m ((c.tc : Thread nD τ).loc main_arg4)
abbrev X5 (c : Dev nD) : (⟨Cert.ReferenceIdeal.S64, .f32⟩ : BufTy).Contents (Elt Ideal) := m ((c.tc : Thread nD τ).loc main_arg5)
abbrev X6 (c : Dev nD) : (⟨Cert.ReferenceIdeal.S64x64, .f32⟩ : BufTy).Contents (Elt Ideal) := m ((c.tc : Thread nD τ).loc main_arg6)
abbrev X7 (c : Dev nD) : (⟨Cert.ReferenceIdeal.S64, .f32⟩ : BufTy).Contents (Elt Ideal) := m ((c.tc : Thread nD τ).loc main_arg7)
abbrev X8 (c : Dev nD) : (⟨Cert.ReferenceIdeal.S64, .f32⟩ : BufTy).Contents (Elt Ideal) := m ((c.tc : Thread nD τ).loc main_arg8)
abbrev X9 (c : Dev nD) : (⟨Cert.ReferenceIdeal.S64, .f32⟩ : BufTy).Contents (Elt Ideal) := m ((c.tc : Thread nD τ).loc main_arg9)
abbrev X10 (c : Dev nD) : (⟨Cert.ReferenceIdeal.S64, .f32⟩ : BufTy).Contents (Elt Ideal) := m ((c.tc : Thread nD τ).loc main_arg10)
abbrev X11 (c : Dev nD) : (⟨Cert.ReferenceIdeal.S64, .f32⟩ : BufTy).Contents (Elt Ideal) := m ((c.tc : Thread nD τ).loc main_arg11)
abbrev X12 (c : Dev nD) : (⟨Cert.ReferenceIdeal.S64x1, .f32⟩ : BufTy).Contents (Elt Ideal) := m ((c.tc : Thread nD τ).loc main_arg12)
abbrev X13 (c : Dev nD) : (⟨Cert.ReferenceIdeal.S1, .f32⟩ : BufTy).Contents (Elt Ideal) := m ((c.tc : Thread nD τ).loc main_arg13)

/-- Under the precondition the last boundary holds, at the result buffer, the reference's last stage of the launched arguments. -/
theorem final (hpre : @Cert.Pre_KernelIdeal Cert.Pre_finite_inputs.Gen.facts m) (c : Dev nD) :
    W18 m ρ c (Proc.devRef .tc main_v109)
      = Cert.ReferenceIdeal.Read.val_main_v136 (F := Ideal) (X0 m c) (X1 m c) (X2 m c) (X3 m c) (X4 m c) (X5 m c) (X6 m c) (X7 m c) (X8 m c) (X9 m c) (X10 m c) (X11 m c) (X12 m c) (X13 m c) := by
  -- every float argument holds real numbers
  obtain ⟨r0, r2, r4, r5, r6, r7, r8, r9, r10, r11, r12, r13⟩ :=
    @Cert.PreReal.real_of_pre Cert.Pre_finite_inputs.Gen.facts _ _ _ _ _ _ _ _ _ _ _ _ _ _ (hpre c)
  -- the shared prefix: the edge lists with self loops and the symmetric normalisation
  have h3 : W5 m ρ c (Proc.devRef .tc main_v3) = Cert.ReferenceIdeal.Read.val_main_v3 (F := Ideal) (X1 m c) := Seg1.w5_v3 m ρ c
  have h6 : W5 m ρ c (Proc.devRef .tc main_v6) = Cert.ReferenceIdeal.Read.val_main_v6 (F := Ideal) (X1 m c) := Seg1.w5_v6 m ρ c
  have h34 : W5 m ρ c (Proc.devRef .tc main_v34) = Cert.ReferenceIdeal.Read.val_main_v34 (F := Ideal) (X1 m c) (X2 m c) := Seg1.w5_v34 m ρ c
  -- layer 1: projection, aggregation, bias; then column statistics, normalisation, clamp
  have h48 := Seg2.w7_v48 m ρ c (X0 m c) (X1 m c) (X2 m c) (X4 m c) h3 h6 h34 (Seg1.w5_arg0 m ρ c) (Seg1.w5_arg4 m ρ c)
  have h49 : ∀ q : Fin 64, (W7 m ρ c (Proc.devRef .tc main_v49) : S1x64.Idx → EReal) (ix2 (0 : Fin 1) q) = X5 m c (ix1 q) :=
    fun q => Seg2.w7_v49 m ρ c (X5 m c) (Seg1.w5_arg5 m ρ c) q
  have hH1 : ∀ i, IsReal (Cert.ReferenceIdeal.Read.val_main_v51 (F := Ideal) (X0 m c) (X1 m c) (X2 m c) (X4 m c) (X5 m c) i) :=
    Cert.RefFinite.v51_real (X0 m c) (X1 m c) (X2 m c) (X4 m c) (X5 m c) r0 r2 r4 r5
  have h65 : W10 m ρ c (Proc.devRef .tc main_v65) = Cert.ReferenceIdeal.Read.val_main_v77 (F := Ideal) (X0 m c) (X1 m c) (X2 m c) (X4 m c) (X5 m c) (X8 m c) (X9 m c) :=
    Seg3.w10_v65 m ρ (X0 m c) (X1 m c) (X2 m c) (X4 m c) (X5 m c) (X8 m c) (X9 m c) c h48 h49 ((Seg2.w7_keep_main_arg8 m ρ c).trans (Seg1.w5_arg8 m ρ c)) ((Seg2.w7_keep_main_arg9 m ρ c).trans (Seg1.w5_arg9 m ρ c)) r0 r2 r4 r5 r8 r9
  have h77r : ∀ i, IsReal (Cert.ReferenceIdeal.Read.val_main_v77 (F := Ideal) (X0 m c) (X1 m c) (X2 m c) (X4 m c) (X5 m c) (X8 m c) (X9 m c) i) :=
    Seg3.v77_real (X0 m c) (X1 m c) (X2 m c) (X4 m c) (X5 m c) (X8 m c) (X9 m c) r0 r2 r4 r5 r8 r9
  -- layer 2: projection, aggregation, bias
  have h79 := Seg4.w12_v79 m ρ c (X0 m c) (X1 m c) (X2 m c) (X4 m c) (X5 m c) (X6 m c) (X8 m c) (X9 m c) h65 ((Seg3.keep_arg6 m ρ c).trans ((Seg2.w7_keep_main_arg6 m ρ c).trans (Seg1.w5_arg6 m ρ c))) ((Seg3.keep_v3 m ρ c).trans ((Seg2.w7_keep_main_v3 m ρ c).trans h3)) ((Seg3.keep_v6 m ρ c).trans ((Seg2.w7_keep_main_v6 m ρ c).trans h6)) ((Seg3.keep_v34 m ρ c).trans ((Seg2.w7_keep_main_v34 m ρ c).trans h34))
  have h80 : ∀ q : Fin 64, (W12 m ρ c (Proc.devRef .tc main_v80) : S1x64.Idx → EReal) (ix2 (0 : Fin 1) q) = X7 m c (ix1 q) :=
    fun q => Seg4.w12_v80 m ρ c (X7 m c) ((Seg3.keep_arg7 m ρ c).trans ((Seg2.w7_keep_main_arg7 m ρ c).trans (Seg1.w5_arg7 m ρ c))) q
  have hH2 : ∀ i, IsReal (Cert.ReferenceIdeal.Read.val_main_v94 (F := Ideal) (X0 m c) (X1 m c) (X2 m c) (X4 m c) (X5 m c) (X6 m c) (X7 m c) (X8 m c) (X9 m c) i) :=
    Cert.RefFinite.v94_real_of (X0 m c) (X1 m c) (X2 m c) (X4 m c) (X5 m c) (X6 m c) (X7 m c) (X8 m c) (X9 m c) r2 r6 r7 h77r
  -- layer 2: column statistics, normalisation, clamp
  have h96 : W15 m ρ c (Proc.devRef .tc main_v96) = Cert.ReferenceIdeal.Read.val_main_v120 (F := Ideal) (X0 m c) (X1 m c) (X2 m c) (X4 m c) (X5 m c) (X6 m c) (X7 m c) (X8 m c) (X9 m c) (X10 m c) (X11 m c) :=
    Seg5.w15_v96 m ρ (X0 m c) (X1 m c) (X2 m c) (X4 m c) (X6 m c) (X5 m c) (X7 m c) (X8 m c) (X9 m c) (X10 m c) (X11 m c) c h79 h80 ((Seg4.keep_arg10 m ρ c).trans ((Seg3.keep_arg10 m ρ c).trans ((Seg2.w7_keep_main_arg10 m ρ c).trans (Seg1.w5_arg10 m ρ c)))) ((Seg4.keep_arg11 m ρ c).trans ((Seg3.keep_arg11 m ρ c).trans ((Seg2.w7_keep_main_arg11 m ρ c).trans (Seg1.w5_arg11 m ρ c)))) hH2 r10 r11
  -- the mean pool and the last product
  exact Seg6.w18_v109 m ρ c (X0 m c) (X1 m c) (X2 m c) (X3 m c) (X4 m c) (X5 m c) (X6 m c) (X7 m c) (X8 m c) (X9 m c) (X10 m c) (X11 m c) (X12 m c) (X13 m c) h96 ((Seg5.w15_keep_main_arg3 m ρ c).trans ((Seg4.keep_arg3 m ρ c).trans ((Seg3.keep_arg3 m ρ c).trans ((Seg2.w7_keep_main_arg3 m ρ c).trans (Seg1.w5_arg3 m ρ c))))) ((Seg5.w15_keep_main_arg12 m ρ c).trans ((Seg4.keep_arg12 m ρ c).trans ((Seg3.keep_arg12 m ρ c).trans ((Seg2.w7_keep_main_arg12 m ρ c).trans (Seg1.w5_arg12 m ρ c))))) ((Seg5.w15_keep_main_arg13 m ρ c).trans ((Seg4.keep_arg13 m ρ c).trans ((Seg3.keep_arg13 m ρ c).trans ((Seg2.w7_keep_main_arg13 m ρ c).trans (Seg1.w5_arg13 m ρ c)))))

end Cert.KernelIdeal.Final

end
-- ==== Proof.lean ====
/-
  The certificate of a two-layer graph convolution with batch normalisation and a mean pool.

  The kernel program computes, in seven tiled kernel regions among host operations, what the reference computes with plain
  array operations: per layer a projection X·W (row blocks of 2000 nodes against the whole weight matrix), an aggregation
  (rows gathered along the edge list, scaled by the symmetric normalisation, scatter-added at the target nodes: the same
  host operations in both programs), a bias, a batch normalisation over the 100000 nodes and a clamp at zero; then per
  graph the mean of its nodes' rows and a last product with a column.

  Where the two programs differ is the arithmetic of the normalisation and of the pool. The kernel accumulates per column
  the sum and the sum of squares over fifty grid points, forms the mean, the one-pass variance E[h²] − mean², a scale
  γ·(var + ε)^(−1/2) and a shift β − mean·scale, and applies max(h·scale + shift, 0); the reference subtracts the mean,
  averages the squared deviations and applies max(γ·(h − mean)·(var + ε)^(−1/2) + β, 0). On real numbers the two variances
  are one number, non-negative, so the inverse square root is a positive real and the two affine forms agree by
  distributivity; on the extended reals distributivity needs every entry to be real, which is what the precondition
  (every float argument finite) gives through the sums, products, gathers and scatter-adds before the normalisation. The
  pool is a product with the one-hot matrix of the graph ids in the kernel and a scatter-add by graph id in the
  reference: both are the sum of a graph's rows, and its count of nodes, for any id array (an id outside 0..63 meets no
  graph in either program).

  The three frames are the generated ones (the reference's is its generated run with the result dropped); the kernel's
  idealization rewrites nothing; the algebraic claim pairs the kernel's run, its result named at the last boundary, with
  the reference's run at its last stage.
-/
import proofs.«113360_j59854664237267_1_alg».proof.Defs
import proofs.«113360_j59854664237267_1_alg».proof.Proof.Gen.Kernel
import proofs.«113360_j59854664237267_1_alg».proof.Proof.Gen.Kernel.Skeleton
import proofs.«113360_j59854664237267_1_alg».proof.Proof.Gen.Kernel.Launch
import proofs.«113360_j59854664237267_1_alg».proof.Proof.Gen.Kernel.Points
import proofs.«113360_j59854664237267_1_alg».proof.Proof.Gen.Kernel.Frame
import proofs.«113360_j59854664237267_1_alg».proof.Proof.Gen.KernelIdeal
import proofs.«113360_j59854664237267_1_alg».proof.Proof.Gen.KernelIdeal.Skeleton
import proofs.«113360_j59854664237267_1_alg».proof.Proof.Gen.KernelIdeal.Launch
import proofs.«113360_j59854664237267_1_alg».proof.Proof.Gen.KernelIdeal.Points
import proofs.«113360_j59854664237267_1_alg».proof.Proof.Gen.KernelIdeal.Frame
import proofs.«113360_j59854664237267_1_alg».proof.Proof.Gen.ReferenceIdeal
import proofs.«113360_j59854664237267_1_alg».proof.Proof.Gen.ReferenceIdeal.Run
import proofs.«113360_j59854664237267_1_alg».proof.Proof.Gen.ReferenceIdeal.Read
import proofs.«113360_j59854664237267_1_alg».proof.Proof.Gen.Pre_finite_inputs
import proofs.«113360_j59854664237267_1_alg».proof.Proof.RunValue
import proofs.«113360_j59854664237267_1_alg».proof.Proof.Final
import Idealize.ShloMosaic.Adequacy
import Idealize.ShloMosaic.Init

set_option maxRecDepth 16384

noncomputable section

namespace Cert.Proof

open Idealize.ShloMosaic Idealize.ShloMosaic.TcCoe Idealize.SL.Sem Cert.KernelIdeal.Gen

/-- Both idealized programs run from memories agreeing on the arguments and end with one result: the kernel's at the last
    boundary of its run, which is the reference's last stage of the arguments. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => W18 m ρ c (Proc.devRef .tc Cert.KernelIdeal.main_v109), Cert.KernelIdeal.KV.run_value m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v136_eq]
  obtain ⟨e0, e1, e2, e3, e4, e5, e6, e7, e8, e9, e10, e11, e12, e13⟩ := hagree c
  rw [e0, e1, e2, e3, e4, e5, e6, e7, e8, e9, e10, e11, e12, e13]
  exact (Cert.KernelIdeal.Final.final m ρ hpre c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
